-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x2048x2048 : Shape := ⟨3, ![4, 2048, 2048]⟩
abbrev S64 : Shape := ⟨1, ![64]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S4x2048x2048 .f32) (main_arg1 : IVec S64 32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_c_0 : IVec S_ 32 := constantI S_ 32 0#32
  let main_v4 : IVec S64 32 := broadcastInDim S64 ![] bcast_S_S64 main_c_0
  let main_v5 : IVec S64 1 := cmpi .sge main_arg1 main_v4
  let main_c_1 : IVec S_ 32 := constantI S_ 32 63#32
  let main_v6 : IVec S64 32 := broadcastInDim S64 ![] bcast_S_S64 main_c_1
  let main_v7 : IVec S64 1 := cmpi .sle main_arg1 main_v6
  let main_v8 : IVec S64 1 := andi main_v5 main_v7
  let main_c_2 : IVec S_ 1 := constantI S_ 1 1#1
  let main_v9 : IVec S_ 1 := (fun x v => Host.reduce IntOp.andi x v reducesTo_S64_S_d0 h_S_) main_v8 main_c_2
  let main_v10 : IVec S_ 1 := andi main_v3 main_v9
  main_v10
-- ==== Kernel.lean ====
abbrev S4x2048x2048 : Shape := ⟨3, ![4, 2048, 2048]⟩
abbrev S64 : Shape := ⟨1, ![64]⟩
abbrev S16777216 : Shape := ⟨1, ![16777216]⟩
abbrev S16384 : Shape := ⟨1, ![16384]⟩
abbrev S_ : Shape := ⟨0, ![]⟩
abbrev S16 : Shape := ⟨1, ![16]⟩

abbrev nBuf : Table → Nat
  | .hbm => 5
  | .local .scVector .vmem => 5
  | _ => 0

abbrev bufTy : (tb : Table) → Fin (nBuf tb) → BufTy
  | .hbm, ⟨0, _⟩ => ⟨S4x2048x2048, .f32⟩
  | .hbm, ⟨1, _⟩ => ⟨S64, .i32⟩
  | .hbm, ⟨2, _⟩ => ⟨S16777216, .f32⟩
  | .hbm, ⟨3, _⟩ => ⟨S16777216, .f32⟩
  | .hbm, ⟨4, _⟩ => ⟨S4x2048x2048, .f32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | .local .scVector .vmem, ⟨4, _⟩ => ⟨S64, .i32⟩
  | _, _ => ⟨S4x2048x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  ![v2.toNat]
def k0_off2 (i : grid0.Coords) (c16384_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let v9 : BitVec 32 := Scalar.addi v2 c16384_i32
  ![v9.toNat]
def k0_off2_at (r : Fin 3) : BitVec 32 :=
  if r.val < 1 then
    16384#32
  else
    if r.val < 2 then
      491520#32
    else
      507904#32
@[reducible] def k0_t1_loop : Scf.Loop 32 :=
  let c0_i32_0 : BitVec 32 := 0#32
  let c16_i32 : BitVec 32 := 16#32
  let v12 : BitVec 32 := Scalar.addi c0_i32_0 c16_i32
  let c1_i32 : BitVec 32 := 1#32
  ⟨c0_i32_0, v12, c1_i32⟩
def k0_off3 (i : grid0.Coords) (k0_t1 : Fin k0_t1_loop.trips) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_0 : BitVec 32 := 0#32
  let c1_i32 : BitVec 32 := 1#32
  let arg14 : BitVec 32 := Scf.iv c0_i32_0 c1_i32 k0_t1
  let c2_i32_2 : BitVec 32 := 2#32
  let v19 : BitVec 32 := Scalar.muli arg14 c2_i32_2
  let v20 : BitVec 32 := Scalar.addi v19 c0_i32_3
  let c16384_i32_4 : BitVec 32 := 16384#32
  let v21 : BitVec 32 := Scalar.muli v20 c16384_i32_4
  let v22 : BitVec 32 := Scalar.addi v2 v21
  ![v22.toNat]
def k0_cond1 (k0_t1 : Fin k0_t1_loop.trips) : BitVec 1 :=
  let c0_i32_0 : BitVec 32 := 0#32
  let c1_i32 : BitVec 32 := 1#32
  let arg14 : BitVec 32 := Scf.iv c0_i32_0 c1_i32 k0_t1
  let c0_i32_5 : BitVec 32 := 0#32
  let v25 : BitVec 1 := Scalar.cmpi .sgt arg14 c0_i32_5
  let v26 : BitVec 32 := Scalar.extui v25
  let c0_i32_6 : BitVec 32 := 0#32
  let v27 : BitVec 1 := Scalar.cmpi .ne v26 c0_i32_6
  v27

def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_0 : BitVec 32 := 0#32
  let c1_i32 : BitVec 32 := 1#32
  let arg14 : BitVec 32 := Scf.iv c0_i32_0 c1_i32 k0_t1
  let c2_i32_2 : BitVec 32 := 2#32
  let v19 : BitVec 32 := Scalar.muli arg14 c2_i32_2
  let c0_i32_3 : BitVec 32 := 0#32
  let v20 : BitVec 32 := Scalar.addi v19 c0_i32_3
  let c16384_i32_4 : BitVec 32 := 16384#32
  let v21 : BitVec 32 := Scalar.muli v20 c16384_i32_4
  let v22 : BitVec 32 := Scalar.addi v2 v21
  ![v22.toNat]
@[reducible] def k0_t2_loop : Scf.Loop 32 :=
  let c0_i32_8 : BitVec 32 := 0#32
  let c64_i32 : BitVec 32 := 64#32
  let v28 : BitVec 32 := Scalar.addi c0_i32_8 c64_i32
  let c1_i32_9 : BitVec 32 := 1#32
  ⟨c0_i32_8, v28, c1_i32_9⟩

def k0_chk1 (v53 : IVec S16 32) : Prop :=
  (∀ a x, ((![v53] : Fin 1 → IVec S16 32) a x).toNat < S16384.size a)
instance k0_chk1.dec : ∀ (v53 : IVec S16 32), Decidable (k0_chk1 v53) := fun v53 => decidable_of_iff' _ (Iff.of_eq (k0_chk1.eq_1 v53))
theorem k0_idx1_inb : ∀ (v53 : IVec S16 32) (k0_hw1 : k0_chk1 v53), ∀ a x, ((![v53] : Fin 1 → IVec S16 32) a x).toNat < S16384.size a := fun v53 k0_hw1 => k0_hw1
def k0_off5 (k0_t2 : Fin k0_t2_loop.trips) : Fin 1 → Nat :=
  let c0_i32_8 : BitVec 32 := 0#32
  let c1_i32_9 : BitVec 32 := 1#32
  let arg15 : BitVec 32 := Scf.iv c0_i32_8 c1_i32_9 k0_t2
  let c4_i32 : BitVec 32 := 4#32
  let v49 : BitVec 32 := Scalar.muli arg15 c4_i32
  let c0_i32_24 : BitVec 32 := 0#32
  let v50 : BitVec 32 := Scalar.addi v49 c0_i32_24
  let c64_i32_25 : BitVec 32 := 64#32
  let v51 : BitVec 32 := Scalar.muli v50 c64_i32_25
  let c0_i32_26 : BitVec 32 := 0#32
  let v55 : BitVec 32 := Scalar.addi v51 c0_i32_26
  let v56 : Index := Scalar.indexCast v55
  ![v56.toNat]

def k0_chk2 (v59 : IVec S16 32) : Prop :=
  (∀ a x, ((![v59] : Fin 1 → IVec S16 32) a x).toNat < S16384.size a)
instance k0_chk2.dec : ∀ (v59 : IVec S16 32), Decidable (k0_chk2 v59) := fun v59 => decidable_of_iff' _ (Iff.of_eq (k0_chk2.eq_1 v59))
theorem k0_idx2_inb : ∀ (v59 : IVec S16 32) (k0_hw2 : k0_chk2 v59), ∀ a x, ((![v59] : Fin 1 → IVec S16 32) a x).toNat < S16384.size a := fun v59 k0_hw2 => k0_hw2
def k0_off6 (k0_t2 : Fin k0_t2_loop.trips) : Fin 1 → Nat :=
  let c0_i32_8 : BitVec 32 := 0#32
  let c1_i32_9 : BitVec 32 := 1#32
  let arg15 : BitVec 32 := Scf.iv c0_i32_8 c1_i32_9 k0_t2
  let c4_i32 : BitVec 32 := 4#32
  let v49 : BitVec 32 := Scalar.muli arg15 c4_i32
  let c0_i32_24 : BitVec 32 := 0#32
  let v50 : BitVec 32 := Scalar.addi v49 c0_i32_24
  let c64_i32_25 : BitVec 32 := 64#32
  let v51 : BitVec 32 := Scalar.muli v50 c64_i32_25
  let c16_i32_27 : BitVec 32 := 16#32
  let v61 : BitVec 32 := Scalar.addi v51 c16_i32_27
  let v62 : Index := Scalar.indexCast v61
  ![v62.toNat]

def k0_chk3 (v65 : IVec S16 32) : Prop :=
  (∀ a x, ((![v65] : Fin 1 → IVec S16 32) a x).toNat < S16384.size a)
instance k0_chk3.dec : ∀ (v65 : IVec S16 32), Decidable (k0_chk3 v65) := fun v65 => decidable_of_iff' _ (Iff.of_eq (k0_chk3.eq_1 v65))
theorem k0_idx3_inb : ∀ (v65 : IVec S16 32) (k0_hw3 : k0_chk3 v65), ∀ a x, ((![v65] : Fin 1 → IVec S16 32) a x).toNat < S16384.size a := fun v65 k0_hw3 => k0_hw3
def k0_off7 (k0_t2 : Fin k0_t2_loop.trips) : Fin 1 → Nat :=
  let c0_i32_8 : BitVec 32 := 0#32
  let c1_i32_9 : BitVec 32 := 1#32
  let arg15 : BitVec 32 := Scf.iv c0_i32_8 c1_i32_9 k0_t2
  let c4_i32 : BitVec 32 := 4#32
  let v49 : BitVec 32 := Scalar.muli arg15 c4_i32
  let c0_i32_24 : BitVec 32 := 0#32
  let v50 : BitVec 32 := Scalar.addi v49 c0_i32_24
  let c64_i32_25 : BitVec 32 := 64#32
  let v51 : BitVec 32 := Scalar.muli v50 c64_i32_25
  let c32_i32 : BitVec 32 := 32#32
  let v67 : BitVec 32 := Scalar.addi v51 c32_i32
  let v68 : Index := Scalar.indexCast v67
  ![v68.toNat]

def k0_chk4 (v71 : IVec S16 32) : Prop :=
  (∀ a x, ((![v71] : Fin 1 → IVec S16 32) a x).toNat < S16384.size a)
instance k0_chk4.dec : ∀ (v71 : IVec S16 32), Decidable (k0_chk4 v71) := fun v71 => decidable_of_iff' _ (Iff.of_eq (k0_chk4.eq_1 v71))
theorem k0_idx4_inb : ∀ (v71 : IVec S16 32) (k0_hw4 : k0_chk4 v71), ∀ a x, ((![v71] : Fin 1 → IVec S16 32) a x).toNat < S16384.size a := fun v71 k0_hw4 => k0_hw4
def k0_off8 (k0_t2 : Fin k0_t2_loop.trips) : Fin 1 → Nat :=
  let c0_i32_8 : BitVec 32 := 0#32
  let c1_i32_9 : BitVec 32 := 1#32
  let arg15 : BitVec 32 := Scf.iv c0_i32_8 c1_i32_9 k0_t2
  let c4_i32 : BitVec 32 := 4#32
  let v49 : BitVec 32 := Scalar.muli arg15 c4_i32
  let c0_i32_24 : BitVec 32 := 0#32
  let v50 : BitVec 32 := Scalar.addi v49 c0_i32_24
  let c64_i32_25 : BitVec 32 := 64#32
  let v51 : BitVec 32 := Scalar.muli v50 c64_i32_25
  let c48_i32 : BitVec 32 := 48#32
  let v73 : BitVec 32 := Scalar.addi v51 c48_i32
  let v74 : Index := Scalar.indexCast v73
  ![v74.toNat]

def k0_chk5 (v80 : IVec S16 32) : Prop :=
  (∀ a x, ((![v80] : Fin 1 → IVec S16 32) a x).toNat < S16384.size a)
instance k0_chk5.dec : ∀ (v80 : IVec S16 32), Decidable (k0_chk5 v80) := fun v80 => decidable_of_iff' _ (Iff.of_eq (k0_chk5.eq_1 v80))
theorem k0_idx5_inb : ∀ (v80 : IVec S16 32) (k0_hw5 : k0_chk5 v80), ∀ a x, ((![v80] : Fin 1 → IVec S16 32) a x).toNat < S16384.size a := fun v80 k0_hw5 => k0_hw5
def k0_off9 (k0_t2 : Fin k0_t2_loop.trips) : Fin 1 → Nat :=
  let c0_i32_8 : BitVec 32 := 0#32
  let c1_i32_9 : BitVec 32 := 1#32
  let arg15 : BitVec 32 := Scf.iv c0_i32_8 c1_i32_9 k0_t2
  let c4_i32_28 : BitVec 32 := 4#32
  let v76 : BitVec 32 := Scalar.muli arg15 c4_i32_28
  let c1_i32_29 : BitVec 32 := 1#32
  let v77 : BitVec 32 := Scalar.addi v76 c1_i32_29
  let c64_i32_30 : BitVec 32 := 64#32
  let v78 : BitVec 32 := Scalar.muli v77 c64_i32_30
  let c0_i32_31 : BitVec 32 := 0#32
  let v82 : BitVec 32 := Scalar.addi v78 c0_i32_31
  let v83 : Index := Scalar.indexCast v82
  ![v83.toNat]

def k0_chk6 (v86 : IVec S16 32) : Prop :=
  (∀ a x, ((![v86] : Fin 1 → IVec S16 32) a x).toNat < S16384.size a)
instance k0_chk6.dec : ∀ (v86 : IVec S16 32), Decidable (k0_chk6 v86) := fun v86 => decidable_of_iff' _ (Iff.of_eq (k0_chk6.eq_1 v86))
theorem k0_idx6_inb : ∀ (v86 : IVec S16 32) (k0_hw6 : k0_chk6 v86), ∀ a x, ((![v86] : Fin 1 → IVec S16 32) a x).toNat < S16384.size a := fun v86 k0_hw6 => k0_hw6
def k0_off10 (k0_t2 : Fin k0_t2_loop.trips) : Fin 1 → Nat :=
  let c0_i32_8 : BitVec 32 := 0#32
  let c1_i32_9 : BitVec 32 := 1#32
  let arg15 : BitVec 32 := Scf.iv c0_i32_8 c1_i32_9 k0_t2
  let c4_i32_28 : BitVec 32 := 4#32
  let v76 : BitVec 32 := Scalar.muli arg15 c4_i32_28
  let c1_i32_29 : BitVec 32 := 1#32
  let v77 : BitVec 32 := Scalar.addi v76 c1_i32_29
  let c64_i32_30 : BitVec 32 := 64#32
  let v78 : BitVec 32 := Scalar.muli v77 c64_i32_30
  let c16_i32_32 : BitVec 32 := 16#32
  let v88 : BitVec 32 := Scalar.addi v78 c16_i32_32
  let v89 : Index := Scalar.indexCast v88
  ![v89.toNat]

def k0_chk7 (v92 : IVec S16 32) : Prop :=
  (∀ a x, ((![v92] : Fin 1 → IVec S16 32) a x).toNat < S16384.size a)
instance k0_chk7.dec : ∀ (v92 : IVec S16 32), Decidable (k0_chk7 v92) := fun v92 => decidable_of_iff' _ (Iff.of_eq (k0_chk7.eq_1 v92))
theorem k0_idx7_inb : ∀ (v92 : IVec S16 32) (k0_hw7 : k0_chk7 v92), ∀ a x, ((![v92] : Fin 1 → IVec S16 32) a x).toNat < S16384.size a := fun v92 k0_hw7 => k0_hw7
def k0_off11 (k0_t2 : Fin k0_t2_loop.trips) : Fin 1 → Nat :=
  let c0_i32_8 : BitVec 32 := 0#32
  let c1_i32_9 : BitVec 32 := 1#32
  let arg15 : BitVec 32 := Scf.iv c0_i32_8 c1_i32_9 k0_t2
  let c4_i32_28 : BitVec 32 := 4#32
  let v76 : BitVec 32 := Scalar.muli arg15 c4_i32_28
  let c1_i32_29 : BitVec 32 := 1#32
  let v77 : BitVec 32 := Scalar.addi v76 c1_i32_29
  let c64_i32_30 : BitVec 32 := 64#32
  let v78 : BitVec 32 := Scalar.muli v77 c64_i32_30
  let c32_i32_33 : BitVec 32 := 32#32
  let v94 : BitVec 32 := Scalar.addi v78 c32_i32_33
  let v95 : Index := Scalar.indexCast v94
  ![v95.toNat]

def k0_chk8 (v98 : IVec S16 32) : Prop :=
  (∀ a x, ((![v98] : Fin 1 → IVec S16 32) a x).toNat < S16384.size a)
instance k0_chk8.dec : ∀ (v98 : IVec S16 32), Decidable (k0_chk8 v98) := fun v98 => decidable_of_iff' _ (Iff.of_eq (k0_chk8.eq_1 v98))
theorem k0_idx8_inb : ∀ (v98 : IVec S16 32) (k0_hw8 : k0_chk8 v98), ∀ a x, ((![v98] : Fin 1 → IVec S16 32) a x).toNat < S16384.size a := fun v98 k0_hw8 => k0_hw8
def k0_off12 (k0_t2 : Fin k0_t2_loop.trips) : Fin 1 → Nat :=
  let c0_i32_8 : BitVec 32 := 0#32
  let c1_i32_9 : BitVec 32 := 1#32
  let arg15 : BitVec 32 := Scf.iv c0_i32_8 c1_i32_9 k0_t2
  let c4_i32_28 : BitVec 32 := 4#32
  let v76 : BitVec 32 := Scalar.muli arg15 c4_i32_28
  let c1_i32_29 : BitVec 32 := 1#32
  let v77 : BitVec 32 := Scalar.addi v76 c1_i32_29
  let c64_i32_30 : BitVec 32 := 64#32
  let v78 : BitVec 32 := Scalar.muli v77 c64_i32_30
  let c48_i32_34 : BitVec 32 := 48#32
  let v100 : BitVec 32 := Scalar.addi v78 c48_i32_34
  let v101 : Index := Scalar.indexCast v100
  ![v101.toNat]

def k0_chk9 (v107 : IVec S16 32) : Prop :=
  (∀ a x, ((![v107] : Fin 1 → IVec S16 32) a x).toNat < S16384.size a)
instance k0_chk9.dec : ∀ (v107 : IVec S16 32), Decidable (k0_chk9 v107) := fun v107 => decidable_of_iff' _ (Iff.of_eq (k0_chk9.eq_1 v107))
theorem k0_idx9_inb : ∀ (v107 : IVec S16 32) (k0_hw9 : k0_chk9 v107), ∀ a x, ((![v107] : Fin 1 → IVec S16 32) a x).toNat < S16384.size a := fun v107 k0_hw9 => k0_hw9
def k0_off13 (k0_t2 : Fin k0_t2_loop.trips) : Fin 1 → Nat :=
  let c0_i32_8 : BitVec 32 := 0#32
  let c1_i32_9 : BitVec 32 := 1#32
  let arg15 : BitVec 32 := Scf.iv c0_i32_8 c1_i32_9 k0_t2
  let c4_i32_35 : BitVec 32 := 4#32
  let v103 : BitVec 32 := Scalar.muli arg15 c4_i32_35
  let c2_i32_36 : BitVec 32 := 2#32
  let v104 : BitVec 32 := Scalar.addi v103 c2_i32_36
  let c64_i32_37 : BitVec 32 := 64#32
  let v105 : BitVec 32 := Scalar.muli v104 c64_i32_37
  let c0_i32_38 : BitVec 32 := 0#32
  let v109 : BitVec 32 := Scalar.addi v105 c0_i32_38
  let v110 : Index := Scalar.indexCast v109
  ![v110.toNat]

def k0_chk10 (v113 : IVec S16 32) : Prop :=
  (∀ a x, ((![v113] : Fin 1 → IVec S16 32) a x).toNat < S16384.size a)
instance k0_chk10.dec : ∀ (v113 : IVec S16 32), Decidable (k0_chk10 v113) := fun v113 => decidable_of_iff' _ (Iff.of_eq (k0_chk10.eq_1 v113))
theorem k0_idx10_inb : ∀ (v113 : IVec S16 32) (k0_hw10 : k0_chk10 v113), ∀ a x, ((![v113] : Fin 1 → IVec S16 32) a x).toNat < S16384.size a := fun v113 k0_hw10 => k0_hw10
def k0_off14 (k0_t2 : Fin k0_t2_loop.trips) : Fin 1 → Nat :=
  let c0_i32_8 : BitVec 32 := 0#32
  let c1_i32_9 : BitVec 32 := 1#32
  let arg15 : BitVec 32 := Scf.iv c0_i32_8 c1_i32_9 k0_t2
  let c4_i32_35 : BitVec 32 := 4#32
  let v103 : BitVec 32 := Scalar.muli arg15 c4_i32_35
  let c2_i32_36 : BitVec 32 := 2#32
  let v104 : BitVec 32 := Scalar.addi v103 c2_i32_36
  let c64_i32_37 : BitVec 32 := 64#32
  let v105 : BitVec 32 := Scalar.muli v104 c64_i32_37
  let c16_i32_39 : BitVec 32 := 16#32
  let v115 : BitVec 32 := Scalar.addi v105 c16_i32_39
  let v116 : Index := Scalar.indexCast v115
  ![v116.toNat]

def k0_chk11 (v119 : IVec S16 32) : Prop :=
  (∀ a x, ((![v119] : Fin 1 → IVec S16 32) a x).toNat < S16384.size a)
instance k0_chk11.dec : ∀ (v119 : IVec S16 32), Decidable (k0_chk11 v119) := fun v119 => decidable_of_iff' _ (Iff.of_eq (k0_chk11.eq_1 v119))
theorem k0_idx11_inb : ∀ (v119 : IVec S16 32) (k0_hw11 : k0_chk11 v119), ∀ a x, ((![v119] : Fin 1 → IVec S16 32) a x).toNat < S16384.size a := fun v119 k0_hw11 => k0_hw11
def k0_off15 (k0_t2 : Fin k0_t2_loop.trips) : Fin 1 → Nat :=
  let c0_i32_8 : BitVec 32 := 0#32
  let c1_i32_9 : BitVec 32 := 1#32
  let arg15 : BitVec 32 := Scf.iv c0_i32_8 c1_i32_9 k0_t2
  let c4_i32_35 : BitVec 32 := 4#32
  let v103 : BitVec 32 := Scalar.muli arg15 c4_i32_35
  let c2_i32_36 : BitVec 32 := 2#32
  let v104 : BitVec 32 := Scalar.addi v103 c2_i32_36
  let c64_i32_37 : BitVec 32 := 64#32
  let v105 : BitVec 32 := Scalar.muli v104 c64_i32_37
  let c32_i32_40 : BitVec 32 := 32#32
  let v121 : BitVec 32 := Scalar.addi v105 c32_i32_40
  let v122 : Index := Scalar.indexCast v121
  ![v122.toNat]

def k0_chk12 (v125 : IVec S16 32) : Prop :=
  (∀ a x, ((![v125] : Fin 1 → IVec S16 32) a x).toNat < S16384.size a)
instance k0_chk12.dec : ∀ (v125 : IVec S16 32), Decidable (k0_chk12 v125) := fun v125 => decidable_of_iff' _ (Iff.of_eq (k0_chk12.eq_1 v125))
theorem k0_idx12_inb : ∀ (v125 : IVec S16 32) (k0_hw12 : k0_chk12 v125), ∀ a x, ((![v125] : Fin 1 → IVec S16 32) a x).toNat < S16384.size a := fun v125 k0_hw12 => k0_hw12
def k0_off16 (k0_t2 : Fin k0_t2_loop.trips) : Fin 1 → Nat :=
  let c0_i32_8 : BitVec 32 := 0#32
  let c1_i32_9 : BitVec 32 := 1#32
  let arg15 : BitVec 32 := Scf.iv c0_i32_8 c1_i32_9 k0_t2
  let c4_i32_35 : BitVec 32 := 4#32
  let v103 : BitVec 32 := Scalar.muli arg15 c4_i32_35
  let c2_i32_36 : BitVec 32 := 2#32
  let v104 : BitVec 32 := Scalar.addi v103 c2_i32_36
  let c64_i32_37 : BitVec 32 := 64#32
  let v105 : BitVec 32 := Scalar.muli v104 c64_i32_37
  let c48_i32_41 : BitVec 32 := 48#32
  let v127 : BitVec 32 := Scalar.addi v105 c48_i32_41
  let v128 : Index := Scalar.indexCast v127
  ![v128.toNat]

def k0_chk13 (v134 : IVec S16 32) : Prop :=
  (∀ a x, ((![v134] : Fin 1 → IVec S16 32) a x).toNat < S16384.size a)
instance k0_chk13.dec : ∀ (v134 : IVec S16 32), Decidable (k0_chk13 v134) := fun v134 => decidable_of_iff' _ (Iff.of_eq (k0_chk13.eq_1 v134))
theorem k0_idx13_inb : ∀ (v134 : IVec S16 32) (k0_hw13 : k0_chk13 v134), ∀ a x, ((![v134] : Fin 1 → IVec S16 32) a x).toNat < S16384.size a := fun v134 k0_hw13 => k0_hw13
def k0_off17 (k0_t2 : Fin k0_t2_loop.trips) : Fin 1 → Nat :=
  let c0_i32_8 : BitVec 32 := 0#32
  let c1_i32_9 : BitVec 32 := 1#32
  let arg15 : BitVec 32 := Scf.iv c0_i32_8 c1_i32_9 k0_t2
  let c4_i32_42 : BitVec 32 := 4#32
  let v130 : BitVec 32 := Scalar.muli arg15 c4_i32_42
  let c3_i32 : BitVec 32 := 3#32
  let v131 : BitVec 32 := Scalar.addi v130 c3_i32
  let c64_i32_43 : BitVec 32 := 64#32
  let v132 : BitVec 32 := Scalar.muli v131 c64_i32_43
  let c0_i32_44 : BitVec 32 := 0#32
  let v136 : BitVec 32 := Scalar.addi v132 c0_i32_44
  let v137 : Index := Scalar.indexCast v136
  ![v137.toNat]

def k0_chk14 (v140 : IVec S16 32) : Prop :=
  (∀ a x, ((![v140] : Fin 1 → IVec S16 32) a x).toNat < S16384.size a)
instance k0_chk14.dec : ∀ (v140 : IVec S16 32), Decidable (k0_chk14 v140) := fun v140 => decidable_of_iff' _ (Iff.of_eq (k0_chk14.eq_1 v140))
theorem k0_idx14_inb : ∀ (v140 : IVec S16 32) (k0_hw14 : k0_chk14 v140), ∀ a x, ((![v140] : Fin 1 → IVec S16 32) a x).toNat < S16384.size a := fun v140 k0_hw14 => k0_hw14
def k0_off18 (k0_t2 : Fin k0_t2_loop.trips) : Fin 1 → Nat :=
  let c0_i32_8 : BitVec 32 := 0#32
  let c1_i32_9 : BitVec 32 := 1#32
  let arg15 : BitVec 32 := Scf.iv c0_i32_8 c1_i32_9 k0_t2
  let c4_i32_42 : BitVec 32 := 4#32
  let v130 : BitVec 32 := Scalar.muli arg15 c4_i32_42
  let c3_i32 : BitVec 32 := 3#32
  let v131 : BitVec 32 := Scalar.addi v130 c3_i32
  let c64_i32_43 : BitVec 32 := 64#32
  let v132 : BitVec 32 := Scalar.muli v131 c64_i32_43
  let c16_i32_45 : BitVec 32 := 16#32
  let v142 : BitVec 32 := Scalar.addi v132 c16_i32_45
  let v143 : Index := Scalar.indexCast v142
  ![v143.toNat]

def k0_chk15 (v146 : IVec S16 32) : Prop :=
  (∀ a x, ((![v146] : Fin 1 → IVec S16 32) a x).toNat < S16384.size a)
instance k0_chk15.dec : ∀ (v146 : IVec S16 32), Decidable (k0_chk15 v146) := fun v146 => decidable_of_iff' _ (Iff.of_eq (k0_chk15.eq_1 v146))
theorem k0_idx15_inb : ∀ (v146 : IVec S16 32) (k0_hw15 : k0_chk15 v146), ∀ a x, ((![v146] : Fin 1 → IVec S16 32) a x).toNat < S16384.size a := fun v146 k0_hw15 => k0_hw15
def k0_off19 (k0_t2 : Fin k0_t2_loop.trips) : Fin 1 → Nat :=
  let c0_i32_8 : BitVec 32 := 0#32
  let c1_i32_9 : BitVec 32 := 1#32
  let arg15 : BitVec 32 := Scf.iv c0_i32_8 c1_i32_9 k0_t2
  let c4_i32_42 : BitVec 32 := 4#32
  let v130 : BitVec 32 := Scalar.muli arg15 c4_i32_42
  let c3_i32 : BitVec 32 := 3#32
  let v131 : BitVec 32 := Scalar.addi v130 c3_i32
  let c64_i32_43 : BitVec 32 := 64#32
  let v132 : BitVec 32 := Scalar.muli v131 c64_i32_43
  let c32_i32_46 : BitVec 32 := 32#32
  let v148 : BitVec 32 := Scalar.addi v132 c32_i32_46
  let v149 : Index := Scalar.indexCast v148
  ![v149.toNat]

def k0_chk16 (v152 : IVec S16 32) : Prop :=
  (∀ a x, ((![v152] : Fin 1 → IVec S16 32) a x).toNat < S16384.size a)
instance k0_chk16.dec : ∀ (v152 : IVec S16 32), Decidable (k0_chk16 v152) := fun v152 => decidable_of_iff' _ (Iff.of_eq (k0_chk16.eq_1 v152))
theorem k0_idx16_inb : ∀ (v152 : IVec S16 32) (k0_hw16 : k0_chk16 v152), ∀ a x, ((![v152] : Fin 1 → IVec S16 32) a x).toNat < S16384.size a := fun v152 k0_hw16 => k0_hw16
def k0_off20 (k0_t2 : Fin k0_t2_loop.trips) : Fin 1 → Nat :=
  let c0_i32_8 : BitVec 32 := 0#32
  let c1_i32_9 : BitVec 32 := 1#32
  let arg15 : BitVec 32 := Scf.iv c0_i32_8 c1_i32_9 k0_t2
  let c4_i32_42 : BitVec 32 := 4#32
  let v130 : BitVec 32 := Scalar.muli arg15 c4_i32_42
  let c3_i32 : BitVec 32 := 3#32
  let v131 : BitVec 32 := Scalar.addi v130 c3_i32
  let c64_i32_43 : BitVec 32 := 64#32
  let v132 : BitVec 32 := Scalar.muli v131 c64_i32_43
  let c48_i32_47 : BitVec 32 := 48#32
  let v154 : BitVec 32 := Scalar.addi v132 c48_i32_47
  let v155 : Index := Scalar.indexCast v154
  ![v155.toNat]
def k0_cond2 (k0_t1 : Fin k0_t1_loop.trips) : BitVec 1 :=
  let c0_i32_0 : BitVec 32 := 0#32
  let c1_i32 : BitVec 32 := 1#32
  let arg14 : BitVec 32 := Scf.iv c0_i32_0 c1_i32 k0_t1
  let c15_i32 : BitVec 32 := 15#32
  let v31 : BitVec 1 := Scalar.cmpi .slt arg14 c15_i32
  let v32 : BitVec 32 := Scalar.extui v31
  let c0_i32_11 : BitVec 32 := 0#32
  let v33 : BitVec 1 := Scalar.cmpi .ne v32 c0_i32_11
  v33

def k0_off21 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_0 : BitVec 32 := 0#32
  let c1_i32 : BitVec 32 := 1#32
  let arg14 : BitVec 32 := Scf.iv c0_i32_0 c1_i32 k0_t1
  let c2_i32_2 : BitVec 32 := 2#32
  let v19 : BitVec 32 := Scalar.muli arg14 c2_i32_2
  let c0_i32_3 : BitVec 32 := 0#32
  let v20 : BitVec 32 := Scalar.addi v19 c0_i32_3
  let c16384_i32_4 : BitVec 32 := 16384#32
  let v21 : BitVec 32 := Scalar.muli v20 c16384_i32_4
  let v22 : BitVec 32 := Scalar.addi v2 v21
  let c32768_i32 : BitVec 32 := 32768#32
  let v49 : BitVec 32 := Scalar.addi v22 c32768_i32
  ![v49.toNat]
def k0_cond3 (k0_t1 : Fin k0_t1_loop.trips) : BitVec 1 :=
  let c0_i32_0 : BitVec 32 := 0#32
  let c1_i32 : BitVec 32 := 1#32
  let arg14 : BitVec 32 := Scf.iv c0_i32_0 c1_i32 k0_t1
  let c0_i32_15 : BitVec 32 := 0#32
  let v40 : BitVec 1 := Scalar.cmpi .sgt arg14 c0_i32_15
  let v41 : BitVec 32 := Scalar.extui v40
  let c0_i32_16 : BitVec 32 := 0#32
  let v42 : BitVec 1 := Scalar.cmpi .ne v41 c0_i32_16
  v42

def k0_off22 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_0 : BitVec 32 := 0#32
  let c1_i32 : BitVec 32 := 1#32
  let arg14 : BitVec 32 := Scf.iv c0_i32_0 c1_i32 k0_t1
  let c2_i32_12 : BitVec 32 := 2#32
  let v34 : BitVec 32 := Scalar.muli arg14 c2_i32_12
  let c1_i32_13 : BitVec 32 := 1#32
  let v35 : BitVec 32 := Scalar.addi v34 c1_i32_13
  let c16384_i32_14 : BitVec 32 := 16384#32
  let v36 : BitVec 32 := Scalar.muli v35 c16384_i32_14
  let v37 : BitVec 32 := Scalar.addi v2 v36
  ![v37.toNat]
@[reducible] def k0_t3_loop : Scf.Loop 32 :=
  let c0_i32_18 : BitVec 32 := 0#32
  let c64_i32_19 : BitVec 32 := 64#32
  let v43 : BitVec 32 := Scalar.addi c0_i32_18 c64_i32_19
  let c1_i32_20 : BitVec 32 := 1#32
  ⟨c0_i32_18, v43, c1_i32_20⟩

def k0_chk17 (v53 : IVec S16 32) : Prop :=
  (∀ a x, ((![v53] : Fin 1 → IVec S16 32) a x).toNat < S16384.size a)
instance k0_chk17.dec : ∀ (v53 : IVec S16 32), Decidable (k0_chk17 v53) := fun v53 => decidable_of_iff' _ (Iff.of_eq (k0_chk17.eq_1 v53))
theorem k0_idx17_inb : ∀ (v53 : IVec S16 32) (k0_hw17 : k0_chk17 v53), ∀ a x, ((![v53] : Fin 1 → IVec S16 32) a x).toNat < S16384.size a := fun v53 k0_hw17 => k0_hw17
def k0_off23 (k0_t3 : Fin k0_t3_loop.trips) : Fin 1 → Nat :=
  let c0_i32_18 : BitVec 32 := 0#32
  let c1_i32_20 : BitVec 32 := 1#32
  let arg15 : BitVec 32 := Scf.iv c0_i32_18 c1_i32_20 k0_t3
  let c4_i32 : BitVec 32 := 4#32
  let v49 : BitVec 32 := Scalar.muli arg15 c4_i32
  let c0_i32_24 : BitVec 32 := 0#32
  let v50 : BitVec 32 := Scalar.addi v49 c0_i32_24
  let c64_i32_25 : BitVec 32 := 64#32
  let v51 : BitVec 32 := Scalar.muli v50 c64_i32_25
  let c0_i32_26 : BitVec 32 := 0#32
  let v55 : BitVec 32 := Scalar.addi v51 c0_i32_26
  let v56 : Index := Scalar.indexCast v55
  ![v56.toNat]

def k0_chk18 (v59 : IVec S16 32) : Prop :=
  (∀ a x, ((![v59] : Fin 1 → IVec S16 32) a x).toNat < S16384.size a)
instance k0_chk18.dec : ∀ (v59 : IVec S16 32), Decidable (k0_chk18 v59) := fun v59 => decidable_of_iff' _ (Iff.of_eq (k0_chk18.eq_1 v59))
theorem k0_idx18_inb : ∀ (v59 : IVec S16 32) (k0_hw18 : k0_chk18 v59), ∀ a x, ((![v59] : Fin 1 → IVec S16 32) a x).toNat < S16384.size a := fun v59 k0_hw18 => k0_hw18
def k0_off24 (k0_t3 : Fin k0_t3_loop.trips) : Fin 1 → Nat :=
  let c0_i32_18 : BitVec 32 := 0#32
  let c1_i32_20 : BitVec 32 := 1#32
  let arg15 : BitVec 32 := Scf.iv c0_i32_18 c1_i32_20 k0_t3
  let c4_i32 : BitVec 32 := 4#32
  let v49 : BitVec 32 := Scalar.muli arg15 c4_i32
  let c0_i32_24 : BitVec 32 := 0#32
  let v50 : BitVec 32 := Scalar.addi v49 c0_i32_24
  let c64_i32_25 : BitVec 32 := 64#32
  let v51 : BitVec 32 := Scalar.muli v50 c64_i32_25
  let c16_i32_27 : BitVec 32 := 16#32
  let v61 : BitVec 32 := Scalar.addi v51 c16_i32_27
  let v62 : Index := Scalar.indexCast v61
  ![v62.toNat]

def k0_chk19 (v65 : IVec S16 32) : Prop :=
  (∀ a x, ((![v65] : Fin 1 → IVec S16 32) a x).toNat < S16384.size a)
instance k0_chk19.dec : ∀ (v65 : IVec S16 32), Decidable (k0_chk19 v65) := fun v65 => decidable_of_iff' _ (Iff.of_eq (k0_chk19.eq_1 v65))
theorem k0_idx19_inb : ∀ (v65 : IVec S16 32) (k0_hw19 : k0_chk19 v65), ∀ a x, ((![v65] : Fin 1 → IVec S16 32) a x).toNat < S16384.size a := fun v65 k0_hw19 => k0_hw19
def k0_off25 (k0_t3 : Fin k0_t3_loop.trips) : Fin 1 → Nat :=
  let c0_i32_18 : BitVec 32 := 0#32
  let c1_i32_20 : BitVec 32 := 1#32
  let arg15 : BitVec 32 := Scf.iv c0_i32_18 c1_i32_20 k0_t3
  let c4_i32 : BitVec 32 := 4#32
  let v49 : BitVec 32 := Scalar.muli arg15 c4_i32
  let c0_i32_24 : BitVec 32 := 0#32
  let v50 : BitVec 32 := Scalar.addi v49 c0_i32_24
  let c64_i32_25 : BitVec 32 := 64#32
  let v51 : BitVec 32 := Scalar.muli v50 c64_i32_25
  let c32_i32 : BitVec 32 := 32#32
  let v67 : BitVec 32 := Scalar.addi v51 c32_i32
  let v68 : Index := Scalar.indexCast v67
  ![v68.toNat]

def k0_chk20 (v71 : IVec S16 32) : Prop :=
  (∀ a x, ((![v71] : Fin 1 → IVec S16 32) a x).toNat < S16384.size a)
instance k0_chk20.dec : ∀ (v71 : IVec S16 32), Decidable (k0_chk20 v71) := fun v71 => decidable_of_iff' _ (Iff.of_eq (k0_chk20.eq_1 v71))
theorem k0_idx20_inb : ∀ (v71 : IVec S16 32) (k0_hw20 : k0_chk20 v71), ∀ a x, ((![v71] : Fin 1 → IVec S16 32) a x).toNat < S16384.size a := fun v71 k0_hw20 => k0_hw20
def k0_off26 (k0_t3 : Fin k0_t3_loop.trips) : Fin 1 → Nat :=
  let c0_i32_18 : BitVec 32 := 0#32
  let c1_i32_20 : BitVec 32 := 1#32
  let arg15 : BitVec 32 := Scf.iv c0_i32_18 c1_i32_20 k0_t3
  let c4_i32 : BitVec 32 := 4#32
  let v49 : BitVec 32 := Scalar.muli arg15 c4_i32
  let c0_i32_24 : BitVec 32 := 0#32
  let v50 : BitVec 32 := Scalar.addi v49 c0_i32_24
  let c64_i32_25 : BitVec 32 := 64#32
  let v51 : BitVec 32 := Scalar.muli v50 c64_i32_25
  let c48_i32 : BitVec 32 := 48#32
  let v73 : BitVec 32 := Scalar.addi v51 c48_i32
  let v74 : Index := Scalar.indexCast v73
  ![v74.toNat]

def k0_chk21 (v80 : IVec S16 32) : Prop :=
  (∀ a x, ((![v80] : Fin 1 → IVec S16 32) a x).toNat < S16384.size a)
instance k0_chk21.dec : ∀ (v80 : IVec S16 32), Decidable (k0_chk21 v80) := fun v80 => decidable_of_iff' _ (Iff.of_eq (k0_chk21.eq_1 v80))
theorem k0_idx21_inb : ∀ (v80 : IVec S16 32) (k0_hw21 : k0_chk21 v80), ∀ a x, ((![v80] : Fin 1 → IVec S16 32) a x).toNat < S16384.size a := fun v80 k0_hw21 => k0_hw21
def k0_off27 (k0_t3 : Fin k0_t3_loop.trips) : Fin 1 → Nat :=
  let c0_i32_18 : BitVec 32 := 0#32
  let c1_i32_20 : BitVec 32 := 1#32
  let arg15 : BitVec 32 := Scf.iv c0_i32_18 c1_i32_20 k0_t3
  let c4_i32_28 : BitVec 32 := 4#32
  let v76 : BitVec 32 := Scalar.muli arg15 c4_i32_28
  let c1_i32_29 : BitVec 32 := 1#32
  let v77 : BitVec 32 := Scalar.addi v76 c1_i32_29
  let c64_i32_30 : BitVec 32 := 64#32
  let v78 : BitVec 32 := Scalar.muli v77 c64_i32_30
  let c0_i32_31 : BitVec 32 := 0#32
  let v82 : BitVec 32 := Scalar.addi v78 c0_i32_31
  let v83 : Index := Scalar.indexCast v82
  ![v83.toNat]

def k0_chk22 (v86 : IVec S16 32) : Prop :=
  (∀ a x, ((![v86] : Fin 1 → IVec S16 32) a x).toNat < S16384.size a)
instance k0_chk22.dec : ∀ (v86 : IVec S16 32), Decidable (k0_chk22 v86) := fun v86 => decidable_of_iff' _ (Iff.of_eq (k0_chk22.eq_1 v86))
theorem k0_idx22_inb : ∀ (v86 : IVec S16 32) (k0_hw22 : k0_chk22 v86), ∀ a x, ((![v86] : Fin 1 → IVec S16 32) a x).toNat < S16384.size a := fun v86 k0_hw22 => k0_hw22
def k0_off28 (k0_t3 : Fin k0_t3_loop.trips) : Fin 1 → Nat :=
  let c0_i32_18 : BitVec 32 := 0#32
  let c1_i32_20 : BitVec 32 := 1#32
  let arg15 : BitVec 32 := Scf.iv c0_i32_18 c1_i32_20 k0_t3
  let c4_i32_28 : BitVec 32 := 4#32
  let v76 : BitVec 32 := Scalar.muli arg15 c4_i32_28
  let c1_i32_29 : BitVec 32 := 1#32
  let v77 : BitVec 32 := Scalar.addi v76 c1_i32_29
  let c64_i32_30 : BitVec 32 := 64#32
  let v78 : BitVec 32 := Scalar.muli v77 c64_i32_30
  let c16_i32_32 : BitVec 32 := 16#32
  let v88 : BitVec 32 := Scalar.addi v78 c16_i32_32
  let v89 : Index := Scalar.indexCast v88
  ![v89.toNat]

def k0_chk23 (v92 : IVec S16 32) : Prop :=
  (∀ a x, ((![v92] : Fin 1 → IVec S16 32) a x).toNat < S16384.size a)
instance k0_chk23.dec : ∀ (v92 : IVec S16 32), Decidable (k0_chk23 v92) := fun v92 => decidable_of_iff' _ (Iff.of_eq (k0_chk23.eq_1 v92))
theorem k0_idx23_inb : ∀ (v92 : IVec S16 32) (k0_hw23 : k0_chk23 v92), ∀ a x, ((![v92] : Fin 1 → IVec S16 32) a x).toNat < S16384.size a := fun v92 k0_hw23 => k0_hw23
def k0_off29 (k0_t3 : Fin k0_t3_loop.trips) : Fin 1 → Nat :=
  let c0_i32_18 : BitVec 32 := 0#32
  let c1_i32_20 : BitVec 32 := 1#32
  let arg15 : BitVec 32 := Scf.iv c0_i32_18 c1_i32_20 k0_t3
  let c4_i32_28 : BitVec 32 := 4#32
  let v76 : BitVec 32 := Scalar.muli arg15 c4_i32_28
  let c1_i32_29 : BitVec 32 := 1#32
  let v77 : BitVec 32 := Scalar.addi v76 c1_i32_29
  let c64_i32_30 : BitVec 32 := 64#32
  let v78 : BitVec 32 := Scalar.muli v77 c64_i32_30
  let c32_i32_33 : BitVec 32 := 32#32
  let v94 : BitVec 32 := Scalar.addi v78 c32_i32_33
  let v95 : Index := Scalar.indexCast v94
  ![v95.toNat]

def k0_chk24 (v98 : IVec S16 32) : Prop :=
  (∀ a x, ((![v98] : Fin 1 → IVec S16 32) a x).toNat < S16384.size a)
instance k0_chk24.dec : ∀ (v98 : IVec S16 32), Decidable (k0_chk24 v98) := fun v98 => decidable_of_iff' _ (Iff.of_eq (k0_chk24.eq_1 v98))
theorem k0_idx24_inb : ∀ (v98 : IVec S16 32) (k0_hw24 : k0_chk24 v98), ∀ a x, ((![v98] : Fin 1 → IVec S16 32) a x).toNat < S16384.size a := fun v98 k0_hw24 => k0_hw24
def k0_off30 (k0_t3 : Fin k0_t3_loop.trips) : Fin 1 → Nat :=
  let c0_i32_18 : BitVec 32 := 0#32
  let c1_i32_20 : BitVec 32 := 1#32
  let arg15 : BitVec 32 := Scf.iv c0_i32_18 c1_i32_20 k0_t3
  let c4_i32_28 : BitVec 32 := 4#32
  let v76 : BitVec 32 := Scalar.muli arg15 c4_i32_28
  let c1_i32_29 : BitVec 32 := 1#32
  let v77 : BitVec 32 := Scalar.addi v76 c1_i32_29
  let c64_i32_30 : BitVec 32 := 64#32
  let v78 : BitVec 32 := Scalar.muli v77 c64_i32_30
  let c48_i32_34 : BitVec 32 := 48#32
  let v100 : BitVec 32 := Scalar.addi v78 c48_i32_34
  let v101 : Index := Scalar.indexCast v100
  ![v101.toNat]

def k0_chk25 (v107 : IVec S16 32) : Prop :=
  (∀ a x, ((![v107] : Fin 1 → IVec S16 32) a x).toNat < S16384.size a)
instance k0_chk25.dec : ∀ (v107 : IVec S16 32), Decidable (k0_chk25 v107) := fun v107 => decidable_of_iff' _ (Iff.of_eq (k0_chk25.eq_1 v107))
theorem k0_idx25_inb : ∀ (v107 : IVec S16 32) (k0_hw25 : k0_chk25 v107), ∀ a x, ((![v107] : Fin 1 → IVec S16 32) a x).toNat < S16384.size a := fun v107 k0_hw25 => k0_hw25
def k0_off31 (k0_t3 : Fin k0_t3_loop.trips) : Fin 1 → Nat :=
  let c0_i32_18 : BitVec 32 := 0#32
  let c1_i32_20 : BitVec 32 := 1#32
  let arg15 : BitVec 32 := Scf.iv c0_i32_18 c1_i32_20 k0_t3
  let c4_i32_35 : BitVec 32 := 4#32
  let v103 : BitVec 32 := Scalar.muli arg15 c4_i32_35
  let c2_i32_36 : BitVec 32 := 2#32
  let v104 : BitVec 32 := Scalar.addi v103 c2_i32_36
  let c64_i32_37 : BitVec 32 := 64#32
  let v105 : BitVec 32 := Scalar.muli v104 c64_i32_37
  let c0_i32_38 : BitVec 32 := 0#32
  let v109 : BitVec 32 := Scalar.addi v105 c0_i32_38
  let v110 : Index := Scalar.indexCast v109
  ![v110.toNat]

def k0_chk26 (v113 : IVec S16 32) : Prop :=
  (∀ a x, ((![v113] : Fin 1 → IVec S16 32) a x).toNat < S16384.size a)
instance k0_chk26.dec : ∀ (v113 : IVec S16 32), Decidable (k0_chk26 v113) := fun v113 => decidable_of_iff' _ (Iff.of_eq (k0_chk26.eq_1 v113))
theorem k0_idx26_inb : ∀ (v113 : IVec S16 32) (k0_hw26 : k0_chk26 v113), ∀ a x, ((![v113] : Fin 1 → IVec S16 32) a x).toNat < S16384.size a := fun v113 k0_hw26 => k0_hw26
def k0_off32 (k0_t3 : Fin k0_t3_loop.trips) : Fin 1 → Nat :=
  let c0_i32_18 : BitVec 32 := 0#32
  let c1_i32_20 : BitVec 32 := 1#32
  let arg15 : BitVec 32 := Scf.iv c0_i32_18 c1_i32_20 k0_t3
  let c4_i32_35 : BitVec 32 := 4#32
  let v103 : BitVec 32 := Scalar.muli arg15 c4_i32_35
  let c2_i32_36 : BitVec 32 := 2#32
  let v104 : BitVec 32 := Scalar.addi v103 c2_i32_36
  let c64_i32_37 : BitVec 32 := 64#32
  let v105 : BitVec 32 := Scalar.muli v104 c64_i32_37
  let c16_i32_39 : BitVec 32 := 16#32
  let v115 : BitVec 32 := Scalar.addi v105 c16_i32_39
  let v116 : Index := Scalar.indexCast v115
  ![v116.toNat]

def k0_chk27 (v119 : IVec S16 32) : Prop :=
  (∀ a x, ((![v119] : Fin 1 → IVec S16 32) a x).toNat < S16384.size a)
instance k0_chk27.dec : ∀ (v119 : IVec S16 32), Decidable (k0_chk27 v119) := fun v119 => decidable_of_iff' _ (Iff.of_eq (k0_chk27.eq_1 v119))
theorem k0_idx27_inb : ∀ (v119 : IVec S16 32) (k0_hw27 : k0_chk27 v119), ∀ a x, ((![v119] : Fin 1 → IVec S16 32) a x).toNat < S16384.size a := fun v119 k0_hw27 => k0_hw27
def k0_off33 (k0_t3 : Fin k0_t3_loop.trips) : Fin 1 → Nat :=
  let c0_i32_18 : BitVec 32 := 0#32
  let c1_i32_20 : BitVec 32 := 1#32
  let arg15 : BitVec 32 := Scf.iv c0_i32_18 c1_i32_20 k0_t3
  let c4_i32_35 : BitVec 32 := 4#32
  let v103 : BitVec 32 := Scalar.muli arg15 c4_i32_35
  let c2_i32_36 : BitVec 32 := 2#32
  let v104 : BitVec 32 := Scalar.addi v103 c2_i32_36
  let c64_i32_37 : BitVec 32 := 64#32
  let v105 : BitVec 32 := Scalar.muli v104 c64_i32_37
  let c32_i32_40 : BitVec 32 := 32#32
  let v121 : BitVec 32 := Scalar.addi v105 c32_i32_40
  let v122 : Index := Scalar.indexCast v121
  ![v122.toNat]

def k0_chk28 (v125 : IVec S16 32) : Prop :=
  (∀ a x, ((![v125] : Fin 1 → IVec S16 32) a x).toNat < S16384.size a)
instance k0_chk28.dec : ∀ (v125 : IVec S16 32), Decidable (k0_chk28 v125) := fun v125 => decidable_of_iff' _ (Iff.of_eq (k0_chk28.eq_1 v125))
theorem k0_idx28_inb : ∀ (v125 : IVec S16 32) (k0_hw28 : k0_chk28 v125), ∀ a x, ((![v125] : Fin 1 → IVec S16 32) a x).toNat < S16384.size a := fun v125 k0_hw28 => k0_hw28
def k0_off34 (k0_t3 : Fin k0_t3_loop.trips) : Fin 1 → Nat :=
  let c0_i32_18 : BitVec 32 := 0#32
  let c1_i32_20 : BitVec 32 := 1#32
  let arg15 : BitVec 32 := Scf.iv c0_i32_18 c1_i32_20 k0_t3
  let c4_i32_35 : BitVec 32 := 4#32
  let v103 : BitVec 32 := Scalar.muli arg15 c4_i32_35
  let c2_i32_36 : BitVec 32 := 2#32
  let v104 : BitVec 32 := Scalar.addi v103 c2_i32_36
  let c64_i32_37 : BitVec 32 := 64#32
  let v105 : BitVec 32 := Scalar.muli v104 c64_i32_37
  let c48_i32_41 : BitVec 32 := 48#32
  let v127 : BitVec 32 := Scalar.addi v105 c48_i32_41
  let v128 : Index := Scalar.indexCast v127
  ![v128.toNat]

def k0_chk29 (v134 : IVec S16 32) : Prop :=
  (∀ a x, ((![v134] : Fin 1 → IVec S16 32) a x).toNat < S16384.size a)
instance k0_chk29.dec : ∀ (v134 : IVec S16 32), Decidable (k0_chk29 v134) := fun v134 => decidable_of_iff' _ (Iff.of_eq (k0_chk29.eq_1 v134))
theorem k0_idx29_inb : ∀ (v134 : IVec S16 32) (k0_hw29 : k0_chk29 v134), ∀ a x, ((![v134] : Fin 1 → IVec S16 32) a x).toNat < S16384.size a := fun v134 k0_hw29 => k0_hw29
def k0_off35 (k0_t3 : Fin k0_t3_loop.trips) : Fin 1 → Nat :=
  let c0_i32_18 : BitVec 32 := 0#32
  let c1_i32_20 : BitVec 32 := 1#32
  let arg15 : BitVec 32 := Scf.iv c0_i32_18 c1_i32_20 k0_t3
  let c4_i32_42 : BitVec 32 := 4#32
  let v130 : BitVec 32 := Scalar.muli arg15 c4_i32_42
  let c3_i32 : BitVec 32 := 3#32
  let v131 : BitVec 32 := Scalar.addi v130 c3_i32
  let c64_i32_43 : BitVec 32 := 64#32
  let v132 : BitVec 32 := Scalar.muli v131 c64_i32_43
  let c0_i32_44 : BitVec 32 := 0#32
  let v136 : BitVec 32 := Scalar.addi v132 c0_i32_44
  let v137 : Index := Scalar.indexCast v136
  ![v137.toNat]

def k0_chk30 (v140 : IVec S16 32) : Prop :=
  (∀ a x, ((![v140] : Fin 1 → IVec S16 32) a x).toNat < S16384.size a)
instance k0_chk30.dec : ∀ (v140 : IVec S16 32), Decidable (k0_chk30 v140) := fun v140 => decidable_of_iff' _ (Iff.of_eq (k0_chk30.eq_1 v140))
theorem k0_idx30_inb : ∀ (v140 : IVec S16 32) (k0_hw30 : k0_chk30 v140), ∀ a x, ((![v140] : Fin 1 → IVec S16 32) a x).toNat < S16384.size a := fun v140 k0_hw30 => k0_hw30
def k0_off36 (k0_t3 : Fin k0_t3_loop.trips) : Fin 1 → Nat :=
  let c0_i32_18 : BitVec 32 := 0#32
  let c1_i32_20 : BitVec 32 := 1#32
  let arg15 : BitVec 32 := Scf.iv c0_i32_18 c1_i32_20 k0_t3
  let c4_i32_42 : BitVec 32 := 4#32
  let v130 : BitVec 32 := Scalar.muli arg15 c4_i32_42
  let c3_i32 : BitVec 32 := 3#32
  let v131 : BitVec 32 := Scalar.addi v130 c3_i32
  let c64_i32_43 : BitVec 32 := 64#32
  let v132 : BitVec 32 := Scalar.muli v131 c64_i32_43
  let c16_i32_45 : BitVec 32 := 16#32
  let v142 : BitVec 32 := Scalar.addi v132 c16_i32_45
  let v143 : Index := Scalar.indexCast v142
  ![v143.toNat]

def k0_chk31 (v146 : IVec S16 32) : Prop :=
  (∀ a x, ((![v146] : Fin 1 → IVec S16 32) a x).toNat < S16384.size a)
instance k0_chk31.dec : ∀ (v146 : IVec S16 32), Decidable (k0_chk31 v146) := fun v146 => decidable_of_iff' _ (Iff.of_eq (k0_chk31.eq_1 v146))
theorem k0_idx31_inb : ∀ (v146 : IVec S16 32) (k0_hw31 : k0_chk31 v146), ∀ a x, ((![v146] : Fin 1 → IVec S16 32) a x).toNat < S16384.size a := fun v146 k0_hw31 => k0_hw31
def k0_off37 (k0_t3 : Fin k0_t3_loop.trips) : Fin 1 → Nat :=
  let c0_i32_18 : BitVec 32 := 0#32
  let c1_i32_20 : BitVec 32 := 1#32
  let arg15 : BitVec 32 := Scf.iv c0_i32_18 c1_i32_20 k0_t3
  let c4_i32_42 : BitVec 32 := 4#32
  let v130 : BitVec 32 := Scalar.muli arg15 c4_i32_42
  let c3_i32 : BitVec 32 := 3#32
  let v131 : BitVec 32 := Scalar.addi v130 c3_i32
  let c64_i32_43 : BitVec 32 := 64#32
  let v132 : BitVec 32 := Scalar.muli v131 c64_i32_43
  let c32_i32_46 : BitVec 32 := 32#32
  let v148 : BitVec 32 := Scalar.addi v132 c32_i32_46
  let v149 : Index := Scalar.indexCast v148
  ![v149.toNat]

def k0_chk32 (v152 : IVec S16 32) : Prop :=
  (∀ a x, ((![v152] : Fin 1 → IVec S16 32) a x).toNat < S16384.size a)
instance k0_chk32.dec : ∀ (v152 : IVec S16 32), Decidable (k0_chk32 v152) := fun v152 => decidable_of_iff' _ (Iff.of_eq (k0_chk32.eq_1 v152))
theorem k0_idx32_inb : ∀ (v152 : IVec S16 32) (k0_hw32 : k0_chk32 v152), ∀ a x, ((![v152] : Fin 1 → IVec S16 32) a x).toNat < S16384.size a := fun v152 k0_hw32 => k0_hw32
def k0_off38 (k0_t3 : Fin k0_t3_loop.trips) : Fin 1 → Nat :=
  let c0_i32_18 : BitVec 32 := 0#32
  let c1_i32_20 : BitVec 32 := 1#32
  let arg15 : BitVec 32 := Scf.iv c0_i32_18 c1_i32_20 k0_t3
  let c4_i32_42 : BitVec 32 := 4#32
  let v130 : BitVec 32 := Scalar.muli arg15 c4_i32_42
  let c3_i32 : BitVec 32 := 3#32
  let v131 : BitVec 32 := Scalar.addi v130 c3_i32
  let c64_i32_43 : BitVec 32 := 64#32
  let v132 : BitVec 32 := Scalar.muli v131 c64_i32_43
  let c48_i32_47 : BitVec 32 := 48#32
  let v154 : BitVec 32 := Scalar.addi v132 c48_i32_47
  let v155 : Index := Scalar.indexCast v154
  ![v155.toNat]
def k0_cond4 (k0_t1 : Fin k0_t1_loop.trips) : BitVec 1 :=
  let c0_i32_0 : BitVec 32 := 0#32
  let c1_i32 : BitVec 32 := 1#32
  let arg14 : BitVec 32 := Scf.iv c0_i32_0 c1_i32 k0_t1
  let c15_i32_22 : BitVec 32 := 15#32
  let v46 : BitVec 1 := Scalar.cmpi .slt arg14 c15_i32_22
  let v47 : BitVec 32 := Scalar.extui v46
  let c0_i32_23 : BitVec 32 := 0#32
  let v48 : BitVec 1 := Scalar.cmpi .ne v47 c0_i32_23
  v48

def k0_off39 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_0 : BitVec 32 := 0#32
  let c1_i32 : BitVec 32 := 1#32
  let arg14 : BitVec 32 := Scf.iv c0_i32_0 c1_i32 k0_t1
  let c2_i32_12 : BitVec 32 := 2#32
  let v34 : BitVec 32 := Scalar.muli arg14 c2_i32_12
  let c1_i32_13 : BitVec 32 := 1#32
  let v35 : BitVec 32 := Scalar.addi v34 c1_i32_13
  let c16384_i32_14 : BitVec 32 := 16384#32
  let v36 : BitVec 32 := Scalar.muli v35 c16384_i32_14
  let v37 : BitVec 32 := Scalar.addi v2 v36
  let c32768_i32 : BitVec 32 := 32768#32
  let v49 : BitVec 32 := Scalar.addi v37 c32768_i32
  ![v49.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x2048x2048_S16777216 : S4x2048x2048.ShapeCasts S16777216
  inb_S64_S16_0 : ∀ a, (![0] : Fin 1 → Nat) a + S16.size a ≤ S64.size a
  h_S16 : 0 < S16.numel
  inb_S64_S16_16 : ∀ a, (![16] : Fin 1 → Nat) a + S16.size a ≤ S64.size a
  inb_S64_S16_32 : ∀ a, (![32] : Fin 1 → Nat) a + S16.size a ≤ S64.size a
  inb_S64_S16_48 : ∀ a, (![48] : Fin 1 → Nat) a + S16.size a ≤ S64.size a
  h_S16384 : 0 < S16384.numel
  shapeCasts_S16777216_S4x2048x2048 : S16777216.ShapeCasts S4x2048x2048
  hcc0_scratch5 : 0 + S_.numel ≤ 5
  hcc0_scratch6 : 1 + S_.numel ≤ 5
  hcc0_scratch7 : 2 + S_.numel ≤ 5
  hcc0_scratch8 : 3 + S_.numel ≤ 5
  hcc0_scoped0 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S16384.size a ≤ S16777216.size a
  k0_off2_inb : ∀ i : grid0.Coords, ∀ (r : Fin 3), ∀ a, (k0_off2 i (k0_off2_at r)) a + S16384.size a ≤ S16777216.size a
  k0_t1_ok : k0_t1_loop.OK
  k0_off3_inb : ∀ (i : grid0.Coords) (k0_t1 : Fin k0_t1_loop.trips), ∀ (r : Fin 2), ∀ a, (k0_off3 i k0_t1 (BitVec.ofNat 32 r.val)) a + S16384.size a ≤ S16777216.size a
  k0_off4_inb : ∀ (i : grid0.Coords) (k0_t1 : Fin k0_t1_loop.trips), ∀ (k0_h1 : k0_cond1 k0_t1 = 1#1), ∀ a, (k0_off4 i k0_t1) a + S16384.size a ≤ S16777216.size a
  k0_t2_ok : k0_t2_loop.OK
  k0_off5_inb : ∀ k0_t2 : Fin k0_t2_loop.trips, ∀ a, (k0_off5 k0_t2) a + S16.size a ≤ S16384.size a
  k0_off6_inb : ∀ k0_t2 : Fin k0_t2_loop.trips, ∀ a, (k0_off6 k0_t2) a + S16.size a ≤ S16384.size a
  k0_off7_inb : ∀ k0_t2 : Fin k0_t2_loop.trips, ∀ a, (k0_off7 k0_t2) a + S16.size a ≤ S16384.size a
  k0_off8_inb : ∀ k0_t2 : Fin k0_t2_loop.trips, ∀ a, (k0_off8 k0_t2) a + S16.size a ≤ S16384.size a
  k0_off9_inb : ∀ k0_t2 : Fin k0_t2_loop.trips, ∀ a, (k0_off9 k0_t2) a + S16.size a ≤ S16384.size a
  k0_off10_inb : ∀ k0_t2 : Fin k0_t2_loop.trips, ∀ a, (k0_off10 k0_t2) a + S16.size a ≤ S16384.size a
  k0_off11_inb : ∀ k0_t2 : Fin k0_t2_loop.trips, ∀ a, (k0_off11 k0_t2) a + S16.size a ≤ S16384.size a
  k0_off12_inb : ∀ k0_t2 : Fin k0_t2_loop.trips, ∀ a, (k0_off12 k0_t2) a + S16.size a ≤ S16384.size a
  k0_off13_inb : ∀ k0_t2 : Fin k0_t2_loop.trips, ∀ a, (k0_off13 k0_t2) a + S16.size a ≤ S16384.size a
  k0_off14_inb : ∀ k0_t2 : Fin k0_t2_loop.trips, ∀ a, (k0_off14 k0_t2) a + S16.size a ≤ S16384.size a
  k0_off15_inb : ∀ k0_t2 : Fin k0_t2_loop.trips, ∀ a, (k0_off15 k0_t2) a + S16.size a ≤ S16384.size a
  k0_off16_inb : ∀ k0_t2 : Fin k0_t2_loop.trips, ∀ a, (k0_off16 k0_t2) a + S16.size a ≤ S16384.size a
  k0_off17_inb : ∀ k0_t2 : Fin k0_t2_loop.trips, ∀ a, (k0_off17 k0_t2) a + S16.size a ≤ S16384.size a
  k0_off18_inb : ∀ k0_t2 : Fin k0_t2_loop.trips, ∀ a, (k0_off18 k0_t2) a + S16.size a ≤ S16384.size a
  k0_off19_inb : ∀ k0_t2 : Fin k0_t2_loop.trips, ∀ a, (k0_off19 k0_t2) a + S16.size a ≤ S16384.size a
  k0_off20_inb : ∀ k0_t2 : Fin k0_t2_loop.trips, ∀ a, (k0_off20 k0_t2) a + S16.size a ≤ S16384.size a
  k0_off21_inb : ∀ (i : grid0.Coords) (k0_t1 : Fin k0_t1_loop.trips), ∀ (k0_h2 : k0_cond2 k0_t1 = 1#1), ∀ a, (k0_off21 i k0_t1) a + S16384.size a ≤ S16777216.size a
  k0_off22_inb : ∀ (i : grid0.Coords) (k0_t1 : Fin k0_t1_loop.trips), ∀ (k0_h3 : k0_cond3 k0_t1 = 1#1), ∀ a, (k0_off22 i k0_t1) a + S16384.size a ≤ S16777216.size a
  k0_t3_ok : k0_t3_loop.OK
  k0_off23_inb : ∀ k0_t3 : Fin k0_t3_loop.trips, ∀ a, (k0_off23 k0_t3) a + S16.size a ≤ S16384.size a
  k0_off24_inb : ∀ k0_t3 : Fin k0_t3_loop.trips, ∀ a, (k0_off24 k0_t3) a + S16.size a ≤ S16384.size a
  k0_off25_inb : ∀ k0_t3 : Fin k0_t3_loop.trips, ∀ a, (k0_off25 k0_t3) a + S16.size a ≤ S16384.size a
  k0_off26_inb : ∀ k0_t3 : Fin k0_t3_loop.trips, ∀ a, (k0_off26 k0_t3) a + S16.size a ≤ S16384.size a
  k0_off27_inb : ∀ k0_t3 : Fin k0_t3_loop.trips, ∀ a, (k0_off27 k0_t3) a + S16.size a ≤ S16384.size a
  k0_off28_inb : ∀ k0_t3 : Fin k0_t3_loop.trips, ∀ a, (k0_off28 k0_t3) a + S16.size a ≤ S16384.size a
  k0_off29_inb : ∀ k0_t3 : Fin k0_t3_loop.trips, ∀ a, (k0_off29 k0_t3) a + S16.size a ≤ S16384.size a
  k0_off30_inb : ∀ k0_t3 : Fin k0_t3_loop.trips, ∀ a, (k0_off30 k0_t3) a + S16.size a ≤ S16384.size a
  k0_off31_inb : ∀ k0_t3 : Fin k0_t3_loop.trips, ∀ a, (k0_off31 k0_t3) a + S16.size a ≤ S16384.size a
  k0_off32_inb : ∀ k0_t3 : Fin k0_t3_loop.trips, ∀ a, (k0_off32 k0_t3) a + S16.size a ≤ S16384.size a
  k0_off33_inb : ∀ k0_t3 : Fin k0_t3_loop.trips, ∀ a, (k0_off33 k0_t3) a + S16.size a ≤ S16384.size a
  k0_off34_inb : ∀ k0_t3 : Fin k0_t3_loop.trips, ∀ a, (k0_off34 k0_t3) a + S16.size a ≤ S16384.size a
  k0_off35_inb : ∀ k0_t3 : Fin k0_t3_loop.trips, ∀ a, (k0_off35 k0_t3) a + S16.size a ≤ S16384.size a
  k0_off36_inb : ∀ k0_t3 : Fin k0_t3_loop.trips, ∀ a, (k0_off36 k0_t3) a + S16.size a ≤ S16384.size a
  k0_off37_inb : ∀ k0_t3 : Fin k0_t3_loop.trips, ∀ a, (k0_off37 k0_t3) a + S16.size a ≤ S16384.size a
  k0_off38_inb : ∀ k0_t3 : Fin k0_t3_loop.trips, ∀ a, (k0_off38 k0_t3) a + S16.size a ≤ S16384.size a
  k0_off39_inb : ∀ (i : grid0.Coords) (k0_t1 : Fin k0_t1_loop.trips), ∀ (k0_h4 : k0_cond4 k0_t1 = 1#1), ∀ a, (k0_off39 i k0_t1) a + S16384.size a ≤ S16777216.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scoped0 : DmaSems sig S_ := SemArray.consecutive 4 S_ hcc0_scoped0

class Facts : Prop extends Facts₀ where

variable [Facts]
-- ==== ReferenceIdeal.lean ====
abbrev S4x2048x2048 : Shape := ⟨3, ![4, 2048, 2048]⟩
abbrev S64 : Shape := ⟨1, ![64]⟩
abbrev S4x2048x32x64 : Shape := ⟨4, ![4, 2048, 32, 64]⟩
abbrev S_ : Shape := ⟨0, ![]⟩
abbrev S64x1 : Shape := ⟨2, ![64, 1]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S64, .i32⟩
  | .hbm, ⟨2, _⟩ => ⟨S4x2048x32x64, .f32⟩
  | .hbm, ⟨3, _⟩ => ⟨S_, .i32⟩
  | .hbm, ⟨4, _⟩ => ⟨S64, .i32⟩
  | .hbm, ⟨5, _⟩ => ⟨S64, .i1⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S64, .i32⟩
  | .hbm, ⟨10, _⟩ => ⟨S64x1, .i32⟩
  | .hbm, ⟨11, _⟩ => ⟨S4x2048x32x64, .f32⟩
  | .hbm, ⟨12, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S4x2048x2048_S4x2048x32x64 : S4x2048x2048.ShapeCasts S4x2048x32x64
  bcast_S_S64 : S_.BroadcastsInDim S64 (![] : Fin 0 → Fin S64.rank)
  bcast_S64_S64x1_0 : S64.BroadcastsInDim S64x1 (![0] : Fin 1 → Fin S64x1.rank)
  shapeCasts_S4x2048x32x64_S4x2048x2048 : S4x2048x32x64.ShapeCasts S4x2048x2048
  gather_S4x2048x32x64_S64x1_S4x2048x32x64_012_3_n_n_3_1_42048321_wf : GatherDims.WF S4x2048x32x64 S64x1 S4x2048x32x64 [0, 1, 2] [3] [] [3] [] 1 ![4, 2048, 32, 1]

variable [Facts₀]

def gather_S4x2048x32x64_S64x1_S4x2048x32x64_012_3_n_n_3_1_42048321 : GatherDims S4x2048x32x64 S64x1 S4x2048x32x64 where
  offsetDims := [0, 1, 2]
  collapsedSliceDims := [3]
  operandBatchingDims := []
  startIndicesBatchingDims := []
  startIndexMap := [3]
  indexVectorDim := 1
  sliceSizes := ![4, 2048, 32, 1]
  wf := gather_S4x2048x32x64_S64x1_S4x2048x32x64_012_3_n_n_3_1_42048321_wf

class Facts : Prop extends Facts₀ where

variable [Facts]
-- ==== Proof.Spec.lean ====
/-
  The function both programs compute, on flat arrays. The input, read as one row of 16777216 numbers, is cut into
  aligned runs of 64; inside every run the result's entry `j` is the input's entry `p j`, for one list `p` of 64
  places shared by all runs:  out[64·k + j] = x[64·k + p j].  Nothing is added or multiplied: the claim is an equation
  between indices, and holds entry by entry on the extended reals as on words.
-/
import Idealize.ShloMosaic.Lib.ValueIdx
import Idealize.ShloMosaic.PureOps

noncomputable section

namespace Cert.Spec

open Idealize.ShloMosaic Idealize.ShloMosaic.ValueIdx

/-- The flat array's shape and the place list's. -/
abbrev SFlat : Shape := ⟨1, ![16777216]⟩
abbrev SPerm : Shape := ⟨1, ![64]⟩

/-- Place `r` of the list, as an index. -/
abbrev pIx (r : Fin 64) : SPerm.Idx := ix1 r

/-- The place the list names for `j`, kept below 64 (on a list of places below 64 the remainder changes nothing). -/
def place (p : SPerm.Idx → BitVec 32) (j : Fin 64) : Nat := (p (pIx j)).toNat % 64

/-- Where entry `i` of the result comes from: the start of `i`'s run of 64, plus the place named for `i`'s position
    in the run. -/
def srcIdx (p : SPerm.Idx → BitVec 32) (i : SFlat.Idx) : SFlat.Idx :=
  ix1 ⟨64 * ((i 0).val / 64) + place p ⟨(i 0).val % 64, Nat.mod_lt _ (by decide)⟩, by
    have h : (i 0).val < 16777216 := (i 0).isLt
    have h2 : place p ⟨(i 0).val % 64, Nat.mod_lt _ (by decide)⟩ < 64 := Nat.mod_lt _ (by decide)
    omega⟩

/-- The result: every entry is the input's entry at `srcIdx`. -/
def permFlat {α : Type} (x : SFlat.Idx → α) (p : SPerm.Idx → BitVec 32) : SFlat.Idx → α := fun i => x (srcIdx p i)

/-- The arrays as the programs take them: four planes of 2048 rows of 2048. -/
abbrev S3 : Shape := ⟨3, ![4, 2048, 2048]⟩

/-- The whole function on the shaped arrays: read the input in row-major order as one flat row, permute inside every
    run of 64, give the flat row its shape back. -/
def permShaped {α : Type} (x : S3.Idx → α) (p : SPerm.Idx → BitVec 32) : S3.Idx → α :=
  shapeCast S3 (permFlat (shapeCast SFlat x (by decide)) p) (by decide)

theorem srcIdx_val (p : SPerm.Idx → BitVec 32) (i : SFlat.Idx) :
    ((srcIdx p i) 0).val = 64 * ((i 0).val / 64) + place p ⟨(i 0).val % 64, Nat.mod_lt _ (by decide)⟩ := rfl

end Cert.Spec

end
-- ==== Proof.RefSide.lean ====
/-
  The reference side. The reference reads the input as [4, 2048, 32, 64] (a row-major re-reading), replaces every
  place p by p + 64 where p is negative, gathers along the last axis at the places, and reads the result back as
  [4, 2048, 2048]. With every place in 0 … 63 the replacement changes nothing and the gather's clamp is idle, so entry
  (a, b, c, j) of the gathered array is entry (a, b, c, p j) of the input: on the flat arrays, out[64·k + j] = x[64·k + p j],
  the specification. The precondition says exactly that every place is in 0 … 63.
-/
import proofs.«213039_g63608465654469_cont_9to1_m_885_2_alg».proof.Defs
import proofs.«213039_g63608465654469_cont_9to1_m_885_2_alg».proof.Proof.Gen.ReferenceIdeal
import proofs.«213039_g63608465654469_cont_9to1_m_885_2_alg».proof.Proof.Gen.ReferenceIdeal.Run
import proofs.«213039_g63608465654469_cont_9to1_m_885_2_alg».proof.Proof.Gen.ReferenceIdeal.Read
import proofs.«213039_g63608465654469_cont_9to1_m_885_2_alg».proof.Proof.Gen.Pre_input_domain
import proofs.«213039_g63608465654469_cont_9to1_m_885_2_alg».proof.Proof.Spec
import Idealize.ShloMosaic.Lib.ValueIdx
import Idealize.ShloMosaic.Lib.ReduceAll
import Idealize.ShloMosaic.Lib.Affine
import Idealize.ShloMosaic.Lib.Pipeline.Value

noncomputable section

namespace Cert.Proof.RefSide

open Idealize.ShloMosaic Idealize.ShloMosaic.ValueIdx Idealize.SL.Sem

/-! ## The precondition -/

/-- the precondition, at any float instance, bounds every word of the list of places below 64 (as an unsigned word:
    0 ≤ p ≤ 63 signed) -/
theorem idx_lt_of_pre {F : FTy → Type} [FloatOps F] (x : FVec F Cert.Pre_input_domain.S4x2048x2048 .f32)
    (p : IVec Cert.Pre_input_domain.S64 32)
    (h : Cert.Pre_input_domain.fn (F := F) x p = fun _ => 1#1) : ∀ j, (p j).toNat < 64 := by
  intro j
  have h0 := congrFun h ix0
  unfold Cert.Pre_input_domain.fn at h0
  -- the conjunction is 1, so the conjunct over the places is; it is an "all" of comparisons, each then 1
  have h9 := (IntOp.andi_eq_one.1 h0).2
  have h8 := Host.reduce_andi_all (t := Cert.Pre_input_domain.S_) _ _ _ _ _ h9 j
  obtain ⟨hge, hle⟩ := IntOp.andi_eq_one.1 h8
  have hge' := IntOp.cmpi_sge.1 hge
  have hle' := IntOp.cmpi_sle.1 hle
  rw [broadcastInDim_apply _ _ _ j ix0 (fun a => a.elim0)] at hge' hle'
  have e0 : (constantI Cert.Pre_input_domain.S_ 32 0#32 ix0).toInt = 0 := by decide
  have e63 : (constantI Cert.Pre_input_domain.S_ 32 63#32 ix0).toInt = 63 := by decide
  rw [e0] at hge'
  rw [e63] at hle'
  rw [BitVec.toInt_eq_toNat_cond] at hge' hle'
  have hlt := (p j).isLt
  split at hge' <;> omega

/-! ## The gather, read at an index -/

section Gather
open Cert.ReferenceIdeal Cert.ReferenceIdeal.Gen

/-- The reference's gather: operand [4, 2048, 32, 64], start indices [64, 1], the start index naming the last axis, which
    is collapsed; the result's last axis is the batch axis. -/
abbrev G := gather_S4x2048x32x64_S64x1_S4x2048x32x64_012_3_n_n_3_1_42048321

/-- The gather read at (a, b, c, j): the operand at (a, b, c, ·), the last coordinate the start index idx[j, 0] read
    signed and clamped into 0 … 63. -/
theorem gather_apply {α : Type} {w : Nat} (x : S4x2048x32x64.Idx → α) (idx : IVec S64x1 w) (y : S4x2048x32x64.Idx) :
    Host.gather G x idx y
      = x (ix4 (y 0) (y 1) (y 2) ⟨min (idx (ix2 (y 3) ⟨0, Nat.one_pos⟩)).toInt.toNat 63, by omega⟩) := by
  unfold Host.gather
  congr 1
  funext a
  refine Fin.ext ?_
  show G.start y idx a + G.batchCoord y a + G.offCoord y a = _
  rw [GatherDims.batchCoord_eq_zero _ _ _ List.not_mem_nil, Nat.add_zero]
  match a with
  | ⟨0, _⟩ =>
    -- an offset axis: no start, the result's own coordinate
    have hs : G.start y idx ⟨0, by decide⟩ = 0 := by unfold GatherDims.start; exact dif_neg (by decide)
    have ho : G.offCoord y ⟨0, by decide⟩ = (y 0).val := by
      unfold GatherDims.offCoord; rw [dif_pos (by decide)]; rfl
    rw [hs, ho, Nat.zero_add]
  | ⟨1, _⟩ =>
    have hs : G.start y idx ⟨1, by decide⟩ = 0 := by unfold GatherDims.start; exact dif_neg (by decide)
    have ho : G.offCoord y ⟨1, by decide⟩ = (y 1).val := by
      unfold GatherDims.offCoord; rw [dif_pos (by decide)]; rfl
    rw [hs, ho, Nat.zero_add]
  | ⟨2, _⟩ =>
    have hs : G.start y idx ⟨2, by decide⟩ = 0 := by unfold GatherDims.start; exact dif_neg (by decide)
    have ho : G.offCoord y ⟨2, by decide⟩ = (y 2).val := by
      unfold GatherDims.offCoord; rw [dif_pos (by decide)]; rfl
    rw [hs, ho, Nat.zero_add]
  | ⟨3, _⟩ =>
    -- the collapsed axis: the clamped start index, no offset
    have hmem : (⟨3, by decide⟩ : Fin S4x2048x32x64.rank) ∈ G.startIndexMap := List.mem_singleton.mpr rfl
    rw [GatherDims.offCoord_eq_zero _ _ _ (fun h => ((GatherDims.mem_sKept _ _).mp h).1 (List.mem_singleton.mpr rfl)),
      Nat.add_zero]
    unfold GatherDims.start
    rw [dif_pos hmem]
    have hsi : G.siIdx y ⟨List.idxOf (⟨3, by decide⟩ : Fin S4x2048x32x64.rank) G.startIndexMap,
        List.idxOf_lt_length_iff.2 hmem⟩ = ix2 (y 3) ⟨0, Nat.one_pos⟩ := by
      funext b; refine Fin.ext ?_
      match b with
      | ⟨0, _⟩ => rfl
      | ⟨1, _⟩ => rfl
    rw [hsi]
    rfl

end Gather

/-! ## The reference's result is the specification -/

section Value
open Cert.ReferenceIdeal Cert.ReferenceIdeal.Gen Cert.ReferenceIdeal.Read

variable {F : FTy → Type} [FloatOps F]

/-- The gather read at (a, b, c, j) with the clamped start index named. -/
theorem gather_apply' {α : Type} {w : Nat} (x : S4x2048x32x64.Idx → α) (idx : IVec S64x1 w) (y : S4x2048x32x64.Idx)
    (q : Fin 64) (hq : min (idx (ix2 (y 3) ⟨0, Nat.one_pos⟩)).toInt.toNat 63 = q.val) :
    Host.gather G x idx y = x (ix4 (y 0) (y 1) (y 2) q) := by
  rw [gather_apply]
  congr 2
  exact Fin.ext hq

/-- A place below 64 is not negative: the select keeps it. -/
theorem val_v5_of_lt (p : (⟨S64, .i32⟩ : BufTy).Contents (Elt F)) (j : S64.Idx) (hj : (p j).toNat < 64) :
    val_main_v5 (F := F) p j = p j := by
  rw [val_main_v5_apply, val_main_v2_apply, val_main_v1_apply, val_main_c_apply]
  have hc : IntOp.cmpi .slt (p j) 0#32 = 0#1 := by
    apply eq_zero_of_ne_one
    rw [IntOp.cmpi_slt, BitVec.toInt_eq_toNat_of_lt (by omega)]
    have : (0#32 : BitVec 32).toInt = 0 := by decide
    omega
  rw [hc, select_zero]

/-- Row-major arithmetic: entry (a, b, c, q) of the [4, 2048, 32, 64] reading, where (a, b, c, ·) is the run of 64 that flat
    position L lies in, is flat position 64·(L / 64) + q. -/
theorem flat_arith (i0 i1 i2 q : Nat) (h0 : i0 < 4) (h1 : i1 < 2048) (h2 : i2 < 2048) (hq : q < 64) :
    ((((((i0 * 2048 + i1) * 2048 + i2) / 4194304 * 2048 + ((i0 * 2048 + i1) * 2048 + i2) / 2048 % 2048) * 32
            + ((i0 * 2048 + i1) * 2048 + i2) / 64 % 32) * 64 + q) / 4194304 * 2048
        + (((((i0 * 2048 + i1) * 2048 + i2) / 4194304 * 2048 + ((i0 * 2048 + i1) * 2048 + i2) / 2048 % 2048) * 32
            + ((i0 * 2048 + i1) * 2048 + i2) / 64 % 32) * 64 + q) / 2048 % 2048) * 2048
      + (((((i0 * 2048 + i1) * 2048 + i2) / 4194304 * 2048 + ((i0 * 2048 + i1) * 2048 + i2) / 2048 % 2048) * 32
            + ((i0 * 2048 + i1) * 2048 + i2) / 64 % 32) * 64 + q) % 2048
      = 64 * (((i0 * 2048 + i1) * 2048 + i2) / 64) + q % 64 := by
  omega

/-- With every place below 64, the reference's result is the specification of its arguments. -/
theorem val_eq (x : (⟨S4x2048x2048, .f32⟩ : BufTy).Contents (Elt F)) (p : (⟨S64, .i32⟩ : BufTy).Contents (Elt F))
    (hp : ∀ j, (p j).toNat < 64) : val_main_v8 (F := F) x p = Cert.Spec.permShaped x p := by
  funext i
  rw [val_main_v8_apply]
  unfold val_main_v7
  have hv6 : val_main_v6 (F := F) p (ix2 ((idx_main_v8 i) 3) ⟨0, Nat.one_pos⟩) = p (ix1 ((idx_main_v8 i) 3)) := by
    rw [val_main_v6_apply, val_v5_of_lt p _ (hp _)]
    congr 1; funext a; match a with | ⟨0, _⟩ => rfl
  rw [gather_apply' _ _ _ ⟨(p (ix1 ((idx_main_v8 i) 3))).toNat, hp _⟩ (by
    rw [hv6, BitVec.toInt_eq_toNat_of_lt (by have := hp (ix1 ((idx_main_v8 i) 3)); omega), Int.toNat_natCast]
    exact Nat.min_eq_left (by have := hp (ix1 ((idx_main_v8 i) 3)); omega))]
  rw [val_main_v0_apply]
  unfold Cert.Spec.permShaped
  rw [shapeCast_apply _ _ i (ix1 ⟨((i 0).val * 2048 + (i 1).val) * 2048 + (i 2).val, by
      have h0 : (i 0).val < 4 := (i 0).isLt; have h1 : (i 1).val < 2048 := (i 1).isLt; have h2 : (i 2).val < 2048 := (i 2).isLt
      omega⟩) (by rw [Shape.rowMajor_val_one, Shape.rowMajor_val_three]; rfl)]
  unfold Cert.Spec.permFlat
  refine (shapeCast_apply x _ _ _ ?_).symm
  rw [Shape.rowMajor_val_three, Shape.rowMajor_val_one, Cert.Spec.srcIdx_val]
  exact flat_arith (i 0).val (i 1).val (i 2).val _ (i 0).isLt (i 1).isLt (i 2).isLt (hp _)

end Value

/-! ## The run and the frame -/

/-- the reference's run: it ends, its arguments unchanged, its result the specification of its arguments, when every
    place is below 64 -/
theorem ref_run (m' : (ℓ : Loc Cert.ReferenceIdeal.nD Cert.ReferenceIdeal.τ Cert.ReferenceIdeal.sig) → Buf (Elt Ideal) ℓ)
    (g' : Dev Cert.ReferenceIdeal.nD → PrngReg)
    (hp : ∀ (c : Dev Cert.ReferenceIdeal.nD) j,
      (m' ((c.tc : Thread Cert.ReferenceIdeal.nD Cert.ReferenceIdeal.τ).loc Cert.ReferenceIdeal.main_arg1) j).toNat < 64) :
    θ_run (Cert.ReferenceIdeal.defs (F := Ideal)) (onTc (τ := Cert.ReferenceIdeal.τ) (Cert.ReferenceIdeal.main (F := Ideal)))
      ⟨m', fun _ => 0, g'⟩
      (fun r => ∀ c : Dev Cert.ReferenceIdeal.nD,
        r.2.mem ((c.tc : Thread Cert.ReferenceIdeal.nD Cert.ReferenceIdeal.τ).loc Cert.ReferenceIdeal.main_v8)
            = Cert.Spec.permShaped
                (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans ((Cert.ReferenceIdeal.Read.val_main_v8_eq _ _).trans (val_eq _ _ (hp c))), (h c).2⟩)
    (Cert.ReferenceIdeal.Value.run (F := Ideal) m' g')

/-- the reference's frame conjunct, exactly Defs.lean's -/
theorem frame_ri : Cert.frame_ReferenceIdeal := fun m g hpre =>
  (θ_run (Cert.ReferenceIdeal.defs (F := Ideal)) _ _).mono (fun _ h c => (h c).2)
    (ref_run m g (fun c => idx_lt_of_pre _ _ (hpre c)))

end Cert.Proof.RefSide

end
-- ==== Proof.KI.Common.lean ====
/-
  What every part of the kernel's proof shares: the program as the launch theorem reads it, the ghost state (the
  launch's handshakes beside the counters the local copies use), the three arrays a tile touches — the flat input,
  the list of 64 places, the flat result —, the stretch of the flat arrays tile number `w` owns
  (entries 524288·w … 524288·(w+1)), and what the call hands each tile and takes back: a read share of the input and of
  the list, and the tile's stretch of the result, returned holding the permuted input.
-/
import proofs.«213039_g63608465654469_cont_9to1_m_885_2_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«213039_g63608465654469_cont_9to1_m_885_2_alg».proof.Proof.Gen.KernelIdeal
import proofs.«213039_g63608465654469_cont_9to1_m_885_2_alg».proof.Proof.Gen.KernelIdeal.Skeleton
import proofs.«213039_g63608465654469_cont_9to1_m_885_2_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flat input (written by @main's first reshape), the list of places (an argument), the flat result. -/
abbrev xLoc (d : Dev nD) : Loc nD τ sig := (SparseCore.T d).loc main_v0
abbrev pLoc (d : Dev nD) : Loc nD τ sig := (SparseCore.T d).loc main_arg1
abbrev oLoc (d : Dev nD) : Loc nD τ sig := (SparseCore.T d).loc main_v1

/-- Tile `(c, s)` has number `2·s + c` among the 32 tiles. -/
def wid (c : Fin 2) (s : Fin 16) : Fin 32 := ⟨2 * s.val + c.val, by omega⟩

/-- Tile number `w`'s stretch of a flat array: entries `524288·w ≤ i < 524288·(w+1)`. -/
def reg (w : Fin 32) : Finset S16777216.Idx :=
  Finset.univ.filter fun i => 524288 * w.val ≤ (i 0).val ∧ (i 0).val < 524288 * (w.val + 1)

/-- Tile number `w`'s read share of an array every tile reads. -/
abbrev tokS (w : Fin 32) : PosShare TreeShare := Transfers.shareTok fullShare 32 w

/-! ## What the call hands a tile, and takes back -/

variable (m : (ℓ : Loc nD τ sig) → Buf (Elt F) ℓ) (ρ : Dev nD → PrngReg)

/-- What the proof asks of the launch memory: every word of the list names a place below 64. -/
def PreOK : Prop := ∀ (d : Dev nD) (j : S64.Idx), (m (pLoc d) j).toNat < 64

-- What the flat input holds when the call is made (the first reshape's result), per device: a parameter here.
variable (X : (d : Dev nD) → Buf (Elt F) (xLoc d))

/-- What the flat result holds after the call: the input permuted inside every run of 64 by the list. -/
def Gout (d : Dev nD) : Buf (Elt F) (oLoc d) := Cert.Spec.permFlat (X d) (m (pLoc d))

/-- A tile's holdings: a read share of the list and of the input, and its own stretch of the result at `fo`. -/
abbrev tileRes (d : Dev nD) (w : Fin 32) (fo : Buf (Elt F) (oLoc d)) : sProp 𝕄 :=
  iprop((pLoc d ↦{tokS w} m (pLoc d)) ∗ (xLoc d ↦{tokS w} X d) ∗ (oLoc d ↦[reg w]{fullShare} fo))

/-- The one call: each SparseCore takes its sixteen tiles' holdings, each tile its own; the result's stretches come
    back at the permuted input. -/
def P : (K (F := F)).Pay (nD := nD) (Val := Elt F) (Name := ℕ) (U := UU) where
  st := fun q d c => match q with
    | 0 => bigSep Finset.univ fun i : Fin 16 => tileRes m X d (wid (Fin.cast nCore_zero c) i) (m (oLoc d))
  dn := fun q d c => match q with
    | 0 => bigSep Finset.univ fun i : Fin 16 => tileRes m X d (wid (Fin.cast nCore_zero c) i) (Gout m X d)
  go := fun q d c i => match q with
    | 0 => tileRes m X d (wid (Fin.cast nCore_zero c) (Fin.cast nSub_zero i)) (m (oLoc d))
  td := fun q d c i => match q with
    | 0 => tileRes m X d (wid (Fin.cast nCore_zero c) (Fin.cast nSub_zero i)) (Gout m X d)
  x := fun _ _ => iprop(emp)

instance P_storable : (P (F := F) m X).IsStorable where
  st q d c := match q with
    | 0 => (inferInstance : BI.Storable (upEmb : UEmb _ 𝕄)
        (bigSep Finset.univ fun i : Fin 16 => tileRes m X d (wid (Fin.cast nCore_zero c) i) (m (oLoc d))))
  dn q d c := match q with
    | 0 => (inferInstance : BI.Storable (upEmb : UEmb _ 𝕄)
        (bigSep Finset.univ fun i : Fin 16 => tileRes m X d (wid (Fin.cast nCore_zero c) i) (Gout m X d)))
  go q d c i := match q with
    | 0 => (inferInstance : BI.Storable (upEmb : UEmb _ 𝕄) (tileRes m X d (wid (Fin.cast nCore_zero c) (Fin.cast nSub_zero i)) (m (oLoc d))))
  td q d c i := match q with
    | 0 => (inferInstance : BI.Storable (upEmb : UEmb _ 𝕄) (tileRes m X d (wid (Fin.cast nCore_zero c) (Fin.cast nSub_zero i)) (Gout m X d)))

/-! ## A tile's coordinates -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The number of the tile at grid coordinates `L`. -/
abbrev wL (L : grid0.Coords) : Fin 32 := wid (Fin.cast bound_zero (L 0)) (Fin.cast bound_one (L 1))

def coordsV (c : Fin (grid0.bound 0)) (s : Fin (grid0.bound 1)) : grid0.Coords :=
  fun | 0 => c | 1 => s | ⟨_ + 2, h⟩ => absurd h (Nat.not_lt.2 (Nat.le_add_left _ _))

end Cert.Proof.KI

end
-- ==== Proof.KI.BodyPre.lean ====
/-
  One tile's task. The tile copies the list of 64 places into its own memory and reads it as four vectors of 16
  places; then, for each of its 32 slices of 16384 entries, two at a time in two pairs of buffers: wait for the slice
  to arrive, build the permuted slice — entry `64·g + j` of the output buffer is entry `64·g + p j` of the input
  buffer, sixteen entries at a time —, send it to the slice's place in the result, and ask for the slice after next.
-/
import proofs.«213039_g63608465654469_cont_9to1_m_885_2_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (X : (d : Dev nD) → Buf (Elt F) (xLoc d))

-- the kernel's memrefs, spelt as the body table passes them
local notation "xW" => (Memref.whole Cert.KernelIdeal.main_v0_scv : Memref Cert.KernelIdeal.sig Kind.scVector Space.hbm Cert.KernelIdeal.S16777216 EltTy.f32)
local notation "pW" => (Memref.whole Cert.KernelIdeal.main_arg1_scv : Memref Cert.KernelIdeal.sig Kind.scVector Space.hbm Cert.KernelIdeal.S64 EltTy.i32)
local notation "oW" => (Memref.whole Cert.KernelIdeal.main_v1_scv : Memref Cert.KernelIdeal.sig Kind.scVector Space.hbm Cert.KernelIdeal.S16777216 EltTy.f32)
local notation "in0" => (Memref.whole Cert.KernelIdeal.cc0_scratch0 : Memref Cert.KernelIdeal.sig Kind.scVector Space.vmem Cert.KernelIdeal.S16384 EltTy.f32)
local notation "in1" => (Memref.whole Cert.KernelIdeal.cc0_scratch1 : Memref Cert.KernelIdeal.sig Kind.scVector Space.vmem Cert.KernelIdeal.S16384 EltTy.f32)
local notation "ou0" => (Memref.whole Cert.KernelIdeal.cc0_scratch2 : Memref Cert.KernelIdeal.sig Kind.scVector Space.vmem Cert.KernelIdeal.S16384 EltTy.f32)
local notation "ou1" => (Memref.whole Cert.KernelIdeal.cc0_scratch3 : Memref Cert.KernelIdeal.sig Kind.scVector Space.vmem Cert.KernelIdeal.S16384 EltTy.f32)
local notation "pS" => (Memref.whole Cert.KernelIdeal.cc0_scratch4 : Memref Cert.KernelIdeal.sig Kind.scVector Space.vmem Cert.KernelIdeal.S64 EltTy.i32)

variable [FloatOps F]

section Tile

variable (d : Dev nD) (L : grid0.Coords)

/-- The tile's five transfer counters: the two arrivals', the two departures', the list copy's. -/
abbrev cI0 (c : Fin τ.nSC) (i : Fin τ.nSub) : GSem nD τ sig := (V d c i, .dma cc0_scratch5.sem)
abbrev cI1 (c : Fin τ.nSC) (i : Fin τ.nSub) : GSem nD τ sig := (V d c i, .dma cc0_scratch6.sem)
abbrev cO0 (c : Fin τ.nSC) (i : Fin τ.nSub) : GSem nD τ sig := (V d c i, .dma cc0_scratch7.sem)
abbrev cO1 (c : Fin τ.nSC) (i : Fin τ.nSub) : GSem nD τ sig := (V d c i, .dma cc0_scratch8.sem)
abbrev cP (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cI0 d (cV L) (jV L)) 0 ∗ semVal (cI1 d (cV L) (jV L)) 0 ∗ semVal (cO0 d (cV L) (jV L)) 0
          ∗ semVal (cO1 d (cV L) (jV L)) 0 ∗ semVal (cP d (cV L) (jV L)) 0
          ∗ bigSep ((((((ownCells (V d (cV L) (jV L))).erase (cI0 d (cV L) (jV L))).erase (cI1 d (cV L) (jV L))).erase (cO0 d (cV L) (jV L))).erase
              (cO1 d (cV L) (jV L))).erase (cP d (cV L) (jV L)))
              fun g => semVal g 0) := by
  unfold SparseCore.Cfg.ownSems0
  have hm : ∀ sm : DmaSem sig, ((V d (cV L) (jV L), SemLoc.dma sm) : GSem nD τ sig) ∈ ownCells (V d (cV L) (jV L)) := fun sm =>
    (mem_ownCells (g := (V d (cV L) (jV L), SemLoc.dma sm))).mpr ⟨rfl, by
      show (SemLoc.dma sm : SemLoc sig).isScoped .scVector = true; revert sm; decide⟩
  have hne : ∀ a b : DmaSem sig, a ≠ b → ((V d (cV L) (jV L), SemLoc.dma a) : GSem nD τ sig) ≠ (V d (cV L) (jV L), SemLoc.dma b) :=
    fun a b h e => h (SemLoc.dma.inj (Prod.mk.inj e).2)
  rw [SparseCore.bigSep_erase' (hm cc0_scratch5.sem),
    SparseCore.bigSep_erase' (Finset.mem_erase.mpr ⟨hne _ _ (by decide), hm cc0_scratch6.sem⟩),
    SparseCore.bigSep_erase' (Finset.mem_erase.mpr ⟨hne _ _ (by decide), Finset.mem_erase.mpr ⟨hne _ _ (by decide), hm cc0_scratch7.sem⟩⟩),
    SparseCore.bigSep_erase' (Finset.mem_erase.mpr ⟨hne _ _ (by decide), Finset.mem_erase.mpr ⟨hne _ _ (by decide),
      Finset.mem_erase.mpr ⟨hne _ _ (by decide), hm cc0_scratch8.sem⟩⟩⟩),
    SparseCore.bigSep_erase' (Finset.mem_erase.mpr ⟨hne _ _ (by decide), Finset.mem_erase.mpr ⟨hne _ _ (by decide),
      Finset.mem_erase.mpr ⟨hne _ _ (by decide), Finset.mem_erase.mpr ⟨hne _ _ (by decide), hm cc0_scoped0.sem⟩⟩⟩⟩)]

/-- The tile's own buffers without the five the kernel names. -/
abbrev restRefs : Finset (DevRef τ sig) :=
  (((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)).erase ((Proc.scVector (cV L) (jV L)).devRef cc0_scratch4)

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep (restRefs L) fun b => iprop(∃ f, ((d, b) : Loc nD τ sig) ↦{fullShare} f)) := by
  unfold SparseCore.Cfg.ownBufs restRefs
  have hm : ∀ r : Ref sig .scVector, (Proc.scVector (cV L) (jV L)).devRef r ∈ ownRefs (τ := τ) (sig := sig) (.scVector (cV L) (jV L)) → True := fun _ _ => trivial
  have hne : ∀ a b : Ref sig .scVector, a ≠ b → (Proc.scVector (cV L) (jV L)).devRef a ≠ (Proc.scVector (cV L) (jV L)).devRef b :=
    fun a b h e => h (Proc.devRef_injective _ e)
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne _ _ (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨hne _ _ (by decide), Finset.mem_erase.mpr ⟨hne _ _ (by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨hne _ _ (by decide), Finset.mem_erase.mpr ⟨hne _ _ (by decide), Finset.mem_erase.mpr ⟨hne _ _ (by decide),
      SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide),
      SparseCore.Cfg.mem_ownRefs_of_owner (p := Proc.scVector (cV L) (jV L)) (b := (Proc.scVector (cV L) (jV L)).devRef cc0_scratch4) rfl⟩⟩⟩⟩)]

omit [FloatOps F] in
theorem pts_x (q : PosShare TreeShare) (f : Buf (Elt F) (xLoc d)) :
    ((xW).view.loc (V d (cV L) (jV L)) ↦{q} f : sProp 𝕄) = xLoc d ↦{q} f := by
  simp only [Memref.view_whole, View.set_whole]
omit [FloatOps F] in
theorem pts_p (q : PosShare TreeShare) (f : Buf (Elt F) (pLoc d)) :
    ((pW).view.loc (V d (cV L) (jV L)) ↦{q} f : sProp 𝕄) = pLoc d ↦{q} f := by
  simp only [Memref.view_whole, View.set_whole]

end Tile

end Cert.Proof.KI

end
-- ==== Proof.KI.BodyStmt.lean ====
/-
  The statement of one tile's task, as a proposition: from the tile's holdings (its read shares of the input and of the
  list, its stretch of the result as the launch left it), its scratch buffers and its counters at zero, the task runs
  to its end and hands the same back, the stretch of the result now holding the permuted input.
-/
import proofs.«213039_g63608465654469_cont_9to1_m_885_2_alg».proof.Proof.KI.BodyPre

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "xW" => (Memref.whole Cert.KernelIdeal.main_v0_scv : Memref Cert.KernelIdeal.sig Kind.scVector Space.hbm Cert.KernelIdeal.S16777216 EltTy.f32)
local notation "pW" => (Memref.whole Cert.KernelIdeal.main_arg1_scv : Memref Cert.KernelIdeal.sig Kind.scVector Space.hbm Cert.KernelIdeal.S64 EltTy.i32)
local notation "oW" => (Memref.whole Cert.KernelIdeal.main_v1_scv : Memref Cert.KernelIdeal.sig Kind.scVector Space.hbm Cert.KernelIdeal.S16777216 EltTy.f32)
local notation "in0" => (Memref.whole Cert.KernelIdeal.cc0_scratch0 : Memref Cert.KernelIdeal.sig Kind.scVector Space.vmem Cert.KernelIdeal.S16384 EltTy.f32)
local notation "in1" => (Memref.whole Cert.KernelIdeal.cc0_scratch1 : Memref Cert.KernelIdeal.sig Kind.scVector Space.vmem Cert.KernelIdeal.S16384 EltTy.f32)
local notation "ou0" => (Memref.whole Cert.KernelIdeal.cc0_scratch2 : Memref Cert.KernelIdeal.sig Kind.scVector Space.vmem Cert.KernelIdeal.S16384 EltTy.f32)
local notation "ou1" => (Memref.whole Cert.KernelIdeal.cc0_scratch3 : Memref Cert.KernelIdeal.sig Kind.scVector Space.vmem Cert.KernelIdeal.S16384 EltTy.f32)
local notation "pS" => (Memref.whole Cert.KernelIdeal.cc0_scratch4 : Memref Cert.KernelIdeal.sig Kind.scVector Space.vmem Cert.KernelIdeal.S64 EltTy.i32)

/-- One tile's task, at every device, tile, debt and record of waits. -/
def TileBodySpec [FloatOps F] (m : (ℓ : Loc nD τ sig) → Buf (Elt F) ℓ) (X : (d : Dev nD) → Buf (Elt F) (xLoc d)) : Prop :=
  ∀ (d : Dev nD) (L : grid0.Coords) (O : CellTallies nD τ sig (HIx 1)) (W : Waits sig (HIx 1)), (∀ g, O g none = 0) →
    iprop(levAts (K (F := F)).L (K (F := F)).lev ∗ emp ∗ tileRes m X d (wL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__permute_sc L xW (Memref.isWhole_whole _) pW (Memref.isWhole_whole _) oW (Memref.isWhole_whole _)
            in0 (Memref.isWhole_whole _) in1 (Memref.isWhole_whole _) ou0 (Memref.isWhole_whole _) ou1 (Memref.isWhole_whole _)
            pS (Memref.isWhole_whole _) cc0_scratch5 cc0_scratch6 cc0_scratch7 cc0_scratch8 cc0_scoped0)
          fun _ => iprop(tileRes m X d (wL L) (Gout m X d) ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI

end
-- ==== Proof.KI.Launch.lean ====
/-
  The run of the whole program, from the body of one tile. @main reshapes the input to one flat row, hands the two
  SparseCores the flat row, the list of places and the flat result, and reshapes what comes back. Each of the 32
  tiles is lent a read share of the flat row and of the list and is given its own stretch of the result; the
  stretches are pairwise disjoint and cover the row, so what the tiles return is the flat result whole, at the
  permuted input, and the last reshape gives it the input's shape: the specification of the arguments.
-/
import proofs.«213039_g63608465654469_cont_9to1_m_885_2_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg)

/-- What the flat input holds at the call: the first reshape's result. -/
def Xof (d : Dev nD) : Buf (Elt F) (xLoc d) :=
  shapeCast S16777216 (m ((SparseCore.T d).loc main_arg0)) shapeCasts_S4x2048x2048_S16777216

/-! ## The 32 tiles by number: two SparseCores of sixteen -/

/-- Number `2·s + c` is tile `s` of SparseCore `c`: every number below 32 is exactly one tile's. -/
def widEquiv : Fin 2 × Fin 16 ≃ Fin 32 where
  toFun p := wid p.1 p.2
  invFun w := (⟨w.val % 2, Nat.mod_lt _ (by decide)⟩, ⟨w.val / 2, by omega⟩)
  left_inv p := by
    rcases p with ⟨c, s⟩
    refine Prod.ext (Fin.ext ?_) (Fin.ext ?_)
    · show (2 * s.val + c.val) % 2 = c.val
      omega
    · show (2 * s.val + c.val) / 2 = s.val
      omega
  right_inv w := Fin.ext (by show 2 * (w.val / 2) + w.val % 2 = w.val; omega)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- Over the two SparseCores and, in each, the sixteen tiles, is over the 32 tile numbers. -/
theorem bigSep_workers (Φ : Fin 32 → sProp 𝕄) :
    (bigSep Finset.univ fun c : Fin ((K (F := F)).nCore 0) => bigSep Finset.univ fun i : Fin 16 => Φ (wid (Fin.cast nCore_zero c) i))
      = bigSep Finset.univ Φ := by
  rw [bigSep_univ_equiv widEquiv Φ, bigSep_univ_prod]
  exact bigSep_congr fun _ _ => bigSep_congr fun _ _ => congrArg Φ (congrArg (fun c => wid c _) (Fin.ext rfl))

/-! ## The stretches: pairwise disjoint, covering the flat row -/

theorem reg_disjoint : ∀ w ∈ (Finset.univ : Finset (Fin 32)), ∀ w' ∈ (Finset.univ : Finset (Fin 32)), w ≠ w' → Disjoint (reg w) (reg w') := by
  intro w _ w' _ h
  refine Finset.disjoint_left.mpr fun i h1 h2 => ?_
  simp only [reg, Finset.mem_filter, Finset.mem_univ, true_and] at h1 h2
  exact h (Fin.ext (by omega))

theorem reg_cover : (Finset.univ : Finset (Fin 32)).biUnion reg = Finset.univ := by
  refine Finset.eq_univ_iff_forall.mpr fun i => Finset.mem_biUnion.mpr ?_
  have h : (i 0).val < 16777216 := (i 0).isLt
  refine ⟨⟨(i 0).val / 524288, by omega⟩, Finset.mem_univ _, ?_⟩
  simp only [reg, Finset.mem_filter, Finset.mem_univ, true_and]
  constructor <;> omega

theorem oPts_regs (d : Dev nD) (f : Buf (Elt F) (oLoc d)) :
    (oLoc d ↦{fullShare} f : sProp 𝕄) = bigSep Finset.univ fun w : Fin 32 => oLoc d ↦[reg w]{fullShare} f := by
  rw [← pointsTo_biUnion Finset.univ (ℓ := oLoc d) reg reg_disjoint, reg_cover]; try rfl

/-! ## A tile's holdings, over all tiles -/

section Split

variable (X : (d : Dev nD) → Buf (Elt F) (xLoc d))

/-- All 32 tiles' holdings: the 32 read shares of the list, the 32 of the flat input, the flat result whole. -/
theorem tiles_eq (d : Dev nD) (fo : Buf (Elt F) (oLoc d)) :
    (bigSep Finset.univ fun w : Fin 32 => tileRes m X d w fo)
      = iprop((bigSep Finset.univ fun w : Fin 32 => (pLoc d ↦{tokS w} m (pLoc d) : sProp 𝕄))
          ∗ (bigSep Finset.univ fun w : Fin 32 => (xLoc d ↦{tokS w} X d : sProp 𝕄)) ∗ (oLoc d ↦{fullShare} fo)) := by
  rw [oPts_regs, bigSep_sep', bigSep_sep']

theorem st0_eq (d : Dev nD) :
    (bigSep Finset.univ fun c : Fin ((K (F := F)).nCore 0) => (P m X).st 0 d c)
      = iprop((bigSep Finset.univ fun w : Fin 32 => (pLoc d ↦{tokS w} m (pLoc d) : sProp 𝕄))
          ∗ (bigSep Finset.univ fun w : Fin 32 => (xLoc d ↦{tokS w} X d : sProp 𝕄)) ∗ (oLoc d ↦{fullShare} m (oLoc d))) :=
  (bigSep_workers (fun w => tileRes m X d w (m (oLoc d)))).trans (tiles_eq m X d _)

theorem dn0_eq (d : Dev nD) :
    (bigSep Finset.univ fun c : Fin ((K (F := F)).nCore 0) => (P m X).dn 0 d c)
      = iprop((bigSep Finset.univ fun w : Fin 32 => (pLoc d ↦{tokS w} m (pLoc d) : sProp 𝕄))
          ∗ (bigSep Finset.univ fun w : Fin 32 => (xLoc d ↦{tokS w} X d : sProp 𝕄)) ∗ (oLoc d ↦{fullShare} Gout m X d)) :=
  (bigSep_workers (fun w => tileRes m X d w (Gout m X d))).trans (tiles_eq m X d _)

/-- A SparseCore's holdings are its sixteen tiles', and come back so. -/
theorem vecSplit : (K (F := F)).VecSplit' (P m X) 0 := by
  intro d c
  show (bigSep Finset.univ fun i : Fin 16 => tileRes m X d (wid (Fin.cast nCore_zero c) i) (m (oLoc d)))
    ⊢ |={Set.univ}=> iprop(
      (bigSep Finset.univ fun i : Fin ((K (F := F)).nSub 0) => tileRes m X d (wid (Fin.cast nCore_zero c) (Fin.cast nSub_zero i)) (m (oLoc d)))
      ∗ ((bigSep Finset.univ fun i : Fin ((K (F := F)).nSub 0) => tileRes m X d (wid (Fin.cast nCore_zero c) (Fin.cast nSub_zero i)) (Gout m X d))
          -∗ (bigSep Finset.univ fun i : Fin 16 => tileRes m X d (wid (Fin.cast nCore_zero c) i) (Gout m X d))))
  rw [bigSep_tasks (F := F) (fun i => tileRes m X d (wid (Fin.cast nCore_zero c) i) (m (oLoc d))),
    bigSep_tasks (F := F) (fun i => tileRes m X d (wid (Fin.cast nCore_zero c) i) (Gout m X d))]
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m X).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Split

/-! ## @main on the TensorCore -/

abbrev a0' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev aLoc (d : Dev nD) : Loc nD τ sig := (SparseCore.T d).loc main_arg0
abbrev rLoc (d : Dev nD) : Loc nD τ sig := (SparseCore.T d).loc main_v2

/-- The two reshapes: the input to one flat row, the flat result to the input's shape. -/
abbrev opIn : HloOp τ sig (Elt F) := StableHlo.reshape main_arg0 main_v0 rfl shapeCasts_S4x2048x2048_S16777216
abbrev opOut : HloOp τ sig (Elt F) := StableHlo.reshape main_v1 main_v2 rfl shapeCasts_S16777216_S4x2048x2048

abbrev SIn : Finset (DevRef τ sig) := {a0', v0'}
abbrev SOut : Finset (DevRef τ sig) := {v1', v2'}

theorem unscopedBufs_eq (d : Dev nD) (W : (b : Ref sig .tc) → Buf (Elt F) ((d.tc : Thread nD τ).loc b)) :
    (unscopedBufs d W : sProp 𝕄) = iprop((aLoc d ↦{fullShare} W main_arg0) ∗ (pLoc d ↦{fullShare} W main_arg1) ∗ (xLoc d ↦{fullShare} W main_v0)
      ∗ (oLoc d ↦{fullShare} W main_v1) ∗ (rLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

theorem held_SIn (d : Dev nD) (W : Valuation τ sig (Elt F)) :
    (held (T d) SIn W : sProp 𝕄) = iprop((aLoc d ↦{fullShare} W a0') ∗ (xLoc d ↦{fullShare} W v0')) := by
  unfold held SIn
  rw [SparseCore.bigSep_insert' (by decide), bigSep_singleton]
theorem held_SOut (d : Dev nD) (W : Valuation τ sig (Elt F)) :
    (held (T d) SOut W : sProp 𝕄) = iprop((oLoc d ↦{fullShare} W v1') ∗ (rLoc d ↦{fullShare} W v2')) := by
  unfold held SOut
  rw [SparseCore.bigSep_insert' (by decide), bigSep_singleton]

/-- The launch valuation; and, after the call, the flat result at what the call left. -/
def V0 (d : Dev nD) : Valuation τ sig (Elt F) := fun b => m (d, b)
def V1 (d : Dev nD) (g : Buf (Elt F) (oLoc d)) : Valuation τ sig (Elt F) := Function.update (V0 m d) v1' g

theorem V1_v1 (d : Dev nD) (g : Buf (Elt F) (oLoc d)) : V1 m d g v1' = g := Function.update_self _ _ _
theorem V1_v2 (d : Dev nD) (g : Buf (Elt F) (oLoc d)) : V1 m d g v2' = m (rLoc d) := Function.update_of_ne (show v2' ≠ v1' by decide) _ _

/-- After the first reshape: the input as it was, the flat row at the input in row-major order. -/
theorem held_In_after (d : Dev nD) :
    (held (T d) SIn ((opIn (F := F)).result (V0 m d)) : sProp 𝕄) = iprop((aLoc d ↦{fullShare} m (aLoc d)) ∗ (xLoc d ↦{fullShare} Xof m d)) := by
  rw [held_SIn, (opIn (F := F)).result_of_not_mem (V0 m d) (b := a0') (show a0' ∉ ({v0'} : Finset (DevRef τ sig)) by decide),
    show (opIn (F := F)).result (V0 m d) v0' = Xof m d from StableHlo.reshape_result _ _ _ _ _ _ _]
  rfl

/-- After the last reshape: the flat result as the call left it, the result at it in the input's shape. -/
theorem held_Out_after (d : Dev nD) (g : Buf (Elt F) (oLoc d)) :
    (held (T d) SOut ((opOut (F := F)).result (V1 m d g)) : sProp 𝕄)
      = iprop((oLoc d ↦{fullShare} g) ∗ (rLoc d ↦{fullShare} (shapeCast S4x2048x2048 g shapeCasts_S16777216_S4x2048x2048 : Buf (Elt F) (rLoc d)))) := by
  rw [held_SOut, (opOut (F := F)).result_of_not_mem (V1 m d g) (b := v1') (show v1' ∉ ({v2'} : Finset (DevRef τ sig)) by decide), V1_v1,
    show (opOut (F := F)).result (V1 m d g) v2' = (shapeCast S4x2048x2048 g shapeCasts_S16777216_S4x2048x2048 : Buf (Elt F) (rLoc d)) from
      (StableHlo.reshape_result _ _ _ _ _ _ _).trans (by rw [V1_v1]; rfl)]

/-- The flat result in the input's shape is the specification of the arguments. -/
theorem out_eq (d : Dev nD) :
    (shapeCast S4x2048x2048 (Gout m (Xof m) d) shapeCasts_S16777216_S4x2048x2048 : Buf (Elt F) (rLoc d))
      = Cert.Spec.permShaped (m (aLoc d)) (m (pLoc d)) := rfl

/-- What @main leaves the claim: the arguments as they were, the result at the specification. -/
abbrev FIN (d : Dev nD) : sProp 𝕄 :=
  iprop((aLoc d ↦{fullShare} m (aLoc d)) ∗ (pLoc d ↦{fullShare} m (pLoc d)) ∗ (rLoc d ↦{fullShare} (Cert.Spec.permShaped (m (aLoc d)) (m (pLoc d)) : Buf (Elt F) (rLoc d))))

variable [FloatOps F]

/-- @main on device `d`'s TensorCore: the first reshape; the tiles' shares and stretches dealt, the call, the shares and
    stretches back; the last reshape. -/
theorem hmain (κ : GSem nD τ sig → ℕ) (d : Dev nD) :
    iprop((K (F := F)).ctx EH (P m (Xof m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hv1, Hv2⟩, -, -⟩, -⟩
  -- the first reshape
  iapply (wp_hlo_within 𝒱 (SparseCore.T d) none Set.univ (op := opIn) (S := SIn) (Finset.Subset.refl _) (V := V0 m d)) $$ [Hb Ha0 Hv0]
  · isplitl [Hb]; · iexact Hb
    rw [held_SIn]
    isplitl [Ha0]; · iexact Ha0
    iexact Hv0
  iintro ⟨Hb, Hheld⟩
  ihave Hh := (Entails.of_eq (held_In_after m d)) $$ Hheld
  icases Hh with ⟨Ha0, Hv0⟩
  rw [wp_ret]; imodintro
  -- a read share of the list and of the flat input for each tile
  ihave Hp := (Transfers.pointsTo_toks_split fullShare 32) $$ Ha1
  icases Hp with ⟨Ha1r, Ha1t⟩
  ihave Hx := (Transfers.pointsTo_toks_split fullShare 32) $$ Hv0
  icases Hx with ⟨Hv0r, Hv0t⟩
  -- the call
  iapply ((K (F := F)).wp_run (D (F := F)) 𝒱 (EH := EH) (P := P m (Xof m)) κ d 0) $$ [Hst Hb Ha0 Ha1r Ha1t Hv0r Hv0t Hv1 Hv2]
  isplitr; · iexact Hctx
  isplitl [Hst]; · iexact Hst
  isplitl [Ha1t Hv0t Hv1]
  · rw [st0_eq]
    isplitl [Ha1t]; · iexact Ha1t
    isplitl [Hv0t]; · iexact Hv0t
    iexact Hv1
  iintro ⟨Hst, Hdn⟩
  ihave Hdn' := (Entails.of_eq (dn0_eq m (Xof m) d)) $$ Hdn
  icases Hdn' with ⟨Ha1t, -, Hv1⟩
  ihave Ha1 := (Transfers.pointsTo_toks_join fullShare 32) $$ [Ha1r Ha1t]
  · isplitl [Ha1r]; · iexact Ha1r
    iexact Ha1t
  -- the last reshape
  iapply (wp_hlo_within 𝒱 (SparseCore.T d) none Set.univ (op := opOut) (S := SOut) (Finset.Subset.refl _) (V := V1 m d (Gout m (Xof m) d))) $$ [Hb Hv1 Hv2]
  · isplitl [Hb]; · iexact Hb
    rw [held_SOut, V1_v1, V1_v2]
    isplitl [Hv1]; · iexact Hv1
    iexact Hv2
  iintro ⟨Hb, Hheld⟩
  ihave Hh := (Entails.of_eq ((held_Out_after m d _).trans (by rw [out_eq]))) $$ Hheld
  icases Hh with ⟨-, Hv2⟩
  rw [wp_ret]; imodintro; imodintro
  isplitl [Hst]; · iexact Hst
  isplitl [Ha0]; · iexact Ha0
  isplitl [Ha1]; · iexact Ha1
  iexact Hv2

/-- What the final memory is asked: the result at the specification, the arguments as they were. -/
def fq (d : Dev nD) (s' : Phys nD τ sig (Elt F)) : Prop :=
  s'.mem.mem (rLoc d) = Cert.Spec.permShaped (m (aLoc d)) (m (pLoc d)) ∧ s'.mem.mem (aLoc d) = m (aLoc d) ∧ s'.mem.mem (pLoc d) = m (pLoc d)

omit [FloatOps F] in
theorem hfin (d : Dev nD) (s' : Phys nD τ sig (Elt F)) : iprop(FIN m d ∗ SI s') ⊢ (⌜fq m d s'⌝ : sProp 𝕄) := by
  iintro ⟨⟨Ha, Hp, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (SI_pointsTo_agree (st := s') (ℓ := rLoc d) (I := Finset.univ) (q := fullShare)
    (f := (Cert.Spec.permShaped (m (aLoc d)) (m (pLoc d)) : Buf (Elt F) (rLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The run's post: the result is the specification of the arguments, the arguments unchanged. -/
def QC : PUnit × MemSt nD τ sig (Elt F) → Prop := fun r => ∀ c : Dev nD,
  r.2.mem ((c.tc : Thread nD τ).loc main_v2) = Cert.Spec.permShaped (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)

/-- From the body of one tile, the whole program: every weakly fair execution of the device's threads ends, the
    result at the specification of the arguments, the arguments unchanged. -/
theorem run_main [∀ e, Nonempty (Elt F e)] (hobl : (K (F := F)).TileObl (D (F := F)) 𝒱 (P m (Xof m)) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (Xof m)) facts v₀
    (fun q hq => match q with | 0 => nomatch hq)
    (fun q _ => match q with | 0 => hobl)
    (fun q _ => match q with | 0 => SparseCore.Cfg.VecSplit.of_plain (vecSplit m (Xof m)))
    m ρ main (fun _ => iprop(emp)) (FIN m) (u₀ (F := F)) (sep_elim_left.trans (hu₀ m (Xof m))) (hmain m ρ) (fq m) (hfin m) (QC m) (fun _ h => h)

end Cert.Proof.KI

end
-- ==== Proof.KI.Obl.lean ====
/-
  From one tile's task to what the launch asks of every tile. The launch names a tile by its SparseCore and its
  place among the sixteen; the task is stated at the grid's coordinates. The two name the same tile, the same
  tile number and the same program: the body table's entry for a tile is the kernel function at the tile's coordinates.
  With that, the program's run follows from the task alone.
-/
import proofs.«213039_g63608465654469_cont_9to1_m_885_2_alg».proof.Proof.KI.BodyStmt
import proofs.«213039_g63608465654469_cont_9to1_m_885_2_alg».proof.Proof.KI.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "xW" => (Memref.whole Cert.KernelIdeal.main_v0_scv : Memref Cert.KernelIdeal.sig Kind.scVector Space.hbm Cert.KernelIdeal.S16777216 EltTy.f32)
local notation "pW" => (Memref.whole Cert.KernelIdeal.main_arg1_scv : Memref Cert.KernelIdeal.sig Kind.scVector Space.hbm Cert.KernelIdeal.S64 EltTy.i32)
local notation "oW" => (Memref.whole Cert.KernelIdeal.main_v1_scv : Memref Cert.KernelIdeal.sig Kind.scVector Space.hbm Cert.KernelIdeal.S16777216 EltTy.f32)
local notation "in0" => (Memref.whole Cert.KernelIdeal.cc0_scratch0 : Memref Cert.KernelIdeal.sig Kind.scVector Space.vmem Cert.KernelIdeal.S16384 EltTy.f32)
local notation "in1" => (Memref.whole Cert.KernelIdeal.cc0_scratch1 : Memref Cert.KernelIdeal.sig Kind.scVector Space.vmem Cert.KernelIdeal.S16384 EltTy.f32)
local notation "ou0" => (Memref.whole Cert.KernelIdeal.cc0_scratch2 : Memref Cert.KernelIdeal.sig Kind.scVector Space.vmem Cert.KernelIdeal.S16384 EltTy.f32)
local notation "ou1" => (Memref.whole Cert.KernelIdeal.cc0_scratch3 : Memref Cert.KernelIdeal.sig Kind.scVector Space.vmem Cert.KernelIdeal.S16384 EltTy.f32)
local notation "pS" => (Memref.whole Cert.KernelIdeal.cc0_scratch4 : Memref Cert.KernelIdeal.sig Kind.scVector Space.vmem Cert.KernelIdeal.S64 EltTy.i32)

variable (m : (ℓ : Loc nD τ sig) → Buf (Elt F) ℓ) (ρ : Dev nD → PrngReg)
variable (X : (d : Dev nD) → Buf (Elt F) (xLoc d))

variable [FloatOps F]

/-- The body table's entry for a tile: the kernel function at the tile's coordinates. -/
theorem defs₀_vector (c : Fin τ.nSC) (s : Fin τ.nSub) :
    defs₀ (F := F) (.scVector c s) 0 ()
      = SparseCore.onTile hcore0 hsub0 (fun c s => cc0__permute_sc (coordsV c s)
          xW (Memref.isWhole_whole _) pW (Memref.isWhole_whole _) oW (Memref.isWhole_whole _)
          in0 (Memref.isWhole_whole _) in1 (Memref.isWhole_whole _) ou0 (Memref.isWhole_whole _) ou1 (Memref.isWhole_whole _)
          pS (Memref.isWhole_whole _) cc0_scratch5 cc0_scratch6 cc0_scratch7 cc0_scratch8 cc0_scoped0) ⟨⟩ c s := rfl

omit [FloatOps F] in
/-- The post weakened to the launch's: a new wait that belongs to no call belongs to no call or to call `q`. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the launch asks of every tile, from the task. -/
theorem tileObl (hb : TileBodySpec m X) : (K (F := F)).TileObl (D (F := F)) 𝒱 (P m X) v₀ 0 := by
  intro d c i O W hO _ _
  simp only [show (P m X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

/-- The program's run, from the task alone. -/
theorem run [∀ e, Nonempty (Elt F e)] (hb : TileBodySpec m (Xof m)) :
    θ_run (Cert.KernelIdeal.defs (F := F)) (Cert.KernelIdeal.threads (F := F)) ⟨m, fun _ => 0, ρ⟩ (QC m) :=
  run_main m ρ (tileObl m (Xof m) hb)

end Cert.Proof.KI

end
-- ==== Proof.KB.Common.lean ====
/-
  What every part of the kernel's proof shares: the program as the launch theorem reads it, the ghost state (the
  launch's handshakes beside the counters the local copies use), the three arrays a tile touches — the flat input,
  the list of 64 places, the flat result —, the stretch of the flat arrays tile number `w` owns
  (entries 524288·w … 524288·(w+1)), and what the call hands each tile and takes back: a read share of the input and of
  the list, and the tile's stretch of the result, returned holding the permuted input.
-/
import proofs.«213039_g63608465654469_cont_9to1_m_885_2_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«213039_g63608465654469_cont_9to1_m_885_2_alg».proof.Proof.Gen.Kernel
import proofs.«213039_g63608465654469_cont_9to1_m_885_2_alg».proof.Proof.Gen.Kernel.Skeleton
import proofs.«213039_g63608465654469_cont_9to1_m_885_2_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flat input (written by @main's first reshape), the list of places (an argument), the flat result. -/
abbrev xLoc (d : Dev nD) : Loc nD τ sig := (SparseCore.T d).loc main_v0
abbrev pLoc (d : Dev nD) : Loc nD τ sig := (SparseCore.T d).loc main_arg1
abbrev oLoc (d : Dev nD) : Loc nD τ sig := (SparseCore.T d).loc main_v1

/-- Tile `(c, s)` has number `2·s + c` among the 32 tiles. -/
def wid (c : Fin 2) (s : Fin 16) : Fin 32 := ⟨2 * s.val + c.val, by omega⟩

/-- Tile number `w`'s stretch of a flat array: entries `524288·w ≤ i < 524288·(w+1)`. -/
def reg (w : Fin 32) : Finset S16777216.Idx :=
  Finset.univ.filter fun i => 524288 * w.val ≤ (i 0).val ∧ (i 0).val < 524288 * (w.val + 1)

/-- Tile number `w`'s read share of an array every tile reads. -/
abbrev tokS (w : Fin 32) : PosShare TreeShare := Transfers.shareTok fullShare 32 w

/-! ## What the call hands a tile, and takes back -/

variable (m : (ℓ : Loc nD τ sig) → Buf (Elt F) ℓ) (ρ : Dev nD → PrngReg)

/-- What the proof asks of the launch memory: every word of the list names a place below 64. -/
def PreOK : Prop := ∀ (d : Dev nD) (j : S64.Idx), (m (pLoc d) j).toNat < 64

-- What the flat input holds when the call is made (the first reshape's result), per device: a parameter here.
variable (X : (d : Dev nD) → Buf (Elt F) (xLoc d))

/-- What the flat result holds after the call: the input permuted inside every run of 64 by the list. -/
def Gout (d : Dev nD) : Buf (Elt F) (oLoc d) := Cert.Spec.permFlat (X d) (m (pLoc d))

/-- A tile's holdings: a read share of the list and of the input, and its own stretch of the result at `fo`. -/
abbrev tileRes (d : Dev nD) (w : Fin 32) (fo : Buf (Elt F) (oLoc d)) : sProp 𝕄 :=
  iprop((pLoc d ↦{tokS w} m (pLoc d)) ∗ (xLoc d ↦{tokS w} X d) ∗ (oLoc d ↦[reg w]{fullShare} fo))

/-- The one call: each SparseCore takes its sixteen tiles' holdings, each tile its own; the result's stretches come
    back at the permuted input. -/
def P : (K (F := F)).Pay (nD := nD) (Val := Elt F) (Name := ℕ) (U := UU) where
  st := fun q d c => match q with
    | 0 => bigSep Finset.univ fun i : Fin 16 => tileRes m X d (wid (Fin.cast nCore_zero c) i) (m (oLoc d))
  dn := fun q d c => match q with
    | 0 => bigSep Finset.univ fun i : Fin 16 => tileRes m X d (wid (Fin.cast nCore_zero c) i) (Gout m X d)
  go := fun q d c i => match q with
    | 0 => tileRes m X d (wid (Fin.cast nCore_zero c) (Fin.cast nSub_zero i)) (m (oLoc d))
  td := fun q d c i => match q with
    | 0 => tileRes m X d (wid (Fin.cast nCore_zero c) (Fin.cast nSub_zero i)) (Gout m X d)
  x := fun _ _ => iprop(emp)

instance P_storable : (P (F := F) m X).IsStorable where
  st q d c := match q with
    | 0 => (inferInstance : BI.Storable (upEmb : UEmb _ 𝕄)
        (bigSep Finset.univ fun i : Fin 16 => tileRes m X d (wid (Fin.cast nCore_zero c) i) (m (oLoc d))))
  dn q d c := match q with
    | 0 => (inferInstance : BI.Storable (upEmb : UEmb _ 𝕄)
        (bigSep Finset.univ fun i : Fin 16 => tileRes m X d (wid (Fin.cast nCore_zero c) i) (Gout m X d)))
  go q d c i := match q with
    | 0 => (inferInstance : BI.Storable (upEmb : UEmb _ 𝕄) (tileRes m X d (wid (Fin.cast nCore_zero c) (Fin.cast nSub_zero i)) (m (oLoc d))))
  td q d c i := match q with
    | 0 => (inferInstance : BI.Storable (upEmb : UEmb _ 𝕄) (tileRes m X d (wid (Fin.cast nCore_zero c) (Fin.cast nSub_zero i)) (Gout m X d)))

/-! ## A tile's coordinates -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The number of the tile at grid coordinates `L`. -/
abbrev wL (L : grid0.Coords) : Fin 32 := wid (Fin.cast bound_zero (L 0)) (Fin.cast bound_one (L 1))

def coordsV (c : Fin (grid0.bound 0)) (s : Fin (grid0.bound 1)) : grid0.Coords :=
  fun | 0 => c | 1 => s | ⟨_ + 2, h⟩ => absurd h (Nat.not_lt.2 (Nat.le_add_left _ _))

end Cert.Proof.KB

end
-- ==== Proof.KB.BodyPre.lean ====
/-
  One tile's task. The tile copies the list of 64 places into its own memory and reads it as four vectors of 16
  places; then, for each of its 32 slices of 16384 entries, two at a time in two pairs of buffers: wait for the slice
  to arrive, build the permuted slice — entry `64·g + j` of the output buffer is entry `64·g + p j` of the input
  buffer, sixteen entries at a time —, send it to the slice's place in the result, and ask for the slice after next.
-/
import proofs.«213039_g63608465654469_cont_9to1_m_885_2_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (X : (d : Dev nD) → Buf (Elt F) (xLoc d))

-- the kernel's memrefs, spelt as the body table passes them
local notation "xW" => (Memref.whole Cert.Kernel.main_v0_scv : Memref Cert.Kernel.sig Kind.scVector Space.hbm Cert.Kernel.S16777216 EltTy.f32)
local notation "pW" => (Memref.whole Cert.Kernel.main_arg1_scv : Memref Cert.Kernel.sig Kind.scVector Space.hbm Cert.Kernel.S64 EltTy.i32)
local notation "oW" => (Memref.whole Cert.Kernel.main_v1_scv : Memref Cert.Kernel.sig Kind.scVector Space.hbm Cert.Kernel.S16777216 EltTy.f32)
local notation "in0" => (Memref.whole Cert.Kernel.cc0_scratch0 : Memref Cert.Kernel.sig Kind.scVector Space.vmem Cert.Kernel.S16384 EltTy.f32)
local notation "in1" => (Memref.whole Cert.Kernel.cc0_scratch1 : Memref Cert.Kernel.sig Kind.scVector Space.vmem Cert.Kernel.S16384 EltTy.f32)
local notation "ou0" => (Memref.whole Cert.Kernel.cc0_scratch2 : Memref Cert.Kernel.sig Kind.scVector Space.vmem Cert.Kernel.S16384 EltTy.f32)
local notation "ou1" => (Memref.whole Cert.Kernel.cc0_scratch3 : Memref Cert.Kernel.sig Kind.scVector Space.vmem Cert.Kernel.S16384 EltTy.f32)
local notation "pS" => (Memref.whole Cert.Kernel.cc0_scratch4 : Memref Cert.Kernel.sig Kind.scVector Space.vmem Cert.Kernel.S64 EltTy.i32)

variable [FloatOps F]

section Tile

variable (d : Dev nD) (L : grid0.Coords)

/-- The tile's five transfer counters: the two arrivals', the two departures', the list copy's. -/
abbrev cI0 (c : Fin τ.nSC) (i : Fin τ.nSub) : GSem nD τ sig := (V d c i, .dma cc0_scratch5.sem)
abbrev cI1 (c : Fin τ.nSC) (i : Fin τ.nSub) : GSem nD τ sig := (V d c i, .dma cc0_scratch6.sem)
abbrev cO0 (c : Fin τ.nSC) (i : Fin τ.nSub) : GSem nD τ sig := (V d c i, .dma cc0_scratch7.sem)
abbrev cO1 (c : Fin τ.nSC) (i : Fin τ.nSub) : GSem nD τ sig := (V d c i, .dma cc0_scratch8.sem)
abbrev cP (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cI0 d (cV L) (jV L)) 0 ∗ semVal (cI1 d (cV L) (jV L)) 0 ∗ semVal (cO0 d (cV L) (jV L)) 0
          ∗ semVal (cO1 d (cV L) (jV L)) 0 ∗ semVal (cP d (cV L) (jV L)) 0
          ∗ bigSep ((((((ownCells (V d (cV L) (jV L))).erase (cI0 d (cV L) (jV L))).erase (cI1 d (cV L) (jV L))).erase (cO0 d (cV L) (jV L))).erase
              (cO1 d (cV L) (jV L))).erase (cP d (cV L) (jV L)))
              fun g => semVal g 0) := by
  unfold SparseCore.Cfg.ownSems0
  have hm : ∀ sm : DmaSem sig, ((V d (cV L) (jV L), SemLoc.dma sm) : GSem nD τ sig) ∈ ownCells (V d (cV L) (jV L)) := fun sm =>
    (mem_ownCells (g := (V d (cV L) (jV L), SemLoc.dma sm))).mpr ⟨rfl, by
      show (SemLoc.dma sm : SemLoc sig).isScoped .scVector = true; revert sm; decide⟩
  have hne : ∀ a b : DmaSem sig, a ≠ b → ((V d (cV L) (jV L), SemLoc.dma a) : GSem nD τ sig) ≠ (V d (cV L) (jV L), SemLoc.dma b) :=
    fun a b h e => h (SemLoc.dma.inj (Prod.mk.inj e).2)
  rw [SparseCore.bigSep_erase' (hm cc0_scratch5.sem),
    SparseCore.bigSep_erase' (Finset.mem_erase.mpr ⟨hne _ _ (by decide), hm cc0_scratch6.sem⟩),
    SparseCore.bigSep_erase' (Finset.mem_erase.mpr ⟨hne _ _ (by decide), Finset.mem_erase.mpr ⟨hne _ _ (by decide), hm cc0_scratch7.sem⟩⟩),
    SparseCore.bigSep_erase' (Finset.mem_erase.mpr ⟨hne _ _ (by decide), Finset.mem_erase.mpr ⟨hne _ _ (by decide),
      Finset.mem_erase.mpr ⟨hne _ _ (by decide), hm cc0_scratch8.sem⟩⟩⟩),
    SparseCore.bigSep_erase' (Finset.mem_erase.mpr ⟨hne _ _ (by decide), Finset.mem_erase.mpr ⟨hne _ _ (by decide),
      Finset.mem_erase.mpr ⟨hne _ _ (by decide), Finset.mem_erase.mpr ⟨hne _ _ (by decide), hm cc0_scoped0.sem⟩⟩⟩⟩)]

/-- The tile's own buffers without the five the kernel names. -/
abbrev restRefs : Finset (DevRef τ sig) :=
  (((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)).erase ((Proc.scVector (cV L) (jV L)).devRef cc0_scratch4)

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep (restRefs L) fun b => iprop(∃ f, ((d, b) : Loc nD τ sig) ↦{fullShare} f)) := by
  unfold SparseCore.Cfg.ownBufs restRefs
  have hm : ∀ r : Ref sig .scVector, (Proc.scVector (cV L) (jV L)).devRef r ∈ ownRefs (τ := τ) (sig := sig) (.scVector (cV L) (jV L)) → True := fun _ _ => trivial
  have hne : ∀ a b : Ref sig .scVector, a ≠ b → (Proc.scVector (cV L) (jV L)).devRef a ≠ (Proc.scVector (cV L) (jV L)).devRef b :=
    fun a b h e => h (Proc.devRef_injective _ e)
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne _ _ (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨hne _ _ (by decide), Finset.mem_erase.mpr ⟨hne _ _ (by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨hne _ _ (by decide), Finset.mem_erase.mpr ⟨hne _ _ (by decide), Finset.mem_erase.mpr ⟨hne _ _ (by decide),
      SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide),
      SparseCore.Cfg.mem_ownRefs_of_owner (p := Proc.scVector (cV L) (jV L)) (b := (Proc.scVector (cV L) (jV L)).devRef cc0_scratch4) rfl⟩⟩⟩⟩)]

omit [FloatOps F] in
theorem pts_x (q : PosShare TreeShare) (f : Buf (Elt F) (xLoc d)) :
    ((xW).view.loc (V d (cV L) (jV L)) ↦{q} f : sProp 𝕄) = xLoc d ↦{q} f := by
  simp only [Memref.view_whole, View.set_whole]
omit [FloatOps F] in
theorem pts_p (q : PosShare TreeShare) (f : Buf (Elt F) (pLoc d)) :
    ((pW).view.loc (V d (cV L) (jV L)) ↦{q} f : sProp 𝕄) = pLoc d ↦{q} f := by
  simp only [Memref.view_whole, View.set_whole]

end Tile

end Cert.Proof.KB

end
-- ==== Proof.KB.BodyStmt.lean ====
/-
  The statement of one tile's task, as a proposition: from the tile's holdings (its read shares of the input and of the
  list, its stretch of the result as the launch left it), its scratch buffers and its counters at zero, the task runs
  to its end and hands the same back, the stretch of the result now holding the permuted input.
-/
import proofs.«213039_g63608465654469_cont_9to1_m_885_2_alg».proof.Proof.KB.BodyPre

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "xW" => (Memref.whole Cert.Kernel.main_v0_scv : Memref Cert.Kernel.sig Kind.scVector Space.hbm Cert.Kernel.S16777216 EltTy.f32)
local notation "pW" => (Memref.whole Cert.Kernel.main_arg1_scv : Memref Cert.Kernel.sig Kind.scVector Space.hbm Cert.Kernel.S64 EltTy.i32)
local notation "oW" => (Memref.whole Cert.Kernel.main_v1_scv : Memref Cert.Kernel.sig Kind.scVector Space.hbm Cert.Kernel.S16777216 EltTy.f32)
local notation "in0" => (Memref.whole Cert.Kernel.cc0_scratch0 : Memref Cert.Kernel.sig Kind.scVector Space.vmem Cert.Kernel.S16384 EltTy.f32)
local notation "in1" => (Memref.whole Cert.Kernel.cc0_scratch1 : Memref Cert.Kernel.sig Kind.scVector Space.vmem Cert.Kernel.S16384 EltTy.f32)
local notation "ou0" => (Memref.whole Cert.Kernel.cc0_scratch2 : Memref Cert.Kernel.sig Kind.scVector Space.vmem Cert.Kernel.S16384 EltTy.f32)
local notation "ou1" => (Memref.whole Cert.Kernel.cc0_scratch3 : Memref Cert.Kernel.sig Kind.scVector Space.vmem Cert.Kernel.S16384 EltTy.f32)
local notation "pS" => (Memref.whole Cert.Kernel.cc0_scratch4 : Memref Cert.Kernel.sig Kind.scVector Space.vmem Cert.Kernel.S64 EltTy.i32)

/-- One tile's task, at every device, tile, debt and record of waits. -/
def TileBodySpec [FloatOps F] (m : (ℓ : Loc nD τ sig) → Buf (Elt F) ℓ) (X : (d : Dev nD) → Buf (Elt F) (xLoc d)) : Prop :=
  ∀ (d : Dev nD) (L : grid0.Coords) (O : CellTallies nD τ sig (HIx 1)) (W : Waits sig (HIx 1)), (∀ g, O g none = 0) →
    iprop(levAts (K (F := F)).L (K (F := F)).lev ∗ emp ∗ tileRes m X d (wL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__permute_sc L xW (Memref.isWhole_whole _) pW (Memref.isWhole_whole _) oW (Memref.isWhole_whole _)
            in0 (Memref.isWhole_whole _) in1 (Memref.isWhole_whole _) ou0 (Memref.isWhole_whole _) ou1 (Memref.isWhole_whole _)
            pS (Memref.isWhole_whole _) cc0_scratch5 cc0_scratch6 cc0_scratch7 cc0_scratch8 cc0_scoped0)
          fun _ => iprop(tileRes m X d (wL L) (Gout m X d) ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB

end
-- ==== Proof.KB.Launch.lean ====
/-
  The run of the whole program, from the body of one tile. @main reshapes the input to one flat row, hands the two
  SparseCores the flat row, the list of places and the flat result, and reshapes what comes back. Each of the 32
  tiles is lent a read share of the flat row and of the list and is given its own stretch of the result; the
  stretches are pairwise disjoint and cover the row, so what the tiles return is the flat result whole, at the
  permuted input, and the last reshape gives it the input's shape: the specification of the arguments.
-/
import proofs.«213039_g63608465654469_cont_9to1_m_885_2_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg)

/-- What the flat input holds at the call: the first reshape's result. -/
def Xof (d : Dev nD) : Buf (Elt F) (xLoc d) :=
  shapeCast S16777216 (m ((SparseCore.T d).loc main_arg0)) shapeCasts_S4x2048x2048_S16777216

/-! ## The 32 tiles by number: two SparseCores of sixteen -/

/-- Number `2·s + c` is tile `s` of SparseCore `c`: every number below 32 is exactly one tile's. -/
def widEquiv : Fin 2 × Fin 16 ≃ Fin 32 where
  toFun p := wid p.1 p.2
  invFun w := (⟨w.val % 2, Nat.mod_lt _ (by decide)⟩, ⟨w.val / 2, by omega⟩)
  left_inv p := by
    rcases p with ⟨c, s⟩
    refine Prod.ext (Fin.ext ?_) (Fin.ext ?_)
    · show (2 * s.val + c.val) % 2 = c.val
      omega
    · show (2 * s.val + c.val) / 2 = s.val
      omega
  right_inv w := Fin.ext (by show 2 * (w.val / 2) + w.val % 2 = w.val; omega)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- Over the two SparseCores and, in each, the sixteen tiles, is over the 32 tile numbers. -/
theorem bigSep_workers (Φ : Fin 32 → sProp 𝕄) :
    (bigSep Finset.univ fun c : Fin ((K (F := F)).nCore 0) => bigSep Finset.univ fun i : Fin 16 => Φ (wid (Fin.cast nCore_zero c) i))
      = bigSep Finset.univ Φ := by
  rw [bigSep_univ_equiv widEquiv Φ, bigSep_univ_prod]
  exact bigSep_congr fun _ _ => bigSep_congr fun _ _ => congrArg Φ (congrArg (fun c => wid c _) (Fin.ext rfl))

/-! ## The stretches: pairwise disjoint, covering the flat row -/

theorem reg_disjoint : ∀ w ∈ (Finset.univ : Finset (Fin 32)), ∀ w' ∈ (Finset.univ : Finset (Fin 32)), w ≠ w' → Disjoint (reg w) (reg w') := by
  intro w _ w' _ h
  refine Finset.disjoint_left.mpr fun i h1 h2 => ?_
  simp only [reg, Finset.mem_filter, Finset.mem_univ, true_and] at h1 h2
  exact h (Fin.ext (by omega))

theorem reg_cover : (Finset.univ : Finset (Fin 32)).biUnion reg = Finset.univ := by
  refine Finset.eq_univ_iff_forall.mpr fun i => Finset.mem_biUnion.mpr ?_
  have h : (i 0).val < 16777216 := (i 0).isLt
  refine ⟨⟨(i 0).val / 524288, by omega⟩, Finset.mem_univ _, ?_⟩
  simp only [reg, Finset.mem_filter, Finset.mem_univ, true_and]
  constructor <;> omega

theorem oPts_regs (d : Dev nD) (f : Buf (Elt F) (oLoc d)) :
    (oLoc d ↦{fullShare} f : sProp 𝕄) = bigSep Finset.univ fun w : Fin 32 => oLoc d ↦[reg w]{fullShare} f := by
  rw [← pointsTo_biUnion Finset.univ (ℓ := oLoc d) reg reg_disjoint, reg_cover]; try rfl

/-! ## A tile's holdings, over all tiles -/

section Split

variable (X : (d : Dev nD) → Buf (Elt F) (xLoc d))

/-- All 32 tiles' holdings: the 32 read shares of the list, the 32 of the flat input, the flat result whole. -/
theorem tiles_eq (d : Dev nD) (fo : Buf (Elt F) (oLoc d)) :
    (bigSep Finset.univ fun w : Fin 32 => tileRes m X d w fo)
      = iprop((bigSep Finset.univ fun w : Fin 32 => (pLoc d ↦{tokS w} m (pLoc d) : sProp 𝕄))
          ∗ (bigSep Finset.univ fun w : Fin 32 => (xLoc d ↦{tokS w} X d : sProp 𝕄)) ∗ (oLoc d ↦{fullShare} fo)) := by
  rw [oPts_regs, bigSep_sep', bigSep_sep']

theorem st0_eq (d : Dev nD) :
    (bigSep Finset.univ fun c : Fin ((K (F := F)).nCore 0) => (P m X).st 0 d c)
      = iprop((bigSep Finset.univ fun w : Fin 32 => (pLoc d ↦{tokS w} m (pLoc d) : sProp 𝕄))
          ∗ (bigSep Finset.univ fun w : Fin 32 => (xLoc d ↦{tokS w} X d : sProp 𝕄)) ∗ (oLoc d ↦{fullShare} m (oLoc d))) :=
  (bigSep_workers (fun w => tileRes m X d w (m (oLoc d)))).trans (tiles_eq m X d _)

theorem dn0_eq (d : Dev nD) :
    (bigSep Finset.univ fun c : Fin ((K (F := F)).nCore 0) => (P m X).dn 0 d c)
      = iprop((bigSep Finset.univ fun w : Fin 32 => (pLoc d ↦{tokS w} m (pLoc d) : sProp 𝕄))
          ∗ (bigSep Finset.univ fun w : Fin 32 => (xLoc d ↦{tokS w} X d : sProp 𝕄)) ∗ (oLoc d ↦{fullShare} Gout m X d)) :=
  (bigSep_workers (fun w => tileRes m X d w (Gout m X d))).trans (tiles_eq m X d _)

/-- A SparseCore's holdings are its sixteen tiles', and come back so. -/
theorem vecSplit : (K (F := F)).VecSplit' (P m X) 0 := by
  intro d c
  show (bigSep Finset.univ fun i : Fin 16 => tileRes m X d (wid (Fin.cast nCore_zero c) i) (m (oLoc d)))
    ⊢ |={Set.univ}=> iprop(
      (bigSep Finset.univ fun i : Fin ((K (F := F)).nSub 0) => tileRes m X d (wid (Fin.cast nCore_zero c) (Fin.cast nSub_zero i)) (m (oLoc d)))
      ∗ ((bigSep Finset.univ fun i : Fin ((K (F := F)).nSub 0) => tileRes m X d (wid (Fin.cast nCore_zero c) (Fin.cast nSub_zero i)) (Gout m X d))
          -∗ (bigSep Finset.univ fun i : Fin 16 => tileRes m X d (wid (Fin.cast nCore_zero c) i) (Gout m X d))))
  rw [bigSep_tasks (F := F) (fun i => tileRes m X d (wid (Fin.cast nCore_zero c) i) (m (oLoc d))),
    bigSep_tasks (F := F) (fun i => tileRes m X d (wid (Fin.cast nCore_zero c) i) (Gout m X d))]
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m X).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Split

/-! ## @main on the TensorCore -/

abbrev a0' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev aLoc (d : Dev nD) : Loc nD τ sig := (SparseCore.T d).loc main_arg0
abbrev rLoc (d : Dev nD) : Loc nD τ sig := (SparseCore.T d).loc main_v2

/-- The two reshapes: the input to one flat row, the flat result to the input's shape. -/
abbrev opIn : HloOp τ sig (Elt F) := StableHlo.reshape main_arg0 main_v0 rfl shapeCasts_S4x2048x2048_S16777216
abbrev opOut : HloOp τ sig (Elt F) := StableHlo.reshape main_v1 main_v2 rfl shapeCasts_S16777216_S4x2048x2048

abbrev SIn : Finset (DevRef τ sig) := {a0', v0'}
abbrev SOut : Finset (DevRef τ sig) := {v1', v2'}

theorem unscopedBufs_eq (d : Dev nD) (W : (b : Ref sig .tc) → Buf (Elt F) ((d.tc : Thread nD τ).loc b)) :
    (unscopedBufs d W : sProp 𝕄) = iprop((aLoc d ↦{fullShare} W main_arg0) ∗ (pLoc d ↦{fullShare} W main_arg1) ∗ (xLoc d ↦{fullShare} W main_v0)
      ∗ (oLoc d ↦{fullShare} W main_v1) ∗ (rLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

theorem held_SIn (d : Dev nD) (W : Valuation τ sig (Elt F)) :
    (held (T d) SIn W : sProp 𝕄) = iprop((aLoc d ↦{fullShare} W a0') ∗ (xLoc d ↦{fullShare} W v0')) := by
  unfold held SIn
  rw [SparseCore.bigSep_insert' (by decide), bigSep_singleton]
theorem held_SOut (d : Dev nD) (W : Valuation τ sig (Elt F)) :
    (held (T d) SOut W : sProp 𝕄) = iprop((oLoc d ↦{fullShare} W v1') ∗ (rLoc d ↦{fullShare} W v2')) := by
  unfold held SOut
  rw [SparseCore.bigSep_insert' (by decide), bigSep_singleton]

/-- The launch valuation; and, after the call, the flat result at what the call left. -/
def V0 (d : Dev nD) : Valuation τ sig (Elt F) := fun b => m (d, b)
def V1 (d : Dev nD) (g : Buf (Elt F) (oLoc d)) : Valuation τ sig (Elt F) := Function.update (V0 m d) v1' g

theorem V1_v1 (d : Dev nD) (g : Buf (Elt F) (oLoc d)) : V1 m d g v1' = g := Function.update_self _ _ _
theorem V1_v2 (d : Dev nD) (g : Buf (Elt F) (oLoc d)) : V1 m d g v2' = m (rLoc d) := Function.update_of_ne (show v2' ≠ v1' by decide) _ _

/-- After the first reshape: the input as it was, the flat row at the input in row-major order. -/
theorem held_In_after (d : Dev nD) :
    (held (T d) SIn ((opIn (F := F)).result (V0 m d)) : sProp 𝕄) = iprop((aLoc d ↦{fullShare} m (aLoc d)) ∗ (xLoc d ↦{fullShare} Xof m d)) := by
  rw [held_SIn, (opIn (F := F)).result_of_not_mem (V0 m d) (b := a0') (show a0' ∉ ({v0'} : Finset (DevRef τ sig)) by decide),
    show (opIn (F := F)).result (V0 m d) v0' = Xof m d from StableHlo.reshape_result _ _ _ _ _ _ _]
  rfl

/-- After the last reshape: the flat result as the call left it, the result at it in the input's shape. -/
theorem held_Out_after (d : Dev nD) (g : Buf (Elt F) (oLoc d)) :
    (held (T d) SOut ((opOut (F := F)).result (V1 m d g)) : sProp 𝕄)
      = iprop((oLoc d ↦{fullShare} g) ∗ (rLoc d ↦{fullShare} (shapeCast S4x2048x2048 g shapeCasts_S16777216_S4x2048x2048 : Buf (Elt F) (rLoc d)))) := by
  rw [held_SOut, (opOut (F := F)).result_of_not_mem (V1 m d g) (b := v1') (show v1' ∉ ({v2'} : Finset (DevRef τ sig)) by decide), V1_v1,
    show (opOut (F := F)).result (V1 m d g) v2' = (shapeCast S4x2048x2048 g shapeCasts_S16777216_S4x2048x2048 : Buf (Elt F) (rLoc d)) from
      (StableHlo.reshape_result _ _ _ _ _ _ _).trans (by rw [V1_v1]; rfl)]

/-- The flat result in the input's shape is the specification of the arguments. -/
theorem out_eq (d : Dev nD) :
    (shapeCast S4x2048x2048 (Gout m (Xof m) d) shapeCasts_S16777216_S4x2048x2048 : Buf (Elt F) (rLoc d))
      = Cert.Spec.permShaped (m (aLoc d)) (m (pLoc d)) := rfl

/-- What @main leaves the claim: the arguments as they were, the result at the specification. -/
abbrev FIN (d : Dev nD) : sProp 𝕄 :=
  iprop((aLoc d ↦{fullShare} m (aLoc d)) ∗ (pLoc d ↦{fullShare} m (pLoc d)) ∗ (rLoc d ↦{fullShare} (Cert.Spec.permShaped (m (aLoc d)) (m (pLoc d)) : Buf (Elt F) (rLoc d))))

variable [FloatOps F]

/-- @main on device `d`'s TensorCore: the first reshape; the tiles' shares and stretches dealt, the call, the shares and
    stretches back; the last reshape. -/
theorem hmain (κ : GSem nD τ sig → ℕ) (d : Dev nD) :
    iprop((K (F := F)).ctx EH (P m (Xof m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Hv0, Hv1, Hv2⟩, -, -⟩, -⟩
  -- the first reshape
  iapply (wp_hlo_within 𝒱 (SparseCore.T d) none Set.univ (op := opIn) (S := SIn) (Finset.Subset.refl _) (V := V0 m d)) $$ [Hb Ha0 Hv0]
  · isplitl [Hb]; · iexact Hb
    rw [held_SIn]
    isplitl [Ha0]; · iexact Ha0
    iexact Hv0
  iintro ⟨Hb, Hheld⟩
  ihave Hh := (Entails.of_eq (held_In_after m d)) $$ Hheld
  icases Hh with ⟨Ha0, Hv0⟩
  rw [wp_ret]; imodintro
  -- a read share of the list and of the flat input for each tile
  ihave Hp := (Transfers.pointsTo_toks_split fullShare 32) $$ Ha1
  icases Hp with ⟨Ha1r, Ha1t⟩
  ihave Hx := (Transfers.pointsTo_toks_split fullShare 32) $$ Hv0
  icases Hx with ⟨Hv0r, Hv0t⟩
  -- the call
  iapply ((K (F := F)).wp_run (D (F := F)) 𝒱 (EH := EH) (P := P m (Xof m)) κ d 0) $$ [Hst Hb Ha0 Ha1r Ha1t Hv0r Hv0t Hv1 Hv2]
  isplitr; · iexact Hctx
  isplitl [Hst]; · iexact Hst
  isplitl [Ha1t Hv0t Hv1]
  · rw [st0_eq]
    isplitl [Ha1t]; · iexact Ha1t
    isplitl [Hv0t]; · iexact Hv0t
    iexact Hv1
  iintro ⟨Hst, Hdn⟩
  ihave Hdn' := (Entails.of_eq (dn0_eq m (Xof m) d)) $$ Hdn
  icases Hdn' with ⟨Ha1t, -, Hv1⟩
  ihave Ha1 := (Transfers.pointsTo_toks_join fullShare 32) $$ [Ha1r Ha1t]
  · isplitl [Ha1r]; · iexact Ha1r
    iexact Ha1t
  -- the last reshape
  iapply (wp_hlo_within 𝒱 (SparseCore.T d) none Set.univ (op := opOut) (S := SOut) (Finset.Subset.refl _) (V := V1 m d (Gout m (Xof m) d))) $$ [Hb Hv1 Hv2]
  · isplitl [Hb]; · iexact Hb
    rw [held_SOut, V1_v1, V1_v2]
    isplitl [Hv1]; · iexact Hv1
    iexact Hv2
  iintro ⟨Hb, Hheld⟩
  ihave Hh := (Entails.of_eq ((held_Out_after m d _).trans (by rw [out_eq]))) $$ Hheld
  icases Hh with ⟨-, Hv2⟩
  rw [wp_ret]; imodintro; imodintro
  isplitl [Hst]; · iexact Hst
  isplitl [Ha0]; · iexact Ha0
  isplitl [Ha1]; · iexact Ha1
  iexact Hv2

/-- What the final memory is asked: the result at the specification, the arguments as they were. -/
def fq (d : Dev nD) (s' : Phys nD τ sig (Elt F)) : Prop :=
  s'.mem.mem (rLoc d) = Cert.Spec.permShaped (m (aLoc d)) (m (pLoc d)) ∧ s'.mem.mem (aLoc d) = m (aLoc d) ∧ s'.mem.mem (pLoc d) = m (pLoc d)

omit [FloatOps F] in
theorem hfin (d : Dev nD) (s' : Phys nD τ sig (Elt F)) : iprop(FIN m d ∗ SI s') ⊢ (⌜fq m d s'⌝ : sProp 𝕄) := by
  iintro ⟨⟨Ha, Hp, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (SI_pointsTo_agree (st := s') (ℓ := rLoc d) (I := Finset.univ) (q := fullShare)
    (f := (Cert.Spec.permShaped (m (aLoc d)) (m (pLoc d)) : Buf (Elt F) (rLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The run's post: the result is the specification of the arguments, the arguments unchanged. -/
def QC : PUnit × MemSt nD τ sig (Elt F) → Prop := fun r => ∀ c : Dev nD,
  r.2.mem ((c.tc : Thread nD τ).loc main_v2) = Cert.Spec.permShaped (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)

/-- From the body of one tile, the whole program: every weakly fair execution of the device's threads ends, the
    result at the specification of the arguments, the arguments unchanged. -/
theorem run_main [∀ e, Nonempty (Elt F e)] (hobl : (K (F := F)).TileObl (D (F := F)) 𝒱 (P m (Xof m)) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (Xof m)) facts v₀
    (fun q hq => match q with | 0 => nomatch hq)
    (fun q _ => match q with | 0 => hobl)
    (fun q _ => match q with | 0 => SparseCore.Cfg.VecSplit.of_plain (vecSplit m (Xof m)))
    m ρ main (fun _ => iprop(emp)) (FIN m) (u₀ (F := F)) (sep_elim_left.trans (hu₀ m (Xof m))) (hmain m ρ) (fq m) (hfin m) (QC m) (fun _ h => h)

end Cert.Proof.KB

end
-- ==== Proof.KB.Obl.lean ====
/-
  From one tile's task to what the launch asks of every tile. The launch names a tile by its SparseCore and its
  place among the sixteen; the task is stated at the grid's coordinates. The two name the same tile, the same
  tile number and the same program: the body table's entry for a tile is the kernel function at the tile's coordinates.
  With that, the program's run follows from the task alone.
-/
import proofs.«213039_g63608465654469_cont_9to1_m_885_2_alg».proof.Proof.KB.BodyStmt
import proofs.«213039_g63608465654469_cont_9to1_m_885_2_alg».proof.Proof.KB.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "xW" => (Memref.whole Cert.Kernel.main_v0_scv : Memref Cert.Kernel.sig Kind.scVector Space.hbm Cert.Kernel.S16777216 EltTy.f32)
local notation "pW" => (Memref.whole Cert.Kernel.main_arg1_scv : Memref Cert.Kernel.sig Kind.scVector Space.hbm Cert.Kernel.S64 EltTy.i32)
local notation "oW" => (Memref.whole Cert.Kernel.main_v1_scv : Memref Cert.Kernel.sig Kind.scVector Space.hbm Cert.Kernel.S16777216 EltTy.f32)
local notation "in0" => (Memref.whole Cert.Kernel.cc0_scratch0 : Memref Cert.Kernel.sig Kind.scVector Space.vmem Cert.Kernel.S16384 EltTy.f32)
local notation "in1" => (Memref.whole Cert.Kernel.cc0_scratch1 : Memref Cert.Kernel.sig Kind.scVector Space.vmem Cert.Kernel.S16384 EltTy.f32)
local notation "ou0" => (Memref.whole Cert.Kernel.cc0_scratch2 : Memref Cert.Kernel.sig Kind.scVector Space.vmem Cert.Kernel.S16384 EltTy.f32)
local notation "ou1" => (Memref.whole Cert.Kernel.cc0_scratch3 : Memref Cert.Kernel.sig Kind.scVector Space.vmem Cert.Kernel.S16384 EltTy.f32)
local notation "pS" => (Memref.whole Cert.Kernel.cc0_scratch4 : Memref Cert.Kernel.sig Kind.scVector Space.vmem Cert.Kernel.S64 EltTy.i32)

variable (m : (ℓ : Loc nD τ sig) → Buf (Elt F) ℓ) (ρ : Dev nD → PrngReg)
variable (X : (d : Dev nD) → Buf (Elt F) (xLoc d))

variable [FloatOps F]

/-- The body table's entry for a tile: the kernel function at the tile's coordinates. -/
theorem defs₀_vector (c : Fin τ.nSC) (s : Fin τ.nSub) :
    defs₀ (F := F) (.scVector c s) 0 ()
      = SparseCore.onTile hcore0 hsub0 (fun c s => cc0__permute_sc (coordsV c s)
          xW (Memref.isWhole_whole _) pW (Memref.isWhole_whole _) oW (Memref.isWhole_whole _)
          in0 (Memref.isWhole_whole _) in1 (Memref.isWhole_whole _) ou0 (Memref.isWhole_whole _) ou1 (Memref.isWhole_whole _)
          pS (Memref.isWhole_whole _) cc0_scratch5 cc0_scratch6 cc0_scratch7 cc0_scratch8 cc0_scoped0) ⟨⟩ c s := rfl

omit [FloatOps F] in
/-- The post weakened to the launch's: a new wait that belongs to no call belongs to no call or to call `q`. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the launch asks of every tile, from the task. -/
theorem tileObl (hb : TileBodySpec m X) : (K (F := F)).TileObl (D (F := F)) 𝒱 (P m X) v₀ 0 := by
  intro d c i O W hO _ _
  simp only [show (P m X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

/-- The program's run, from the task alone. -/
theorem run [∀ e, Nonempty (Elt F e)] (hb : TileBodySpec m (Xof m)) :
    θ_run (Cert.Kernel.defs (F := F)) (Cert.Kernel.threads (F := F)) ⟨m, fun _ => 0, ρ⟩ (QC m) :=
  run_main m ρ (tileObl m (Xof m) hb)

end Cert.Proof.KB

end
-- ==== Proof.Assemble.lean ====
/-
  The certificate's five conjuncts, from one tile's task at the two float instances. The precondition bounds every
  place below 64. Each kernel program's run ends with its arguments unchanged and its result the specification of
  its arguments; dropping the result gives its frame. The reference's run ends with its result the specification of
  ITS arguments; from memories that agree on the arguments the two results are one array.
-/
import proofs.«213039_g63608465654469_cont_9to1_m_885_2_alg».proof.Defs
import proofs.«213039_g63608465654469_cont_9to1_m_885_2_alg».proof.Proof.RefSide
import proofs.«213039_g63608465654469_cont_9to1_m_885_2_alg».proof.Proof.KI.Obl
import proofs.«213039_g63608465654469_cont_9to1_m_885_2_alg».proof.Proof.KB.Obl

noncomputable section

namespace Cert.Proof.Assemble

open Idealize.ShloMosaic Idealize.SL.Sem

/-- The precondition bounds every place the idealized program's list names below 64; -/
theorem preOK_I (m : (ℓ : Loc Cert.KernelIdeal.nD Cert.KernelIdeal.τ Cert.KernelIdeal.sig) → Buf (Elt Ideal) ℓ) (h : Cert.Pre_KernelIdeal m) :
    Cert.Proof.KI.PreOK (F := Ideal) m :=
  fun d j => Cert.Proof.RefSide.idx_lt_of_pre _ _ (h d) j

/-- and the word-level program's. -/
theorem preOK_B (m : (ℓ : Loc Cert.Kernel.nD Cert.Kernel.τ Cert.Kernel.sig) → Buf (Elt Bits) ℓ) (h : Cert.Pre_Kernel m) :
    Cert.Proof.KB.PreOK (F := Bits) m :=
  fun d j => Cert.Proof.RefSide.idx_lt_of_pre _ _ (h d) j

section

variable (hI : ∀ m, Cert.Proof.KI.PreOK (F := Ideal) m → Cert.Proof.KI.TileBodySpec (F := Ideal) m (Cert.Proof.KI.Xof m))
variable (hB : ∀ m, Cert.Proof.KB.PreOK (F := Bits) m → Cert.Proof.KB.TileBodySpec (F := Bits) m (Cert.Proof.KB.Xof m))

include hB in
/-- The word-level program's frame: its run, the result dropped. -/
theorem frame_K : Cert.frame_Kernel := fun m g hpre =>
  (θ_run (Cert.Kernel.defs (F := Bits)) _ _).mono (fun _ h c => (h c).2) (Cert.Proof.KB.run m g (hB m (preOK_B m hpre)))

include hI in
/-- The idealized program's frame: its run, the result dropped. -/
theorem frame_KI : Cert.frame_KernelIdeal := fun m g hpre =>
  (θ_run (Cert.KernelIdeal.defs (F := Ideal)) _ _).mono (fun _ h c => (h c).2) (Cert.Proof.KI.run m g (hI m (preOK_I m hpre)))

include hI in
/-- The idealized program and the reference, from memories that agree on the arguments, end at one result: the
    specification of the arguments. -/
theorem algebraic : Cert.algebraic_KernelIdeal_ReferenceIdeal := by
  intro m g m' g' hpre hagree
  refine ⟨fun c => Cert.Spec.permShaped (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Proof.KI.run m g (hI m (preOK_I m hpre)), ?_⟩
  refine (θ_run (Cert.ReferenceIdeal.defs (F := Ideal)) _ _).mono (fun _ h c => ⟨(h c).1.trans ?_, (h c).2⟩)
    (Cert.Proof.RefSide.ref_run m' g' ?_)
  · intro c j
    rw [(hagree c).2]
    exact preOK_I m hpre c j
  · rw [(hagree c).1, (hagree c).2]

include hI hB in
/-- The claim, from the task at the two instances. -/
theorem claim_of : Cert.Claim :=
  ⟨Cert.Kernel.Gen.facts, Cert.KernelIdeal.Gen.facts, Cert.ReferenceIdeal.Gen.facts, Cert.Pre_input_domain.Gen.facts,
    frame_K hB, frame_KI hI, Cert.Proof.RefSide.frame_ri, trivial, algebraic hI⟩

end

end Cert.Proof.Assemble

end
-- ==== Proof.KI.Geom.lean ====
/-
  Stretches of a flat array as sets of places, and what a slice of 16384 entries reads. `ivl a e` is the places
  `a ≤ i < e`; the slice starting at `a` is `ivl a (a + 16384)`, and entry `j` of what it reads is entry `a + j` of
  the array.
-/
import proofs.«213039_g63608465654469_cont_9to1_m_885_2_alg».proof.Proof.KI.BodyPre

noncomputable section

namespace Cert.Proof.KI

open Cert.KernelIdeal Cert.KernelIdeal.Gen

open Idealize.ShloMosaic Idealize.ShloMosaic.ValueIdx

variable {F : FTy → Type}

/-- The places `a ≤ i < e` of a flat array. -/
def ivl (a e : ℕ) : Finset S16777216.Idx := Finset.univ.filter fun i => a ≤ (i 0).val ∧ (i 0).val < e

theorem mem_ivl {a e : ℕ} {i : S16777216.Idx} : i ∈ ivl a e ↔ a ≤ (i 0).val ∧ (i 0).val < e := by
  simp [ivl]

theorem reg_eq (w : Fin 32) : reg w = ivl (524288 * w.val) (524288 * (w.val + 1)) := rfl

theorem ivl_union {a b e : ℕ} (hab : a ≤ b) (hbe : b ≤ e) : ivl a e = ivl a b ∪ ivl b e := by
  ext i; simp only [mem_ivl, Finset.mem_union]; omega

theorem ivl_disjoint {a b c e : ℕ} (h : b ≤ c) : Disjoint (ivl a b) (ivl c e) := by
  refine Finset.disjoint_left.mpr fun i h1 h2 => ?_
  rw [mem_ivl] at h1 h2; omega

theorem ivl_empty {a e : ℕ} (h : e ≤ a) : ivl a e = ∅ := by
  ext i; simp only [mem_ivl, Finset.notMem_empty, iff_false]; omega

/-- A slice of 16384 entries of a flat array is an interval of places. -/
theorem unit_set (off : Fin 1 → ℕ) (h : ∀ a, off a + S16384.size a ≤ S16777216.size a) :
    (Rect.unit (s := S16777216) off S16384.size h).set = ivl (off 0) (off 0 + 16384) := by
  ext i
  rw [Rect.mem_set_unit, mem_ivl]
  constructor
  · intro hh; have := hh 0; simpa using this
  · intro hh a; obtain rfl : a = 0 := Subsingleton.elim _ _; simpa using hh

theorem xslice_set (off : Fin 1 → ℕ) (h : ∀ a, off a + S16384.size a ≤ S16777216.size a) (hs) :
    ((Memref.whole main_v0_scv : Memref sig .scVector .hbm S16777216 .f32).slice (Rect.unit (s := S16777216) off S16384.size h) hs).view.set
      = ivl (off 0) (off 0 + 16384) :=
  (View.set_slice_whole main_v0_scv (Rect.unit (s := S16777216) off S16384.size h)).trans (unit_set off h)

theorem oslice_set (off : Fin 1 → ℕ) (h : ∀ a, off a + S16384.size a ≤ S16777216.size a) (hs) :
    ((Memref.whole main_v1_scv : Memref sig .scVector .hbm S16777216 .f32).slice (Rect.unit (s := S16777216) off S16384.size h) hs).view.set
      = ivl (off 0) (off 0 + 16384) :=
  (View.set_slice_whole main_v1_scv (Rect.unit (s := S16777216) off S16384.size h)).trans (unit_set off h)

/-- Entry `j` of what a slice starting at `off` reads is entry `off + j` of the array. -/
theorem xslice_read (off : Fin 1 → ℕ) (h : ∀ a, off a + S16384.size a ≤ S16777216.size a) (hs)
    (f : S16777216.Idx → Elt F .f32) (j : S16384.Idx) :
    ((Memref.whole main_v0_scv : Memref sig .scVector .hbm S16777216 .f32).slice (Rect.unit (s := S16777216) off S16384.size h) hs).view.read (Elt F) f j
      = f (ix1 ⟨off 0 + (j 0).val, by have := h 0; have := (j 0).isLt; simp at *; omega⟩) := by
  rw [View.read_apply]
  refine (cast_eq _ _).trans (congrArg f ?_)
  refine funext fun (a : Fin 1) => ?_
  obtain rfl : a = 0 := Subsingleton.elim _ _
  apply Fin.ext
  show off 0 + 1 * (j 0).val = off 0 + (j 0).val
  omega

/-! ## Contents: a slice of the input, and the permutation inside one buffer -/

/-- Place `n` of the flat array (any `n`, read modulo the array's length). -/
def ixF (n : ℕ) : S16777216.Idx := ix1 ⟨n % 16777216, Nat.mod_lt _ (by decide)⟩

theorem ixF_val (n : ℕ) : ((ixF n) 0).val = n % 16777216 := rfl

/-- The 16384 entries of a flat array starting at place `a`. -/
def slcOf {α : Type} (x : S16777216.Idx → α) (a : ℕ) : S16384.Idx → α := fun j => x (ixF (a + (j 0).val))

/-- The permutation inside a buffer of 16384 entries: entry `64·g + j` is the input buffer's entry
    `64·g + (the place named for j)`. -/
def permLocal {α : Type} (f : S16384.Idx → α) (pv : S64.Idx → BitVec 32) : S16384.Idx → α :=
  fun j => f (ix1 ⟨64 * ((j 0).val / 64) + Cert.Spec.place pv ⟨(j 0).val % 64, Nat.mod_lt _ (by decide)⟩, by
    have h : (j 0).val < 16384 := (j 0).isLt
    have h2 : Cert.Spec.place pv ⟨(j 0).val % 64, Nat.mod_lt _ (by decide)⟩ < 64 := Nat.mod_lt _ (by decide)
    omega⟩)

end Cert.Proof.KI

end
-- ==== Proof.KI.Vals.lean ====
/-
  The values the tile's loop moves, as equations between arrays. The list of places read as four vectors of sixteen;
  a slice of the input as it arrives in a buffer; a permuted buffer as it lands in the result: on the slice's places
  it is the specification. And where the slices start: every offset the tile computes is 524288 times its tile
  number plus a multiple of 16384.
-/
import proofs.«213039_g63608465654469_cont_9to1_m_885_2_alg».proof.Proof.KI.Geom
import Idealize.ShloMosaic.Lib.Affine

noncomputable section

namespace Cert.Proof.KI

open Cert.KernelIdeal Cert.KernelIdeal.Gen

open Idealize.ShloMosaic Idealize.ShloMosaic.ValueIdx

variable {F : FTy → Type}

local notation "xW" => (Memref.whole Cert.KernelIdeal.main_v0_scv : Memref Cert.KernelIdeal.sig Kind.scVector Space.hbm Cert.KernelIdeal.S16777216 EltTy.f32)
local notation "pW" => (Memref.whole Cert.KernelIdeal.main_arg1_scv : Memref Cert.KernelIdeal.sig Kind.scVector Space.hbm Cert.KernelIdeal.S64 EltTy.i32)
local notation "oW" => (Memref.whole Cert.KernelIdeal.main_v1_scv : Memref Cert.KernelIdeal.sig Kind.scVector Space.hbm Cert.KernelIdeal.S16777216 EltTy.f32)
local notation "in0" => (Memref.whole Cert.KernelIdeal.cc0_scratch0 : Memref Cert.KernelIdeal.sig Kind.scVector Space.vmem Cert.KernelIdeal.S16384 EltTy.f32)
local notation "in1" => (Memref.whole Cert.KernelIdeal.cc0_scratch1 : Memref Cert.KernelIdeal.sig Kind.scVector Space.vmem Cert.KernelIdeal.S16384 EltTy.f32)
local notation "ou0" => (Memref.whole Cert.KernelIdeal.cc0_scratch2 : Memref Cert.KernelIdeal.sig Kind.scVector Space.vmem Cert.KernelIdeal.S16384 EltTy.f32)
local notation "ou1" => (Memref.whole Cert.KernelIdeal.cc0_scratch3 : Memref Cert.KernelIdeal.sig Kind.scVector Space.vmem Cert.KernelIdeal.S16384 EltTy.f32)
local notation "pS" => (Memref.whole Cert.KernelIdeal.cc0_scratch4 : Memref Cert.KernelIdeal.sig Kind.scVector Space.vmem Cert.KernelIdeal.S64 EltTy.i32)

/-! ## Where the slices start -/

section Offsets

variable (L : grid0.Coords)

theorem wL_val : (wL L).val = 2 * (L 1).val + (L 0).val := rfl

/-- The tile's first place, as the tile computes it: 524288 times its tile number. -/
theorem base_isInt :
    Affine.IsInt (Scalar.muli (Scalar.addi (Scalar.muli (BitVec.ofNat 32 (L 1).val) 2#32) (BitVec.ofNat 32 (L 0).val)) 524288#32)
      (524288 * ((wL L).val : Int)) := by
  have r_i1 : (L 1).val < 16 := (L 1).isLt
  have r_i0 : (L 0).val < 2 := (L 0).isLt
  have h_arg1 : Affine.IsInt (BitVec.ofNat 32 (L 1).val) (((L 1).val : Int)) := Affine.ofNat _ (by omega)
  have h_c2 : Affine.IsInt 2#32 (2) := Affine.ofNat _ (by omega)
  have h_v0 : Affine.IsInt _ (2 * ((L 1).val : Int)) := Affine.muli h_arg1 h_c2 (by omega)
  have h_arg0 : Affine.IsInt (BitVec.ofNat 32 (L 0).val) (((L 0).val : Int)) := Affine.ofNat _ (by omega)
  have h_v1 : Affine.IsInt _ (2 * ((L 1).val : Int) + ((L 0).val : Int)) := Affine.addi h_v0 h_arg0 (by omega)
  have h_c : Affine.IsInt 524288#32 (524288) := Affine.ofNat _ (by omega)
  exact Affine.muli h_v1 h_c (by rw [wL_val]; push_cast; omega)

theorem wL_lt : (wL L).val < 32 := (wL L).isLt

/-- The loop's variable at trip `k` is `k`, below 16. -/
theorem iv_isInt (k : Fin k0_t1_loop.trips) : Affine.IsInt (Scf.iv 0#32 1#32 k) (k.val : Int) ∧ k.val < 16 := by
  have h0 : Affine.IsInt 0#32 (0) := Affine.ofNat _ (by omega)
  have h1 : Affine.IsInt 1#32 (1) := Affine.ofNat _ (by omega)
  have r : k.val < 16 := Nat.lt_of_lt_of_le k.isLt k0_t1_abs.2.1
  exact ⟨Affine.iv h0 h1 k.val (by omega), r⟩

theorem off1_eq : k0_off1 L = ![524288 * (wL L).val] :=
  Affine.vec_cons (base_isInt L) (by push_cast; rfl) Affine.vec_nil

theorem off1_val : k0_off1 L 0 = 524288 * (wL L).val := by rw [off1_eq]; rfl

/-- The first place plus a constant below 2 ^ 20. -/
theorem off2_eq (n : ℕ) (hn : n < 1048576) : k0_off2 L (BitVec.ofNat 32 n) = ![524288 * (wL L).val + n] := by
  have hw := wL_lt L
  have h_c : Affine.IsInt (BitVec.ofNat 32 n) ((n : Int)) := Affine.ofNat _ (by omega)
  have h_v9 : Affine.IsInt _ (524288 * ((wL L).val : Int) + (n : Int)) := Affine.addi (base_isInt L) h_c (by omega)
  exact Affine.vec_cons h_v9 (by push_cast; rfl) Affine.vec_nil

theorem off2_val_a : k0_off2 L 16384#32 0 = 524288 * (wL L).val + 16384 := by rw [off2_eq L 16384 (by omega)]; rfl
theorem off2_val_b : k0_off2 L 491520#32 0 = 524288 * (wL L).val + 491520 := by rw [off2_eq L 491520 (by omega)]; rfl
theorem off2_val_c : k0_off2 L 507904#32 0 = 524288 * (wL L).val + 507904 := by rw [off2_eq L 507904 (by omega)]; rfl

theorem off2_val (r : Fin 3) : k0_off2 L (k0_off2_at r) 0 = 524288 * (wL L).val + (![16384, 491520, 507904] : Fin 3 → ℕ) r := by
  match r with
  | ⟨0, _⟩ => exact off2_val_a L
  | ⟨1, _⟩ => exact off2_val_b L
  | ⟨2, _⟩ => exact off2_val_c L

variable (k : Fin k0_t1_loop.trips)

/-- Slice `2·k + n` of the tile's 32, `n` below 2. -/
theorem off3_eq (n : ℕ) (hn : n < 2) : k0_off3 L k (BitVec.ofNat 32 n) = ![524288 * (wL L).val + 32768 * k.val + 16384 * n] := by
  have hw := wL_lt L
  obtain ⟨h_arg14, hk⟩ := iv_isInt k
  have h_c0 : Affine.IsInt (BitVec.ofNat 32 n) ((n : Int)) := Affine.ofNat _ (by omega)
  have h_c2 : Affine.IsInt 2#32 (2) := Affine.ofNat _ (by omega)
  have h_v19 : Affine.IsInt _ (2 * (k.val : Int)) := Affine.muli h_arg14 h_c2 (by omega)
  have h_v20 : Affine.IsInt _ (2 * (k.val : Int) + (n : Int)) := Affine.addi h_v19 h_c0 (by omega)
  have h_c : Affine.IsInt 16384#32 (16384) := Affine.ofNat _ (by omega)
  have h_v21 : Affine.IsInt _ (32768 * (k.val : Int) + 16384 * (n : Int)) := Affine.muli h_v20 h_c (by omega)
  have h_v22 : Affine.IsInt _ (524288 * ((wL L).val : Int) + 32768 * (k.val : Int) + 16384 * (n : Int)) := Affine.addi (base_isInt L) h_v21 (by omega)
  exact Affine.vec_cons h_v22 (by push_cast; rfl) Affine.vec_nil

theorem off3_val (r : Fin 2) : k0_off3 L k (BitVec.ofNat 32 r.val) 0 = 524288 * (wL L).val + 32768 * k.val + 16384 * r.val := by
  rw [off3_eq L k r.val r.isLt]; rfl
theorem off3_val_0 : k0_off3 L k 0#32 0 = 524288 * (wL L).val + 32768 * k.val := by
  rw [off3_eq L k 0 (by omega)]; rfl
theorem off3_val_1 : k0_off3 L k 1#32 0 = 524288 * (wL L).val + 32768 * k.val + 16384 := by
  rw [off3_eq L k 1 (by omega)]; rfl

theorem off4_val : k0_off4 L k 0 = 524288 * (wL L).val + 32768 * k.val := off3_val_0 L k

theorem off21_eq : k0_off21 L k = ![524288 * (wL L).val + 32768 * k.val + 32768] := by
  have hw := wL_lt L
  obtain ⟨h_arg14, hk⟩ := iv_isInt k
  have h_c0 : Affine.IsInt 0#32 (0) := Affine.ofNat _ (by omega)
  have h_c2 : Affine.IsInt 2#32 (2) := Affine.ofNat _ (by omega)
  have h_v19 : Affine.IsInt _ (2 * (k.val : Int)) := Affine.muli h_arg14 h_c2 (by omega)
  have h_v20 : Affine.IsInt _ (2 * (k.val : Int)) := Affine.addi h_v19 h_c0 (by omega)
  have h_c : Affine.IsInt 16384#32 (16384) := Affine.ofNat _ (by omega)
  have h_v21 : Affine.IsInt _ (32768 * (k.val : Int)) := Affine.muli h_v20 h_c (by omega)
  have h_v22 : Affine.IsInt _ (524288 * ((wL L).val : Int) + 32768 * (k.val : Int)) := Affine.addi (base_isInt L) h_v21 (by omega)
  have h_c3 : Affine.IsInt 32768#32 (32768) := Affine.ofNat _ (by omega)
  have h_v49 : Affine.IsInt _ (524288 * ((wL L).val : Int) + 32768 * (k.val : Int) + 32768) := Affine.addi h_v22 h_c3 (by omega)
  exact Affine.vec_cons h_v49 (by push_cast; rfl) Affine.vec_nil

theorem off21_val : k0_off21 L k 0 = 524288 * (wL L).val + 32768 * k.val + 32768 := by rw [off21_eq]; rfl

theorem off22_eq : k0_off22 L k = ![524288 * (wL L).val + 32768 * k.val + 16384] := by
  have hw := wL_lt L
  obtain ⟨h_arg14, hk⟩ := iv_isInt k
  have h_c1 : Affine.IsInt 1#32 (1) := Affine.ofNat _ (by omega)
  have h_c2 : Affine.IsInt 2#32 (2) := Affine.ofNat _ (by omega)
  have h_v34 : Affine.IsInt _ (2 * (k.val : Int)) := Affine.muli h_arg14 h_c2 (by omega)
  have h_v35 : Affine.IsInt _ (2 * (k.val : Int) + 1) := Affine.addi h_v34 h_c1 (by omega)
  have h_c : Affine.IsInt 16384#32 (16384) := Affine.ofNat _ (by omega)
  have h_v36 : Affine.IsInt _ (32768 * (k.val : Int) + 16384) := Affine.muli h_v35 h_c (by omega)
  have h_v37 : Affine.IsInt _ (524288 * ((wL L).val : Int) + 32768 * (k.val : Int) + 16384) := Affine.addi (base_isInt L) h_v36 (by omega)
  exact Affine.vec_cons h_v37 (by push_cast; rfl) Affine.vec_nil

theorem off22_val : k0_off22 L k 0 = 524288 * (wL L).val + 32768 * k.val + 16384 := by rw [off22_eq]; rfl

theorem off39_eq : k0_off39 L k = ![524288 * (wL L).val + 32768 * k.val + 49152] := by
  have hw := wL_lt L
  obtain ⟨h_arg14, hk⟩ := iv_isInt k
  have h_c1 : Affine.IsInt 1#32 (1) := Affine.ofNat _ (by omega)
  have h_c2 : Affine.IsInt 2#32 (2) := Affine.ofNat _ (by omega)
  have h_v34 : Affine.IsInt _ (2 * (k.val : Int)) := Affine.muli h_arg14 h_c2 (by omega)
  have h_v35 : Affine.IsInt _ (2 * (k.val : Int) + 1) := Affine.addi h_v34 h_c1 (by omega)
  have h_c : Affine.IsInt 16384#32 (16384) := Affine.ofNat _ (by omega)
  have h_v36 : Affine.IsInt _ (32768 * (k.val : Int) + 16384) := Affine.muli h_v35 h_c (by omega)
  have h_v37 : Affine.IsInt _ (524288 * ((wL L).val : Int) + 32768 * (k.val : Int) + 16384) := Affine.addi (base_isInt L) h_v36 (by omega)
  have h_c3 : Affine.IsInt 32768#32 (32768) := Affine.ofNat _ (by omega)
  have h_v49 : Affine.IsInt _ (524288 * ((wL L).val : Int) + 32768 * (k.val : Int) + 49152) := Affine.addi h_v37 h_c3 (by omega)
  exact Affine.vec_cons h_v49 (by push_cast; rfl) Affine.vec_nil

theorem off39_val : k0_off39 L k 0 = 524288 * (wL L).val + 32768 * k.val + 49152 := by rw [off39_eq]; rfl

end Offsets

/-! ## A slice of the input, arrived in a buffer -/

section Slices

theorem ix1_eq_ixF (n : ℕ) (hn : n < 16777216) : (ix1 (⟨n, hn⟩ : Fin 16777216) : S16777216.Idx) = ixF n := by
  unfold ixF
  congr 1
  exact Fin.ext (Nat.mod_eq_of_lt hn).symm

variable (off : Fin 1 → ℕ) (h : ∀ a, off a + S16384.size a ≤ S16777216.size a)

/-- What a slice of the input read into a whole buffer leaves there: the input's 16384 entries from the slice's start. -/
theorem arrive0 (hs) (x : S16777216.Idx → Elt F .f32) (f0 : S16384.Idx → Elt F .f32) :
    View.write (Elt F) (in0).view f0
        (ReadAs.same.apply (View.read (Elt F) ((xW).slice (Rect.unit (s := S16777216) off S16384.size h) hs).view x)) Finset.univ
      = slcOf x (off 0) := by
  refine (View.write_whole_univ cc0_scratch0 f0 _).trans ?_
  funext j
  exact (xslice_read off h hs x j).trans (congrArg x (ix1_eq_ixF _ _))

theorem arrive1 (hs) (x : S16777216.Idx → Elt F .f32) (f0 : S16384.Idx → Elt F .f32) :
    View.write (Elt F) (in1).view f0
        (ReadAs.same.apply (View.read (Elt F) ((xW).slice (Rect.unit (s := S16777216) off S16384.size h) hs).view x)) Finset.univ
      = slcOf x (off 0) := by
  refine (View.write_whole_univ cc0_scratch1 f0 _).trans ?_
  funext j
  exact (xslice_read off h hs x j).trans (congrArg x (ix1_eq_ixF _ _))

/-! ## A permuted buffer, landed in the result -/

/-- Entry `j` of a slice of the result is the result's entry `off + j`. -/
theorem oslice_emb (hs) (j : S16384.Idx) :
    ((oW).slice (Rect.unit (s := S16777216) off S16384.size h) hs).view.emb j
      = ix1 (⟨off 0 + (j 0).val, by have := h 0; have := (j 0).isLt; simp at *; omega⟩ : Fin 16777216) := by
  refine funext fun (a : Fin 1) => ?_
  obtain rfl : a = 0 := Subsingleton.elim _ _
  apply Fin.ext
  show off 0 + 1 * (j 0).val = off 0 + (j 0).val
  omega

/-- The permutation inside a buffer, of a slice of the input that starts at a multiple of 64, is the specification on
    the slice's places. -/
theorem permLocal_slc (a : ℕ) (h64 : 64 ∣ a) (x : S16777216.Idx → Elt F .f32) (p : S64.Idx → BitVec 32)
    (i : S16777216.Idx) (hi : i ∈ ivl a (a + 16384)) (hb : a + 16384 ≤ 16777216) (j : S16384.Idx) (hj : (j 0).val = (i 0).val - a) :
    permLocal (slcOf x a) p j = Cert.Spec.permFlat x p i := by
  rw [mem_ivl] at hi
  obtain ⟨c, hc⟩ := h64
  have hmod : (j 0).val % 64 = (i 0).val % 64 := by omega
  have hp : Cert.Spec.place p ⟨(j 0).val % 64, Nat.mod_lt _ (by decide)⟩ = Cert.Spec.place p ⟨(i 0).val % 64, Nat.mod_lt _ (by decide)⟩ :=
    congrArg (Cert.Spec.place p) (Fin.ext hmod)
  have hq : Cert.Spec.place p ⟨(i 0).val % 64, Nat.mod_lt _ (by decide)⟩ < 64 := Nat.mod_lt _ (by decide)
  show x (ixF (a + (64 * ((j 0).val / 64) + Cert.Spec.place p ⟨(j 0).val % 64, Nat.mod_lt _ (by decide)⟩))) = x (Cert.Spec.srcIdx p i)
  refine congrArg x (funext fun (b : Fin 1) => ?_)
  obtain rfl : b = 0 := Subsingleton.elim _ _
  apply Fin.ext
  rw [ixF_val, Cert.Spec.srcIdx_val, hp]
  omega

theorem depart0 (hs) (h64 : 64 ∣ off 0) (x : S16777216.Idx → Elt F .f32) (p : S64.Idx → BitVec 32) (fo : S16777216.Idx → Elt F .f32) :
    ∀ i ∈ ivl (off 0) (off 0 + 16384),
      View.write (Elt F) ((oW).slice (Rect.unit (s := S16777216) off S16384.size h) hs).view fo
          (ReadAs.same.apply (View.read (Elt F) (ou0).view (permLocal (slcOf x (off 0)) p))) Finset.univ i
        = Cert.Spec.permFlat x p i := by
  intro i hi
  have hi' := mem_ivl.mp hi
  have hb : off 0 + 16384 ≤ 16777216 := by have := h 0; simpa using this
  have hjlt : (i 0).val - off 0 < 16384 := by omega
  have hij : ((oW).slice (Rect.unit (s := S16777216) off S16384.size h) hs).view.emb (ix1 (⟨(i 0).val - off 0, hjlt⟩ : Fin 16384)) = i := by
    rw [oslice_emb]
    refine funext fun (a : Fin 1) => ?_
    obtain rfl : a = 0 := Subsingleton.elim _ _
    apply Fin.ext
    show off 0 + ((i 0).val - off 0) = (i 0).val
    omega
  rw [← hij, View.write_emb_of_mem _ _ (Finset.mem_univ _)]
  refine (cast_eq _ _).trans ?_
  rw [hij]
  exact permLocal_slc (off 0) h64 x p i hi hb _ rfl

theorem depart1 (hs) (h64 : 64 ∣ off 0) (x : S16777216.Idx → Elt F .f32) (p : S64.Idx → BitVec 32) (fo : S16777216.Idx → Elt F .f32) :
    ∀ i ∈ ivl (off 0) (off 0 + 16384),
      View.write (Elt F) ((oW).slice (Rect.unit (s := S16777216) off S16384.size h) hs).view fo
          (ReadAs.same.apply (View.read (Elt F) (ou1).view (permLocal (slcOf x (off 0)) p))) Finset.univ i
        = Cert.Spec.permFlat x p i := by
  intro i hi
  have hi' := mem_ivl.mp hi
  have hb : off 0 + 16384 ≤ 16777216 := by have := h 0; simpa using this
  have hjlt : (i 0).val - off 0 < 16384 := by omega
  have hij : ((oW).slice (Rect.unit (s := S16777216) off S16384.size h) hs).view.emb (ix1 (⟨(i 0).val - off 0, hjlt⟩ : Fin 16384)) = i := by
    rw [oslice_emb]
    refine funext fun (a : Fin 1) => ?_
    obtain rfl : a = 0 := Subsingleton.elim _ _
    apply Fin.ext
    show off 0 + ((i 0).val - off 0) = (i 0).val
    omega
  rw [← hij, View.write_emb_of_mem _ _ (Finset.mem_univ _)]
  refine (cast_eq _ _).trans ?_
  rw [hij]
  exact permLocal_slc (off 0) h64 x p i hi hb _ rfl

/-! ## The list of places, read as vectors of sixteen -/

/-- Sixteen places of the list, read from the tile's own copy of it. -/
theorem list_vec (q : ℕ) (hq : q + 16 ≤ 64) (inb : ∀ a, (![q] : Fin 1 → ℕ) a + S16.size a ≤ S64.size a)
    (fp p : S64.Idx → BitVec 32) (l : Fin 16) :
    (View.readAt (Elt F) (pS).view (Rect.unit (s := S64) ![q] S16.size inb).toLoadRect
        (View.write (Elt F) (pS).view fp (ReadAs.same.apply (View.read (Elt F) (pW).view p)) Finset.univ)) (ix1 l)
      = p (ix1 (⟨q + l.val, by omega⟩ : Fin 64)) := by
  rw [View.readAt_apply]
  have hw : View.write (Elt F) (pS).view fp (ReadAs.same.apply (View.read (Elt F) (pW).view p)) Finset.univ = p :=
    (View.write_whole_univ (Val := Elt F) cc0_scratch4 fp _).trans rfl
  rw [hw]
  show p ((Rect.unit (s := S64) ![q] S16.size inb).toLoadRect.idx (ix1 l)) = _
  refine congrArg p (funext fun (a : Fin 1) => ?_)
  obtain rfl : a = 0 := Subsingleton.elim _ _
  apply Fin.ext
  rw [LoadRect.idx_apply]
  show q + 1 * l.val = q + l.val
  omega

/-- The result after the call, entry by entry, is the specification (by definition). -/
theorem Gout_apply (m : (ℓ : Loc nD τ sig) → Buf (Elt F) ℓ) (X : (d : Dev nD) → Buf (Elt F) (xLoc d)) (d : Dev nD) (i : S16777216.Idx) :
    Gout m X d i = Cert.Spec.permFlat (X d) (m (pLoc d)) i := rfl

end Slices

end Cert.Proof.KI

end
-- ==== Proof.KI.BodyInv.lean ====
/-
  The tile's loop, stated. Tile number `w`'s stretch of the flat arrays starts at place `524288·w`; trip `k` of its loop
  handles the two slices starting at `524288·w + 32768·k` and `16384` later. Before trip `k` those two slices of the
  input are arriving in the two input buffers, the previous trip's two permuted slices are leaving the two output
  buffers for the result, the result's earlier slices hold the permuted input and its later ones are untouched.
-/
import proofs.«213039_g63608465654469_cont_9to1_m_885_2_alg».proof.Proof.KI.Vals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (X : (d : Dev nD) → Buf (Elt F) (xLoc d))

local notation "xW" => (Memref.whole Cert.KernelIdeal.main_v0_scv : Memref Cert.KernelIdeal.sig Kind.scVector Space.hbm Cert.KernelIdeal.S16777216 EltTy.f32)
local notation "pW" => (Memref.whole Cert.KernelIdeal.main_arg1_scv : Memref Cert.KernelIdeal.sig Kind.scVector Space.hbm Cert.KernelIdeal.S64 EltTy.i32)
local notation "oW" => (Memref.whole Cert.KernelIdeal.main_v1_scv : Memref Cert.KernelIdeal.sig Kind.scVector Space.hbm Cert.KernelIdeal.S16777216 EltTy.f32)
local notation "in0" => (Memref.whole Cert.KernelIdeal.cc0_scratch0 : Memref Cert.KernelIdeal.sig Kind.scVector Space.vmem Cert.KernelIdeal.S16384 EltTy.f32)
local notation "in1" => (Memref.whole Cert.KernelIdeal.cc0_scratch1 : Memref Cert.KernelIdeal.sig Kind.scVector Space.vmem Cert.KernelIdeal.S16384 EltTy.f32)
local notation "ou0" => (Memref.whole Cert.KernelIdeal.cc0_scratch2 : Memref Cert.KernelIdeal.sig Kind.scVector Space.vmem Cert.KernelIdeal.S16384 EltTy.f32)
local notation "ou1" => (Memref.whole Cert.KernelIdeal.cc0_scratch3 : Memref Cert.KernelIdeal.sig Kind.scVector Space.vmem Cert.KernelIdeal.S16384 EltTy.f32)
local notation "pS" => (Memref.whole Cert.KernelIdeal.cc0_scratch4 : Memref Cert.KernelIdeal.sig Kind.scVector Space.vmem Cert.KernelIdeal.S64 EltTy.i32)

variable [FloatOps F]

section Tile

variable (d : Dev nD) (L : grid0.Coords)

omit [FloatOps F] in
theorem pts_i0 (f : Buf (Elt F) ((V d (cV L) (jV L)).loc cc0_scratch0)) :
    ((in0).view.loc (V d (cV L) (jV L)) ↦{fullShare} f : sProp 𝕄) = (V d (cV L) (jV L)).loc cc0_scratch0 ↦{fullShare} f := rfl
omit [FloatOps F] in
theorem pts_i1 (f : Buf (Elt F) ((V d (cV L) (jV L)).loc cc0_scratch1)) :
    ((in1).view.loc (V d (cV L) (jV L)) ↦{fullShare} f : sProp 𝕄) = (V d (cV L) (jV L)).loc cc0_scratch1 ↦{fullShare} f := rfl
omit [FloatOps F] in
theorem pts_o0 (f : Buf (Elt F) ((V d (cV L) (jV L)).loc cc0_scratch2)) :
    ((ou0).view.loc (V d (cV L) (jV L)) ↦{fullShare} f : sProp 𝕄) = (V d (cV L) (jV L)).loc cc0_scratch2 ↦{fullShare} f := rfl
omit [FloatOps F] in
theorem pts_o1 (f : Buf (Elt F) ((V d (cV L) (jV L)).loc cc0_scratch3)) :
    ((ou1).view.loc (V d (cV L) (jV L)) ↦{fullShare} f : sProp 𝕄) = (V d (cV L) (jV L)).loc cc0_scratch3 ↦{fullShare} f := rfl
omit [FloatOps F] in
theorem pts_ps (f : Buf (Elt F) ((V d (cV L) (jV L)).loc cc0_scratch4)) :
    ((pS).view.loc (V d (cV L) (jV L)) ↦{fullShare} f : sProp 𝕄) = (V d (cV L) (jV L)).loc cc0_scratch4 ↦{fullShare} f := rfl

omit [FloatOps F] in
/-- A read share is its remainder and two read tokens, one for each of two transfers reading at once. -/
theorem toks2 {ℓ : Loc nD τ sig} {f : Buf (Elt F) ℓ} (q : PosShare TreeShare) :
    (ℓ ↦{q} f : sProp 𝕄) ⊣⊢ iprop((ℓ ↦{Transfers.shareDrop q 2} f) ∗ (ℓ ↦{Transfers.shareTokN q 0} f) ∗ (ℓ ↦{Transfers.shareTokN q 1} f)) := by
  have h := Transfers.pointsTo_toks_range (nD := nD) (τ := τ) (sig := sig) (Ix := HIx 1) (Val := Elt F) (Name := ℕ) (U := UU) (Lvl := ℕ)
    (ℓ := ℓ) (S := Finset.univ) (f := f) q 2
  rw [show Finset.range 2 = {0, 1} by decide, BI.bigSep_insert (by decide), BI.bigSep_singleton] at h
  exact h

/-- The tile's first place, and the first places of the two slices trip `k` handles. -/
abbrev bW : ℕ := 524288 * (wL L).val
abbrev a0 (k : ℕ) : ℕ := 524288 * (wL L).val + 32768 * k
abbrev a1 (k : ℕ) : ℕ := 524288 * (wL L).val + 32768 * k + 16384

omit [FloatOps F] in
/-- The slice of the input starting at place `a`. -/
abbrev slcX (a : ℕ) : S16384.Idx → Elt F .f32 := slcOf (X d) a

/-- A slice of the input on its way into the first (second) input buffer, and the rest of the read token it borrowed. -/
abbrev flIn0 (a : ℕ) : sProp 𝕄 :=
  Transfers.Flight countersEmb (V d (cV L) (jV L)) (SemLoc.dma cc0_scratch5.sem) default 524288
    iprop(((in0).view.loc (V d (cV L) (jV L)) ↦{fullShare} slcX X d a)
      ∗ ((xW).view.loc (V d (cV L) (jV L)) ↦[ivl a (a + 16384)]{Transfers.shareTokN (tokS (wL L)) 0} X d))
abbrev flIn1 (a : ℕ) : sProp 𝕄 :=
  Transfers.Flight countersEmb (V d (cV L) (jV L)) (SemLoc.dma cc0_scratch6.sem) default 524288
    iprop(((in1).view.loc (V d (cV L) (jV L)) ↦{fullShare} slcX X d a)
      ∗ ((xW).view.loc (V d (cV L) (jV L)) ↦[ivl a (a + 16384)]{Transfers.shareTokN (tokS (wL L)) 1} X d))
abbrev restX (t : ℕ) (a : ℕ) : sProp 𝕄 :=
  (xW).view.loc (V d (cV L) (jV L)) ↦[Finset.univ \ ivl a (a + 16384)]{Transfers.shareTokN (tokS (wL L)) t} X d

/-- A permuted slice on its way out of the first (second) output buffer into the result at place `a`. -/
abbrev flOut0 (a : ℕ) : sProp 𝕄 :=
  Transfers.Flight countersEmb (V d (cV L) (jV L)) (SemLoc.dma cc0_scratch7.sem) default 524288
    iprop(((oW).view.loc (V d (cV L) (jV L)) ↦[ivl a (a + 16384)]{fullShare} Gout m X d)
      ∗ ((ou0).view.loc (V d (cV L) (jV L)) ↦{fullShare} permLocal (slcX X d a) (m (pLoc d))))
abbrev flOut1 (a : ℕ) : sProp 𝕄 :=
  Transfers.Flight countersEmb (V d (cV L) (jV L)) (SemLoc.dma cc0_scratch8.sem) default 524288
    iprop(((oW).view.loc (V d (cV L) (jV L)) ↦[ivl a (a + 16384)]{fullShare} Gout m X d)
      ∗ ((ou1).view.loc (V d (cV L) (jV L)) ↦{fullShare} permLocal (slcX X d a) (m (pLoc d))))

/-- The output side before trip `k`: idle at the first trip, the previous trip's two slices on their way otherwise. -/
def outSt (k : ℕ) : sProp 𝕄 :=
  if k = 0 then
    iprop((∃ g, (ou0).view.loc (V d (cV L) (jV L)) ↦{fullShare} g) ∗ semVal (cO0 d (cV L) (jV L)) 0
      ∗ (∃ g, (ou1).view.loc (V d (cV L) (jV L)) ↦{fullShare} g) ∗ semVal (cO1 d (cV L) (jV L)) 0)
  else iprop(flOut0 m X d L (a0 L (k - 1)) ∗ flOut1 m X d L (a1 L (k - 1)))

/-- The input side before trip `k`: slices `2k`, `2k+1` arriving while there are any; after the last trip both buffers
    idle and the two read tokens whole. -/
def inSt (k : ℕ) : sProp 𝕄 :=
  if k < 16 then
    iprop(flIn0 X d L (a0 L k) ∗ restX X d L 0 (a0 L k) ∗ flIn1 X d L (a1 L k) ∗ restX X d L 1 (a1 L k))
  else
    iprop((∃ f, (in0).view.loc (V d (cV L) (jV L)) ↦{fullShare} f) ∗ semVal (cI0 d (cV L) (jV L)) 0
      ∗ ((xW).view.loc (V d (cV L) (jV L)) ↦{Transfers.shareTokN (tokS (wL L)) 0} X d)
      ∗ (∃ f, (in1).view.loc (V d (cV L) (jV L)) ↦{fullShare} f) ∗ semVal (cI1 d (cV L) (jV L)) 0
      ∗ ((xW).view.loc (V d (cV L) (jV L)) ↦{Transfers.shareTokN (tokS (wL L)) 1} X d))

/-- Before trip `k` of the tile's loop: slices `2k` and `2k+1` of its stretch of the input are arriving; slices
    `2k-2`, `2k-1` of the result are leaving (none at the first trip); the result's earlier slices hold the permuted
    input and its later ones are untouched. -/
def inv (O : CellTallies nD τ sig (HIx 1)) (W : Waits sig (HIx 1)) (k : ℕ) (_ : PUnit) : sProp 𝕄 :=
  iprop(Transfers.MayWaits (V d (cV L) (jV L)) (none : HIx 1) O
    ∗ inSt X d L k
    ∗ outSt m X d L k
    ∗ ((oW).view.loc (V d (cV L) (jV L)) ↦[ivl (bW L) (a0 L (k - 1))]{fullShare} Gout m X d)
    ∗ ((oW).view.loc (V d (cV L) (jV L)) ↦[ivl (a0 L k) (bW L + 524288)]{fullShare} m (oLoc d))
    ∗ ∃ W', ⌜∀ p ∈ W', p ∈ W ∨ p.2 = none⌝ ∗ owes (V d (cV L) (jV L)) O W')

theorem trips1 : k0_t1_loop.trips = 16 := by decide
theorem cond1_pos : ∀ k : Fin k0_t1_loop.trips, 0 < k.val → k0_cond1 k = 1#1 := by decide
theorem cond1_zero : ∀ k : Fin k0_t1_loop.trips, k.val = 0 → ¬ k0_cond1 k = 1#1 := by decide
theorem cond3_pos : ∀ k : Fin k0_t1_loop.trips, 0 < k.val → k0_cond3 k = 1#1 := by decide
theorem cond3_zero : ∀ k : Fin k0_t1_loop.trips, k.val = 0 → ¬ k0_cond3 k = 1#1 := by decide
theorem cond2_lt : ∀ k : Fin k0_t1_loop.trips, k.val < 15 → k0_cond2 k = 1#1 := by decide
theorem cond2_last : ∀ k : Fin k0_t1_loop.trips, k.val = 15 → ¬ k0_cond2 k = 1#1 := by decide
theorem cond4_lt : ∀ k : Fin k0_t1_loop.trips, k.val < 15 → k0_cond4 k = 1#1 := by decide
theorem cond4_last : ∀ k : Fin k0_t1_loop.trips, k.val = 15 → ¬ k0_cond4 k = 1#1 := by decide

omit [FloatOps F] in
theorem inSt_lt {k : ℕ} (h : k < 16) : inSt X d L k
    = iprop(flIn0 X d L (a0 L k) ∗ restX X d L 0 (a0 L k) ∗ flIn1 X d L (a1 L k) ∗ restX X d L 1 (a1 L k)) := if_pos h
omit [FloatOps F] in
theorem inSt_ge {k : ℕ} (h : ¬ k < 16) : inSt X d L k
    = iprop((∃ f, (in0).view.loc (V d (cV L) (jV L)) ↦{fullShare} f) ∗ semVal (cI0 d (cV L) (jV L)) 0
      ∗ ((xW).view.loc (V d (cV L) (jV L)) ↦{Transfers.shareTokN (tokS (wL L)) 0} X d)
      ∗ (∃ f, (in1).view.loc (V d (cV L) (jV L)) ↦{fullShare} f) ∗ semVal (cI1 d (cV L) (jV L)) 0
      ∗ ((xW).view.loc (V d (cV L) (jV L)) ↦{Transfers.shareTokN (tokS (wL L)) 1} X d)) := if_neg h
omit [FloatOps F] in
theorem outSt_zero {k : ℕ} (h : k = 0) : outSt m X d L k
    = iprop((∃ g, (ou0).view.loc (V d (cV L) (jV L)) ↦{fullShare} g) ∗ semVal (cO0 d (cV L) (jV L)) 0
      ∗ (∃ g, (ou1).view.loc (V d (cV L) (jV L)) ↦{fullShare} g) ∗ semVal (cO1 d (cV L) (jV L)) 0) := if_pos h
omit [FloatOps F] in
theorem outSt_pos {k : ℕ} (h : ¬ k = 0) : outSt m X d L k
    = iprop(flOut0 m X d L (a0 L (k - 1)) ∗ flOut1 m X d L (a1 L (k - 1))) := if_neg h

omit [FloatOps F] in
/-- The next 16384 places of a stretch of the result, and the rest of the stretch. -/
theorem carve_o (a e : ℕ) (hae : a + 16384 ≤ e) (f : Buf (Elt F) (oLoc d)) :
    ((oW).view.loc (V d (cV L) (jV L)) ↦[ivl a e]{fullShare} f : sProp 𝕄)
      ⊣⊢ iprop(((oW).view.loc (V d (cV L) (jV L)) ↦[ivl a (a + 16384)]{fullShare} f) ∗ ((oW).view.loc (V d (cV L) (jV L)) ↦[ivl (a + 16384) e]{fullShare} f)) := by
  rw [ivl_union (a := a) (b := a + 16384) (e := e) (by omega) hae]
  exact pointsTo_union (ivl_disjoint le_rfl)

/-- A slice of the result, as the kernel slices it. -/
abbrev oSl (off : Fin 1 → ℕ) (h : ∀ a, off a + S16384.size a ≤ S16777216.size a) : Memref sig .scVector .hbm S16384 .f32 :=
  (oW).slice (Rect.unit (s := S16777216) off S16384.size h) (fun _ => rfl)
abbrev xSl (off : Fin 1 → ℕ) (h : ∀ a, off a + S16384.size a ≤ S16777216.size a) : Memref sig .scVector .hbm S16384 .f32 :=
  (xW).slice (Rect.unit (s := S16777216) off S16384.size h) (fun _ => rfl)

omit [FloatOps F] in
theorem pts_osl (off : Fin 1 → ℕ) (h : ∀ a, off a + S16384.size a ≤ S16777216.size a) (f : Buf (Elt F) (oLoc d)) :
    ((oSl off h).view.loc (V d (cV L) (jV L)) ↦[(oSl off h).view.set]{fullShare} f : sProp 𝕄)
      = ((oW).view.loc (V d (cV L) (jV L)) ↦[ivl (off 0) (off 0 + 16384)]{fullShare} f) := by
  rw [oslice_set]

end Tile

end Cert.Proof.KI

end
-- ==== Proof.KI.Conv.lean ====
/-
  From the forms a transfer is issued in to the forms the loop is stated in. A slice named by the kernel's offsets is
  an interval of places; what a slice of the input leaves in a buffer is the input's entries from the slice's start;
  what a permuted buffer leaves in a slice of the result is, on the slice's places, the specification; and the
  finished part of the result grows by the two slices a trip sends.
-/
import proofs.«213039_g63608465654469_cont_9to1_m_885_2_alg».proof.Proof.KI.BodyInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (X : (d : Dev nD) → Buf (Elt F) (xLoc d))

local notation "xW" => (Memref.whole Cert.KernelIdeal.main_v0_scv : Memref Cert.KernelIdeal.sig Kind.scVector Space.hbm Cert.KernelIdeal.S16777216 EltTy.f32)
local notation "pW" => (Memref.whole Cert.KernelIdeal.main_arg1_scv : Memref Cert.KernelIdeal.sig Kind.scVector Space.hbm Cert.KernelIdeal.S64 EltTy.i32)
local notation "oW" => (Memref.whole Cert.KernelIdeal.main_v1_scv : Memref Cert.KernelIdeal.sig Kind.scVector Space.hbm Cert.KernelIdeal.S16777216 EltTy.f32)
local notation "in0" => (Memref.whole Cert.KernelIdeal.cc0_scratch0 : Memref Cert.KernelIdeal.sig Kind.scVector Space.vmem Cert.KernelIdeal.S16384 EltTy.f32)
local notation "in1" => (Memref.whole Cert.KernelIdeal.cc0_scratch1 : Memref Cert.KernelIdeal.sig Kind.scVector Space.vmem Cert.KernelIdeal.S16384 EltTy.f32)
local notation "ou0" => (Memref.whole Cert.KernelIdeal.cc0_scratch2 : Memref Cert.KernelIdeal.sig Kind.scVector Space.vmem Cert.KernelIdeal.S16384 EltTy.f32)
local notation "ou1" => (Memref.whole Cert.KernelIdeal.cc0_scratch3 : Memref Cert.KernelIdeal.sig Kind.scVector Space.vmem Cert.KernelIdeal.S16384 EltTy.f32)
local notation "pS" => (Memref.whole Cert.KernelIdeal.cc0_scratch4 : Memref Cert.KernelIdeal.sig Kind.scVector Space.vmem Cert.KernelIdeal.S64 EltTy.i32)

section Tile

variable (d : Dev nD) (L : grid0.Coords)

/-! ## A slice of the input on its way into a buffer -/

theorem flIn0_of (off : Fin 1 → ℕ) (h : ∀ a, off a + S16384.size a ≤ S16777216.size a) (hs) (f0 : S16384.Idx → Elt F .f32)
    (pay : S16384.Idx → Elt F .f32)
    (hpay : pay = ReadAs.same.apply (View.read (Elt F) ((xW).slice (Rect.unit (s := S16777216) off S16384.size h) hs).view (X d)))
    (a : ℕ) (ha : off 0 = a) :
    (Transfers.Flight countersEmb (V d (cV L) (jV L)) (SemLoc.dma cc0_scratch5.sem) default 524288
      iprop(((in0).view.loc (V d (cV L) (jV L)) ↦{fullShare} View.write (Elt F) (in0).view f0 pay Finset.univ)
        ∗ ((xW).view.loc (V d (cV L) (jV L)) ↦[((xW).slice (Rect.unit (s := S16777216) off S16384.size h) hs).view.set]{Transfers.shareTokN (tokS (wL L)) 0} X d)) : sProp 𝕄)
      ⊢ flIn0 X d L a := by
  subst hpay ha
  rw [arrive0 off h hs (X d) f0, xslice_set]

theorem flIn1_of (off : Fin 1 → ℕ) (h : ∀ a, off a + S16384.size a ≤ S16777216.size a) (hs) (f0 : S16384.Idx → Elt F .f32)
    (pay : S16384.Idx → Elt F .f32)
    (hpay : pay = ReadAs.same.apply (View.read (Elt F) ((xW).slice (Rect.unit (s := S16777216) off S16384.size h) hs).view (X d)))
    (a : ℕ) (ha : off 0 = a) :
    (Transfers.Flight countersEmb (V d (cV L) (jV L)) (SemLoc.dma cc0_scratch6.sem) default 524288
      iprop(((in1).view.loc (V d (cV L) (jV L)) ↦{fullShare} View.write (Elt F) (in1).view f0 pay Finset.univ)
        ∗ ((xW).view.loc (V d (cV L) (jV L)) ↦[((xW).slice (Rect.unit (s := S16777216) off S16384.size h) hs).view.set]{Transfers.shareTokN (tokS (wL L)) 1} X d)) : sProp 𝕄)
      ⊢ flIn1 X d L a := by
  subst hpay ha
  rw [arrive1 off h hs (X d) f0, xslice_set]

/-- The rest of the read token a prefetch borrowed a slice of. -/
theorem restX_of (t : ℕ) (off : Fin 1 → ℕ) (h : ∀ a, off a + S16384.size a ≤ S16777216.size a) (hs) (a : ℕ) (ha : off 0 = a) :
    ((xW).view.loc (V d (cV L) (jV L)) ↦[Finset.univ \ ((xW).slice (Rect.unit (s := S16777216) off S16384.size h) hs).view.set]{Transfers.shareTokN (tokS (wL L)) t} X d : sProp 𝕄)
      = restX X d L t a := by
  subst ha
  rw [xslice_set]

/-! ## A permuted buffer on its way into a slice of the result -/

/-- What one whole write of a permuted buffer leaves in a slice of the result that starts at a multiple of 64: on the
    slice's places, the specification. -/
theorem owrites_apply (off : Fin 1 → ℕ) (h : ∀ a, off a + S16384.size a ≤ S16777216.size a) (h64 : 64 ∣ off 0)
    (x : S16777216.Idx → Elt F .f32) (p : S64.Idx → BitVec 32) (fo : S16777216.Idx → Elt F .f32) :
    ∀ i ∈ ivl (off 0) (off 0 + 16384),
      (oSl off h).view.writes (Elt F) fo [⟨Rect.whole S16384, permLocal (slcOf x (off 0)) p⟩] i = Cert.Spec.permFlat x p i := by
  intro i hi
  have hi' := mem_ivl.mp hi
  have hb : off 0 + 16384 ≤ 16777216 := by have := h 0; simpa using this
  have hjlt : (i 0).val - off 0 < 16384 := by omega
  have hij : ((oSl off h).view.slice (Rect.whole S16384)).emb (ValueIdx.ix1 (⟨(i 0).val - off 0, hjlt⟩ : Fin 16384)) = i := by
    rw [View.emb_slice]
    show (oSl off h).view.emb ((Rect.whole S16384).emb _) = i
    rw [Rect.emb_whole_apply, oslice_emb]
    refine funext fun (a : Fin 1) => ?_
    obtain rfl : a = 0 := Subsingleton.elim _ _
    apply Fin.ext
    show off 0 + ((i 0).val - off 0) = (i 0).val
    omega
  show ((oSl off h).view.slice (Rect.whole S16384)).write (Elt F) fo (permLocal (slcOf x (off 0)) p) Finset.univ i = _
  rw [← hij, View.write_emb_of_mem _ _ (Finset.mem_univ _)]
  refine (cast_eq _ _).trans ?_
  rw [hij]
  exact permLocal_slc (off 0) h64 x p i hi hb _ rfl

theorem flOut0_of (off : Fin 1 → ℕ) (h : ∀ a, off a + S16384.size a ≤ S16777216.size a) (pay : S16384.Idx → Elt F .f32)
    (a : ℕ) (ha : off 0 = a) (h64 : 64 ∣ a)
    (hpay : pay = ReadAs.same.apply (View.read (Elt F) (ou0).view (permLocal (slcX X d a) (m (pLoc d)))))
    (fo : Buf (Elt F) (oLoc d)) :
    (Transfers.Flight countersEmb (V d (cV L) (jV L)) (SemLoc.dma cc0_scratch7.sem) default 524288
      iprop(((oSl off h).view.loc (V d (cV L) (jV L)) ↦[(oSl off h).view.set]{fullShare} (oSl off h).view.writes (Elt F) fo [⟨Rect.whole S16384, pay⟩])
        ∗ ((ou0).view.loc (V d (cV L) (jV L)) ↦[(ou0).view.set]{fullShare} permLocal (slcX X d a) (m (pLoc d)))) : sProp 𝕄)
      ⊢ flOut0 m X d L a := by
  subst ha hpay
  refine Transfers.Flight_mono countersEmb _ (Entails.of_eq ?_)
  have hs : (ou0).view.set = (Finset.univ : Finset _) := View.set_whole cc0_scratch2
  rw [pts_osl, hs, pointsTo_congr (owrites_apply off h h64 (X d) (m (pLoc d)) fo)]
  rfl

theorem flOut1_of (off : Fin 1 → ℕ) (h : ∀ a, off a + S16384.size a ≤ S16777216.size a) (pay : S16384.Idx → Elt F .f32)
    (a : ℕ) (ha : off 0 = a) (h64 : 64 ∣ a)
    (hpay : pay = ReadAs.same.apply (View.read (Elt F) (ou1).view (permLocal (slcX X d a) (m (pLoc d)))))
    (fo : Buf (Elt F) (oLoc d)) :
    (Transfers.Flight countersEmb (V d (cV L) (jV L)) (SemLoc.dma cc0_scratch8.sem) default 524288
      iprop(((oSl off h).view.loc (V d (cV L) (jV L)) ↦[(oSl off h).view.set]{fullShare} (oSl off h).view.writes (Elt F) fo [⟨Rect.whole S16384, pay⟩])
        ∗ ((ou1).view.loc (V d (cV L) (jV L)) ↦[(ou1).view.set]{fullShare} permLocal (slcX X d a) (m (pLoc d)))) : sProp 𝕄)
      ⊢ flOut1 m X d L a := by
  subst ha hpay
  refine Transfers.Flight_mono countersEmb _ (Entails.of_eq ?_)
  have hs : (ou1).view.set = (Finset.univ : Finset _) := View.set_whole cc0_scratch3
  rw [pts_osl, hs, pointsTo_congr (owrites_apply off h h64 (X d) (m (pLoc d)) fo)]
  rfl

/-- A whole buffer sent leaves nothing of the buffer behind. -/
theorem ou0_rest_emp (g : S16384.Idx → Elt F .f32) :
    ((ou0).view.loc (V d (cV L) (jV L)) ↦[Finset.univ \ (ou0).view.set]{fullShare} g : sProp 𝕄) = (iprop(emp) : sProp 𝕄) := by
  have hs : (ou0).view.set = (Finset.univ : Finset _) := View.set_whole cc0_scratch2
  rw [hs, Finset.sdiff_self, pointsTo_empty]
theorem ou1_rest_emp (g : S16384.Idx → Elt F .f32) :
    ((ou1).view.loc (V d (cV L) (jV L)) ↦[Finset.univ \ (ou1).view.set]{fullShare} g : sProp 𝕄) = (iprop(emp) : sProp 𝕄) := by
  have hs : (ou1).view.set = (Finset.univ : Finset _) := View.set_whole cc0_scratch3
  rw [hs, Finset.sdiff_self, pointsTo_empty]

/-! ## The finished part of the result -/

/-- Three adjacent stretches of the result are one. -/
theorem pts_join3 (A B C D : ℕ) (h1 : A ≤ B) (hBC : B + 16384 = C) (hCD : C + 16384 = D) (f : Buf (Elt F) (oLoc d)) :
    iprop(((oW).view.loc (V d (cV L) (jV L)) ↦[ivl A B]{fullShare} f)
        ∗ ((oW).view.loc (V d (cV L) (jV L)) ↦[ivl B (B + 16384)]{fullShare} f)
        ∗ ((oW).view.loc (V d (cV L) (jV L)) ↦[ivl C (C + 16384)]{fullShare} f))
      ⊢ ((oW).view.loc (V d (cV L) (jV L)) ↦[ivl A D]{fullShare} f : sProp 𝕄) := by
  subst hBC hCD
  iintro ⟨H1, H2, H3⟩
  ihave H23 := ((carve_o d L B (B + 16384 + 16384) (by omega) f).2) $$ [H2 H3]
  · isplitl [H2]; · iexact H2
    iexact H3
  rw [ivl_union (a := A) (b := B) (e := B + 16384 + 16384) h1 (by omega)]
  iapply (pointsTo_union (ivl_disjoint (Nat.le_refl B))).2
  isplitl [H1]; · iexact H1
  iexact H23

/-- After trip `k - 1` the finished part has grown by the two slices that trip sent. -/
theorem done_join (k : ℕ) (hk : 0 < k) (f : Buf (Elt F) (oLoc d)) :
    iprop(((oW).view.loc (V d (cV L) (jV L)) ↦[ivl (bW L) (a0 L (k - 1))]{fullShare} f)
        ∗ ((oW).view.loc (V d (cV L) (jV L)) ↦[ivl (a0 L (k - 1)) (a0 L (k - 1) + 16384)]{fullShare} f)
        ∗ ((oW).view.loc (V d (cV L) (jV L)) ↦[ivl (a1 L (k - 1)) (a1 L (k - 1) + 16384)]{fullShare} f))
      ⊢ ((oW).view.loc (V d (cV L) (jV L)) ↦[ivl (bW L) (a0 L k)]{fullShare} f : sProp 𝕄) :=
  pts_join3 d L (bW L) (a0 L (k - 1)) (a1 L (k - 1)) (a0 L k) (by unfold a0 bW; omega) rfl (by unfold a0 a1; omega) f

/-- Before the first trip nothing is finished. -/
theorem done_zero : ivl (bW L) (a0 L (0 - 1)) = ∅ := ivl_empty (by unfold a0 bW; omega)

theorem done_zero_emp (f : Buf (Elt F) (oLoc d)) :
    ((oW).view.loc (V d (cV L) (jV L)) ↦[ivl (bW L) (a0 L (0 - 1))]{fullShare} f : sProp 𝕄) = (iprop(emp) : sProp 𝕄) := by
  rw [done_zero, pointsTo_empty]

end Tile

end Cert.Proof.KI

end
-- ==== Proof.KI.Inner.lean ====
/-
  The kernel's two inner loops. One trip of either loop gathers sixteen pieces of sixteen entries out of the input
  buffer — the sixteen places of positions 16·q … 16·q + 15 of the list, moved to run 4·k + u of the buffer — and stores
  piece (u, q) at positions 256·k + 64·u + 16·q … of the output buffer. So after trip k the output buffer holds the
  permuted input below position 256·(k + 1): entry 64·g + j is the input's entry 64·g + p j. After the 64 trips that is
  the whole buffer. The in-range condition each gather assumes holds because every place is below 64 and every run
  starts at most at 64·255.
-/
import proofs.«213039_g63608465654469_cont_9to1_m_885_2_alg».proof.Proof.KI.Geom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_v0_scv : Memref Cert.KernelIdeal.sig Kind.scVector Space.hbm Cert.KernelIdeal.S16777216 EltTy.f32)
local notation "pW" => (Memref.whole Cert.KernelIdeal.main_arg1_scv : Memref Cert.KernelIdeal.sig Kind.scVector Space.hbm Cert.KernelIdeal.S64 EltTy.i32)
local notation "oW" => (Memref.whole Cert.KernelIdeal.main_v1_scv : Memref Cert.KernelIdeal.sig Kind.scVector Space.hbm Cert.KernelIdeal.S16777216 EltTy.f32)
local notation "in0" => (Memref.whole Cert.KernelIdeal.cc0_scratch0 : Memref Cert.KernelIdeal.sig Kind.scVector Space.vmem Cert.KernelIdeal.S16384 EltTy.f32)
local notation "in1" => (Memref.whole Cert.KernelIdeal.cc0_scratch1 : Memref Cert.KernelIdeal.sig Kind.scVector Space.vmem Cert.KernelIdeal.S16384 EltTy.f32)
local notation "ou0" => (Memref.whole Cert.KernelIdeal.cc0_scratch2 : Memref Cert.KernelIdeal.sig Kind.scVector Space.vmem Cert.KernelIdeal.S16384 EltTy.f32)
local notation "ou1" => (Memref.whole Cert.KernelIdeal.cc0_scratch3 : Memref Cert.KernelIdeal.sig Kind.scVector Space.vmem Cert.KernelIdeal.S16384 EltTy.f32)
local notation "pS" => (Memref.whole Cert.KernelIdeal.cc0_scratch4 : Memref Cert.KernelIdeal.sig Kind.scVector Space.vmem Cert.KernelIdeal.S64 EltTy.i32)

variable [FloatOps F]

variable (d : Dev nD) (L : grid0.Coords)

/-! ## Words and places -/

/-- A place below 64 moved by a run's start that leaves room for 64 names an entry of the buffer. -/
theorem chk_lane (v : IVec S16 32) (cb : BitVec 32) (hv : ∀ x, (v x).toNat < 64) (hcb : cb.toNat + 64 ≤ 16384) :
    ∀ a x, ((![addi v (broadcast S16 cb)] : Fin 1 → IVec S16 32) a x).toNat < S16384.size a := by
  intro a x
  obtain rfl : a = 0 := Subsingleton.elim _ _
  show (v x + cb).toNat < 16384
  have := hv x
  rw [BitVec.toNat_add]
  omega

/-- The start of run 4·k + n of the buffer, as the word the kernel computes: 64·(4·k + n). -/
theorem cb_toNat (u : BitVec 32) (n : Nat) (hn : u.toNat = n) (hu : n < 4) (k : Nat) (hk : k < 64) :
    (Scalar.muli (Scalar.addi (Scalar.muli (Scf.iv 0#32 1#32 k) 4#32) u) 64#32).toNat = 64 * (4 * k + n) := by
  subst hn
  simp only [Scalar.muli, Scalar.addi, IntOp.muli, IntOp.addi, Scf.iv, BitVec.toNat_mul, BitVec.toNat_add, BitVec.toNat_ofNat]
  omega

theorem cb_le (u : BitVec 32) (hu : u.toNat < 4) (k : Nat) (hk : k < 64) :
    (Scalar.muli (Scalar.addi (Scalar.muli (Scf.iv 0#32 1#32 k) 4#32) u) 64#32).toNat + 64 ≤ 16384 := by
  rw [cb_toNat u _ rfl hu k hk]; omega

/-! ## The permutation inside a buffer -/

/-- One piece of a trip. Sixteen places (those of positions b … b + 15), moved to run r of the buffer, are gathered and
    stored at positions 64·r + b … of the result: each stored entry is the permuted input's. -/
theorem piece_ok (fin : Vec F S16384 .f32) (pv : S64.Idx → BitVec 32) (hp : ∀ j, (pv j).toNat < 64)
    (fin' : Vec F S16384 .f32) (hfin : fin' = fin)
    (v : IVec S16 32) (b : Nat) (hb : b + 16 ≤ 64) (hv : ∀ l : Fin 16, v (ValueIdx.ix1 l) = pv (ValueIdx.ix1 ⟨b + l.val, by omega⟩))
    (cb : BitVec 32) (r : Nat) (hr : r < 256) (hcb : cb.toNat = 64 * r)
    (off : Fin 1 → Nat) (inb : ∀ a, off a + S16.size a ≤ S16384.size a) (hoff : off 0 = 64 * r + b)
    (h : ∀ a x, ((![addi v (broadcast S16 cb)] : Fin 1 → IVec S16 32) a x).toNat < S16384.size a) (x : S16.Idx) :
    loadIdx fin' ![addi v (broadcast S16 cb)] h x = permLocal fin pv ((Rect.unit (s := S16384) off S16.size inb).emb x) := by
  subst hfin
  unfold loadIdx permLocal
  congr 1
  funext a
  obtain rfl : a = 0 := Subsingleton.elim _ _
  refine Fin.ext ?_
  have hx : (x 0).val < 16 := (x 0).isLt
  have hvx : v x = pv (ValueIdx.ix1 ⟨b + (x 0).val, by omega⟩) :=
    (congrArg v (ValueIdx.eq_ix1 x)).trans (hv (x 0))
  have hJ : (((Rect.unit (s := S16384) off S16.size inb).emb x) 0).val = 64 * r + b + (x 0).val := by
    show off 0 + 1 * (x 0).val = _
    omega
  have hpl : Cert.Spec.place pv ⟨(((Rect.unit (s := S16384) off S16.size inb).emb x) 0).val % 64, Nat.mod_lt _ (by decide)⟩
      = (pv (ValueIdx.ix1 ⟨b + (x 0).val, by omega⟩)).toNat := by
    unfold Cert.Spec.place
    have e : (⟨(((Rect.unit (s := S16384) off S16.size inb).emb x) 0).val % 64, Nat.mod_lt _ (by decide)⟩ : Fin 64)
        = ⟨b + (x 0).val, by omega⟩ := Fin.ext (by show _ % 64 = b + (x 0).val; rw [hJ]; omega)
    rw [e]
    exact Nat.mod_eq_of_lt (hp _)
  show (v x + cb).toNat = 64 * ((((Rect.unit (s := S16384) off S16.size inb).emb x) 0).val / 64) + _
  rw [hpl, hJ, hvx, BitVec.toNat_add, hcb]
  have := hp (ValueIdx.ix1 ⟨b + (x 0).val, by omega⟩)
  omega

/-- An entry lies under a piece at `off` of `size` entries when its position is one of `off 0 … off 0 + size 0 - 1`. -/
theorem mem_piece (off size : Fin 1 → Nat) (inb : ∀ a, off a + size a ≤ S16384.size a) (y : S16384.Idx) :
    y ∈ (Rect.unit (s := S16384) off size inb).set ↔ off 0 ≤ (y 0).val ∧ (y 0).val < off 0 + size 0 := by
  rw [Rect.mem_set_unit, Fin.forall_fin_one]

/-- What a trip's stores leave. The pieces written hold the wanted function, they cover positions 256·t … 256·t + 255 and
    touch nothing below; so if the buffer held the wanted function below 256·t, it now does below 256·(t + 1). -/
theorem writes_step {κ : Kind} {sp : Space} {e : EltTy} (v : View sig κ sp S16384 e) (Val : EltTy → Type)
    (f : v.ty.Contents Val) (L : List (View.Piece Val S16384 e)) (G : S16384.Idx → Val e) (t : Nat)
    (hP : ∀ p ∈ L, ∀ x : p.1.shape.Idx, p.2 x = G (p.1.emb x))
    (hcov : ∀ y : S16384.Idx, 256 * t ≤ (y 0).val → (y 0).val < 256 * (t + 1) → ∃ p ∈ L, y ∈ p.1.set)
    (hnot : ∀ y : S16384.Idx, (y 0).val < 256 * t → ∀ p ∈ L, y ∉ p.1.set)
    (hf : ∀ y : S16384.Idx, (y 0).val < 256 * t → v.read Val f y = G y) :
    ∀ y : S16384.Idx, (y 0).val < 256 * (t + 1) → v.read Val (v.writes Val f L) y = G y := by
  intro y hy
  by_cases hlt : (y 0).val < 256 * t
  · rw [View.read_writes_apply_of_forall_not_mem v f y L (hnot y hlt)]
    exact hf y hlt
  · exact View.read_writes_apply_of_pieces v f G L hP y (hcov y (by omega) hy)

/-- Sixteen lanes that hold sixteen of the places hold words below 64. -/
theorem lanes_lt (pv : S64.Idx → BitVec 32) (hp : ∀ j, (pv j).toNat < 64) (v : IVec S16 32) (b : Nat) (hb : b + 16 ≤ 64)
    (hv : ∀ l : Fin 16, v (ValueIdx.ix1 l) = pv (ValueIdx.ix1 ⟨b + l.val, by omega⟩)) : ∀ x, (v x).toNat < 64 := fun x => by
  have e : v x = pv (ValueIdx.ix1 ⟨b + (x 0).val, by have hx : (x 0).val < 16 := (x 0).isLt; omega⟩) :=
    (congrArg v (ValueIdx.eq_ix1 x)).trans (hv (x 0))
  rw [e]; exact hp _

/-! ## The first loop: input buffer 0, output buffer 0 -/

/-- Before trip t of the loop: the input buffer as it was, the output buffer holding the permuted input below position
    256·t. -/
def inv0 (fin : Buf (Elt F) ((V d (cV L) (jV L)).loc cc0_scratch0)) (pv : S64.Idx → BitVec 32) (t : Nat) (_ : Unit) : sProp 𝕄 :=
  iprop(((in0).view.loc (V d (cV L) (jV L)) ↦{fullShare} fin)
    ∗ ∃ g' : Buf (Elt F) ((V d (cV L) (jV L)).loc cc0_scratch2), ((ou0).view.loc (V d (cV L) (jV L)) ↦{fullShare} g')
      ∗ ⌜∀ j : S16384.Idx, (j 0).val < 256 * t → g' j = permLocal fin pv j⌝)

set_option maxHeartbeats 1600000 in
/-- One trip: sixteen pieces of sixteen entries, gathered at the places moved to the trip's four runs of 64 and stored
    at positions 256·k … 256·k + 255. -/
theorem trip0 (pv : S64.Idx → BitVec 32) (hp : ∀ j, (pv j).toNat < 64) (v3 v4 v5 v6 : Vec F S16 .i32)
    (hv3 : ∀ l : Fin 16, v3 (ValueIdx.ix1 l) = pv (ValueIdx.ix1 ⟨0 + l.val, by omega⟩))
    (hv4 : ∀ l : Fin 16, v4 (ValueIdx.ix1 l) = pv (ValueIdx.ix1 ⟨16 + l.val, by omega⟩))
    (hv5 : ∀ l : Fin 16, v5 (ValueIdx.ix1 l) = pv (ValueIdx.ix1 ⟨32 + l.val, by omega⟩))
    (hv6 : ∀ l : Fin 16, v6 (ValueIdx.ix1 l) = pv (ValueIdx.ix1 ⟨48 + l.val, by omega⟩))
    (v2 c0 c1 : BitVec 32) (k1 : Fin k0_t1_loop.trips)
    (fin : Buf (Elt F) ((V d (cV L) (jV L)).loc cc0_scratch0)) (k : Fin k0_t2_loop.trips) (acc : Unit) :
    inv0 d L fin pv k.val acc
      ⊢ wp frame (wpE (defs₀ (F := F)) 𝒱₀ (V d (cV L) (jV L)) none) Set.univ
          (k0_t2_body L xW (Memref.isWhole_whole _) pW (Memref.isWhole_whole _) oW (Memref.isWhole_whole _)
            in0 (Memref.isWhole_whole _) in1 (Memref.isWhole_whole _) ou0 (Memref.isWhole_whole _) ou1 (Memref.isWhole_whole _) pS (Memref.isWhole_whole _)
            cc0_scratch5 cc0_scratch6 cc0_scratch7 cc0_scratch8 cc0_scoped0 v2 v3 v4 v5 v6 c0 c1 k1 k acc)
          (inv0 d L fin pv (k.val + 1)) := by
  have hk64 : k.val < 64 := k.isLt
  have h3 : ∀ x, (v3 x : BitVec 32).toNat < 64 := lanes_lt pv hp v3 0 (by omega) hv3
  have h4 : ∀ x, (v4 x : BitVec 32).toNat < 64 := lanes_lt pv hp v4 16 (by omega) hv4
  have h5 : ∀ x, (v5 x : BitVec 32).toNat < 64 := lanes_lt pv hp v5 32 (by omega) hv5
  have h6 : ∀ x, (v6 x : BitVec 32).toNat < 64 := lanes_lt pv hp v6 48 (by omega) hv6
  unfold inv0 k0_t2_body
  rw [k0_part1_eq_skeleton, k0_part2_eq_skeleton]
  unfold k0_part1_skel k0_part2_skel SparseCore.vectorLoadIdx
  iintro ⟨Hin, %g', Hou, %hg'⟩
  sl_exec (disch := exact chk_lane _ _ (by assumption) (cb_le _ (by decide) _ hk64))
  sl_step
  isplitl [Hin]
  · iexact Hin
  iexists _
  isplitl [Hou]
  · iexact Hou
  ipureintro
  intro j hj
  refine (congrFun (View.read_whole (Val := Elt F) cc0_scratch2 _) j).symm.trans
    (writes_step (ou0).view (Elt F) g' _ (permLocal fin pv) k.val ?hP ?hcov ?hnot hg' j hj)
  case hcov =>
    intro y h1 h2
    simp only [List.mem_cons, List.not_mem_nil, _root_.or_false, exists_eq_or_imp, exists_eq_left, mem_piece, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, Matrix.cons_val_zero]
    omega
  case hnot =>
    intro y h1
    simp only [List.mem_cons, List.not_mem_nil, _root_.or_false, forall_eq_or_imp, forall_eq, mem_piece, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, Matrix.cons_val_zero]
    omega
  case hP =>
    refine List.forall_mem_cons.2 ⟨fun x => piece_ok fin pv hp _ (Memref.readAt_whole (Elt F) cc0_scratch0 fin) v6 48 (by omega) hv6 _
      (4 * k.val + 3) (by omega) (cb_toNat (3#32) 3 rfl (by omega) k.val hk64) _ (k0_off20_inb k)
      (by rw [k0_off20_eq k]; show (256 * k.val + 240 : ℕ) = _; omega)
      (chk_lane _ _ h6 (cb_le (3#32) (by decide) k.val hk64)) x, ?_⟩
    refine List.forall_mem_cons.2 ⟨fun x => piece_ok fin pv hp _ (Memref.readAt_whole (Elt F) cc0_scratch0 fin) v5 32 (by omega) hv5 _
      (4 * k.val + 3) (by omega) (cb_toNat (3#32) 3 rfl (by omega) k.val hk64) _ (k0_off19_inb k)
      (by rw [k0_off19_eq k]; show (256 * k.val + 224 : ℕ) = _; omega)
      (chk_lane _ _ h5 (cb_le (3#32) (by decide) k.val hk64)) x, ?_⟩
    refine List.forall_mem_cons.2 ⟨fun x => piece_ok fin pv hp _ (Memref.readAt_whole (Elt F) cc0_scratch0 fin) v4 16 (by omega) hv4 _
      (4 * k.val + 3) (by omega) (cb_toNat (3#32) 3 rfl (by omega) k.val hk64) _ (k0_off18_inb k)
      (by rw [k0_off18_eq k]; show (256 * k.val + 208 : ℕ) = _; omega)
      (chk_lane _ _ h4 (cb_le (3#32) (by decide) k.val hk64)) x, ?_⟩
    refine List.forall_mem_cons.2 ⟨fun x => piece_ok fin pv hp _ (Memref.readAt_whole (Elt F) cc0_scratch0 fin) v3 0 (by omega) hv3 _
      (4 * k.val + 3) (by omega) (cb_toNat (3#32) 3 rfl (by omega) k.val hk64) _ (k0_off17_inb k)
      (by rw [k0_off17_eq k]; show (256 * k.val + 192 : ℕ) = _; omega)
      (chk_lane _ _ h3 (cb_le (3#32) (by decide) k.val hk64)) x, ?_⟩
    refine List.forall_mem_cons.2 ⟨fun x => piece_ok fin pv hp _ (Memref.readAt_whole (Elt F) cc0_scratch0 fin) v6 48 (by omega) hv6 _
      (4 * k.val + 2) (by omega) (cb_toNat (2#32) 2 rfl (by omega) k.val hk64) _ (k0_off16_inb k)
      (by rw [k0_off16_eq k]; show (256 * k.val + 176 : ℕ) = _; omega)
      (chk_lane _ _ h6 (cb_le (2#32) (by decide) k.val hk64)) x, ?_⟩
    refine List.forall_mem_cons.2 ⟨fun x => piece_ok fin pv hp _ (Memref.readAt_whole (Elt F) cc0_scratch0 fin) v5 32 (by omega) hv5 _
      (4 * k.val + 2) (by omega) (cb_toNat (2#32) 2 rfl (by omega) k.val hk64) _ (k0_off15_inb k)
      (by rw [k0_off15_eq k]; show (256 * k.val + 160 : ℕ) = _; omega)
      (chk_lane _ _ h5 (cb_le (2#32) (by decide) k.val hk64)) x, ?_⟩
    refine List.forall_mem_cons.2 ⟨fun x => piece_ok fin pv hp _ (Memref.readAt_whole (Elt F) cc0_scratch0 fin) v4 16 (by omega) hv4 _
      (4 * k.val + 2) (by omega) (cb_toNat (2#32) 2 rfl (by omega) k.val hk64) _ (k0_off14_inb k)
      (by rw [k0_off14_eq k]; show (256 * k.val + 144 : ℕ) = _; omega)
      (chk_lane _ _ h4 (cb_le (2#32) (by decide) k.val hk64)) x, ?_⟩
    refine List.forall_mem_cons.2 ⟨fun x => piece_ok fin pv hp _ (Memref.readAt_whole (Elt F) cc0_scratch0 fin) v3 0 (by omega) hv3 _
      (4 * k.val + 2) (by omega) (cb_toNat (2#32) 2 rfl (by omega) k.val hk64) _ (k0_off13_inb k)
      (by rw [k0_off13_eq k]; show (256 * k.val + 128 : ℕ) = _; omega)
      (chk_lane _ _ h3 (cb_le (2#32) (by decide) k.val hk64)) x, ?_⟩
    refine List.forall_mem_cons.2 ⟨fun x => piece_ok fin pv hp _ (Memref.readAt_whole (Elt F) cc0_scratch0 fin) v6 48 (by omega) hv6 _
      (4 * k.val + 1) (by omega) (cb_toNat (1#32) 1 rfl (by omega) k.val hk64) _ (k0_off12_inb k)
      (by rw [k0_off12_eq k]; show (256 * k.val + 112 : ℕ) = _; omega)
      (chk_lane _ _ h6 (cb_le (1#32) (by decide) k.val hk64)) x, ?_⟩
    refine List.forall_mem_cons.2 ⟨fun x => piece_ok fin pv hp _ (Memref.readAt_whole (Elt F) cc0_scratch0 fin) v5 32 (by omega) hv5 _
      (4 * k.val + 1) (by omega) (cb_toNat (1#32) 1 rfl (by omega) k.val hk64) _ (k0_off11_inb k)
      (by rw [k0_off11_eq k]; show (256 * k.val + 96 : ℕ) = _; omega)
      (chk_lane _ _ h5 (cb_le (1#32) (by decide) k.val hk64)) x, ?_⟩
    refine List.forall_mem_cons.2 ⟨fun x => piece_ok fin pv hp _ (Memref.readAt_whole (Elt F) cc0_scratch0 fin) v4 16 (by omega) hv4 _
      (4 * k.val + 1) (by omega) (cb_toNat (1#32) 1 rfl (by omega) k.val hk64) _ (k0_off10_inb k)
      (by rw [k0_off10_eq k]; show (256 * k.val + 80 : ℕ) = _; omega)
      (chk_lane _ _ h4 (cb_le (1#32) (by decide) k.val hk64)) x, ?_⟩
    refine List.forall_mem_cons.2 ⟨fun x => piece_ok fin pv hp _ (Memref.readAt_whole (Elt F) cc0_scratch0 fin) v3 0 (by omega) hv3 _
      (4 * k.val + 1) (by omega) (cb_toNat (1#32) 1 rfl (by omega) k.val hk64) _ (k0_off9_inb k)
      (by rw [k0_off9_eq k]; show (256 * k.val + 64 : ℕ) = _; omega)
      (chk_lane _ _ h3 (cb_le (1#32) (by decide) k.val hk64)) x, ?_⟩
    refine List.forall_mem_cons.2 ⟨fun x => piece_ok fin pv hp _ (Memref.readAt_whole (Elt F) cc0_scratch0 fin) v6 48 (by omega) hv6 _
      (4 * k.val + 0) (by omega) (cb_toNat (0#32) 0 rfl (by omega) k.val hk64) _ (k0_off8_inb k)
      (by rw [k0_off8_eq k]; show (256 * k.val + 48 : ℕ) = _; omega)
      (chk_lane _ _ h6 (cb_le (0#32) (by decide) k.val hk64)) x, ?_⟩
    refine List.forall_mem_cons.2 ⟨fun x => piece_ok fin pv hp _ (Memref.readAt_whole (Elt F) cc0_scratch0 fin) v5 32 (by omega) hv5 _
      (4 * k.val + 0) (by omega) (cb_toNat (0#32) 0 rfl (by omega) k.val hk64) _ (k0_off7_inb k)
      (by rw [k0_off7_eq k]; show (256 * k.val + 32 : ℕ) = _; omega)
      (chk_lane _ _ h5 (cb_le (0#32) (by decide) k.val hk64)) x, ?_⟩
    refine List.forall_mem_cons.2 ⟨fun x => piece_ok fin pv hp _ (Memref.readAt_whole (Elt F) cc0_scratch0 fin) v4 16 (by omega) hv4 _
      (4 * k.val + 0) (by omega) (cb_toNat (0#32) 0 rfl (by omega) k.val hk64) _ (k0_off6_inb k)
      (by rw [k0_off6_eq k]; show (256 * k.val + 16 : ℕ) = _; omega)
      (chk_lane _ _ h4 (cb_le (0#32) (by decide) k.val hk64)) x, ?_⟩
    refine List.forall_mem_cons.2 ⟨fun x => piece_ok fin pv hp _ (Memref.readAt_whole (Elt F) cc0_scratch0 fin) v3 0 (by omega) hv3 _
      (4 * k.val + 0) (by omega) (cb_toNat (0#32) 0 rfl (by omega) k.val hk64) _ (k0_off5_inb k)
      (by rw [k0_off5_eq k]; show (256 * k.val : ℕ) = _; omega)
      (chk_lane _ _ h3 (cb_le (0#32) (by decide) k.val hk64)) x, ?_⟩
    exact fun _ h => absurd h List.not_mem_nil

/-- The whole loop: after its 64 trips the output buffer holds the permuted input, the input buffer as it was. -/
theorem inner0 (v3 v4 v5 v6 : Vec F S16 .i32) (pv : S64.Idx → BitVec 32)
    (hv3 : ∀ l : Fin 16, v3 (ValueIdx.ix1 l) = pv (ValueIdx.ix1 ⟨l.val, by omega⟩))
    (hv4 : ∀ l : Fin 16, v4 (ValueIdx.ix1 l) = pv (ValueIdx.ix1 ⟨16 + l.val, by omega⟩))
    (hv5 : ∀ l : Fin 16, v5 (ValueIdx.ix1 l) = pv (ValueIdx.ix1 ⟨32 + l.val, by omega⟩))
    (hv6 : ∀ l : Fin 16, v6 (ValueIdx.ix1 l) = pv (ValueIdx.ix1 ⟨48 + l.val, by omega⟩))
    (hp : ∀ j, (pv j).toNat < 64) (v2 c0 c1 : BitVec 32) (k1 : Fin k0_t1_loop.trips)
    (fin : Buf (Elt F) ((V d (cV L) (jV L)).loc cc0_scratch0)) (g : Buf (Elt F) ((V d (cV L) (jV L)).loc cc0_scratch2)) :
    (iprop(((in0).view.loc (V d (cV L) (jV L)) ↦{fullShare} fin) ∗ ((ou0).view.loc (V d (cV L) (jV L)) ↦{fullShare} g)) : sProp 𝕄)
      ⊢ wp frame (wpE (defs₀ (F := F)) 𝒱₀ (V d (cV L) (jV L)) none) Set.univ
          (Scf.Loop.for k0_t2_loop k0_t2_ok ⟨⟩ (k0_t2_body L xW (Memref.isWhole_whole _) pW (Memref.isWhole_whole _) oW (Memref.isWhole_whole _)
            in0 (Memref.isWhole_whole _) in1 (Memref.isWhole_whole _) ou0 (Memref.isWhole_whole _) ou1 (Memref.isWhole_whole _) pS (Memref.isWhole_whole _)
            cc0_scratch5 cc0_scratch6 cc0_scratch7 cc0_scratch8 cc0_scoped0 v2 v3 v4 v5 v6 c0 c1 k1))
          fun _ => iprop(((in0).view.loc (V d (cV L) (jV L)) ↦{fullShare} fin)
            ∗ ((ou0).view.loc (V d (cV L) (jV L)) ↦{fullShare} permLocal fin pv)) := by
  have hv3' : ∀ l : Fin 16, v3 (ValueIdx.ix1 l) = pv (ValueIdx.ix1 ⟨0 + l.val, by omega⟩) := fun l =>
    (hv3 l).trans (congrArg pv (congrArg ValueIdx.ix1 (Fin.ext (Nat.zero_add _).symm)))
  have htr : Scf.trips k0_t2_loop.lb k0_t2_loop.ub k0_t2_loop.st = 64 := by decide
  iintro ⟨Hin, Hou⟩
  iapply (Scf.wp_for frame (wpE (defs₀ (F := F)) 𝒱₀ (V d (cV L) (jV L)) none) Set.univ k0_t2_loop.lb k0_t2_loop.ub k0_t2_loop.st k0_t2_ok ⟨⟩ _
    (inv0 d L fin pv) (fun k acc => trip0 d L pv hp v3 v4 v5 v6 hv3' hv4 hv5 hv6 v2 c0 c1 k1 fin k acc))
  isplitl [Hin Hou]
  · unfold inv0
    isplitl [Hin]
    · iexact Hin
    iexists g
    isplitl [Hou]
    · iexact Hou
    ipureintro
    intro j hj
    omega
  · iintro %acc HI
    rw [htr]
    unfold inv0
    icases HI with ⟨Hin, %g', Hou, %hg'⟩
    have hg : g' = permLocal fin pv := funext fun j => hg' j (by have h : (j 0).val < 16384 := (j 0).isLt; omega)
    subst hg
    isplitl [Hin]
    · iexact Hin
    iexact Hou

/-! ## The second loop: input buffer 1, output buffer 1 -/

/-- Before trip t of the loop: the input buffer as it was, the output buffer holding the permuted input below position
    256·t. -/
def inv1 (fin : Buf (Elt F) ((V d (cV L) (jV L)).loc cc0_scratch1)) (pv : S64.Idx → BitVec 32) (t : Nat) (_ : Unit) : sProp 𝕄 :=
  iprop(((in1).view.loc (V d (cV L) (jV L)) ↦{fullShare} fin)
    ∗ ∃ g' : Buf (Elt F) ((V d (cV L) (jV L)).loc cc0_scratch3), ((ou1).view.loc (V d (cV L) (jV L)) ↦{fullShare} g')
      ∗ ⌜∀ j : S16384.Idx, (j 0).val < 256 * t → g' j = permLocal fin pv j⌝)

set_option maxHeartbeats 1600000 in
/-- One trip: sixteen pieces of sixteen entries, gathered at the places moved to the trip's four runs of 64 and stored
    at positions 256·k … 256·k + 255. -/
theorem trip1 (pv : S64.Idx → BitVec 32) (hp : ∀ j, (pv j).toNat < 64) (v3 v4 v5 v6 : Vec F S16 .i32)
    (hv3 : ∀ l : Fin 16, v3 (ValueIdx.ix1 l) = pv (ValueIdx.ix1 ⟨0 + l.val, by omega⟩))
    (hv4 : ∀ l : Fin 16, v4 (ValueIdx.ix1 l) = pv (ValueIdx.ix1 ⟨16 + l.val, by omega⟩))
    (hv5 : ∀ l : Fin 16, v5 (ValueIdx.ix1 l) = pv (ValueIdx.ix1 ⟨32 + l.val, by omega⟩))
    (hv6 : ∀ l : Fin 16, v6 (ValueIdx.ix1 l) = pv (ValueIdx.ix1 ⟨48 + l.val, by omega⟩))
    (v2 c0 c1 : BitVec 32) (k1 : Fin k0_t1_loop.trips)
    (fin : Buf (Elt F) ((V d (cV L) (jV L)).loc cc0_scratch1)) (k : Fin k0_t3_loop.trips) (acc : Unit) :
    inv1 d L fin pv k.val acc
      ⊢ wp frame (wpE (defs₀ (F := F)) 𝒱₀ (V d (cV L) (jV L)) none) Set.univ
          (k0_t3_body L xW (Memref.isWhole_whole _) pW (Memref.isWhole_whole _) oW (Memref.isWhole_whole _)
            in0 (Memref.isWhole_whole _) in1 (Memref.isWhole_whole _) ou0 (Memref.isWhole_whole _) ou1 (Memref.isWhole_whole _) pS (Memref.isWhole_whole _)
            cc0_scratch5 cc0_scratch6 cc0_scratch7 cc0_scratch8 cc0_scoped0 v2 v3 v4 v5 v6 c0 c1 k1 k acc)
          (inv1 d L fin pv (k.val + 1)) := by
  have hk64 : k.val < 64 := k.isLt
  have h3 : ∀ x, (v3 x : BitVec 32).toNat < 64 := lanes_lt pv hp v3 0 (by omega) hv3
  have h4 : ∀ x, (v4 x : BitVec 32).toNat < 64 := lanes_lt pv hp v4 16 (by omega) hv4
  have h5 : ∀ x, (v5 x : BitVec 32).toNat < 64 := lanes_lt pv hp v5 32 (by omega) hv5
  have h6 : ∀ x, (v6 x : BitVec 32).toNat < 64 := lanes_lt pv hp v6 48 (by omega) hv6
  unfold inv1 k0_t3_body
  rw [k0_part3_eq_skeleton, k0_part4_eq_skeleton]
  unfold k0_part3_skel k0_part4_skel SparseCore.vectorLoadIdx
  iintro ⟨Hin, %g', Hou, %hg'⟩
  sl_exec (disch := exact chk_lane _ _ (by assumption) (cb_le _ (by decide) _ hk64))
  sl_step
  isplitl [Hin]
  · iexact Hin
  iexists _
  isplitl [Hou]
  · iexact Hou
  ipureintro
  intro j hj
  refine (congrFun (View.read_whole (Val := Elt F) cc0_scratch3 _) j).symm.trans
    (writes_step (ou1).view (Elt F) g' _ (permLocal fin pv) k.val ?hP ?hcov ?hnot hg' j hj)
  case hcov =>
    intro y h1 h2
    simp only [List.mem_cons, List.not_mem_nil, _root_.or_false, exists_eq_or_imp, exists_eq_left, mem_piece, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, Matrix.cons_val_zero]
    omega
  case hnot =>
    intro y h1
    simp only [List.mem_cons, List.not_mem_nil, _root_.or_false, forall_eq_or_imp, forall_eq, mem_piece, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, Matrix.cons_val_zero]
    omega
  case hP =>
    refine List.forall_mem_cons.2 ⟨fun x => piece_ok fin pv hp _ (Memref.readAt_whole (Elt F) cc0_scratch1 fin) v6 48 (by omega) hv6 _
      (4 * k.val + 3) (by omega) (cb_toNat (3#32) 3 rfl (by omega) k.val hk64) _ (k0_off38_inb k)
      (by rw [k0_off38_eq k]; show (256 * k.val + 240 : ℕ) = _; omega)
      (chk_lane _ _ h6 (cb_le (3#32) (by decide) k.val hk64)) x, ?_⟩
    refine List.forall_mem_cons.2 ⟨fun x => piece_ok fin pv hp _ (Memref.readAt_whole (Elt F) cc0_scratch1 fin) v5 32 (by omega) hv5 _
      (4 * k.val + 3) (by omega) (cb_toNat (3#32) 3 rfl (by omega) k.val hk64) _ (k0_off37_inb k)
      (by rw [k0_off37_eq k]; show (256 * k.val + 224 : ℕ) = _; omega)
      (chk_lane _ _ h5 (cb_le (3#32) (by decide) k.val hk64)) x, ?_⟩
    refine List.forall_mem_cons.2 ⟨fun x => piece_ok fin pv hp _ (Memref.readAt_whole (Elt F) cc0_scratch1 fin) v4 16 (by omega) hv4 _
      (4 * k.val + 3) (by omega) (cb_toNat (3#32) 3 rfl (by omega) k.val hk64) _ (k0_off36_inb k)
      (by rw [k0_off36_eq k]; show (256 * k.val + 208 : ℕ) = _; omega)
      (chk_lane _ _ h4 (cb_le (3#32) (by decide) k.val hk64)) x, ?_⟩
    refine List.forall_mem_cons.2 ⟨fun x => piece_ok fin pv hp _ (Memref.readAt_whole (Elt F) cc0_scratch1 fin) v3 0 (by omega) hv3 _
      (4 * k.val + 3) (by omega) (cb_toNat (3#32) 3 rfl (by omega) k.val hk64) _ (k0_off35_inb k)
      (by rw [k0_off35_eq k]; show (256 * k.val + 192 : ℕ) = _; omega)
      (chk_lane _ _ h3 (cb_le (3#32) (by decide) k.val hk64)) x, ?_⟩
    refine List.forall_mem_cons.2 ⟨fun x => piece_ok fin pv hp _ (Memref.readAt_whole (Elt F) cc0_scratch1 fin) v6 48 (by omega) hv6 _
      (4 * k.val + 2) (by omega) (cb_toNat (2#32) 2 rfl (by omega) k.val hk64) _ (k0_off34_inb k)
      (by rw [k0_off34_eq k]; show (256 * k.val + 176 : ℕ) = _; omega)
      (chk_lane _ _ h6 (cb_le (2#32) (by decide) k.val hk64)) x, ?_⟩
    refine List.forall_mem_cons.2 ⟨fun x => piece_ok fin pv hp _ (Memref.readAt_whole (Elt F) cc0_scratch1 fin) v5 32 (by omega) hv5 _
      (4 * k.val + 2) (by omega) (cb_toNat (2#32) 2 rfl (by omega) k.val hk64) _ (k0_off33_inb k)
      (by rw [k0_off33_eq k]; show (256 * k.val + 160 : ℕ) = _; omega)
      (chk_lane _ _ h5 (cb_le (2#32) (by decide) k.val hk64)) x, ?_⟩
    refine List.forall_mem_cons.2 ⟨fun x => piece_ok fin pv hp _ (Memref.readAt_whole (Elt F) cc0_scratch1 fin) v4 16 (by omega) hv4 _
      (4 * k.val + 2) (by omega) (cb_toNat (2#32) 2 rfl (by omega) k.val hk64) _ (k0_off32_inb k)
      (by rw [k0_off32_eq k]; show (256 * k.val + 144 : ℕ) = _; omega)
      (chk_lane _ _ h4 (cb_le (2#32) (by decide) k.val hk64)) x, ?_⟩
    refine List.forall_mem_cons.2 ⟨fun x => piece_ok fin pv hp _ (Memref.readAt_whole (Elt F) cc0_scratch1 fin) v3 0 (by omega) hv3 _
      (4 * k.val + 2) (by omega) (cb_toNat (2#32) 2 rfl (by omega) k.val hk64) _ (k0_off31_inb k)
      (by rw [k0_off31_eq k]; show (256 * k.val + 128 : ℕ) = _; omega)
      (chk_lane _ _ h3 (cb_le (2#32) (by decide) k.val hk64)) x, ?_⟩
    refine List.forall_mem_cons.2 ⟨fun x => piece_ok fin pv hp _ (Memref.readAt_whole (Elt F) cc0_scratch1 fin) v6 48 (by omega) hv6 _
      (4 * k.val + 1) (by omega) (cb_toNat (1#32) 1 rfl (by omega) k.val hk64) _ (k0_off30_inb k)
      (by rw [k0_off30_eq k]; show (256 * k.val + 112 : ℕ) = _; omega)
      (chk_lane _ _ h6 (cb_le (1#32) (by decide) k.val hk64)) x, ?_⟩
    refine List.forall_mem_cons.2 ⟨fun x => piece_ok fin pv hp _ (Memref.readAt_whole (Elt F) cc0_scratch1 fin) v5 32 (by omega) hv5 _
      (4 * k.val + 1) (by omega) (cb_toNat (1#32) 1 rfl (by omega) k.val hk64) _ (k0_off29_inb k)
      (by rw [k0_off29_eq k]; show (256 * k.val + 96 : ℕ) = _; omega)
      (chk_lane _ _ h5 (cb_le (1#32) (by decide) k.val hk64)) x, ?_⟩
    refine List.forall_mem_cons.2 ⟨fun x => piece_ok fin pv hp _ (Memref.readAt_whole (Elt F) cc0_scratch1 fin) v4 16 (by omega) hv4 _
      (4 * k.val + 1) (by omega) (cb_toNat (1#32) 1 rfl (by omega) k.val hk64) _ (k0_off28_inb k)
      (by rw [k0_off28_eq k]; show (256 * k.val + 80 : ℕ) = _; omega)
      (chk_lane _ _ h4 (cb_le (1#32) (by decide) k.val hk64)) x, ?_⟩
    refine List.forall_mem_cons.2 ⟨fun x => piece_ok fin pv hp _ (Memref.readAt_whole (Elt F) cc0_scratch1 fin) v3 0 (by omega) hv3 _
      (4 * k.val + 1) (by omega) (cb_toNat (1#32) 1 rfl (by omega) k.val hk64) _ (k0_off27_inb k)
      (by rw [k0_off27_eq k]; show (256 * k.val + 64 : ℕ) = _; omega)
      (chk_lane _ _ h3 (cb_le (1#32) (by decide) k.val hk64)) x, ?_⟩
    refine List.forall_mem_cons.2 ⟨fun x => piece_ok fin pv hp _ (Memref.readAt_whole (Elt F) cc0_scratch1 fin) v6 48 (by omega) hv6 _
      (4 * k.val + 0) (by omega) (cb_toNat (0#32) 0 rfl (by omega) k.val hk64) _ (k0_off26_inb k)
      (by rw [k0_off26_eq k]; show (256 * k.val + 48 : ℕ) = _; omega)
      (chk_lane _ _ h6 (cb_le (0#32) (by decide) k.val hk64)) x, ?_⟩
    refine List.forall_mem_cons.2 ⟨fun x => piece_ok fin pv hp _ (Memref.readAt_whole (Elt F) cc0_scratch1 fin) v5 32 (by omega) hv5 _
      (4 * k.val + 0) (by omega) (cb_toNat (0#32) 0 rfl (by omega) k.val hk64) _ (k0_off25_inb k)
      (by rw [k0_off25_eq k]; show (256 * k.val + 32 : ℕ) = _; omega)
      (chk_lane _ _ h5 (cb_le (0#32) (by decide) k.val hk64)) x, ?_⟩
    refine List.forall_mem_cons.2 ⟨fun x => piece_ok fin pv hp _ (Memref.readAt_whole (Elt F) cc0_scratch1 fin) v4 16 (by omega) hv4 _
      (4 * k.val + 0) (by omega) (cb_toNat (0#32) 0 rfl (by omega) k.val hk64) _ (k0_off24_inb k)
      (by rw [k0_off24_eq k]; show (256 * k.val + 16 : ℕ) = _; omega)
      (chk_lane _ _ h4 (cb_le (0#32) (by decide) k.val hk64)) x, ?_⟩
    refine List.forall_mem_cons.2 ⟨fun x => piece_ok fin pv hp _ (Memref.readAt_whole (Elt F) cc0_scratch1 fin) v3 0 (by omega) hv3 _
      (4 * k.val + 0) (by omega) (cb_toNat (0#32) 0 rfl (by omega) k.val hk64) _ (k0_off23_inb k)
      (by rw [k0_off23_eq k]; show (256 * k.val : ℕ) = _; omega)
      (chk_lane _ _ h3 (cb_le (0#32) (by decide) k.val hk64)) x, ?_⟩
    exact fun _ h => absurd h List.not_mem_nil

/-- The whole loop: after its 64 trips the output buffer holds the permuted input, the input buffer as it was. -/
theorem inner1 (v3 v4 v5 v6 : Vec F S16 .i32) (pv : S64.Idx → BitVec 32)
    (hv3 : ∀ l : Fin 16, v3 (ValueIdx.ix1 l) = pv (ValueIdx.ix1 ⟨l.val, by omega⟩))
    (hv4 : ∀ l : Fin 16, v4 (ValueIdx.ix1 l) = pv (ValueIdx.ix1 ⟨16 + l.val, by omega⟩))
    (hv5 : ∀ l : Fin 16, v5 (ValueIdx.ix1 l) = pv (ValueIdx.ix1 ⟨32 + l.val, by omega⟩))
    (hv6 : ∀ l : Fin 16, v6 (ValueIdx.ix1 l) = pv (ValueIdx.ix1 ⟨48 + l.val, by omega⟩))
    (hp : ∀ j, (pv j).toNat < 64) (v2 c0 c1 : BitVec 32) (k1 : Fin k0_t1_loop.trips)
    (fin : Buf (Elt F) ((V d (cV L) (jV L)).loc cc0_scratch1)) (g : Buf (Elt F) ((V d (cV L) (jV L)).loc cc0_scratch3)) :
    (iprop(((in1).view.loc (V d (cV L) (jV L)) ↦{fullShare} fin) ∗ ((ou1).view.loc (V d (cV L) (jV L)) ↦{fullShare} g)) : sProp 𝕄)
      ⊢ wp frame (wpE (defs₀ (F := F)) 𝒱₀ (V d (cV L) (jV L)) none) Set.univ
          (Scf.Loop.for k0_t3_loop k0_t3_ok ⟨⟩ (k0_t3_body L xW (Memref.isWhole_whole _) pW (Memref.isWhole_whole _) oW (Memref.isWhole_whole _)
            in0 (Memref.isWhole_whole _) in1 (Memref.isWhole_whole _) ou0 (Memref.isWhole_whole _) ou1 (Memref.isWhole_whole _) pS (Memref.isWhole_whole _)
            cc0_scratch5 cc0_scratch6 cc0_scratch7 cc0_scratch8 cc0_scoped0 v2 v3 v4 v5 v6 c0 c1 k1))
          fun _ => iprop(((in1).view.loc (V d (cV L) (jV L)) ↦{fullShare} fin)
            ∗ ((ou1).view.loc (V d (cV L) (jV L)) ↦{fullShare} permLocal fin pv)) := by
  have hv3' : ∀ l : Fin 16, v3 (ValueIdx.ix1 l) = pv (ValueIdx.ix1 ⟨0 + l.val, by omega⟩) := fun l =>
    (hv3 l).trans (congrArg pv (congrArg ValueIdx.ix1 (Fin.ext (Nat.zero_add _).symm)))
  have htr : Scf.trips k0_t3_loop.lb k0_t3_loop.ub k0_t3_loop.st = 64 := by decide
  iintro ⟨Hin, Hou⟩
  iapply (Scf.wp_for frame (wpE (defs₀ (F := F)) 𝒱₀ (V d (cV L) (jV L)) none) Set.univ k0_t3_loop.lb k0_t3_loop.ub k0_t3_loop.st k0_t3_ok ⟨⟩ _
    (inv1 d L fin pv) (fun k acc => trip1 d L pv hp v3 v4 v5 v6 hv3' hv4 hv5 hv6 v2 c0 c1 k1 fin k acc))
  isplitl [Hin Hou]
  · unfold inv1
    isplitl [Hin]
    · iexact Hin
    iexists g
    isplitl [Hou]
    · iexact Hou
    ipureintro
    intro j hj
    omega
  · iintro %acc HI
    rw [htr]
    unfold inv1
    icases HI with ⟨Hin, %g', Hou, %hg'⟩
    have hg : g' = permLocal fin pv := funext fun j => hg' j (by have h : (j 0).val < 16384 := (j 0).isLt; omega)
    subst hg
    isplitl [Hin]
    · iexact Hin
    iexact Hou

end Cert.Proof.KI

end
-- ==== Proof.KI.Body.lean ====
/-
  One tile's task, proved. The tile copies the list of 64 places into its own memory and reads it as four vectors of
  16 places. Its stretch of the flat arrays is 32 slices of 16384 entries; a loop of 16 trips handles them two at a time
  through two pairs of buffers. Trip `k` waits for slice `2k` to have arrived, waits for the departure of the permuted
  slice `2k-2` (none at the first trip), builds the permuted slice — entry `64·g + j` of the output buffer is entry
  `64·g + p j` of the input buffer —, sends it to its place in the result and asks for slice `2k+2` (none at the last
  trip); then the same for slice `2k+1` in the other pair of buffers. After the loop the last two departures are waited
  for. Each transfer is alone on its counter from its issue to its wait, and nothing touches a buffer while a transfer
  reads or writes it; so every slice of the result ends holding the input permuted inside each run of 64 by the list.
-/
import proofs.«213039_g63608465654469_cont_9to1_m_885_2_alg».proof.Proof.KI.Conv
import proofs.«213039_g63608465654469_cont_9to1_m_885_2_alg».proof.Proof.KI.Inner
import proofs.«213039_g63608465654469_cont_9to1_m_885_2_alg».proof.Proof.KI.BodyStmt

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (X : (d : Dev nD) → Buf (Elt F) (xLoc d))

local notation "xW" => (Memref.whole Cert.KernelIdeal.main_v0_scv : Memref Cert.KernelIdeal.sig Kind.scVector Space.hbm Cert.KernelIdeal.S16777216 EltTy.f32)
local notation "pW" => (Memref.whole Cert.KernelIdeal.main_arg1_scv : Memref Cert.KernelIdeal.sig Kind.scVector Space.hbm Cert.KernelIdeal.S64 EltTy.i32)
local notation "oW" => (Memref.whole Cert.KernelIdeal.main_v1_scv : Memref Cert.KernelIdeal.sig Kind.scVector Space.hbm Cert.KernelIdeal.S16777216 EltTy.f32)
local notation "in0" => (Memref.whole Cert.KernelIdeal.cc0_scratch0 : Memref Cert.KernelIdeal.sig Kind.scVector Space.vmem Cert.KernelIdeal.S16384 EltTy.f32)
local notation "in1" => (Memref.whole Cert.KernelIdeal.cc0_scratch1 : Memref Cert.KernelIdeal.sig Kind.scVector Space.vmem Cert.KernelIdeal.S16384 EltTy.f32)
local notation "ou0" => (Memref.whole Cert.KernelIdeal.cc0_scratch2 : Memref Cert.KernelIdeal.sig Kind.scVector Space.vmem Cert.KernelIdeal.S16384 EltTy.f32)
local notation "ou1" => (Memref.whole Cert.KernelIdeal.cc0_scratch3 : Memref Cert.KernelIdeal.sig Kind.scVector Space.vmem Cert.KernelIdeal.S16384 EltTy.f32)
local notation "pS" => (Memref.whole Cert.KernelIdeal.cc0_scratch4 : Memref Cert.KernelIdeal.sig Kind.scVector Space.vmem Cert.KernelIdeal.S64 EltTy.i32)

variable [FloatOps F]

section Tile

variable (d : Dev nD) (L : grid0.Coords)

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m X d (wL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__permute_sc L xW (Memref.isWhole_whole _) pW (Memref.isWhole_whole _) oW (Memref.isWhole_whole _)
            in0 (Memref.isWhole_whole _) in1 (Memref.isWhole_whole _) ou0 (Memref.isWhole_whole _) ou1 (Memref.isWhole_whole _)
            pS (Memref.isWhole_whole _) cc0_scratch5 cc0_scratch6 cc0_scratch7 cc0_scratch8 cc0_scoped0)
          fun _ => iprop(tileRes m X d (wL L) (Gout m X d) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__permute_sc_eq_skeleton]; unfold cc0__permute_sc_skel k0_t1_body
  simp only [k0_part5_eq_skeleton]; unfold k0_part5_skel
  rw [(K (F := F)).scopedBufs_V hF d (cV L) (jV L), SparseCore.Cfg.scopedSems0_V (Val := Elt F) d (cV L) (jV L), ownSems0_V, ownBufs_V]
  iintro ⟨#Hlv, -, ⟨Hp, Hx, Ho⟩, ⟨⟨%f0, Hi0⟩, ⟨%f1, Hi1⟩, ⟨%g0, Ho0⟩, ⟨%g1, Ho1⟩, ⟨%fp, Hps⟩, Hbufs⟩, ⟨HsI0, HsI1, HsO0, HsO1, HsP, Hsems⟩, HO⟩
  ihave Hmw := ((K (F := F)).mayWaits_none (thr := V d (cV L) (jV L)) hO) $$ Hlv
  ihave Hp' := (Entails.of_eq (pts_p (F := F) d L _ _).symm) $$ Hp
  ihave Hx' := (Entails.of_eq (pts_x (F := F) d L _ _).symm) $$ Hx
  ihave Hi0' := (Entails.of_eq (pts_i0 (F := F) d L _).symm) $$ Hi0
  ihave Hi1' := (Entails.of_eq (pts_i1 (F := F) d L _).symm) $$ Hi1
  ihave Ho0' := (Entails.of_eq (pts_o0 (F := F) d L _).symm) $$ Ho0
  ihave Ho1' := (Entails.of_eq (pts_o1 (F := F) d L _).symm) $$ Ho1
  ihave Hps' := (Entails.of_eq (pts_ps (F := F) d L _).symm) $$ Hps
  ihave Hx2 := (toks2 (F := F) _).1 $$ Hx'
  icases Hx2 with ⟨HxR, HxA, HxB⟩
  sl_exec
  have hv3 : ∀ l : Fin 16, tile_body.sl.v3 m d L fp (ValueIdx.ix1 l) = m (pLoc d) (ValueIdx.ix1 ⟨l.val, by omega⟩) := fun l => by
    refine (list_vec (F := F) 0 (by omega) inb_S64_S16_0 fp (m (pLoc d)) l).trans ?_
    simp only [Nat.zero_add]
  have hv4 : ∀ l : Fin 16, tile_body.sl.v4 m d L fp (ValueIdx.ix1 l) = m (pLoc d) (ValueIdx.ix1 ⟨16 + l.val, by omega⟩) :=
    fun l => list_vec (F := F) 16 (by omega) inb_S64_S16_16 fp (m (pLoc d)) l
  have hv5 : ∀ l : Fin 16, tile_body.sl.v5 m d L fp (ValueIdx.ix1 l) = m (pLoc d) (ValueIdx.ix1 ⟨32 + l.val, by omega⟩) :=
    fun l => list_vec (F := F) 32 (by omega) inb_S64_S16_32 fp (m (pLoc d)) l
  have hv6 : ∀ l : Fin 16, tile_body.sl.v6 m d L fp (ValueIdx.ix1 l) = m (pLoc d) (ValueIdx.ix1 ⟨48 + l.val, by omega⟩) :=
    fun l => list_vec (F := F) 48 (by omega) inb_S64_S16_48 fp (m (pLoc d)) l
  sl_for (inv m X d L O W) $$ [Hmw HsI0 HxA HsI1 HxB Ho0' Ho1' HsO0 HsO1 Ho HO]
  case region =>
    intro k hk
    have hk16 : k.val < 16 := lt_of_lt_of_eq k.isLt trips1
    have hb16 : a0 L k.val + 32768 ≤ bW L + 524288 := by unfold a0 bW; omega
    have e30 : (k0_off3 L k 0#32) 0 = a0 L k.val := off3_val_0 L k
    have e31 : (k0_off3 L k 1#32) 0 = a1 L k.val := off3_val_1 L k
    unfold inv
    by_cases h0 : k.val = 0
    · have k0_h1 := cond1_zero k h0
      have k0_h3 := cond3_zero k h0
      have k0_h2 := cond2_lt k (by omega)
      have k0_h4 := cond4_lt k (by omega)
      rw [inSt_lt X d L hk16, outSt_zero m X d L h0, inSt_lt X d L (k := k.val + 1) (by omega), outSt_pos m X d L (k := k.val + 1) (by omega)]
      iintro ⟨#Hmw, ⟨Hf0, Hr0, Hf1, Hr1⟩, ⟨⟨%g0', Hg0_src⟩, Hg0, ⟨%g1', Hg1_src⟩, Hg1⟩, Hdone, Hrest, %W', %hW', HO⟩
      sl_exec
      rw [wp_bind, wp_bind]
      iapply (wp_wand_r frame (wpE (defs₀ (F := F)) 𝒱₀ (V d (cV L) (jV L)) none) Set.univ (Q := fun _ => iprop(((in0).view.loc (V d (cV L) (jV L)) ↦{fullShare} slcX X d (a0 L k.val))
        ∗ ((ou0).view.loc (V d (cV L) (jV L)) ↦{fullShare} permLocal (slcX X d (a0 L k.val)) (m (pLoc d))))))
      isplitl [Hf0_dst Hg0_src]
      · iapply (inner0 (F := F) d L _ _ _ _ (m (pLoc d)) hv3 hv4 hv5 hv6 (hpre d) _ _ _ k _ _)
        isplitl [Hf0_dst]
        · iexact Hf0_dst
        · iexact Hg0_src
      iintro %u ⟨Hi0, Ho0⟩
      rw [← wp_bind]
      ihave Hc := (carve_o (F := F) d L (a0 L k.val) (bW L + 524288) (by omega) _).1 $$ Hrest
      icases Hc with ⟨Hsl0, Hrest⟩
      ihave Hsl0' := (Entails.of_eq (show _ = ((oSl (k0_off3 L k 0#32) (k0_off3_inb L k 0)).view.loc (V d (cV L) (jV L)) ↦[(oSl (k0_off3 L k 0#32) (k0_off3_inb L k 0)).view.set]{fullShare} m (oLoc d) : sProp 𝕄) from by
        rw [pts_osl, e30])) $$ Hsl0
      sl_exec
      rw [wp_bind, wp_bind]
      iapply (wp_wand_r frame (wpE (defs₀ (F := F)) 𝒱₀ (V d (cV L) (jV L)) none) Set.univ (Q := fun _ => iprop(((in1).view.loc (V d (cV L) (jV L)) ↦{fullShare} slcX X d (a1 L k.val))
        ∗ ((ou1).view.loc (V d (cV L) (jV L)) ↦{fullShare} permLocal (slcX X d (a1 L k.val)) (m (pLoc d))))))
      isplitl [Hf1_dst Hg1_src]
      · iapply (inner1 (F := F) d L _ _ _ _ (m (pLoc d)) hv3 hv4 hv5 hv6 (hpre d) _ _ _ k _ _)
        isplitl [Hf1_dst]
        · iexact Hf1_dst
        · iexact Hg1_src
      iintro %u2 ⟨Hi1, Ho1⟩
      rw [← wp_bind]
      ihave Hc := (carve_o (F := F) d L (a1 L k.val) (bW L + 524288) (by unfold a1; unfold a0 at hb16; omega) _).1 $$ Hrest
      icases Hc with ⟨Hsl1, Hrest⟩
      ihave Hsl1' := (Entails.of_eq (show _ = ((oSl (k0_off3 L k 1#32) (k0_off3_inb L k 1)).view.loc (V d (cV L) (jV L)) ↦[(oSl (k0_off3 L k 1#32) (k0_off3_inb L k 1)).view.set]{fullShare} m (oLoc d) : sProp 𝕄) from by
        rw [pts_osl, e31])) $$ Hsl1
      sl_exec
      rw [wp_ret]; imodintro
      ihave He0 := (Entails.of_eq (ou0_rest_emp (F := F) d L _)) $$ Ho0
      ihave He1 := (Entails.of_eq (ou1_rest_emp (F := F) d L _)) $$ Ho1
      icases He0 with -
      icases He1 with -
      isplitr; · iexact Hmw
      isplitl [Hf0 Hr0 Hf1 Hr1]
      · isplitl [Hf0]
        · iapply (flIn0_of (F := F) X d L (k0_off21 L k) _ _ _ _ rfl (a0 L (k.val + 1)) ((off21_val L k).trans (by unfold a0; omega))); iexact Hf0
        isplitl [Hr0]
        · iapply (Entails.of_eq (restX_of (F := F) X d L 0 (k0_off21 L k) _ _ (a0 L (k.val + 1)) ((off21_val L k).trans (by unfold a0; omega)))); iexact Hr0
        isplitl [Hf1]
        · iapply (flIn1_of (F := F) X d L (k0_off39 L k) _ _ _ _ rfl (a1 L (k.val + 1)) ((off39_val L k).trans (by unfold a1; omega))); iexact Hf1
        · iapply (Entails.of_eq (restX_of (F := F) X d L 1 (k0_off39 L k) _ _ (a1 L (k.val + 1)) ((off39_val L k).trans (by unfold a1; omega)))); iexact Hr1
      isplitl [Hg0 Hg1]
      · isplitl [Hg0]
        · iapply (flOut0_of (F := F) m X d L (k0_off3 L k 0#32) _ _ (a0 L (k.val + 1 - 1)) (e30.trans (by rw [Nat.add_sub_cancel])) (by unfold a0; omega) rfl _); iexact Hg0
        · iapply (flOut1_of (F := F) m X d L (k0_off3 L k 1#32) _ _ (a1 L (k.val + 1 - 1)) (e31.trans (by rw [Nat.add_sub_cancel])) (by unfold a1; omega) rfl _); iexact Hg1
      isplitl [Hdone]
      · rw [Nat.add_sub_cancel, show a0 L k.val = a0 L (k.val - 1) from by rw [h0]]
        iexact Hdone
      isplitl [Hrest]
      · rw [show a0 L (k.val + 1) = a1 L k.val + 16384 from by unfold a0 a1; omega]; iexact Hrest
      iexists _; isplitr
      swap
      · iexact HO
      · ipureintro; intro p hp
        simp only [Finset.mem_insert] at hp
        rcases hp with rfl | rfl | hp
        · exact .inr rfl
        · exact .inr rfl
        · exact hW' p hp
    by_cases h15 : k.val = 15
    · have hpos : 0 < k.val := by omega
      have k0_h1 := cond1_pos k hpos
      have k0_h3 := cond3_pos k hpos
      have k0_h2 := cond2_last k h15
      have k0_h4 := cond4_last k h15
      rw [inSt_lt X d L hk16, outSt_pos m X d L h0, inSt_ge X d L (k := k.val + 1) (by omega), outSt_pos m X d L (k := k.val + 1) (by omega)]
      iintro ⟨#Hmw, ⟨Hf0, Hr0, Hf1, Hr1⟩, ⟨Hg0, Hg1⟩, Hdone, Hrest, %W', %hW', HO⟩
      sl_exec
      rw [wp_bind, wp_bind]
      iapply (wp_wand_r frame (wpE (defs₀ (F := F)) 𝒱₀ (V d (cV L) (jV L)) none) Set.univ (Q := fun _ => iprop(((in0).view.loc (V d (cV L) (jV L)) ↦{fullShare} slcX X d (a0 L k.val))
        ∗ ((ou0).view.loc (V d (cV L) (jV L)) ↦{fullShare} permLocal (slcX X d (a0 L k.val)) (m (pLoc d))))))
      isplitl [Hf0_dst Hg0_src]
      · iapply (inner0 (F := F) d L _ _ _ _ (m (pLoc d)) hv3 hv4 hv5 hv6 (hpre d) _ _ _ k _ _)
        isplitl [Hf0_dst]
        · iexact Hf0_dst
        · iexact Hg0_src
      iintro %u ⟨Hi0, Ho0⟩
      rw [← wp_bind]
      ihave Hc := (carve_o (F := F) d L (a0 L k.val) (bW L + 524288) (by omega) _).1 $$ Hrest
      icases Hc with ⟨Hsl0, Hrest⟩
      ihave Hsl0' := (Entails.of_eq (show _ = ((oSl (k0_off3 L k 0#32) (k0_off3_inb L k 0)).view.loc (V d (cV L) (jV L)) ↦[(oSl (k0_off3 L k 0#32) (k0_off3_inb L k 0)).view.set]{fullShare} m (oLoc d) : sProp 𝕄) from by
        rw [pts_osl, e30])) $$ Hsl0
      sl_exec
      rw [wp_bind, wp_bind]
      iapply (wp_wand_r frame (wpE (defs₀ (F := F)) 𝒱₀ (V d (cV L) (jV L)) none) Set.univ (Q := fun _ => iprop(((in1).view.loc (V d (cV L) (jV L)) ↦{fullShare} slcX X d (a1 L k.val))
        ∗ ((ou1).view.loc (V d (cV L) (jV L)) ↦{fullShare} permLocal (slcX X d (a1 L k.val)) (m (pLoc d))))))
      isplitl [Hf1_dst Hg1_src]
      · iapply (inner1 (F := F) d L _ _ _ _ (m (pLoc d)) hv3 hv4 hv5 hv6 (hpre d) _ _ _ k _ _)
        isplitl [Hf1_dst]
        · iexact Hf1_dst
        · iexact Hg1_src
      iintro %u2 ⟨Hi1, Ho1⟩
      rw [← wp_bind]
      ihave Hc := (carve_o (F := F) d L (a1 L k.val) (bW L + 524288) (by unfold a1; unfold a0 at hb16; omega) _).1 $$ Hrest
      icases Hc with ⟨Hsl1, Hrest⟩
      ihave Hsl1' := (Entails.of_eq (show _ = ((oSl (k0_off3 L k 1#32) (k0_off3_inb L k 1)).view.loc (V d (cV L) (jV L)) ↦[(oSl (k0_off3 L k 1#32) (k0_off3_inb L k 1)).view.set]{fullShare} m (oLoc d) : sProp 𝕄) from by
        rw [pts_osl, e31])) $$ Hsl1
      sl_exec
      rw [wp_ret]; imodintro
      ihave He0 := (Entails.of_eq (ou0_rest_emp (F := F) d L _)) $$ Ho0
      ihave He1 := (Entails.of_eq (ou1_rest_emp (F := F) d L _)) $$ Ho1
      icases He0 with -
      icases He1 with -
      isplitr; · iexact Hmw
      isplitl [Hi0 Hf0 Hr0 Hi1 Hf1 Hr1]
      · isplitl [Hi0]
        · iexists _; iexact Hi0
        isplitl [Hf0]
        · iexact Hf0
        isplitl [Hr0]
        · iexact Hr0
        isplitl [Hi1]
        · iexists _; iexact Hi1
        isplitl [Hf1]
        · iexact Hf1
        iexact Hr1
      isplitl [Hg0 Hg1]
      · isplitl [Hg0]
        · iapply (flOut0_of (F := F) m X d L (k0_off3 L k 0#32) _ _ (a0 L (k.val + 1 - 1)) (e30.trans (by rw [Nat.add_sub_cancel])) (by unfold a0; omega) rfl _); iexact Hg0
        · iapply (flOut1_of (F := F) m X d L (k0_off3 L k 1#32) _ _ (a1 L (k.val + 1 - 1)) (e31.trans (by rw [Nat.add_sub_cancel])) (by unfold a1; omega) rfl _); iexact Hg1
      isplitl [Hdone Hg0_dst Hg1_dst]
      · rw [Nat.add_sub_cancel]
        iapply (done_join (F := F) d L k.val hpos _)
        isplitl [Hdone]; · iexact Hdone
        isplitl [Hg0_dst]; · iexact Hg0_dst
        iexact Hg1_dst
      isplitl [Hrest]
      · rw [show a0 L (k.val + 1) = a1 L k.val + 16384 from by unfold a0 a1; omega]; iexact Hrest
      iexists _; isplitr
      swap
      · iexact HO
      · ipureintro; intro p hp
        simp only [Finset.mem_insert] at hp
        rcases hp with rfl | rfl | rfl | rfl | hp
        · exact .inr rfl
        · exact .inr rfl
        · exact .inr rfl
        · exact .inr rfl
        · exact hW' p hp
    have hpos : 0 < k.val := Nat.pos_of_ne_zero h0
    have hlt : k.val < 15 := by omega
    have k0_h1 := cond1_pos k hpos
    have k0_h3 := cond3_pos k hpos
    have k0_h2 := cond2_lt k hlt
    have k0_h4 := cond4_lt k hlt
    rw [inSt_lt X d L hk16, outSt_pos m X d L h0, inSt_lt X d L (k := k.val + 1) (by omega), outSt_pos m X d L (k := k.val + 1) (by omega)]
    iintro ⟨#Hmw, ⟨Hf0, Hr0, Hf1, Hr1⟩, ⟨Hg0, Hg1⟩, Hdone, Hrest, %W', %hW', HO⟩
    sl_exec
    rw [wp_bind, wp_bind]
    iapply (wp_wand_r frame (wpE (defs₀ (F := F)) 𝒱₀ (V d (cV L) (jV L)) none) Set.univ (Q := fun _ => iprop(((in0).view.loc (V d (cV L) (jV L)) ↦{fullShare} slcX X d (a0 L k.val))
      ∗ ((ou0).view.loc (V d (cV L) (jV L)) ↦{fullShare} permLocal (slcX X d (a0 L k.val)) (m (pLoc d))))))
    isplitl [Hf0_dst Hg0_src]
    · iapply (inner0 (F := F) d L _ _ _ _ (m (pLoc d)) hv3 hv4 hv5 hv6 (hpre d) _ _ _ k _ _)
      isplitl [Hf0_dst]
      · iexact Hf0_dst
      · iexact Hg0_src
    iintro %u ⟨Hi0, Ho0⟩
    rw [← wp_bind]
    ihave Hc := (carve_o (F := F) d L (a0 L k.val) (bW L + 524288) (by omega) _).1 $$ Hrest
    icases Hc with ⟨Hsl0, Hrest⟩
    ihave Hsl0' := (Entails.of_eq (show _ = ((oSl (k0_off3 L k 0#32) (k0_off3_inb L k 0)).view.loc (V d (cV L) (jV L)) ↦[(oSl (k0_off3 L k 0#32) (k0_off3_inb L k 0)).view.set]{fullShare} m (oLoc d) : sProp 𝕄) from by
      rw [pts_osl, e30])) $$ Hsl0
    sl_exec
    rw [wp_bind, wp_bind]
    iapply (wp_wand_r frame (wpE (defs₀ (F := F)) 𝒱₀ (V d (cV L) (jV L)) none) Set.univ (Q := fun _ => iprop(((in1).view.loc (V d (cV L) (jV L)) ↦{fullShare} slcX X d (a1 L k.val))
      ∗ ((ou1).view.loc (V d (cV L) (jV L)) ↦{fullShare} permLocal (slcX X d (a1 L k.val)) (m (pLoc d))))))
    isplitl [Hf1_dst Hg1_src]
    · iapply (inner1 (F := F) d L _ _ _ _ (m (pLoc d)) hv3 hv4 hv5 hv6 (hpre d) _ _ _ k _ _)
      isplitl [Hf1_dst]
      · iexact Hf1_dst
      · iexact Hg1_src
    iintro %u2 ⟨Hi1, Ho1⟩
    rw [← wp_bind]
    ihave Hc := (carve_o (F := F) d L (a1 L k.val) (bW L + 524288) (by unfold a1; unfold a0 at hb16; omega) _).1 $$ Hrest
    icases Hc with ⟨Hsl1, Hrest⟩
    ihave Hsl1' := (Entails.of_eq (show _ = ((oSl (k0_off3 L k 1#32) (k0_off3_inb L k 1)).view.loc (V d (cV L) (jV L)) ↦[(oSl (k0_off3 L k 1#32) (k0_off3_inb L k 1)).view.set]{fullShare} m (oLoc d) : sProp 𝕄) from by
      rw [pts_osl, e31])) $$ Hsl1
    sl_exec
    rw [wp_ret]; imodintro
    ihave He0 := (Entails.of_eq (ou0_rest_emp (F := F) d L _)) $$ Ho0
    ihave He1 := (Entails.of_eq (ou1_rest_emp (F := F) d L _)) $$ Ho1
    icases He0 with -
    icases He1 with -
    isplitr; · iexact Hmw
    isplitl [Hf0 Hr0 Hf1 Hr1]
    · isplitl [Hf0]
      · iapply (flIn0_of (F := F) X d L (k0_off21 L k) _ _ _ _ rfl (a0 L (k.val + 1)) ((off21_val L k).trans (by unfold a0; omega))); iexact Hf0
      isplitl [Hr0]
      · iapply (Entails.of_eq (restX_of (F := F) X d L 0 (k0_off21 L k) _ _ (a0 L (k.val + 1)) ((off21_val L k).trans (by unfold a0; omega)))); iexact Hr0
      isplitl [Hf1]
      · iapply (flIn1_of (F := F) X d L (k0_off39 L k) _ _ _ _ rfl (a1 L (k.val + 1)) ((off39_val L k).trans (by unfold a1; omega))); iexact Hf1
      · iapply (Entails.of_eq (restX_of (F := F) X d L 1 (k0_off39 L k) _ _ (a1 L (k.val + 1)) ((off39_val L k).trans (by unfold a1; omega)))); iexact Hr1
    isplitl [Hg0 Hg1]
    · isplitl [Hg0]
      · iapply (flOut0_of (F := F) m X d L (k0_off3 L k 0#32) _ _ (a0 L (k.val + 1 - 1)) (e30.trans (by rw [Nat.add_sub_cancel])) (by unfold a0; omega) rfl _); iexact Hg0
      · iapply (flOut1_of (F := F) m X d L (k0_off3 L k 1#32) _ _ (a1 L (k.val + 1 - 1)) (e31.trans (by rw [Nat.add_sub_cancel])) (by unfold a1; omega) rfl _); iexact Hg1
    isplitl [Hdone Hg0_dst Hg1_dst]
    · rw [Nat.add_sub_cancel]
      iapply (done_join (F := F) d L k.val hpos _)
      isplitl [Hdone]; · iexact Hdone
      isplitl [Hg0_dst]; · iexact Hg0_dst
      iexact Hg1_dst
    isplitl [Hrest]
    · rw [show a0 L (k.val + 1) = a1 L k.val + 16384 from by unfold a0 a1; omega]; iexact Hrest
    iexists _; isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp
  · unfold inv
    rw [inSt_lt X d L (k := 0) (by omega), outSt_zero m X d L (k := 0) rfl]
    isplitr; · iexact Hmw
    isplitl [HsI0 HxA HsI1 HxB]
    · isplitl [HsI0]
      · iapply (flIn0_of (F := F) X d L (k0_off1 L) _ _ _ _ rfl (a0 L 0) ((off1_val L).trans (by unfold a0; omega))); iexact HsI0
      isplitl [HxA]
      · iapply (Entails.of_eq (restX_of (F := F) X d L 0 (k0_off1 L) _ _ (a0 L 0) ((off1_val L).trans (by unfold a0; omega)))); iexact HxA
      isplitl [HsI1]
      · iapply (flIn1_of (F := F) X d L (k0_off2 L 16384#32) _ _ _ _ rfl (a1 L 0) ((off2_val_a L).trans (by unfold a1; omega))); iexact HsI1
      · iapply (Entails.of_eq (restX_of (F := F) X d L 1 (k0_off2 L 16384#32) _ _ (a1 L 0) ((off2_val_a L).trans (by unfold a1; omega)))); iexact HxB
    isplitl [Ho0' Ho1' HsO0 HsO1]
    · isplitl [Ho0']; · iexists _; iexact Ho0'
      isplitl [HsO0]; · iexact HsO0
      isplitl [Ho1']; · iexists _; iexact Ho1'
      iexact HsO1
    isplitr
    · rw [show ivl (bW L) (a0 L (0 - 1)) = ∅ from ivl_empty (by unfold a0 bW; omega), pointsTo_empty]; iempintro
    isplitl [Ho]
    · iapply (Entails.of_eq (show (oLoc d ↦[reg (wL L)]{fullShare} m (oLoc d) : sProp 𝕄)
          = ((oW).view.loc (V d (cV L) (jV L)) ↦[ivl (a0 L 0) (bW L + 524288)]{fullShare} m (oLoc d)) from by
        rw [reg_eq, show a0 L 0 = 524288 * (wL L).val from by unfold a0; omega, show bW L + 524288 = 524288 * ((wL L).val + 1) from by unfold bW; omega]))
      iexact Ho
    iexists _; isplitr
    swap
    · iexact HO
    · ipureintro; intro p hp
      simp only [Finset.mem_insert] at hp
      rcases hp with rfl | hp
      · exact .inr rfl
      · exact .inl hp
  iintro %_ HI
  unfold inv
  have ht : Scf.trips k0_t1_loop.lb k0_t1_loop.ub k0_t1_loop.st = 16 := by decide
  rw [inSt_ge X d L (k := k0_t1_loop.trips) (by decide), outSt_pos m X d L (k := k0_t1_loop.trips) (by decide)]
  simp only [trips1, ht]
  icases HI with ⟨-, ⟨⟨%fi0, Hi0⟩, HcI0, HxA, ⟨%fi1, Hi1⟩, HcI1, HxB⟩, ⟨Hg0, Hg1⟩, Hdone, Hrest, %W', %hW', HO⟩
  sl_exec
  rw [wp_ret]; imodintro
  ihave He := (Entails.of_eq (show ((oW).view.loc (V d (cV L) (jV L)) ↦[ivl (a0 L 16) (bW L + 524288)]{fullShare} m (oLoc d) : sProp 𝕄) = iprop(emp) from by
    rw [show ivl (a0 L 16) (bW L + 524288) = ∅ from ivl_empty (by unfold a0 bW; omega), pointsTo_empty])) $$ Hrest
  icases He with -
  isplitl [Hp' HxR HxA HxB Hdone Hg0_dst Hg1_dst]
  · isplitl [Hp']
    · iapply (Entails.of_eq (pts_p (F := F) d L _ _)); iexact Hp'
    isplitl [HxR HxA HxB]
    · iapply (Entails.of_eq (pts_x (F := F) d L _ _))
      iapply (toks2 (F := F) _).2
      isplitl [HxR]; · iexact HxR
      isplitl [HxA]; · iexact HxA
      iexact HxB
    · iapply (Entails.of_eq (show ((oW).view.loc (V d (cV L) (jV L)) ↦[ivl (bW L) (a0 L 16)]{fullShare} Gout m X d : sProp 𝕄)
          = (oLoc d ↦[reg (wL L)]{fullShare} Gout m X d) from by
        rw [reg_eq, show a0 L 16 = 524288 * ((wL L).val + 1) from by unfold a0; omega]))
      iapply (done_join (F := F) d L 16 (by omega) _)
      isplitl [Hdone]; · iexact Hdone
      isplitl [Hg0_dst]; · iexact Hg0_dst
      iexact Hg1_dst
  isplitl [Hi0 Hi1 Hg0_src Hg1_src Hps' Hbufs]
  · isplitl [Hi0]; · iexists _; iexact Hi0
    isplitl [Hi1]; · iexists _; iexact Hi1
    isplitl [Hg0_src]; · iexists _; iexact Hg0_src
    isplitl [Hg1_src]; · iexists _; iexact Hg1_src
    isplitl [Hps']; · iexists _; iexact Hps'
    iexact Hbufs
  isplitl [HcI0 HcI1 Hg0 Hg1 HsP Hsems]
  · isplitl [HcI0]; · iexact HcI0
    isplitl [HcI1]; · iexact HcI1
    isplitl [Hg0]; · iexact Hg0
    isplitl [Hg1]; · iexact Hg1
    isplitl [HsP]; · iexact HsP
    iexact Hsems
  iexists _; isplitr
  swap
  · iexact HO
  · ipureintro; intro p hp
    simp only [Finset.mem_insert] at hp
    rcases hp with rfl | rfl | hp
    · exact .inr rfl
    · exact .inr rfl
    · exact hW' p hp

end Tile

/-- The tile's task, as the launch's obligation states it, when every listed place is below 64. -/
theorem tileBodySpec (hpre : PreOK m) : TileBodySpec m X :=
  fun d L O W hO => tile_body m X d L facts hpre O W hO

end Cert.Proof.KI

end
-- ==== Proof.KB.Geom.lean ====
/-
  Stretches of a flat array as sets of places, and what a slice of 16384 entries reads. `ivl a e` is the places
  `a ≤ i < e`; the slice starting at `a` is `ivl a (a + 16384)`, and entry `j` of what it reads is entry `a + j` of
  the array.
-/
import proofs.«213039_g63608465654469_cont_9to1_m_885_2_alg».proof.Proof.KB.BodyPre

noncomputable section

namespace Cert.Proof.KB

open Cert.Kernel Cert.Kernel.Gen

open Idealize.ShloMosaic Idealize.ShloMosaic.ValueIdx

variable {F : FTy → Type}

/-- The places `a ≤ i < e` of a flat array. -/
def ivl (a e : ℕ) : Finset S16777216.Idx := Finset.univ.filter fun i => a ≤ (i 0).val ∧ (i 0).val < e

theorem mem_ivl {a e : ℕ} {i : S16777216.Idx} : i ∈ ivl a e ↔ a ≤ (i 0).val ∧ (i 0).val < e := by
  simp [ivl]

theorem reg_eq (w : Fin 32) : reg w = ivl (524288 * w.val) (524288 * (w.val + 1)) := rfl

theorem ivl_union {a b e : ℕ} (hab : a ≤ b) (hbe : b ≤ e) : ivl a e = ivl a b ∪ ivl b e := by
  ext i; simp only [mem_ivl, Finset.mem_union]; omega

theorem ivl_disjoint {a b c e : ℕ} (h : b ≤ c) : Disjoint (ivl a b) (ivl c e) := by
  refine Finset.disjoint_left.mpr fun i h1 h2 => ?_
  rw [mem_ivl] at h1 h2; omega

theorem ivl_empty {a e : ℕ} (h : e ≤ a) : ivl a e = ∅ := by
  ext i; simp only [mem_ivl, Finset.notMem_empty, iff_false]; omega

/-- A slice of 16384 entries of a flat array is an interval of places. -/
theorem unit_set (off : Fin 1 → ℕ) (h : ∀ a, off a + S16384.size a ≤ S16777216.size a) :
    (Rect.unit (s := S16777216) off S16384.size h).set = ivl (off 0) (off 0 + 16384) := by
  ext i
  rw [Rect.mem_set_unit, mem_ivl]
  constructor
  · intro hh; have := hh 0; simpa using this
  · intro hh a; obtain rfl : a = 0 := Subsingleton.elim _ _; simpa using hh

theorem xslice_set (off : Fin 1 → ℕ) (h : ∀ a, off a + S16384.size a ≤ S16777216.size a) (hs) :
    ((Memref.whole main_v0_scv : Memref sig .scVector .hbm S16777216 .f32).slice (Rect.unit (s := S16777216) off S16384.size h) hs).view.set
      = ivl (off 0) (off 0 + 16384) :=
  (View.set_slice_whole main_v0_scv (Rect.unit (s := S16777216) off S16384.size h)).trans (unit_set off h)

theorem oslice_set (off : Fin 1 → ℕ) (h : ∀ a, off a + S16384.size a ≤ S16777216.size a) (hs) :
    ((Memref.whole main_v1_scv : Memref sig .scVector .hbm S16777216 .f32).slice (Rect.unit (s := S16777216) off S16384.size h) hs).view.set
      = ivl (off 0) (off 0 + 16384) :=
  (View.set_slice_whole main_v1_scv (Rect.unit (s := S16777216) off S16384.size h)).trans (unit_set off h)

/-- Entry `j` of what a slice starting at `off` reads is entry `off + j` of the array. -/
theorem xslice_read (off : Fin 1 → ℕ) (h : ∀ a, off a + S16384.size a ≤ S16777216.size a) (hs)
    (f : S16777216.Idx → Elt F .f32) (j : S16384.Idx) :
    ((Memref.whole main_v0_scv : Memref sig .scVector .hbm S16777216 .f32).slice (Rect.unit (s := S16777216) off S16384.size h) hs).view.read (Elt F) f j
      = f (ix1 ⟨off 0 + (j 0).val, by have := h 0; have := (j 0).isLt; simp at *; omega⟩) := by
  rw [View.read_apply]
  refine (cast_eq _ _).trans (congrArg f ?_)
  refine funext fun (a : Fin 1) => ?_
  obtain rfl : a = 0 := Subsingleton.elim _ _
  apply Fin.ext
  show off 0 + 1 * (j 0).val = off 0 + (j 0).val
  omega

/-! ## Contents: a slice of the input, and the permutation inside one buffer -/

/-- Place `n` of the flat array (any `n`, read modulo the array's length). -/
def ixF (n : ℕ) : S16777216.Idx := ix1 ⟨n % 16777216, Nat.mod_lt _ (by decide)⟩

theorem ixF_val (n : ℕ) : ((ixF n) 0).val = n % 16777216 := rfl

/-- The 16384 entries of a flat array starting at place `a`. -/
def slcOf {α : Type} (x : S16777216.Idx → α) (a : ℕ) : S16384.Idx → α := fun j => x (ixF (a + (j 0).val))

/-- The permutation inside a buffer of 16384 entries: entry `64·g + j` is the input buffer's entry
    `64·g + (the place named for j)`. -/
def permLocal {α : Type} (f : S16384.Idx → α) (pv : S64.Idx → BitVec 32) : S16384.Idx → α :=
  fun j => f (ix1 ⟨64 * ((j 0).val / 64) + Cert.Spec.place pv ⟨(j 0).val % 64, Nat.mod_lt _ (by decide)⟩, by
    have h : (j 0).val < 16384 := (j 0).isLt
    have h2 : Cert.Spec.place pv ⟨(j 0).val % 64, Nat.mod_lt _ (by decide)⟩ < 64 := Nat.mod_lt _ (by decide)
    omega⟩)

end Cert.Proof.KB

end
-- ==== Proof.KB.Vals.lean ====
/-
  The values the tile's loop moves, as equations between arrays. The list of places read as four vectors of sixteen;
  a slice of the input as it arrives in a buffer; a permuted buffer as it lands in the result: on the slice's places
  it is the specification. And where the slices start: every offset the tile computes is 524288 times its tile
  number plus a multiple of 16384.
-/
import proofs.«213039_g63608465654469_cont_9to1_m_885_2_alg».proof.Proof.KB.Geom
import Idealize.ShloMosaic.Lib.Affine

noncomputable section

namespace Cert.Proof.KB

open Cert.Kernel Cert.Kernel.Gen

open Idealize.ShloMosaic Idealize.ShloMosaic.ValueIdx

variable {F : FTy → Type}

local notation "xW" => (Memref.whole Cert.Kernel.main_v0_scv : Memref Cert.Kernel.sig Kind.scVector Space.hbm Cert.Kernel.S16777216 EltTy.f32)
local notation "pW" => (Memref.whole Cert.Kernel.main_arg1_scv : Memref Cert.Kernel.sig Kind.scVector Space.hbm Cert.Kernel.S64 EltTy.i32)
local notation "oW" => (Memref.whole Cert.Kernel.main_v1_scv : Memref Cert.Kernel.sig Kind.scVector Space.hbm Cert.Kernel.S16777216 EltTy.f32)
local notation "in0" => (Memref.whole Cert.Kernel.cc0_scratch0 : Memref Cert.Kernel.sig Kind.scVector Space.vmem Cert.Kernel.S16384 EltTy.f32)
local notation "in1" => (Memref.whole Cert.Kernel.cc0_scratch1 : Memref Cert.Kernel.sig Kind.scVector Space.vmem Cert.Kernel.S16384 EltTy.f32)
local notation "ou0" => (Memref.whole Cert.Kernel.cc0_scratch2 : Memref Cert.Kernel.sig Kind.scVector Space.vmem Cert.Kernel.S16384 EltTy.f32)
local notation "ou1" => (Memref.whole Cert.Kernel.cc0_scratch3 : Memref Cert.Kernel.sig Kind.scVector Space.vmem Cert.Kernel.S16384 EltTy.f32)
local notation "pS" => (Memref.whole Cert.Kernel.cc0_scratch4 : Memref Cert.Kernel.sig Kind.scVector Space.vmem Cert.Kernel.S64 EltTy.i32)

/-! ## Where the slices start -/

section Offsets

variable (L : grid0.Coords)

theorem wL_val : (wL L).val = 2 * (L 1).val + (L 0).val := rfl

/-- The tile's first place, as the tile computes it: 524288 times its tile number. -/
theorem base_isInt :
    Affine.IsInt (Scalar.muli (Scalar.addi (Scalar.muli (BitVec.ofNat 32 (L 1).val) 2#32) (BitVec.ofNat 32 (L 0).val)) 524288#32)
      (524288 * ((wL L).val : Int)) := by
  have r_i1 : (L 1).val < 16 := (L 1).isLt
  have r_i0 : (L 0).val < 2 := (L 0).isLt
  have h_arg1 : Affine.IsInt (BitVec.ofNat 32 (L 1).val) (((L 1).val : Int)) := Affine.ofNat _ (by omega)
  have h_c2 : Affine.IsInt 2#32 (2) := Affine.ofNat _ (by omega)
  have h_v0 : Affine.IsInt _ (2 * ((L 1).val : Int)) := Affine.muli h_arg1 h_c2 (by omega)
  have h_arg0 : Affine.IsInt (BitVec.ofNat 32 (L 0).val) (((L 0).val : Int)) := Affine.ofNat _ (by omega)
  have h_v1 : Affine.IsInt _ (2 * ((L 1).val : Int) + ((L 0).val : Int)) := Affine.addi h_v0 h_arg0 (by omega)
  have h_c : Affine.IsInt 524288#32 (524288) := Affine.ofNat _ (by omega)
  exact Affine.muli h_v1 h_c (by rw [wL_val]; push_cast; omega)

theorem wL_lt : (wL L).val < 32 := (wL L).isLt

/-- The loop's variable at trip `k` is `k`, below 16. -/
theorem iv_isInt (k : Fin k0_t1_loop.trips) : Affine.IsInt (Scf.iv 0#32 1#32 k) (k.val : Int) ∧ k.val < 16 := by
  have h0 : Affine.IsInt 0#32 (0) := Affine.ofNat _ (by omega)
  have h1 : Affine.IsInt 1#32 (1) := Affine.ofNat _ (by omega)
  have r : k.val < 16 := Nat.lt_of_lt_of_le k.isLt k0_t1_abs.2.1
  exact ⟨Affine.iv h0 h1 k.val (by omega), r⟩

theorem off1_eq : k0_off1 L = ![524288 * (wL L).val] :=
  Affine.vec_cons (base_isInt L) (by push_cast; rfl) Affine.vec_nil

theorem off1_val : k0_off1 L 0 = 524288 * (wL L).val := by rw [off1_eq]; rfl

/-- The first place plus a constant below 2 ^ 20. -/
theorem off2_eq (n : ℕ) (hn : n < 1048576) : k0_off2 L (BitVec.ofNat 32 n) = ![524288 * (wL L).val + n] := by
  have hw := wL_lt L
  have h_c : Affine.IsInt (BitVec.ofNat 32 n) ((n : Int)) := Affine.ofNat _ (by omega)
  have h_v9 : Affine.IsInt _ (524288 * ((wL L).val : Int) + (n : Int)) := Affine.addi (base_isInt L) h_c (by omega)
  exact Affine.vec_cons h_v9 (by push_cast; rfl) Affine.vec_nil

theorem off2_val_a : k0_off2 L 16384#32 0 = 524288 * (wL L).val + 16384 := by rw [off2_eq L 16384 (by omega)]; rfl
theorem off2_val_b : k0_off2 L 491520#32 0 = 524288 * (wL L).val + 491520 := by rw [off2_eq L 491520 (by omega)]; rfl
theorem off2_val_c : k0_off2 L 507904#32 0 = 524288 * (wL L).val + 507904 := by rw [off2_eq L 507904 (by omega)]; rfl

theorem off2_val (r : Fin 3) : k0_off2 L (k0_off2_at r) 0 = 524288 * (wL L).val + (![16384, 491520, 507904] : Fin 3 → ℕ) r := by
  match r with
  | ⟨0, _⟩ => exact off2_val_a L
  | ⟨1, _⟩ => exact off2_val_b L
  | ⟨2, _⟩ => exact off2_val_c L

variable (k : Fin k0_t1_loop.trips)

/-- Slice `2·k + n` of the tile's 32, `n` below 2. -/
theorem off3_eq (n : ℕ) (hn : n < 2) : k0_off3 L k (BitVec.ofNat 32 n) = ![524288 * (wL L).val + 32768 * k.val + 16384 * n] := by
  have hw := wL_lt L
  obtain ⟨h_arg14, hk⟩ := iv_isInt k
  have h_c0 : Affine.IsInt (BitVec.ofNat 32 n) ((n : Int)) := Affine.ofNat _ (by omega)
  have h_c2 : Affine.IsInt 2#32 (2) := Affine.ofNat _ (by omega)
  have h_v19 : Affine.IsInt _ (2 * (k.val : Int)) := Affine.muli h_arg14 h_c2 (by omega)
  have h_v20 : Affine.IsInt _ (2 * (k.val : Int) + (n : Int)) := Affine.addi h_v19 h_c0 (by omega)
  have h_c : Affine.IsInt 16384#32 (16384) := Affine.ofNat _ (by omega)
  have h_v21 : Affine.IsInt _ (32768 * (k.val : Int) + 16384 * (n : Int)) := Affine.muli h_v20 h_c (by omega)
  have h_v22 : Affine.IsInt _ (524288 * ((wL L).val : Int) + 32768 * (k.val : Int) + 16384 * (n : Int)) := Affine.addi (base_isInt L) h_v21 (by omega)
  exact Affine.vec_cons h_v22 (by push_cast; rfl) Affine.vec_nil

theorem off3_val (r : Fin 2) : k0_off3 L k (BitVec.ofNat 32 r.val) 0 = 524288 * (wL L).val + 32768 * k.val + 16384 * r.val := by
  rw [off3_eq L k r.val r.isLt]; rfl
theorem off3_val_0 : k0_off3 L k 0#32 0 = 524288 * (wL L).val + 32768 * k.val := by
  rw [off3_eq L k 0 (by omega)]; rfl
theorem off3_val_1 : k0_off3 L k 1#32 0 = 524288 * (wL L).val + 32768 * k.val + 16384 := by
  rw [off3_eq L k 1 (by omega)]; rfl

theorem off4_val : k0_off4 L k 0 = 524288 * (wL L).val + 32768 * k.val := off3_val_0 L k

theorem off21_eq : k0_off21 L k = ![524288 * (wL L).val + 32768 * k.val + 32768] := by
  have hw := wL_lt L
  obtain ⟨h_arg14, hk⟩ := iv_isInt k
  have h_c0 : Affine.IsInt 0#32 (0) := Affine.ofNat _ (by omega)
  have h_c2 : Affine.IsInt 2#32 (2) := Affine.ofNat _ (by omega)
  have h_v19 : Affine.IsInt _ (2 * (k.val : Int)) := Affine.muli h_arg14 h_c2 (by omega)
  have h_v20 : Affine.IsInt _ (2 * (k.val : Int)) := Affine.addi h_v19 h_c0 (by omega)
  have h_c : Affine.IsInt 16384#32 (16384) := Affine.ofNat _ (by omega)
  have h_v21 : Affine.IsInt _ (32768 * (k.val : Int)) := Affine.muli h_v20 h_c (by omega)
  have h_v22 : Affine.IsInt _ (524288 * ((wL L).val : Int) + 32768 * (k.val : Int)) := Affine.addi (base_isInt L) h_v21 (by omega)
  have h_c3 : Affine.IsInt 32768#32 (32768) := Affine.ofNat _ (by omega)
  have h_v49 : Affine.IsInt _ (524288 * ((wL L).val : Int) + 32768 * (k.val : Int) + 32768) := Affine.addi h_v22 h_c3 (by omega)
  exact Affine.vec_cons h_v49 (by push_cast; rfl) Affine.vec_nil

theorem off21_val : k0_off21 L k 0 = 524288 * (wL L).val + 32768 * k.val + 32768 := by rw [off21_eq]; rfl

theorem off22_eq : k0_off22 L k = ![524288 * (wL L).val + 32768 * k.val + 16384] := by
  have hw := wL_lt L
  obtain ⟨h_arg14, hk⟩ := iv_isInt k
  have h_c1 : Affine.IsInt 1#32 (1) := Affine.ofNat _ (by omega)
  have h_c2 : Affine.IsInt 2#32 (2) := Affine.ofNat _ (by omega)
  have h_v34 : Affine.IsInt _ (2 * (k.val : Int)) := Affine.muli h_arg14 h_c2 (by omega)
  have h_v35 : Affine.IsInt _ (2 * (k.val : Int) + 1) := Affine.addi h_v34 h_c1 (by omega)
  have h_c : Affine.IsInt 16384#32 (16384) := Affine.ofNat _ (by omega)
  have h_v36 : Affine.IsInt _ (32768 * (k.val : Int) + 16384) := Affine.muli h_v35 h_c (by omega)
  have h_v37 : Affine.IsInt _ (524288 * ((wL L).val : Int) + 32768 * (k.val : Int) + 16384) := Affine.addi (base_isInt L) h_v36 (by omega)
  exact Affine.vec_cons h_v37 (by push_cast; rfl) Affine.vec_nil

theorem off22_val : k0_off22 L k 0 = 524288 * (wL L).val + 32768 * k.val + 16384 := by rw [off22_eq]; rfl

theorem off39_eq : k0_off39 L k = ![524288 * (wL L).val + 32768 * k.val + 49152] := by
  have hw := wL_lt L
  obtain ⟨h_arg14, hk⟩ := iv_isInt k
  have h_c1 : Affine.IsInt 1#32 (1) := Affine.ofNat _ (by omega)
  have h_c2 : Affine.IsInt 2#32 (2) := Affine.ofNat _ (by omega)
  have h_v34 : Affine.IsInt _ (2 * (k.val : Int)) := Affine.muli h_arg14 h_c2 (by omega)
  have h_v35 : Affine.IsInt _ (2 * (k.val : Int) + 1) := Affine.addi h_v34 h_c1 (by omega)
  have h_c : Affine.IsInt 16384#32 (16384) := Affine.ofNat _ (by omega)
  have h_v36 : Affine.IsInt _ (32768 * (k.val : Int) + 16384) := Affine.muli h_v35 h_c (by omega)
  have h_v37 : Affine.IsInt _ (524288 * ((wL L).val : Int) + 32768 * (k.val : Int) + 16384) := Affine.addi (base_isInt L) h_v36 (by omega)
  have h_c3 : Affine.IsInt 32768#32 (32768) := Affine.ofNat _ (by omega)
  have h_v49 : Affine.IsInt _ (524288 * ((wL L).val : Int) + 32768 * (k.val : Int) + 49152) := Affine.addi h_v37 h_c3 (by omega)
  exact Affine.vec_cons h_v49 (by push_cast; rfl) Affine.vec_nil

theorem off39_val : k0_off39 L k 0 = 524288 * (wL L).val + 32768 * k.val + 49152 := by rw [off39_eq]; rfl

end Offsets

/-! ## A slice of the input, arrived in a buffer -/

section Slices

theorem ix1_eq_ixF (n : ℕ) (hn : n < 16777216) : (ix1 (⟨n, hn⟩ : Fin 16777216) : S16777216.Idx) = ixF n := by
  unfold ixF
  congr 1
  exact Fin.ext (Nat.mod_eq_of_lt hn).symm

variable (off : Fin 1 → ℕ) (h : ∀ a, off a + S16384.size a ≤ S16777216.size a)

/-- What a slice of the input read into a whole buffer leaves there: the input's 16384 entries from the slice's start. -/
theorem arrive0 (hs) (x : S16777216.Idx → Elt F .f32) (f0 : S16384.Idx → Elt F .f32) :
    View.write (Elt F) (in0).view f0
        (ReadAs.same.apply (View.read (Elt F) ((xW).slice (Rect.unit (s := S16777216) off S16384.size h) hs).view x)) Finset.univ
      = slcOf x (off 0) := by
  refine (View.write_whole_univ cc0_scratch0 f0 _).trans ?_
  funext j
  exact (xslice_read off h hs x j).trans (congrArg x (ix1_eq_ixF _ _))

theorem arrive1 (hs) (x : S16777216.Idx → Elt F .f32) (f0 : S16384.Idx → Elt F .f32) :
    View.write (Elt F) (in1).view f0
        (ReadAs.same.apply (View.read (Elt F) ((xW).slice (Rect.unit (s := S16777216) off S16384.size h) hs).view x)) Finset.univ
      = slcOf x (off 0) := by
  refine (View.write_whole_univ cc0_scratch1 f0 _).trans ?_
  funext j
  exact (xslice_read off h hs x j).trans (congrArg x (ix1_eq_ixF _ _))

/-! ## A permuted buffer, landed in the result -/

/-- Entry `j` of a slice of the result is the result's entry `off + j`. -/
theorem oslice_emb (hs) (j : S16384.Idx) :
    ((oW).slice (Rect.unit (s := S16777216) off S16384.size h) hs).view.emb j
      = ix1 (⟨off 0 + (j 0).val, by have := h 0; have := (j 0).isLt; simp at *; omega⟩ : Fin 16777216) := by
  refine funext fun (a : Fin 1) => ?_
  obtain rfl : a = 0 := Subsingleton.elim _ _
  apply Fin.ext
  show off 0 + 1 * (j 0).val = off 0 + (j 0).val
  omega

/-- The permutation inside a buffer, of a slice of the input that starts at a multiple of 64, is the specification on
    the slice's places. -/
theorem permLocal_slc (a : ℕ) (h64 : 64 ∣ a) (x : S16777216.Idx → Elt F .f32) (p : S64.Idx → BitVec 32)
    (i : S16777216.Idx) (hi : i ∈ ivl a (a + 16384)) (hb : a + 16384 ≤ 16777216) (j : S16384.Idx) (hj : (j 0).val = (i 0).val - a) :
    permLocal (slcOf x a) p j = Cert.Spec.permFlat x p i := by
  rw [mem_ivl] at hi
  obtain ⟨c, hc⟩ := h64
  have hmod : (j 0).val % 64 = (i 0).val % 64 := by omega
  have hp : Cert.Spec.place p ⟨(j 0).val % 64, Nat.mod_lt _ (by decide)⟩ = Cert.Spec.place p ⟨(i 0).val % 64, Nat.mod_lt _ (by decide)⟩ :=
    congrArg (Cert.Spec.place p) (Fin.ext hmod)
  have hq : Cert.Spec.place p ⟨(i 0).val % 64, Nat.mod_lt _ (by decide)⟩ < 64 := Nat.mod_lt _ (by decide)
  show x (ixF (a + (64 * ((j 0).val / 64) + Cert.Spec.place p ⟨(j 0).val % 64, Nat.mod_lt _ (by decide)⟩))) = x (Cert.Spec.srcIdx p i)
  refine congrArg x (funext fun (b : Fin 1) => ?_)
  obtain rfl : b = 0 := Subsingleton.elim _ _
  apply Fin.ext
  rw [ixF_val, Cert.Spec.srcIdx_val, hp]
  omega

theorem depart0 (hs) (h64 : 64 ∣ off 0) (x : S16777216.Idx → Elt F .f32) (p : S64.Idx → BitVec 32) (fo : S16777216.Idx → Elt F .f32) :
    ∀ i ∈ ivl (off 0) (off 0 + 16384),
      View.write (Elt F) ((oW).slice (Rect.unit (s := S16777216) off S16384.size h) hs).view fo
          (ReadAs.same.apply (View.read (Elt F) (ou0).view (permLocal (slcOf x (off 0)) p))) Finset.univ i
        = Cert.Spec.permFlat x p i := by
  intro i hi
  have hi' := mem_ivl.mp hi
  have hb : off 0 + 16384 ≤ 16777216 := by have := h 0; simpa using this
  have hjlt : (i 0).val - off 0 < 16384 := by omega
  have hij : ((oW).slice (Rect.unit (s := S16777216) off S16384.size h) hs).view.emb (ix1 (⟨(i 0).val - off 0, hjlt⟩ : Fin 16384)) = i := by
    rw [oslice_emb]
    refine funext fun (a : Fin 1) => ?_
    obtain rfl : a = 0 := Subsingleton.elim _ _
    apply Fin.ext
    show off 0 + ((i 0).val - off 0) = (i 0).val
    omega
  rw [← hij, View.write_emb_of_mem _ _ (Finset.mem_univ _)]
  refine (cast_eq _ _).trans ?_
  rw [hij]
  exact permLocal_slc (off 0) h64 x p i hi hb _ rfl

theorem depart1 (hs) (h64 : 64 ∣ off 0) (x : S16777216.Idx → Elt F .f32) (p : S64.Idx → BitVec 32) (fo : S16777216.Idx → Elt F .f32) :
    ∀ i ∈ ivl (off 0) (off 0 + 16384),
      View.write (Elt F) ((oW).slice (Rect.unit (s := S16777216) off S16384.size h) hs).view fo
          (ReadAs.same.apply (View.read (Elt F) (ou1).view (permLocal (slcOf x (off 0)) p))) Finset.univ i
        = Cert.Spec.permFlat x p i := by
  intro i hi
  have hi' := mem_ivl.mp hi
  have hb : off 0 + 16384 ≤ 16777216 := by have := h 0; simpa using this
  have hjlt : (i 0).val - off 0 < 16384 := by omega
  have hij : ((oW).slice (Rect.unit (s := S16777216) off S16384.size h) hs).view.emb (ix1 (⟨(i 0).val - off 0, hjlt⟩ : Fin 16384)) = i := by
    rw [oslice_emb]
    refine funext fun (a : Fin 1) => ?_
    obtain rfl : a = 0 := Subsingleton.elim _ _
    apply Fin.ext
    show off 0 + ((i 0).val - off 0) = (i 0).val
    omega
  rw [← hij, View.write_emb_of_mem _ _ (Finset.mem_univ _)]
  refine (cast_eq _ _).trans ?_
  rw [hij]
  exact permLocal_slc (off 0) h64 x p i hi hb _ rfl

/-! ## The list of places, read as vectors of sixteen -/

/-- Sixteen places of the list, read from the tile's own copy of it. -/
theorem list_vec (q : ℕ) (hq : q + 16 ≤ 64) (inb : ∀ a, (![q] : Fin 1 → ℕ) a + S16.size a ≤ S64.size a)
    (fp p : S64.Idx → BitVec 32) (l : Fin 16) :
    (View.readAt (Elt F) (pS).view (Rect.unit (s := S64) ![q] S16.size inb).toLoadRect
        (View.write (Elt F) (pS).view fp (ReadAs.same.apply (View.read (Elt F) (pW).view p)) Finset.univ)) (ix1 l)
      = p (ix1 (⟨q + l.val, by omega⟩ : Fin 64)) := by
  rw [View.readAt_apply]
  have hw : View.write (Elt F) (pS).view fp (ReadAs.same.apply (View.read (Elt F) (pW).view p)) Finset.univ = p :=
    (View.write_whole_univ (Val := Elt F) cc0_scratch4 fp _).trans rfl
  rw [hw]
  show p ((Rect.unit (s := S64) ![q] S16.size inb).toLoadRect.idx (ix1 l)) = _
  refine congrArg p (funext fun (a : Fin 1) => ?_)
  obtain rfl : a = 0 := Subsingleton.elim _ _
  apply Fin.ext
  rw [LoadRect.idx_apply]
  show q + 1 * l.val = q + l.val
  omega

/-- The result after the call, entry by entry, is the specification (by definition). -/
theorem Gout_apply (m : (ℓ : Loc nD τ sig) → Buf (Elt F) ℓ) (X : (d : Dev nD) → Buf (Elt F) (xLoc d)) (d : Dev nD) (i : S16777216.Idx) :
    Gout m X d i = Cert.Spec.permFlat (X d) (m (pLoc d)) i := rfl

end Slices

end Cert.Proof.KB

end
-- ==== Proof.KB.BodyInv.lean ====
/-
  The tile's loop, stated. Tile number `w`'s stretch of the flat arrays starts at place `524288·w`; trip `k` of its loop
  handles the two slices starting at `524288·w + 32768·k` and `16384` later. Before trip `k` those two slices of the
  input are arriving in the two input buffers, the previous trip's two permuted slices are leaving the two output
  buffers for the result, the result's earlier slices hold the permuted input and its later ones are untouched.
-/
import proofs.«213039_g63608465654469_cont_9to1_m_885_2_alg».proof.Proof.KB.Vals

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (X : (d : Dev nD) → Buf (Elt F) (xLoc d))

local notation "xW" => (Memref.whole Cert.Kernel.main_v0_scv : Memref Cert.Kernel.sig Kind.scVector Space.hbm Cert.Kernel.S16777216 EltTy.f32)
local notation "pW" => (Memref.whole Cert.Kernel.main_arg1_scv : Memref Cert.Kernel.sig Kind.scVector Space.hbm Cert.Kernel.S64 EltTy.i32)
local notation "oW" => (Memref.whole Cert.Kernel.main_v1_scv : Memref Cert.Kernel.sig Kind.scVector Space.hbm Cert.Kernel.S16777216 EltTy.f32)
local notation "in0" => (Memref.whole Cert.Kernel.cc0_scratch0 : Memref Cert.Kernel.sig Kind.scVector Space.vmem Cert.Kernel.S16384 EltTy.f32)
local notation "in1" => (Memref.whole Cert.Kernel.cc0_scratch1 : Memref Cert.Kernel.sig Kind.scVector Space.vmem Cert.Kernel.S16384 EltTy.f32)
local notation "ou0" => (Memref.whole Cert.Kernel.cc0_scratch2 : Memref Cert.Kernel.sig Kind.scVector Space.vmem Cert.Kernel.S16384 EltTy.f32)
local notation "ou1" => (Memref.whole Cert.Kernel.cc0_scratch3 : Memref Cert.Kernel.sig Kind.scVector Space.vmem Cert.Kernel.S16384 EltTy.f32)
local notation "pS" => (Memref.whole Cert.Kernel.cc0_scratch4 : Memref Cert.Kernel.sig Kind.scVector Space.vmem Cert.Kernel.S64 EltTy.i32)

variable [FloatOps F]

section Tile

variable (d : Dev nD) (L : grid0.Coords)

omit [FloatOps F] in
theorem pts_i0 (f : Buf (Elt F) ((V d (cV L) (jV L)).loc cc0_scratch0)) :
    ((in0).view.loc (V d (cV L) (jV L)) ↦{fullShare} f : sProp 𝕄) = (V d (cV L) (jV L)).loc cc0_scratch0 ↦{fullShare} f := rfl
omit [FloatOps F] in
theorem pts_i1 (f : Buf (Elt F) ((V d (cV L) (jV L)).loc cc0_scratch1)) :
    ((in1).view.loc (V d (cV L) (jV L)) ↦{fullShare} f : sProp 𝕄) = (V d (cV L) (jV L)).loc cc0_scratch1 ↦{fullShare} f := rfl
omit [FloatOps F] in
theorem pts_o0 (f : Buf (Elt F) ((V d (cV L) (jV L)).loc cc0_scratch2)) :
    ((ou0).view.loc (V d (cV L) (jV L)) ↦{fullShare} f : sProp 𝕄) = (V d (cV L) (jV L)).loc cc0_scratch2 ↦{fullShare} f := rfl
omit [FloatOps F] in
theorem pts_o1 (f : Buf (Elt F) ((V d (cV L) (jV L)).loc cc0_scratch3)) :
    ((ou1).view.loc (V d (cV L) (jV L)) ↦{fullShare} f : sProp 𝕄) = (V d (cV L) (jV L)).loc cc0_scratch3 ↦{fullShare} f := rfl
omit [FloatOps F] in
theorem pts_ps (f : Buf (Elt F) ((V d (cV L) (jV L)).loc cc0_scratch4)) :
    ((pS).view.loc (V d (cV L) (jV L)) ↦{fullShare} f : sProp 𝕄) = (V d (cV L) (jV L)).loc cc0_scratch4 ↦{fullShare} f := rfl

omit [FloatOps F] in
/-- A read share is its remainder and two read tokens, one for each of two transfers reading at once. -/
theorem toks2 {ℓ : Loc nD τ sig} {f : Buf (Elt F) ℓ} (q : PosShare TreeShare) :
    (ℓ ↦{q} f : sProp 𝕄) ⊣⊢ iprop((ℓ ↦{Transfers.shareDrop q 2} f) ∗ (ℓ ↦{Transfers.shareTokN q 0} f) ∗ (ℓ ↦{Transfers.shareTokN q 1} f)) := by
  have h := Transfers.pointsTo_toks_range (nD := nD) (τ := τ) (sig := sig) (Ix := HIx 1) (Val := Elt F) (Name := ℕ) (U := UU) (Lvl := ℕ)
    (ℓ := ℓ) (S := Finset.univ) (f := f) q 2
  rw [show Finset.range 2 = {0, 1} by decide, BI.bigSep_insert (by decide), BI.bigSep_singleton] at h
  exact h

/-- The tile's first place, and the first places of the two slices trip `k` handles. -/
abbrev bW : ℕ := 524288 * (wL L).val
abbrev a0 (k : ℕ) : ℕ := 524288 * (wL L).val + 32768 * k
abbrev a1 (k : ℕ) : ℕ := 524288 * (wL L).val + 32768 * k + 16384

omit [FloatOps F] in
/-- The slice of the input starting at place `a`. -/
abbrev slcX (a : ℕ) : S16384.Idx → Elt F .f32 := slcOf (X d) a

/-- A slice of the input on its way into the first (second) input buffer, and the rest of the read token it borrowed. -/
abbrev flIn0 (a : ℕ) : sProp 𝕄 :=
  Transfers.Flight countersEmb (V d (cV L) (jV L)) (SemLoc.dma cc0_scratch5.sem) default 524288
    iprop(((in0).view.loc (V d (cV L) (jV L)) ↦{fullShare} slcX X d a)
      ∗ ((xW).view.loc (V d (cV L) (jV L)) ↦[ivl a (a + 16384)]{Transfers.shareTokN (tokS (wL L)) 0} X d))
abbrev flIn1 (a : ℕ) : sProp 𝕄 :=
  Transfers.Flight countersEmb (V d (cV L) (jV L)) (SemLoc.dma cc0_scratch6.sem) default 524288
    iprop(((in1).view.loc (V d (cV L) (jV L)) ↦{fullShare} slcX X d a)
      ∗ ((xW).view.loc (V d (cV L) (jV L)) ↦[ivl a (a + 16384)]{Transfers.shareTokN (tokS (wL L)) 1} X d))
abbrev restX (t : ℕ) (a : ℕ) : sProp 𝕄 :=
  (xW).view.loc (V d (cV L) (jV L)) ↦[Finset.univ \ ivl a (a + 16384)]{Transfers.shareTokN (tokS (wL L)) t} X d

/-- A permuted slice on its way out of the first (second) output buffer into the result at place `a`. -/
abbrev flOut0 (a : ℕ) : sProp 𝕄 :=
  Transfers.Flight countersEmb (V d (cV L) (jV L)) (SemLoc.dma cc0_scratch7.sem) default 524288
    iprop(((oW).view.loc (V d (cV L) (jV L)) ↦[ivl a (a + 16384)]{fullShare} Gout m X d)
      ∗ ((ou0).view.loc (V d (cV L) (jV L)) ↦{fullShare} permLocal (slcX X d a) (m (pLoc d))))
abbrev flOut1 (a : ℕ) : sProp 𝕄 :=
  Transfers.Flight countersEmb (V d (cV L) (jV L)) (SemLoc.dma cc0_scratch8.sem) default 524288
    iprop(((oW).view.loc (V d (cV L) (jV L)) ↦[ivl a (a + 16384)]{fullShare} Gout m X d)
      ∗ ((ou1).view.loc (V d (cV L) (jV L)) ↦{fullShare} permLocal (slcX X d a) (m (pLoc d))))

/-- The output side before trip `k`: idle at the first trip, the previous trip's two slices on their way otherwise. -/
def outSt (k : ℕ) : sProp 𝕄 :=
  if k = 0 then
    iprop((∃ g, (ou0).view.loc (V d (cV L) (jV L)) ↦{fullShare} g) ∗ semVal (cO0 d (cV L) (jV L)) 0
      ∗ (∃ g, (ou1).view.loc (V d (cV L) (jV L)) ↦{fullShare} g) ∗ semVal (cO1 d (cV L) (jV L)) 0)
  else iprop(flOut0 m X d L (a0 L (k - 1)) ∗ flOut1 m X d L (a1 L (k - 1)))

/-- The input side before trip `k`: slices `2k`, `2k+1` arriving while there are any; after the last trip both buffers
    idle and the two read tokens whole. -/
def inSt (k : ℕ) : sProp 𝕄 :=
  if k < 16 then
    iprop(flIn0 X d L (a0 L k) ∗ restX X d L 0 (a0 L k) ∗ flIn1 X d L (a1 L k) ∗ restX X d L 1 (a1 L k))
  else
    iprop((∃ f, (in0).view.loc (V d (cV L) (jV L)) ↦{fullShare} f) ∗ semVal (cI0 d (cV L) (jV L)) 0
      ∗ ((xW).view.loc (V d (cV L) (jV L)) ↦{Transfers.shareTokN (tokS (wL L)) 0} X d)
      ∗ (∃ f, (in1).view.loc (V d (cV L) (jV L)) ↦{fullShare} f) ∗ semVal (cI1 d (cV L) (jV L)) 0
      ∗ ((xW).view.loc (V d (cV L) (jV L)) ↦{Transfers.shareTokN (tokS (wL L)) 1} X d))

/-- Before trip `k` of the tile's loop: slices `2k` and `2k+1` of its stretch of the input are arriving; slices
    `2k-2`, `2k-1` of the result are leaving (none at the first trip); the result's earlier slices hold the permuted
    input and its later ones are untouched. -/
def inv (O : CellTallies nD τ sig (HIx 1)) (W : Waits sig (HIx 1)) (k : ℕ) (_ : PUnit) : sProp 𝕄 :=
  iprop(Transfers.MayWaits (V d (cV L) (jV L)) (none : HIx 1) O
    ∗ inSt X d L k
    ∗ outSt m X d L k
    ∗ ((oW).view.loc (V d (cV L) (jV L)) ↦[ivl (bW L) (a0 L (k - 1))]{fullShare} Gout m X d)
    ∗ ((oW).view.loc (V d (cV L) (jV L)) ↦[ivl (a0 L k) (bW L + 524288)]{fullShare} m (oLoc d))
    ∗ ∃ W', ⌜∀ p ∈ W', p ∈ W ∨ p.2 = none⌝ ∗ owes (V d (cV L) (jV L)) O W')

theorem trips1 : k0_t1_loop.trips = 16 := by decide
theorem cond1_pos : ∀ k : Fin k0_t1_loop.trips, 0 < k.val → k0_cond1 k = 1#1 := by decide
theorem cond1_zero : ∀ k : Fin k0_t1_loop.trips, k.val = 0 → ¬ k0_cond1 k = 1#1 := by decide
theorem cond3_pos : ∀ k : Fin k0_t1_loop.trips, 0 < k.val → k0_cond3 k = 1#1 := by decide
theorem cond3_zero : ∀ k : Fin k0_t1_loop.trips, k.val = 0 → ¬ k0_cond3 k = 1#1 := by decide
theorem cond2_lt : ∀ k : Fin k0_t1_loop.trips, k.val < 15 → k0_cond2 k = 1#1 := by decide
theorem cond2_last : ∀ k : Fin k0_t1_loop.trips, k.val = 15 → ¬ k0_cond2 k = 1#1 := by decide
theorem cond4_lt : ∀ k : Fin k0_t1_loop.trips, k.val < 15 → k0_cond4 k = 1#1 := by decide
theorem cond4_last : ∀ k : Fin k0_t1_loop.trips, k.val = 15 → ¬ k0_cond4 k = 1#1 := by decide

omit [FloatOps F] in
theorem inSt_lt {k : ℕ} (h : k < 16) : inSt X d L k
    = iprop(flIn0 X d L (a0 L k) ∗ restX X d L 0 (a0 L k) ∗ flIn1 X d L (a1 L k) ∗ restX X d L 1 (a1 L k)) := if_pos h
omit [FloatOps F] in
theorem inSt_ge {k : ℕ} (h : ¬ k < 16) : inSt X d L k
    = iprop((∃ f, (in0).view.loc (V d (cV L) (jV L)) ↦{fullShare} f) ∗ semVal (cI0 d (cV L) (jV L)) 0
      ∗ ((xW).view.loc (V d (cV L) (jV L)) ↦{Transfers.shareTokN (tokS (wL L)) 0} X d)
      ∗ (∃ f, (in1).view.loc (V d (cV L) (jV L)) ↦{fullShare} f) ∗ semVal (cI1 d (cV L) (jV L)) 0
      ∗ ((xW).view.loc (V d (cV L) (jV L)) ↦{Transfers.shareTokN (tokS (wL L)) 1} X d)) := if_neg h
omit [FloatOps F] in
theorem outSt_zero {k : ℕ} (h : k = 0) : outSt m X d L k
    = iprop((∃ g, (ou0).view.loc (V d (cV L) (jV L)) ↦{fullShare} g) ∗ semVal (cO0 d (cV L) (jV L)) 0
      ∗ (∃ g, (ou1).view.loc (V d (cV L) (jV L)) ↦{fullShare} g) ∗ semVal (cO1 d (cV L) (jV L)) 0) := if_pos h
omit [FloatOps F] in
theorem outSt_pos {k : ℕ} (h : ¬ k = 0) : outSt m X d L k
    = iprop(flOut0 m X d L (a0 L (k - 1)) ∗ flOut1 m X d L (a1 L (k - 1))) := if_neg h

omit [FloatOps F] in
/-- The next 16384 places of a stretch of the result, and the rest of the stretch. -/
theorem carve_o (a e : ℕ) (hae : a + 16384 ≤ e) (f : Buf (Elt F) (oLoc d)) :
    ((oW).view.loc (V d (cV L) (jV L)) ↦[ivl a e]{fullShare} f : sProp 𝕄)
      ⊣⊢ iprop(((oW).view.loc (V d (cV L) (jV L)) ↦[ivl a (a + 16384)]{fullShare} f) ∗ ((oW).view.loc (V d (cV L) (jV L)) ↦[ivl (a + 16384) e]{fullShare} f)) := by
  rw [ivl_union (a := a) (b := a + 16384) (e := e) (by omega) hae]
  exact pointsTo_union (ivl_disjoint le_rfl)

/-- A slice of the result, as the kernel slices it. -/
abbrev oSl (off : Fin 1 → ℕ) (h : ∀ a, off a + S16384.size a ≤ S16777216.size a) : Memref sig .scVector .hbm S16384 .f32 :=
  (oW).slice (Rect.unit (s := S16777216) off S16384.size h) (fun _ => rfl)
abbrev xSl (off : Fin 1 → ℕ) (h : ∀ a, off a + S16384.size a ≤ S16777216.size a) : Memref sig .scVector .hbm S16384 .f32 :=
  (xW).slice (Rect.unit (s := S16777216) off S16384.size h) (fun _ => rfl)

omit [FloatOps F] in
theorem pts_osl (off : Fin 1 → ℕ) (h : ∀ a, off a + S16384.size a ≤ S16777216.size a) (f : Buf (Elt F) (oLoc d)) :
    ((oSl off h).view.loc (V d (cV L) (jV L)) ↦[(oSl off h).view.set]{fullShare} f : sProp 𝕄)
      = ((oW).view.loc (V d (cV L) (jV L)) ↦[ivl (off 0) (off 0 + 16384)]{fullShare} f) := by
  rw [oslice_set]

end Tile

end Cert.Proof.KB

end
-- ==== Proof.KB.Conv.lean ====
/-
  From the forms a transfer is issued in to the forms the loop is stated in. A slice named by the kernel's offsets is
  an interval of places; what a slice of the input leaves in a buffer is the input's entries from the slice's start;
  what a permuted buffer leaves in a slice of the result is, on the slice's places, the specification; and the
  finished part of the result grows by the two slices a trip sends.
-/
import proofs.«213039_g63608465654469_cont_9to1_m_885_2_alg».proof.Proof.KB.BodyInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (X : (d : Dev nD) → Buf (Elt F) (xLoc d))

local notation "xW" => (Memref.whole Cert.Kernel.main_v0_scv : Memref Cert.Kernel.sig Kind.scVector Space.hbm Cert.Kernel.S16777216 EltTy.f32)
local notation "pW" => (Memref.whole Cert.Kernel.main_arg1_scv : Memref Cert.Kernel.sig Kind.scVector Space.hbm Cert.Kernel.S64 EltTy.i32)
local notation "oW" => (Memref.whole Cert.Kernel.main_v1_scv : Memref Cert.Kernel.sig Kind.scVector Space.hbm Cert.Kernel.S16777216 EltTy.f32)
local notation "in0" => (Memref.whole Cert.Kernel.cc0_scratch0 : Memref Cert.Kernel.sig Kind.scVector Space.vmem Cert.Kernel.S16384 EltTy.f32)
local notation "in1" => (Memref.whole Cert.Kernel.cc0_scratch1 : Memref Cert.Kernel.sig Kind.scVector Space.vmem Cert.Kernel.S16384 EltTy.f32)
local notation "ou0" => (Memref.whole Cert.Kernel.cc0_scratch2 : Memref Cert.Kernel.sig Kind.scVector Space.vmem Cert.Kernel.S16384 EltTy.f32)
local notation "ou1" => (Memref.whole Cert.Kernel.cc0_scratch3 : Memref Cert.Kernel.sig Kind.scVector Space.vmem Cert.Kernel.S16384 EltTy.f32)
local notation "pS" => (Memref.whole Cert.Kernel.cc0_scratch4 : Memref Cert.Kernel.sig Kind.scVector Space.vmem Cert.Kernel.S64 EltTy.i32)

section Tile

variable (d : Dev nD) (L : grid0.Coords)

/-! ## A slice of the input on its way into a buffer -/

theorem flIn0_of (off : Fin 1 → ℕ) (h : ∀ a, off a + S16384.size a ≤ S16777216.size a) (hs) (f0 : S16384.Idx → Elt F .f32)
    (pay : S16384.Idx → Elt F .f32)
    (hpay : pay = ReadAs.same.apply (View.read (Elt F) ((xW).slice (Rect.unit (s := S16777216) off S16384.size h) hs).view (X d)))
    (a : ℕ) (ha : off 0 = a) :
    (Transfers.Flight countersEmb (V d (cV L) (jV L)) (SemLoc.dma cc0_scratch5.sem) default 524288
      iprop(((in0).view.loc (V d (cV L) (jV L)) ↦{fullShare} View.write (Elt F) (in0).view f0 pay Finset.univ)
        ∗ ((xW).view.loc (V d (cV L) (jV L)) ↦[((xW).slice (Rect.unit (s := S16777216) off S16384.size h) hs).view.set]{Transfers.shareTokN (tokS (wL L)) 0} X d)) : sProp 𝕄)
      ⊢ flIn0 X d L a := by
  subst hpay ha
  rw [arrive0 off h hs (X d) f0, xslice_set]

theorem flIn1_of (off : Fin 1 → ℕ) (h : ∀ a, off a + S16384.size a ≤ S16777216.size a) (hs) (f0 : S16384.Idx → Elt F .f32)
    (pay : S16384.Idx → Elt F .f32)
    (hpay : pay = ReadAs.same.apply (View.read (Elt F) ((xW).slice (Rect.unit (s := S16777216) off S16384.size h) hs).view (X d)))
    (a : ℕ) (ha : off 0 = a) :
    (Transfers.Flight countersEmb (V d (cV L) (jV L)) (SemLoc.dma cc0_scratch6.sem) default 524288
      iprop(((in1).view.loc (V d (cV L) (jV L)) ↦{fullShare} View.write (Elt F) (in1).view f0 pay Finset.univ)
        ∗ ((xW).view.loc (V d (cV L) (jV L)) ↦[((xW).slice (Rect.unit (s := S16777216) off S16384.size h) hs).view.set]{Transfers.shareTokN (tokS (wL L)) 1} X d)) : sProp 𝕄)
      ⊢ flIn1 X d L a := by
  subst hpay ha
  rw [arrive1 off h hs (X d) f0, xslice_set]

/-- The rest of the read token a prefetch borrowed a slice of. -/
theorem restX_of (t : ℕ) (off : Fin 1 → ℕ) (h : ∀ a, off a + S16384.size a ≤ S16777216.size a) (hs) (a : ℕ) (ha : off 0 = a) :
    ((xW).view.loc (V d (cV L) (jV L)) ↦[Finset.univ \ ((xW).slice (Rect.unit (s := S16777216) off S16384.size h) hs).view.set]{Transfers.shareTokN (tokS (wL L)) t} X d : sProp 𝕄)
      = restX X d L t a := by
  subst ha
  rw [xslice_set]

/-! ## A permuted buffer on its way into a slice of the result -/

/-- What one whole write of a permuted buffer leaves in a slice of the result that starts at a multiple of 64: on the
    slice's places, the specification. -/
theorem owrites_apply (off : Fin 1 → ℕ) (h : ∀ a, off a + S16384.size a ≤ S16777216.size a) (h64 : 64 ∣ off 0)
    (x : S16777216.Idx → Elt F .f32) (p : S64.Idx → BitVec 32) (fo : S16777216.Idx → Elt F .f32) :
    ∀ i ∈ ivl (off 0) (off 0 + 16384),
      (oSl off h).view.writes (Elt F) fo [⟨Rect.whole S16384, permLocal (slcOf x (off 0)) p⟩] i = Cert.Spec.permFlat x p i := by
  intro i hi
  have hi' := mem_ivl.mp hi
  have hb : off 0 + 16384 ≤ 16777216 := by have := h 0; simpa using this
  have hjlt : (i 0).val - off 0 < 16384 := by omega
  have hij : ((oSl off h).view.slice (Rect.whole S16384)).emb (ValueIdx.ix1 (⟨(i 0).val - off 0, hjlt⟩ : Fin 16384)) = i := by
    rw [View.emb_slice]
    show (oSl off h).view.emb ((Rect.whole S16384).emb _) = i
    rw [Rect.emb_whole_apply, oslice_emb]
    refine funext fun (a : Fin 1) => ?_
    obtain rfl : a = 0 := Subsingleton.elim _ _
    apply Fin.ext
    show off 0 + ((i 0).val - off 0) = (i 0).val
    omega
  show ((oSl off h).view.slice (Rect.whole S16384)).write (Elt F) fo (permLocal (slcOf x (off 0)) p) Finset.univ i = _
  rw [← hij, View.write_emb_of_mem _ _ (Finset.mem_univ _)]
  refine (cast_eq _ _).trans ?_
  rw [hij]
  exact permLocal_slc (off 0) h64 x p i hi hb _ rfl

theorem flOut0_of (off : Fin 1 → ℕ) (h : ∀ a, off a + S16384.size a ≤ S16777216.size a) (pay : S16384.Idx → Elt F .f32)
    (a : ℕ) (ha : off 0 = a) (h64 : 64 ∣ a)
    (hpay : pay = ReadAs.same.apply (View.read (Elt F) (ou0).view (permLocal (slcX X d a) (m (pLoc d)))))
    (fo : Buf (Elt F) (oLoc d)) :
    (Transfers.Flight countersEmb (V d (cV L) (jV L)) (SemLoc.dma cc0_scratch7.sem) default 524288
      iprop(((oSl off h).view.loc (V d (cV L) (jV L)) ↦[(oSl off h).view.set]{fullShare} (oSl off h).view.writes (Elt F) fo [⟨Rect.whole S16384, pay⟩])
        ∗ ((ou0).view.loc (V d (cV L) (jV L)) ↦[(ou0).view.set]{fullShare} permLocal (slcX X d a) (m (pLoc d)))) : sProp 𝕄)
      ⊢ flOut0 m X d L a := by
  subst ha hpay
  refine Transfers.Flight_mono countersEmb _ (Entails.of_eq ?_)
  have hs : (ou0).view.set = (Finset.univ : Finset _) := View.set_whole cc0_scratch2
  rw [pts_osl, hs, pointsTo_congr (owrites_apply off h h64 (X d) (m (pLoc d)) fo)]
  rfl

theorem flOut1_of (off : Fin 1 → ℕ) (h : ∀ a, off a + S16384.size a ≤ S16777216.size a) (pay : S16384.Idx → Elt F .f32)
    (a : ℕ) (ha : off 0 = a) (h64 : 64 ∣ a)
    (hpay : pay = ReadAs.same.apply (View.read (Elt F) (ou1).view (permLocal (slcX X d a) (m (pLoc d)))))
    (fo : Buf (Elt F) (oLoc d)) :
    (Transfers.Flight countersEmb (V d (cV L) (jV L)) (SemLoc.dma cc0_scratch8.sem) default 524288
      iprop(((oSl off h).view.loc (V d (cV L) (jV L)) ↦[(oSl off h).view.set]{fullShare} (oSl off h).view.writes (Elt F) fo [⟨Rect.whole S16384, pay⟩])
        ∗ ((ou1).view.loc (V d (cV L) (jV L)) ↦[(ou1).view.set]{fullShare} permLocal (slcX X d a) (m (pLoc d)))) : sProp 𝕄)
      ⊢ flOut1 m X d L a := by
  subst ha hpay
  refine Transfers.Flight_mono countersEmb _ (Entails.of_eq ?_)
  have hs : (ou1).view.set = (Finset.univ : Finset _) := View.set_whole cc0_scratch3
  rw [pts_osl, hs, pointsTo_congr (owrites_apply off h h64 (X d) (m (pLoc d)) fo)]
  rfl

/-- A whole buffer sent leaves nothing of the buffer behind. -/
theorem ou0_rest_emp (g : S16384.Idx → Elt F .f32) :
    ((ou0).view.loc (V d (cV L) (jV L)) ↦[Finset.univ \ (ou0).view.set]{fullShare} g : sProp 𝕄) = (iprop(emp) : sProp 𝕄) := by
  have hs : (ou0).view.set = (Finset.univ : Finset _) := View.set_whole cc0_scratch2
  rw [hs, Finset.sdiff_self, pointsTo_empty]
theorem ou1_rest_emp (g : S16384.Idx → Elt F .f32) :
    ((ou1).view.loc (V d (cV L) (jV L)) ↦[Finset.univ \ (ou1).view.set]{fullShare} g : sProp 𝕄) = (iprop(emp) : sProp 𝕄) := by
  have hs : (ou1).view.set = (Finset.univ : Finset _) := View.set_whole cc0_scratch3
  rw [hs, Finset.sdiff_self, pointsTo_empty]

/-! ## The finished part of the result -/

/-- Three adjacent stretches of the result are one. -/
theorem pts_join3 (A B C D : ℕ) (h1 : A ≤ B) (hBC : B + 16384 = C) (hCD : C + 16384 = D) (f : Buf (Elt F) (oLoc d)) :
    iprop(((oW).view.loc (V d (cV L) (jV L)) ↦[ivl A B]{fullShare} f)
        ∗ ((oW).view.loc (V d (cV L) (jV L)) ↦[ivl B (B + 16384)]{fullShare} f)
        ∗ ((oW).view.loc (V d (cV L) (jV L)) ↦[ivl C (C + 16384)]{fullShare} f))
      ⊢ ((oW).view.loc (V d (cV L) (jV L)) ↦[ivl A D]{fullShare} f : sProp 𝕄) := by
  subst hBC hCD
  iintro ⟨H1, H2, H3⟩
  ihave H23 := ((carve_o d L B (B + 16384 + 16384) (by omega) f).2) $$ [H2 H3]
  · isplitl [H2]; · iexact H2
    iexact H3
  rw [ivl_union (a := A) (b := B) (e := B + 16384 + 16384) h1 (by omega)]
  iapply (pointsTo_union (ivl_disjoint (Nat.le_refl B))).2
  isplitl [H1]; · iexact H1
  iexact H23

/-- After trip `k - 1` the finished part has grown by the two slices that trip sent. -/
theorem done_join (k : ℕ) (hk : 0 < k) (f : Buf (Elt F) (oLoc d)) :
    iprop(((oW).view.loc (V d (cV L) (jV L)) ↦[ivl (bW L) (a0 L (k - 1))]{fullShare} f)
        ∗ ((oW).view.loc (V d (cV L) (jV L)) ↦[ivl (a0 L (k - 1)) (a0 L (k - 1) + 16384)]{fullShare} f)
        ∗ ((oW).view.loc (V d (cV L) (jV L)) ↦[ivl (a1 L (k - 1)) (a1 L (k - 1) + 16384)]{fullShare} f))
      ⊢ ((oW).view.loc (V d (cV L) (jV L)) ↦[ivl (bW L) (a0 L k)]{fullShare} f : sProp 𝕄) :=
  pts_join3 d L (bW L) (a0 L (k - 1)) (a1 L (k - 1)) (a0 L k) (by unfold a0 bW; omega) rfl (by unfold a0 a1; omega) f

/-- Before the first trip nothing is finished. -/
theorem done_zero : ivl (bW L) (a0 L (0 - 1)) = ∅ := ivl_empty (by unfold a0 bW; omega)

theorem done_zero_emp (f : Buf (Elt F) (oLoc d)) :
    ((oW).view.loc (V d (cV L) (jV L)) ↦[ivl (bW L) (a0 L (0 - 1))]{fullShare} f : sProp 𝕄) = (iprop(emp) : sProp 𝕄) := by
  rw [done_zero, pointsTo_empty]

end Tile

end Cert.Proof.KB

end
-- ==== Proof.KB.Inner.lean ====
/-
  The kernel's two inner loops. One trip of either loop gathers sixteen pieces of sixteen entries out of the input
  buffer — the sixteen places of positions 16·q … 16·q + 15 of the list, moved to run 4·k + u of the buffer — and stores
  piece (u, q) at positions 256·k + 64·u + 16·q … of the output buffer. So after trip k the output buffer holds the
  permuted input below position 256·(k + 1): entry 64·g + j is the input's entry 64·g + p j. After the 64 trips that is
  the whole buffer. The in-range condition each gather assumes holds because every place is below 64 and every run
  starts at most at 64·255.
-/
import proofs.«213039_g63608465654469_cont_9to1_m_885_2_alg».proof.Proof.KB.Geom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_v0_scv : Memref Cert.Kernel.sig Kind.scVector Space.hbm Cert.Kernel.S16777216 EltTy.f32)
local notation "pW" => (Memref.whole Cert.Kernel.main_arg1_scv : Memref Cert.Kernel.sig Kind.scVector Space.hbm Cert.Kernel.S64 EltTy.i32)
local notation "oW" => (Memref.whole Cert.Kernel.main_v1_scv : Memref Cert.Kernel.sig Kind.scVector Space.hbm Cert.Kernel.S16777216 EltTy.f32)
local notation "in0" => (Memref.whole Cert.Kernel.cc0_scratch0 : Memref Cert.Kernel.sig Kind.scVector Space.vmem Cert.Kernel.S16384 EltTy.f32)
local notation "in1" => (Memref.whole Cert.Kernel.cc0_scratch1 : Memref Cert.Kernel.sig Kind.scVector Space.vmem Cert.Kernel.S16384 EltTy.f32)
local notation "ou0" => (Memref.whole Cert.Kernel.cc0_scratch2 : Memref Cert.Kernel.sig Kind.scVector Space.vmem Cert.Kernel.S16384 EltTy.f32)
local notation "ou1" => (Memref.whole Cert.Kernel.cc0_scratch3 : Memref Cert.Kernel.sig Kind.scVector Space.vmem Cert.Kernel.S16384 EltTy.f32)
local notation "pS" => (Memref.whole Cert.Kernel.cc0_scratch4 : Memref Cert.Kernel.sig Kind.scVector Space.vmem Cert.Kernel.S64 EltTy.i32)

variable [FloatOps F]

variable (d : Dev nD) (L : grid0.Coords)

/-! ## Words and places -/

/-- A place below 64 moved by a run's start that leaves room for 64 names an entry of the buffer. -/
theorem chk_lane (v : IVec S16 32) (cb : BitVec 32) (hv : ∀ x, (v x).toNat < 64) (hcb : cb.toNat + 64 ≤ 16384) :
    ∀ a x, ((![addi v (broadcast S16 cb)] : Fin 1 → IVec S16 32) a x).toNat < S16384.size a := by
  intro a x
  obtain rfl : a = 0 := Subsingleton.elim _ _
  show (v x + cb).toNat < 16384
  have := hv x
  rw [BitVec.toNat_add]
  omega

/-- The start of run 4·k + n of the buffer, as the word the kernel computes: 64·(4·k + n). -/
theorem cb_toNat (u : BitVec 32) (n : Nat) (hn : u.toNat = n) (hu : n < 4) (k : Nat) (hk : k < 64) :
    (Scalar.muli (Scalar.addi (Scalar.muli (Scf.iv 0#32 1#32 k) 4#32) u) 64#32).toNat = 64 * (4 * k + n) := by
  subst hn
  simp only [Scalar.muli, Scalar.addi, IntOp.muli, IntOp.addi, Scf.iv, BitVec.toNat_mul, BitVec.toNat_add, BitVec.toNat_ofNat]
  omega

theorem cb_le (u : BitVec 32) (hu : u.toNat < 4) (k : Nat) (hk : k < 64) :
    (Scalar.muli (Scalar.addi (Scalar.muli (Scf.iv 0#32 1#32 k) 4#32) u) 64#32).toNat + 64 ≤ 16384 := by
  rw [cb_toNat u _ rfl hu k hk]; omega

/-! ## The permutation inside a buffer -/

/-- One piece of a trip. Sixteen places (those of positions b … b + 15), moved to run r of the buffer, are gathered and
    stored at positions 64·r + b … of the result: each stored entry is the permuted input's. -/
theorem piece_ok (fin : Vec F S16384 .f32) (pv : S64.Idx → BitVec 32) (hp : ∀ j, (pv j).toNat < 64)
    (fin' : Vec F S16384 .f32) (hfin : fin' = fin)
    (v : IVec S16 32) (b : Nat) (hb : b + 16 ≤ 64) (hv : ∀ l : Fin 16, v (ValueIdx.ix1 l) = pv (ValueIdx.ix1 ⟨b + l.val, by omega⟩))
    (cb : BitVec 32) (r : Nat) (hr : r < 256) (hcb : cb.toNat = 64 * r)
    (off : Fin 1 → Nat) (inb : ∀ a, off a + S16.size a ≤ S16384.size a) (hoff : off 0 = 64 * r + b)
    (h : ∀ a x, ((![addi v (broadcast S16 cb)] : Fin 1 → IVec S16 32) a x).toNat < S16384.size a) (x : S16.Idx) :
    loadIdx fin' ![addi v (broadcast S16 cb)] h x = permLocal fin pv ((Rect.unit (s := S16384) off S16.size inb).emb x) := by
  subst hfin
  unfold loadIdx permLocal
  congr 1
  funext a
  obtain rfl : a = 0 := Subsingleton.elim _ _
  refine Fin.ext ?_
  have hx : (x 0).val < 16 := (x 0).isLt
  have hvx : v x = pv (ValueIdx.ix1 ⟨b + (x 0).val, by omega⟩) :=
    (congrArg v (ValueIdx.eq_ix1 x)).trans (hv (x 0))
  have hJ : (((Rect.unit (s := S16384) off S16.size inb).emb x) 0).val = 64 * r + b + (x 0).val := by
    show off 0 + 1 * (x 0).val = _
    omega
  have hpl : Cert.Spec.place pv ⟨(((Rect.unit (s := S16384) off S16.size inb).emb x) 0).val % 64, Nat.mod_lt _ (by decide)⟩
      = (pv (ValueIdx.ix1 ⟨b + (x 0).val, by omega⟩)).toNat := by
    unfold Cert.Spec.place
    have e : (⟨(((Rect.unit (s := S16384) off S16.size inb).emb x) 0).val % 64, Nat.mod_lt _ (by decide)⟩ : Fin 64)
        = ⟨b + (x 0).val, by omega⟩ := Fin.ext (by show _ % 64 = b + (x 0).val; rw [hJ]; omega)
    rw [e]
    exact Nat.mod_eq_of_lt (hp _)
  show (v x + cb).toNat = 64 * ((((Rect.unit (s := S16384) off S16.size inb).emb x) 0).val / 64) + _
  rw [hpl, hJ, hvx, BitVec.toNat_add, hcb]
  have := hp (ValueIdx.ix1 ⟨b + (x 0).val, by omega⟩)
  omega

/-- An entry lies under a piece at `off` of `size` entries when its position is one of `off 0 … off 0 + size 0 - 1`. -/
theorem mem_piece (off size : Fin 1 → Nat) (inb : ∀ a, off a + size a ≤ S16384.size a) (y : S16384.Idx) :
    y ∈ (Rect.unit (s := S16384) off size inb).set ↔ off 0 ≤ (y 0).val ∧ (y 0).val < off 0 + size 0 := by
  rw [Rect.mem_set_unit, Fin.forall_fin_one]

/-- What a trip's stores leave. The pieces written hold the wanted function, they cover positions 256·t … 256·t + 255 and
    touch nothing below; so if the buffer held the wanted function below 256·t, it now does below 256·(t + 1). -/
theorem writes_step {κ : Kind} {sp : Space} {e : EltTy} (v : View sig κ sp S16384 e) (Val : EltTy → Type)
    (f : v.ty.Contents Val) (L : List (View.Piece Val S16384 e)) (G : S16384.Idx → Val e) (t : Nat)
    (hP : ∀ p ∈ L, ∀ x : p.1.shape.Idx, p.2 x = G (p.1.emb x))
    (hcov : ∀ y : S16384.Idx, 256 * t ≤ (y 0).val → (y 0).val < 256 * (t + 1) → ∃ p ∈ L, y ∈ p.1.set)
    (hnot : ∀ y : S16384.Idx, (y 0).val < 256 * t → ∀ p ∈ L, y ∉ p.1.set)
    (hf : ∀ y : S16384.Idx, (y 0).val < 256 * t → v.read Val f y = G y) :
    ∀ y : S16384.Idx, (y 0).val < 256 * (t + 1) → v.read Val (v.writes Val f L) y = G y := by
  intro y hy
  by_cases hlt : (y 0).val < 256 * t
  · rw [View.read_writes_apply_of_forall_not_mem v f y L (hnot y hlt)]
    exact hf y hlt
  · exact View.read_writes_apply_of_pieces v f G L hP y (hcov y (by omega) hy)

/-- Sixteen lanes that hold sixteen of the places hold words below 64. -/
theorem lanes_lt (pv : S64.Idx → BitVec 32) (hp : ∀ j, (pv j).toNat < 64) (v : IVec S16 32) (b : Nat) (hb : b + 16 ≤ 64)
    (hv : ∀ l : Fin 16, v (ValueIdx.ix1 l) = pv (ValueIdx.ix1 ⟨b + l.val, by omega⟩)) : ∀ x, (v x).toNat < 64 := fun x => by
  have e : v x = pv (ValueIdx.ix1 ⟨b + (x 0).val, by have hx : (x 0).val < 16 := (x 0).isLt; omega⟩) :=
    (congrArg v (ValueIdx.eq_ix1 x)).trans (hv (x 0))
  rw [e]; exact hp _

/-! ## The first loop: input buffer 0, output buffer 0 -/

/-- Before trip t of the loop: the input buffer as it was, the output buffer holding the permuted input below position
    256·t. -/
def inv0 (fin : Buf (Elt F) ((V d (cV L) (jV L)).loc cc0_scratch0)) (pv : S64.Idx → BitVec 32) (t : Nat) (_ : Unit) : sProp 𝕄 :=
  iprop(((in0).view.loc (V d (cV L) (jV L)) ↦{fullShare} fin)
    ∗ ∃ g' : Buf (Elt F) ((V d (cV L) (jV L)).loc cc0_scratch2), ((ou0).view.loc (V d (cV L) (jV L)) ↦{fullShare} g')
      ∗ ⌜∀ j : S16384.Idx, (j 0).val < 256 * t → g' j = permLocal fin pv j⌝)

set_option maxHeartbeats 1600000 in
/-- One trip: sixteen pieces of sixteen entries, gathered at the places moved to the trip's four runs of 64 and stored
    at positions 256·k … 256·k + 255. -/
theorem trip0 (pv : S64.Idx → BitVec 32) (hp : ∀ j, (pv j).toNat < 64) (v3 v4 v5 v6 : Vec F S16 .i32)
    (hv3 : ∀ l : Fin 16, v3 (ValueIdx.ix1 l) = pv (ValueIdx.ix1 ⟨0 + l.val, by omega⟩))
    (hv4 : ∀ l : Fin 16, v4 (ValueIdx.ix1 l) = pv (ValueIdx.ix1 ⟨16 + l.val, by omega⟩))
    (hv5 : ∀ l : Fin 16, v5 (ValueIdx.ix1 l) = pv (ValueIdx.ix1 ⟨32 + l.val, by omega⟩))
    (hv6 : ∀ l : Fin 16, v6 (ValueIdx.ix1 l) = pv (ValueIdx.ix1 ⟨48 + l.val, by omega⟩))
    (v2 c0 c1 : BitVec 32) (k1 : Fin k0_t1_loop.trips)
    (fin : Buf (Elt F) ((V d (cV L) (jV L)).loc cc0_scratch0)) (k : Fin k0_t2_loop.trips) (acc : Unit) :
    inv0 d L fin pv k.val acc
      ⊢ wp frame (wpE (defs₀ (F := F)) 𝒱₀ (V d (cV L) (jV L)) none) Set.univ
          (k0_t2_body L xW (Memref.isWhole_whole _) pW (Memref.isWhole_whole _) oW (Memref.isWhole_whole _)
            in0 (Memref.isWhole_whole _) in1 (Memref.isWhole_whole _) ou0 (Memref.isWhole_whole _) ou1 (Memref.isWhole_whole _) pS (Memref.isWhole_whole _)
            cc0_scratch5 cc0_scratch6 cc0_scratch7 cc0_scratch8 cc0_scoped0 v2 v3 v4 v5 v6 c0 c1 k1 k acc)
          (inv0 d L fin pv (k.val + 1)) := by
  have hk64 : k.val < 64 := k.isLt
  have h3 : ∀ x, (v3 x : BitVec 32).toNat < 64 := lanes_lt pv hp v3 0 (by omega) hv3
  have h4 : ∀ x, (v4 x : BitVec 32).toNat < 64 := lanes_lt pv hp v4 16 (by omega) hv4
  have h5 : ∀ x, (v5 x : BitVec 32).toNat < 64 := lanes_lt pv hp v5 32 (by omega) hv5
  have h6 : ∀ x, (v6 x : BitVec 32).toNat < 64 := lanes_lt pv hp v6 48 (by omega) hv6
  unfold inv0 k0_t2_body
  rw [k0_part1_eq_skeleton, k0_part2_eq_skeleton]
  unfold k0_part1_skel k0_part2_skel SparseCore.vectorLoadIdx
  iintro ⟨Hin, %g', Hou, %hg'⟩
  sl_exec (disch := exact chk_lane _ _ (by assumption) (cb_le _ (by decide) _ hk64))
  sl_step
  isplitl [Hin]
  · iexact Hin
  iexists _
  isplitl [Hou]
  · iexact Hou
  ipureintro
  intro j hj
  refine (congrFun (View.read_whole (Val := Elt F) cc0_scratch2 _) j).symm.trans
    (writes_step (ou0).view (Elt F) g' _ (permLocal fin pv) k.val ?hP ?hcov ?hnot hg' j hj)
  case hcov =>
    intro y h1 h2
    simp only [List.mem_cons, List.not_mem_nil, _root_.or_false, exists_eq_or_imp, exists_eq_left, mem_piece, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, Matrix.cons_val_zero]
    omega
  case hnot =>
    intro y h1
    simp only [List.mem_cons, List.not_mem_nil, _root_.or_false, forall_eq_or_imp, forall_eq, mem_piece, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, Matrix.cons_val_zero]
    omega
  case hP =>
    refine List.forall_mem_cons.2 ⟨fun x => piece_ok fin pv hp _ (Memref.readAt_whole (Elt F) cc0_scratch0 fin) v6 48 (by omega) hv6 _
      (4 * k.val + 3) (by omega) (cb_toNat (3#32) 3 rfl (by omega) k.val hk64) _ (k0_off20_inb k)
      (by rw [k0_off20_eq k]; show (256 * k.val + 240 : ℕ) = _; omega)
      (chk_lane _ _ h6 (cb_le (3#32) (by decide) k.val hk64)) x, ?_⟩
    refine List.forall_mem_cons.2 ⟨fun x => piece_ok fin pv hp _ (Memref.readAt_whole (Elt F) cc0_scratch0 fin) v5 32 (by omega) hv5 _
      (4 * k.val + 3) (by omega) (cb_toNat (3#32) 3 rfl (by omega) k.val hk64) _ (k0_off19_inb k)
      (by rw [k0_off19_eq k]; show (256 * k.val + 224 : ℕ) = _; omega)
      (chk_lane _ _ h5 (cb_le (3#32) (by decide) k.val hk64)) x, ?_⟩
    refine List.forall_mem_cons.2 ⟨fun x => piece_ok fin pv hp _ (Memref.readAt_whole (Elt F) cc0_scratch0 fin) v4 16 (by omega) hv4 _
      (4 * k.val + 3) (by omega) (cb_toNat (3#32) 3 rfl (by omega) k.val hk64) _ (k0_off18_inb k)
      (by rw [k0_off18_eq k]; show (256 * k.val + 208 : ℕ) = _; omega)
      (chk_lane _ _ h4 (cb_le (3#32) (by decide) k.val hk64)) x, ?_⟩
    refine List.forall_mem_cons.2 ⟨fun x => piece_ok fin pv hp _ (Memref.readAt_whole (Elt F) cc0_scratch0 fin) v3 0 (by omega) hv3 _
      (4 * k.val + 3) (by omega) (cb_toNat (3#32) 3 rfl (by omega) k.val hk64) _ (k0_off17_inb k)
      (by rw [k0_off17_eq k]; show (256 * k.val + 192 : ℕ) = _; omega)
      (chk_lane _ _ h3 (cb_le (3#32) (by decide) k.val hk64)) x, ?_⟩
    refine List.forall_mem_cons.2 ⟨fun x => piece_ok fin pv hp _ (Memref.readAt_whole (Elt F) cc0_scratch0 fin) v6 48 (by omega) hv6 _
      (4 * k.val + 2) (by omega) (cb_toNat (2#32) 2 rfl (by omega) k.val hk64) _ (k0_off16_inb k)
      (by rw [k0_off16_eq k]; show (256 * k.val + 176 : ℕ) = _; omega)
      (chk_lane _ _ h6 (cb_le (2#32) (by decide) k.val hk64)) x, ?_⟩
    refine List.forall_mem_cons.2 ⟨fun x => piece_ok fin pv hp _ (Memref.readAt_whole (Elt F) cc0_scratch0 fin) v5 32 (by omega) hv5 _
      (4 * k.val + 2) (by omega) (cb_toNat (2#32) 2 rfl (by omega) k.val hk64) _ (k0_off15_inb k)
      (by rw [k0_off15_eq k]; show (256 * k.val + 160 : ℕ) = _; omega)
      (chk_lane _ _ h5 (cb_le (2#32) (by decide) k.val hk64)) x, ?_⟩
    refine List.forall_mem_cons.2 ⟨fun x => piece_ok fin pv hp _ (Memref.readAt_whole (Elt F) cc0_scratch0 fin) v4 16 (by omega) hv4 _
      (4 * k.val + 2) (by omega) (cb_toNat (2#32) 2 rfl (by omega) k.val hk64) _ (k0_off14_inb k)
      (by rw [k0_off14_eq k]; show (256 * k.val + 144 : ℕ) = _; omega)
      (chk_lane _ _ h4 (cb_le (2#32) (by decide) k.val hk64)) x, ?_⟩
    refine List.forall_mem_cons.2 ⟨fun x => piece_ok fin pv hp _ (Memref.readAt_whole (Elt F) cc0_scratch0 fin) v3 0 (by omega) hv3 _
      (4 * k.val + 2) (by omega) (cb_toNat (2#32) 2 rfl (by omega) k.val hk64) _ (k0_off13_inb k)
      (by rw [k0_off13_eq k]; show (256 * k.val + 128 : ℕ) = _; omega)
      (chk_lane _ _ h3 (cb_le (2#32) (by decide) k.val hk64)) x, ?_⟩
    refine List.forall_mem_cons.2 ⟨fun x => piece_ok fin pv hp _ (Memref.readAt_whole (Elt F) cc0_scratch0 fin) v6 48 (by omega) hv6 _
      (4 * k.val + 1) (by omega) (cb_toNat (1#32) 1 rfl (by omega) k.val hk64) _ (k0_off12_inb k)
      (by rw [k0_off12_eq k]; show (256 * k.val + 112 : ℕ) = _; omega)
      (chk_lane _ _ h6 (cb_le (1#32) (by decide) k.val hk64)) x, ?_⟩
    refine List.forall_mem_cons.2 ⟨fun x => piece_ok fin pv hp _ (Memref.readAt_whole (Elt F) cc0_scratch0 fin) v5 32 (by omega) hv5 _
      (4 * k.val + 1) (by omega) (cb_toNat (1#32) 1 rfl (by omega) k.val hk64) _ (k0_off11_inb k)
      (by rw [k0_off11_eq k]; show (256 * k.val + 96 : ℕ) = _; omega)
      (chk_lane _ _ h5 (cb_le (1#32) (by decide) k.val hk64)) x, ?_⟩
    refine List.forall_mem_cons.2 ⟨fun x => piece_ok fin pv hp _ (Memref.readAt_whole (Elt F) cc0_scratch0 fin) v4 16 (by omega) hv4 _
      (4 * k.val + 1) (by omega) (cb_toNat (1#32) 1 rfl (by omega) k.val hk64) _ (k0_off10_inb k)
      (by rw [k0_off10_eq k]; show (256 * k.val + 80 : ℕ) = _; omega)
      (chk_lane _ _ h4 (cb_le (1#32) (by decide) k.val hk64)) x, ?_⟩
    refine List.forall_mem_cons.2 ⟨fun x => piece_ok fin pv hp _ (Memref.readAt_whole (Elt F) cc0_scratch0 fin) v3 0 (by omega) hv3 _
      (4 * k.val + 1) (by omega) (cb_toNat (1#32) 1 rfl (by omega) k.val hk64) _ (k0_off9_inb k)
      (by rw [k0_off9_eq k]; show (256 * k.val + 64 : ℕ) = _; omega)
      (chk_lane _ _ h3 (cb_le (1#32) (by decide) k.val hk64)) x, ?_⟩
    refine List.forall_mem_cons.2 ⟨fun x => piece_ok fin pv hp _ (Memref.readAt_whole (Elt F) cc0_scratch0 fin) v6 48 (by omega) hv6 _
      (4 * k.val + 0) (by omega) (cb_toNat (0#32) 0 rfl (by omega) k.val hk64) _ (k0_off8_inb k)
      (by rw [k0_off8_eq k]; show (256 * k.val + 48 : ℕ) = _; omega)
      (chk_lane _ _ h6 (cb_le (0#32) (by decide) k.val hk64)) x, ?_⟩
    refine List.forall_mem_cons.2 ⟨fun x => piece_ok fin pv hp _ (Memref.readAt_whole (Elt F) cc0_scratch0 fin) v5 32 (by omega) hv5 _
      (4 * k.val + 0) (by omega) (cb_toNat (0#32) 0 rfl (by omega) k.val hk64) _ (k0_off7_inb k)
      (by rw [k0_off7_eq k]; show (256 * k.val + 32 : ℕ) = _; omega)
      (chk_lane _ _ h5 (cb_le (0#32) (by decide) k.val hk64)) x, ?_⟩
    refine List.forall_mem_cons.2 ⟨fun x => piece_ok fin pv hp _ (Memref.readAt_whole (Elt F) cc0_scratch0 fin) v4 16 (by omega) hv4 _
      (4 * k.val + 0) (by omega) (cb_toNat (0#32) 0 rfl (by omega) k.val hk64) _ (k0_off6_inb k)
      (by rw [k0_off6_eq k]; show (256 * k.val + 16 : ℕ) = _; omega)
      (chk_lane _ _ h4 (cb_le (0#32) (by decide) k.val hk64)) x, ?_⟩
    refine List.forall_mem_cons.2 ⟨fun x => piece_ok fin pv hp _ (Memref.readAt_whole (Elt F) cc0_scratch0 fin) v3 0 (by omega) hv3 _
      (4 * k.val + 0) (by omega) (cb_toNat (0#32) 0 rfl (by omega) k.val hk64) _ (k0_off5_inb k)
      (by rw [k0_off5_eq k]; show (256 * k.val : ℕ) = _; omega)
      (chk_lane _ _ h3 (cb_le (0#32) (by decide) k.val hk64)) x, ?_⟩
    exact fun _ h => absurd h List.not_mem_nil

/-- The whole loop: after its 64 trips the output buffer holds the permuted input, the input buffer as it was. -/
theorem inner0 (v3 v4 v5 v6 : Vec F S16 .i32) (pv : S64.Idx → BitVec 32)
    (hv3 : ∀ l : Fin 16, v3 (ValueIdx.ix1 l) = pv (ValueIdx.ix1 ⟨l.val, by omega⟩))
    (hv4 : ∀ l : Fin 16, v4 (ValueIdx.ix1 l) = pv (ValueIdx.ix1 ⟨16 + l.val, by omega⟩))
    (hv5 : ∀ l : Fin 16, v5 (ValueIdx.ix1 l) = pv (ValueIdx.ix1 ⟨32 + l.val, by omega⟩))
    (hv6 : ∀ l : Fin 16, v6 (ValueIdx.ix1 l) = pv (ValueIdx.ix1 ⟨48 + l.val, by omega⟩))
    (hp : ∀ j, (pv j).toNat < 64) (v2 c0 c1 : BitVec 32) (k1 : Fin k0_t1_loop.trips)
    (fin : Buf (Elt F) ((V d (cV L) (jV L)).loc cc0_scratch0)) (g : Buf (Elt F) ((V d (cV L) (jV L)).loc cc0_scratch2)) :
    (iprop(((in0).view.loc (V d (cV L) (jV L)) ↦{fullShare} fin) ∗ ((ou0).view.loc (V d (cV L) (jV L)) ↦{fullShare} g)) : sProp 𝕄)
      ⊢ wp frame (wpE (defs₀ (F := F)) 𝒱₀ (V d (cV L) (jV L)) none) Set.univ
          (Scf.Loop.for k0_t2_loop k0_t2_ok ⟨⟩ (k0_t2_body L xW (Memref.isWhole_whole _) pW (Memref.isWhole_whole _) oW (Memref.isWhole_whole _)
            in0 (Memref.isWhole_whole _) in1 (Memref.isWhole_whole _) ou0 (Memref.isWhole_whole _) ou1 (Memref.isWhole_whole _) pS (Memref.isWhole_whole _)
            cc0_scratch5 cc0_scratch6 cc0_scratch7 cc0_scratch8 cc0_scoped0 v2 v3 v4 v5 v6 c0 c1 k1))
          fun _ => iprop(((in0).view.loc (V d (cV L) (jV L)) ↦{fullShare} fin)
            ∗ ((ou0).view.loc (V d (cV L) (jV L)) ↦{fullShare} permLocal fin pv)) := by
  have hv3' : ∀ l : Fin 16, v3 (ValueIdx.ix1 l) = pv (ValueIdx.ix1 ⟨0 + l.val, by omega⟩) := fun l =>
    (hv3 l).trans (congrArg pv (congrArg ValueIdx.ix1 (Fin.ext (Nat.zero_add _).symm)))
  have htr : Scf.trips k0_t2_loop.lb k0_t2_loop.ub k0_t2_loop.st = 64 := by decide
  iintro ⟨Hin, Hou⟩
  iapply (Scf.wp_for frame (wpE (defs₀ (F := F)) 𝒱₀ (V d (cV L) (jV L)) none) Set.univ k0_t2_loop.lb k0_t2_loop.ub k0_t2_loop.st k0_t2_ok ⟨⟩ _
    (inv0 d L fin pv) (fun k acc => trip0 d L pv hp v3 v4 v5 v6 hv3' hv4 hv5 hv6 v2 c0 c1 k1 fin k acc))
  isplitl [Hin Hou]
  · unfold inv0
    isplitl [Hin]
    · iexact Hin
    iexists g
    isplitl [Hou]
    · iexact Hou
    ipureintro
    intro j hj
    omega
  · iintro %acc HI
    rw [htr]
    unfold inv0
    icases HI with ⟨Hin, %g', Hou, %hg'⟩
    have hg : g' = permLocal fin pv := funext fun j => hg' j (by have h : (j 0).val < 16384 := (j 0).isLt; omega)
    subst hg
    isplitl [Hin]
    · iexact Hin
    iexact Hou

/-! ## The second loop: input buffer 1, output buffer 1 -/

/-- Before trip t of the loop: the input buffer as it was, the output buffer holding the permuted input below position
    256·t. -/
def inv1 (fin : Buf (Elt F) ((V d (cV L) (jV L)).loc cc0_scratch1)) (pv : S64.Idx → BitVec 32) (t : Nat) (_ : Unit) : sProp 𝕄 :=
  iprop(((in1).view.loc (V d (cV L) (jV L)) ↦{fullShare} fin)
    ∗ ∃ g' : Buf (Elt F) ((V d (cV L) (jV L)).loc cc0_scratch3), ((ou1).view.loc (V d (cV L) (jV L)) ↦{fullShare} g')
      ∗ ⌜∀ j : S16384.Idx, (j 0).val < 256 * t → g' j = permLocal fin pv j⌝)

set_option maxHeartbeats 1600000 in
/-- One trip: sixteen pieces of sixteen entries, gathered at the places moved to the trip's four runs of 64 and stored
    at positions 256·k … 256·k + 255. -/
theorem trip1 (pv : S64.Idx → BitVec 32) (hp : ∀ j, (pv j).toNat < 64) (v3 v4 v5 v6 : Vec F S16 .i32)
    (hv3 : ∀ l : Fin 16, v3 (ValueIdx.ix1 l) = pv (ValueIdx.ix1 ⟨0 + l.val, by omega⟩))
    (hv4 : ∀ l : Fin 16, v4 (ValueIdx.ix1 l) = pv (ValueIdx.ix1 ⟨16 + l.val, by omega⟩))
    (hv5 : ∀ l : Fin 16, v5 (ValueIdx.ix1 l) = pv (ValueIdx.ix1 ⟨32 + l.val, by omega⟩))
    (hv6 : ∀ l : Fin 16, v6 (ValueIdx.ix1 l) = pv (ValueIdx.ix1 ⟨48 + l.val, by omega⟩))
    (v2 c0 c1 : BitVec 32) (k1 : Fin k0_t1_loop.trips)
    (fin : Buf (Elt F) ((V d (cV L) (jV L)).loc cc0_scratch1)) (k : Fin k0_t3_loop.trips) (acc : Unit) :
    inv1 d L fin pv k.val acc
      ⊢ wp frame (wpE (defs₀ (F := F)) 𝒱₀ (V d (cV L) (jV L)) none) Set.univ
          (k0_t3_body L xW (Memref.isWhole_whole _) pW (Memref.isWhole_whole _) oW (Memref.isWhole_whole _)
            in0 (Memref.isWhole_whole _) in1 (Memref.isWhole_whole _) ou0 (Memref.isWhole_whole _) ou1 (Memref.isWhole_whole _) pS (Memref.isWhole_whole _)
            cc0_scratch5 cc0_scratch6 cc0_scratch7 cc0_scratch8 cc0_scoped0 v2 v3 v4 v5 v6 c0 c1 k1 k acc)
          (inv1 d L fin pv (k.val + 1)) := by
  have hk64 : k.val < 64 := k.isLt
  have h3 : ∀ x, (v3 x : BitVec 32).toNat < 64 := lanes_lt pv hp v3 0 (by omega) hv3
  have h4 : ∀ x, (v4 x : BitVec 32).toNat < 64 := lanes_lt pv hp v4 16 (by omega) hv4
  have h5 : ∀ x, (v5 x : BitVec 32).toNat < 64 := lanes_lt pv hp v5 32 (by omega) hv5
  have h6 : ∀ x, (v6 x : BitVec 32).toNat < 64 := lanes_lt pv hp v6 48 (by omega) hv6
  unfold inv1 k0_t3_body
  rw [k0_part3_eq_skeleton, k0_part4_eq_skeleton]
  unfold k0_part3_skel k0_part4_skel SparseCore.vectorLoadIdx
  iintro ⟨Hin, %g', Hou, %hg'⟩
  sl_exec (disch := exact chk_lane _ _ (by assumption) (cb_le _ (by decide) _ hk64))
  sl_step
  isplitl [Hin]
  · iexact Hin
  iexists _
  isplitl [Hou]
  · iexact Hou
  ipureintro
  intro j hj
  refine (congrFun (View.read_whole (Val := Elt F) cc0_scratch3 _) j).symm.trans
    (writes_step (ou1).view (Elt F) g' _ (permLocal fin pv) k.val ?hP ?hcov ?hnot hg' j hj)
  case hcov =>
    intro y h1 h2
    simp only [List.mem_cons, List.not_mem_nil, _root_.or_false, exists_eq_or_imp, exists_eq_left, mem_piece, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, Matrix.cons_val_zero]
    omega
  case hnot =>
    intro y h1
    simp only [List.mem_cons, List.not_mem_nil, _root_.or_false, forall_eq_or_imp, forall_eq, mem_piece, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, Matrix.cons_val_zero]
    omega
  case hP =>
    refine List.forall_mem_cons.2 ⟨fun x => piece_ok fin pv hp _ (Memref.readAt_whole (Elt F) cc0_scratch1 fin) v6 48 (by omega) hv6 _
      (4 * k.val + 3) (by omega) (cb_toNat (3#32) 3 rfl (by omega) k.val hk64) _ (k0_off38_inb k)
      (by rw [k0_off38_eq k]; show (256 * k.val + 240 : ℕ) = _; omega)
      (chk_lane _ _ h6 (cb_le (3#32) (by decide) k.val hk64)) x, ?_⟩
    refine List.forall_mem_cons.2 ⟨fun x => piece_ok fin pv hp _ (Memref.readAt_whole (Elt F) cc0_scratch1 fin) v5 32 (by omega) hv5 _
      (4 * k.val + 3) (by omega) (cb_toNat (3#32) 3 rfl (by omega) k.val hk64) _ (k0_off37_inb k)
      (by rw [k0_off37_eq k]; show (256 * k.val + 224 : ℕ) = _; omega)
      (chk_lane _ _ h5 (cb_le (3#32) (by decide) k.val hk64)) x, ?_⟩
    refine List.forall_mem_cons.2 ⟨fun x => piece_ok fin pv hp _ (Memref.readAt_whole (Elt F) cc0_scratch1 fin) v4 16 (by omega) hv4 _
      (4 * k.val + 3) (by omega) (cb_toNat (3#32) 3 rfl (by omega) k.val hk64) _ (k0_off36_inb k)
      (by rw [k0_off36_eq k]; show (256 * k.val + 208 : ℕ) = _; omega)
      (chk_lane _ _ h4 (cb_le (3#32) (by decide) k.val hk64)) x, ?_⟩
    refine List.forall_mem_cons.2 ⟨fun x => piece_ok fin pv hp _ (Memref.readAt_whole (Elt F) cc0_scratch1 fin) v3 0 (by omega) hv3 _
      (4 * k.val + 3) (by omega) (cb_toNat (3#32) 3 rfl (by omega) k.val hk64) _ (k0_off35_inb k)
      (by rw [k0_off35_eq k]; show (256 * k.val + 192 : ℕ) = _; omega)
      (chk_lane _ _ h3 (cb_le (3#32) (by decide) k.val hk64)) x, ?_⟩
    refine List.forall_mem_cons.2 ⟨fun x => piece_ok fin pv hp _ (Memref.readAt_whole (Elt F) cc0_scratch1 fin) v6 48 (by omega) hv6 _
      (4 * k.val + 2) (by omega) (cb_toNat (2#32) 2 rfl (by omega) k.val hk64) _ (k0_off34_inb k)
      (by rw [k0_off34_eq k]; show (256 * k.val + 176 : ℕ) = _; omega)
      (chk_lane _ _ h6 (cb_le (2#32) (by decide) k.val hk64)) x, ?_⟩
    refine List.forall_mem_cons.2 ⟨fun x => piece_ok fin pv hp _ (Memref.readAt_whole (Elt F) cc0_scratch1 fin) v5 32 (by omega) hv5 _
      (4 * k.val + 2) (by omega) (cb_toNat (2#32) 2 rfl (by omega) k.val hk64) _ (k0_off33_inb k)
      (by rw [k0_off33_eq k]; show (256 * k.val + 160 : ℕ) = _; omega)
      (chk_lane _ _ h5 (cb_le (2#32) (by decide) k.val hk64)) x, ?_⟩
    refine List.forall_mem_cons.2 ⟨fun x => piece_ok fin pv hp _ (Memref.readAt_whole (Elt F) cc0_scratch1 fin) v4 16 (by omega) hv4 _
      (4 * k.val + 2) (by omega) (cb_toNat (2#32) 2 rfl (by omega) k.val hk64) _ (k0_off32_inb k)
      (by rw [k0_off32_eq k]; show (256 * k.val + 144 : ℕ) = _; omega)
      (chk_lane _ _ h4 (cb_le (2#32) (by decide) k.val hk64)) x, ?_⟩
    refine List.forall_mem_cons.2 ⟨fun x => piece_ok fin pv hp _ (Memref.readAt_whole (Elt F) cc0_scratch1 fin) v3 0 (by omega) hv3 _
      (4 * k.val + 2) (by omega) (cb_toNat (2#32) 2 rfl (by omega) k.val hk64) _ (k0_off31_inb k)
      (by rw [k0_off31_eq k]; show (256 * k.val + 128 : ℕ) = _; omega)
      (chk_lane _ _ h3 (cb_le (2#32) (by decide) k.val hk64)) x, ?_⟩
    refine List.forall_mem_cons.2 ⟨fun x => piece_ok fin pv hp _ (Memref.readAt_whole (Elt F) cc0_scratch1 fin) v6 48 (by omega) hv6 _
      (4 * k.val + 1) (by omega) (cb_toNat (1#32) 1 rfl (by omega) k.val hk64) _ (k0_off30_inb k)
      (by rw [k0_off30_eq k]; show (256 * k.val + 112 : ℕ) = _; omega)
      (chk_lane _ _ h6 (cb_le (1#32) (by decide) k.val hk64)) x, ?_⟩
    refine List.forall_mem_cons.2 ⟨fun x => piece_ok fin pv hp _ (Memref.readAt_whole (Elt F) cc0_scratch1 fin) v5 32 (by omega) hv5 _
      (4 * k.val + 1) (by omega) (cb_toNat (1#32) 1 rfl (by omega) k.val hk64) _ (k0_off29_inb k)
      (by rw [k0_off29_eq k]; show (256 * k.val + 96 : ℕ) = _; omega)
      (chk_lane _ _ h5 (cb_le (1#32) (by decide) k.val hk64)) x, ?_⟩
    refine List.forall_mem_cons.2 ⟨fun x => piece_ok fin pv hp _ (Memref.readAt_whole (Elt F) cc0_scratch1 fin) v4 16 (by omega) hv4 _
      (4 * k.val + 1) (by omega) (cb_toNat (1#32) 1 rfl (by omega) k.val hk64) _ (k0_off28_inb k)
      (by rw [k0_off28_eq k]; show (256 * k.val + 80 : ℕ) = _; omega)
      (chk_lane _ _ h4 (cb_le (1#32) (by decide) k.val hk64)) x, ?_⟩
    refine List.forall_mem_cons.2 ⟨fun x => piece_ok fin pv hp _ (Memref.readAt_whole (Elt F) cc0_scratch1 fin) v3 0 (by omega) hv3 _
      (4 * k.val + 1) (by omega) (cb_toNat (1#32) 1 rfl (by omega) k.val hk64) _ (k0_off27_inb k)
      (by rw [k0_off27_eq k]; show (256 * k.val + 64 : ℕ) = _; omega)
      (chk_lane _ _ h3 (cb_le (1#32) (by decide) k.val hk64)) x, ?_⟩
    refine List.forall_mem_cons.2 ⟨fun x => piece_ok fin pv hp _ (Memref.readAt_whole (Elt F) cc0_scratch1 fin) v6 48 (by omega) hv6 _
      (4 * k.val + 0) (by omega) (cb_toNat (0#32) 0 rfl (by omega) k.val hk64) _ (k0_off26_inb k)
      (by rw [k0_off26_eq k]; show (256 * k.val + 48 : ℕ) = _; omega)
      (chk_lane _ _ h6 (cb_le (0#32) (by decide) k.val hk64)) x, ?_⟩
    refine List.forall_mem_cons.2 ⟨fun x => piece_ok fin pv hp _ (Memref.readAt_whole (Elt F) cc0_scratch1 fin) v5 32 (by omega) hv5 _
      (4 * k.val + 0) (by omega) (cb_toNat (0#32) 0 rfl (by omega) k.val hk64) _ (k0_off25_inb k)
      (by rw [k0_off25_eq k]; show (256 * k.val + 32 : ℕ) = _; omega)
      (chk_lane _ _ h5 (cb_le (0#32) (by decide) k.val hk64)) x, ?_⟩
    refine List.forall_mem_cons.2 ⟨fun x => piece_ok fin pv hp _ (Memref.readAt_whole (Elt F) cc0_scratch1 fin) v4 16 (by omega) hv4 _
      (4 * k.val + 0) (by omega) (cb_toNat (0#32) 0 rfl (by omega) k.val hk64) _ (k0_off24_inb k)
      (by rw [k0_off24_eq k]; show (256 * k.val + 16 : ℕ) = _; omega)
      (chk_lane _ _ h4 (cb_le (0#32) (by decide) k.val hk64)) x, ?_⟩
    refine List.forall_mem_cons.2 ⟨fun x => piece_ok fin pv hp _ (Memref.readAt_whole (Elt F) cc0_scratch1 fin) v3 0 (by omega) hv3 _
      (4 * k.val + 0) (by omega) (cb_toNat (0#32) 0 rfl (by omega) k.val hk64) _ (k0_off23_inb k)
      (by rw [k0_off23_eq k]; show (256 * k.val : ℕ) = _; omega)
      (chk_lane _ _ h3 (cb_le (0#32) (by decide) k.val hk64)) x, ?_⟩
    exact fun _ h => absurd h List.not_mem_nil

/-- The whole loop: after its 64 trips the output buffer holds the permuted input, the input buffer as it was. -/
theorem inner1 (v3 v4 v5 v6 : Vec F S16 .i32) (pv : S64.Idx → BitVec 32)
    (hv3 : ∀ l : Fin 16, v3 (ValueIdx.ix1 l) = pv (ValueIdx.ix1 ⟨l.val, by omega⟩))
    (hv4 : ∀ l : Fin 16, v4 (ValueIdx.ix1 l) = pv (ValueIdx.ix1 ⟨16 + l.val, by omega⟩))
    (hv5 : ∀ l : Fin 16, v5 (ValueIdx.ix1 l) = pv (ValueIdx.ix1 ⟨32 + l.val, by omega⟩))
    (hv6 : ∀ l : Fin 16, v6 (ValueIdx.ix1 l) = pv (ValueIdx.ix1 ⟨48 + l.val, by omega⟩))
    (hp : ∀ j, (pv j).toNat < 64) (v2 c0 c1 : BitVec 32) (k1 : Fin k0_t1_loop.trips)
    (fin : Buf (Elt F) ((V d (cV L) (jV L)).loc cc0_scratch1)) (g : Buf (Elt F) ((V d (cV L) (jV L)).loc cc0_scratch3)) :
    (iprop(((in1).view.loc (V d (cV L) (jV L)) ↦{fullShare} fin) ∗ ((ou1).view.loc (V d (cV L) (jV L)) ↦{fullShare} g)) : sProp 𝕄)
      ⊢ wp frame (wpE (defs₀ (F := F)) 𝒱₀ (V d (cV L) (jV L)) none) Set.univ
          (Scf.Loop.for k0_t3_loop k0_t3_ok ⟨⟩ (k0_t3_body L xW (Memref.isWhole_whole _) pW (Memref.isWhole_whole _) oW (Memref.isWhole_whole _)
            in0 (Memref.isWhole_whole _) in1 (Memref.isWhole_whole _) ou0 (Memref.isWhole_whole _) ou1 (Memref.isWhole_whole _) pS (Memref.isWhole_whole _)
            cc0_scratch5 cc0_scratch6 cc0_scratch7 cc0_scratch8 cc0_scoped0 v2 v3 v4 v5 v6 c0 c1 k1))
          fun _ => iprop(((in1).view.loc (V d (cV L) (jV L)) ↦{fullShare} fin)
            ∗ ((ou1).view.loc (V d (cV L) (jV L)) ↦{fullShare} permLocal fin pv)) := by
  have hv3' : ∀ l : Fin 16, v3 (ValueIdx.ix1 l) = pv (ValueIdx.ix1 ⟨0 + l.val, by omega⟩) := fun l =>
    (hv3 l).trans (congrArg pv (congrArg ValueIdx.ix1 (Fin.ext (Nat.zero_add _).symm)))
  have htr : Scf.trips k0_t3_loop.lb k0_t3_loop.ub k0_t3_loop.st = 64 := by decide
  iintro ⟨Hin, Hou⟩
  iapply (Scf.wp_for frame (wpE (defs₀ (F := F)) 𝒱₀ (V d (cV L) (jV L)) none) Set.univ k0_t3_loop.lb k0_t3_loop.ub k0_t3_loop.st k0_t3_ok ⟨⟩ _
    (inv1 d L fin pv) (fun k acc => trip1 d L pv hp v3 v4 v5 v6 hv3' hv4 hv5 hv6 v2 c0 c1 k1 fin k acc))
  isplitl [Hin Hou]
  · unfold inv1
    isplitl [Hin]
    · iexact Hin
    iexists g
    isplitl [Hou]
    · iexact Hou
    ipureintro
    intro j hj
    omega
  · iintro %acc HI
    rw [htr]
    unfold inv1
    icases HI with ⟨Hin, %g', Hou, %hg'⟩
    have hg : g' = permLocal fin pv := funext fun j => hg' j (by have h : (j 0).val < 16384 := (j 0).isLt; omega)
    subst hg
    isplitl [Hin]
    · iexact Hin
    iexact Hou

end Cert.Proof.KB

end
-- ==== Proof.KB.Body.lean ====
/-
  One tile's task, proved. The tile copies the list of 64 places into its own memory and reads it as four vectors of
  16 places. Its stretch of the flat arrays is 32 slices of 16384 entries; a loop of 16 trips handles them two at a time
  through two pairs of buffers. Trip `k` waits for slice `2k` to have arrived, waits for the departure of the permuted
  slice `2k-2` (none at the first trip), builds the permuted slice — entry `64·g + j` of the output buffer is entry
  `64·g + p j` of the input buffer —, sends it to its place in the result and asks for slice `2k+2` (none at the last
  trip); then the same for slice `2k+1` in the other pair of buffers. After the loop the last two departures are waited
  for. Each transfer is alone on its counter from its issue to its wait, and nothing touches a buffer while a transfer
  reads or writes it; so every slice of the result ends holding the input permuted inside each run of 64 by the list.
-/
import proofs.«213039_g63608465654469_cont_9to1_m_885_2_alg».proof.Proof.KB.Conv
import proofs.«213039_g63608465654469_cont_9to1_m_885_2_alg».proof.Proof.KB.Inner
import proofs.«213039_g63608465654469_cont_9to1_m_885_2_alg».proof.Proof.KB.BodyStmt

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (X : (d : Dev nD) → Buf (Elt F) (xLoc d))

local notation "xW" => (Memref.whole Cert.Kernel.main_v0_scv : Memref Cert.Kernel.sig Kind.scVector Space.hbm Cert.Kernel.S16777216 EltTy.f32)
local notation "pW" => (Memref.whole Cert.Kernel.main_arg1_scv : Memref Cert.Kernel.sig Kind.scVector Space.hbm Cert.Kernel.S64 EltTy.i32)
local notation "oW" => (Memref.whole Cert.Kernel.main_v1_scv : Memref Cert.Kernel.sig Kind.scVector Space.hbm Cert.Kernel.S16777216 EltTy.f32)
local notation "in0" => (Memref.whole Cert.Kernel.cc0_scratch0 : Memref Cert.Kernel.sig Kind.scVector Space.vmem Cert.Kernel.S16384 EltTy.f32)
local notation "in1" => (Memref.whole Cert.Kernel.cc0_scratch1 : Memref Cert.Kernel.sig Kind.scVector Space.vmem Cert.Kernel.S16384 EltTy.f32)
local notation "ou0" => (Memref.whole Cert.Kernel.cc0_scratch2 : Memref Cert.Kernel.sig Kind.scVector Space.vmem Cert.Kernel.S16384 EltTy.f32)
local notation "ou1" => (Memref.whole Cert.Kernel.cc0_scratch3 : Memref Cert.Kernel.sig Kind.scVector Space.vmem Cert.Kernel.S16384 EltTy.f32)
local notation "pS" => (Memref.whole Cert.Kernel.cc0_scratch4 : Memref Cert.Kernel.sig Kind.scVector Space.vmem Cert.Kernel.S64 EltTy.i32)

variable [FloatOps F]

section Tile

variable (d : Dev nD) (L : grid0.Coords)

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m X d (wL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__permute_sc L xW (Memref.isWhole_whole _) pW (Memref.isWhole_whole _) oW (Memref.isWhole_whole _)
            in0 (Memref.isWhole_whole _) in1 (Memref.isWhole_whole _) ou0 (Memref.isWhole_whole _) ou1 (Memref.isWhole_whole _)
            pS (Memref.isWhole_whole _) cc0_scratch5 cc0_scratch6 cc0_scratch7 cc0_scratch8 cc0_scoped0)
          fun _ => iprop(tileRes m X d (wL L) (Gout m X d) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__permute_sc_eq_skeleton]; unfold cc0__permute_sc_skel k0_t1_body
  simp only [k0_part5_eq_skeleton]; unfold k0_part5_skel
  rw [(K (F := F)).scopedBufs_V hF d (cV L) (jV L), SparseCore.Cfg.scopedSems0_V (Val := Elt F) d (cV L) (jV L), ownSems0_V, ownBufs_V]
  iintro ⟨#Hlv, -, ⟨Hp, Hx, Ho⟩, ⟨⟨%f0, Hi0⟩, ⟨%f1, Hi1⟩, ⟨%g0, Ho0⟩, ⟨%g1, Ho1⟩, ⟨%fp, Hps⟩, Hbufs⟩, ⟨HsI0, HsI1, HsO0, HsO1, HsP, Hsems⟩, HO⟩
  ihave Hmw := ((K (F := F)).mayWaits_none (thr := V d (cV L) (jV L)) hO) $$ Hlv
  ihave Hp' := (Entails.of_eq (pts_p (F := F) d L _ _).symm) $$ Hp
  ihave Hx' := (Entails.of_eq (pts_x (F := F) d L _ _).symm) $$ Hx
  ihave Hi0' := (Entails.of_eq (pts_i0 (F := F) d L _).symm) $$ Hi0
  ihave Hi1' := (Entails.of_eq (pts_i1 (F := F) d L _).symm) $$ Hi1
  ihave Ho0' := (Entails.of_eq (pts_o0 (F := F) d L _).symm) $$ Ho0
  ihave Ho1' := (Entails.of_eq (pts_o1 (F := F) d L _).symm) $$ Ho1
  ihave Hps' := (Entails.of_eq (pts_ps (F := F) d L _).symm) $$ Hps
  ihave Hx2 := (toks2 (F := F) _).1 $$ Hx'
  icases Hx2 with ⟨HxR, HxA, HxB⟩
  sl_exec
  have hv3 : ∀ l : Fin 16, tile_body.sl.v3 m d L fp (ValueIdx.ix1 l) = m (pLoc d) (ValueIdx.ix1 ⟨l.val, by omega⟩) := fun l => by
    refine (list_vec (F := F) 0 (by omega) inb_S64_S16_0 fp (m (pLoc d)) l).trans ?_
    simp only [Nat.zero_add]
  have hv4 : ∀ l : Fin 16, tile_body.sl.v4 m d L fp (ValueIdx.ix1 l) = m (pLoc d) (ValueIdx.ix1 ⟨16 + l.val, by omega⟩) :=
    fun l => list_vec (F := F) 16 (by omega) inb_S64_S16_16 fp (m (pLoc d)) l
  have hv5 : ∀ l : Fin 16, tile_body.sl.v5 m d L fp (ValueIdx.ix1 l) = m (pLoc d) (ValueIdx.ix1 ⟨32 + l.val, by omega⟩) :=
    fun l => list_vec (F := F) 32 (by omega) inb_S64_S16_32 fp (m (pLoc d)) l
  have hv6 : ∀ l : Fin 16, tile_body.sl.v6 m d L fp (ValueIdx.ix1 l) = m (pLoc d) (ValueIdx.ix1 ⟨48 + l.val, by omega⟩) :=
    fun l => list_vec (F := F) 48 (by omega) inb_S64_S16_48 fp (m (pLoc d)) l
  sl_for (inv m X d L O W) $$ [Hmw HsI0 HxA HsI1 HxB Ho0' Ho1' HsO0 HsO1 Ho HO]
  case region =>
    intro k hk
    have hk16 : k.val < 16 := lt_of_lt_of_eq k.isLt trips1
    have hb16 : a0 L k.val + 32768 ≤ bW L + 524288 := by unfold a0 bW; omega
    have e30 : (k0_off3 L k 0#32) 0 = a0 L k.val := off3_val_0 L k
    have e31 : (k0_off3 L k 1#32) 0 = a1 L k.val := off3_val_1 L k
    unfold inv
    by_cases h0 : k.val = 0
    · have k0_h1 := cond1_zero k h0
      have k0_h3 := cond3_zero k h0
      have k0_h2 := cond2_lt k (by omega)
      have k0_h4 := cond4_lt k (by omega)
      rw [inSt_lt X d L hk16, outSt_zero m X d L h0, inSt_lt X d L (k := k.val + 1) (by omega), outSt_pos m X d L (k := k.val + 1) (by omega)]
      iintro ⟨#Hmw, ⟨Hf0, Hr0, Hf1, Hr1⟩, ⟨⟨%g0', Hg0_src⟩, Hg0, ⟨%g1', Hg1_src⟩, Hg1⟩, Hdone, Hrest, %W', %hW', HO⟩
      sl_exec
      rw [wp_bind, wp_bind]
      iapply (wp_wand_r frame (wpE (defs₀ (F := F)) 𝒱₀ (V d (cV L) (jV L)) none) Set.univ (Q := fun _ => iprop(((in0).view.loc (V d (cV L) (jV L)) ↦{fullShare} slcX X d (a0 L k.val))
        ∗ ((ou0).view.loc (V d (cV L) (jV L)) ↦{fullShare} permLocal (slcX X d (a0 L k.val)) (m (pLoc d))))))
      isplitl [Hf0_dst Hg0_src]
      · iapply (inner0 (F := F) d L _ _ _ _ (m (pLoc d)) hv3 hv4 hv5 hv6 (hpre d) _ _ _ k _ _)
        isplitl [Hf0_dst]
        · iexact Hf0_dst
        · iexact Hg0_src
      iintro %u ⟨Hi0, Ho0⟩
      rw [← wp_bind]
      ihave Hc := (carve_o (F := F) d L (a0 L k.val) (bW L + 524288) (by omega) _).1 $$ Hrest
      icases Hc with ⟨Hsl0, Hrest⟩
      ihave Hsl0' := (Entails.of_eq (show _ = ((oSl (k0_off3 L k 0#32) (k0_off3_inb L k 0)).view.loc (V d (cV L) (jV L)) ↦[(oSl (k0_off3 L k 0#32) (k0_off3_inb L k 0)).view.set]{fullShare} m (oLoc d) : sProp 𝕄) from by
        rw [pts_osl, e30])) $$ Hsl0
      sl_exec
      rw [wp_bind, wp_bind]
      iapply (wp_wand_r frame (wpE (defs₀ (F := F)) 𝒱₀ (V d (cV L) (jV L)) none) Set.univ (Q := fun _ => iprop(((in1).view.loc (V d (cV L) (jV L)) ↦{fullShare} slcX X d (a1 L k.val))
        ∗ ((ou1).view.loc (V d (cV L) (jV L)) ↦{fullShare} permLocal (slcX X d (a1 L k.val)) (m (pLoc d))))))
      isplitl [Hf1_dst Hg1_src]
      · iapply (inner1 (F := F) d L _ _ _ _ (m (pLoc d)) hv3 hv4 hv5 hv6 (hpre d) _ _ _ k _ _)
        isplitl [Hf1_dst]
        · iexact Hf1_dst
        · iexact Hg1_src
      iintro %u2 ⟨Hi1, Ho1⟩
      rw [← wp_bind]
      ihave Hc := (carve_o (F := F) d L (a1 L k.val) (bW L + 524288) (by unfold a1; unfold a0 at hb16; omega) _).1 $$ Hrest
      icases Hc with ⟨Hsl1, Hrest⟩
      ihave Hsl1' := (Entails.of_eq (show _ = ((oSl (k0_off3 L k 1#32) (k0_off3_inb L k 1)).view.loc (V d (cV L) (jV L)) ↦[(oSl (k0_off3 L k 1#32) (k0_off3_inb L k 1)).view.set]{fullShare} m (oLoc d) : sProp 𝕄) from by
        rw [pts_osl, e31])) $$ Hsl1
      sl_exec
      rw [wp_ret]; imodintro
      ihave He0 := (Entails.of_eq (ou0_rest_emp (F := F) d L _)) $$ Ho0
      ihave He1 := (Entails.of_eq (ou1_rest_emp (F := F) d L _)) $$ Ho1
      icases He0 with -
      icases He1 with -
      isplitr; · iexact Hmw
      isplitl [Hf0 Hr0 Hf1 Hr1]
      · isplitl [Hf0]
        · iapply (flIn0_of (F := F) X d L (k0_off21 L k) _ _ _ _ rfl (a0 L (k.val + 1)) ((off21_val L k).trans (by unfold a0; omega))); iexact Hf0
        isplitl [Hr0]
        · iapply (Entails.of_eq (restX_of (F := F) X d L 0 (k0_off21 L k) _ _ (a0 L (k.val + 1)) ((off21_val L k).trans (by unfold a0; omega)))); iexact Hr0
        isplitl [Hf1]
        · iapply (flIn1_of (F := F) X d L (k0_off39 L k) _ _ _ _ rfl (a1 L (k.val + 1)) ((off39_val L k).trans (by unfold a1; omega))); iexact Hf1
        · iapply (Entails.of_eq (restX_of (F := F) X d L 1 (k0_off39 L k) _ _ (a1 L (k.val + 1)) ((off39_val L k).trans (by unfold a1; omega)))); iexact Hr1
      isplitl [Hg0 Hg1]
      · isplitl [Hg0]
        · iapply (flOut0_of (F := F) m X d L (k0_off3 L k 0#32) _ _ (a0 L (k.val + 1 - 1)) (e30.trans (by rw [Nat.add_sub_cancel])) (by unfold a0; omega) rfl _); iexact Hg0
        · iapply (flOut1_of (F := F) m X d L (k0_off3 L k 1#32) _ _ (a1 L (k.val + 1 - 1)) (e31.trans (by rw [Nat.add_sub_cancel])) (by unfold a1; omega) rfl _); iexact Hg1
      isplitl [Hdone]
      · rw [Nat.add_sub_cancel, show a0 L k.val = a0 L (k.val - 1) from by rw [h0]]
        iexact Hdone
      isplitl [Hrest]
      · rw [show a0 L (k.val + 1) = a1 L k.val + 16384 from by unfold a0 a1; omega]; iexact Hrest
      iexists _; isplitr
      swap
      · iexact HO
      · ipureintro; intro p hp
        simp only [Finset.mem_insert] at hp
        rcases hp with rfl | rfl | hp
        · exact .inr rfl
        · exact .inr rfl
        · exact hW' p hp
    by_cases h15 : k.val = 15
    · have hpos : 0 < k.val := by omega
      have k0_h1 := cond1_pos k hpos
      have k0_h3 := cond3_pos k hpos
      have k0_h2 := cond2_last k h15
      have k0_h4 := cond4_last k h15
      rw [inSt_lt X d L hk16, outSt_pos m X d L h0, inSt_ge X d L (k := k.val + 1) (by omega), outSt_pos m X d L (k := k.val + 1) (by omega)]
      iintro ⟨#Hmw, ⟨Hf0, Hr0, Hf1, Hr1⟩, ⟨Hg0, Hg1⟩, Hdone, Hrest, %W', %hW', HO⟩
      sl_exec
      rw [wp_bind, wp_bind]
      iapply (wp_wand_r frame (wpE (defs₀ (F := F)) 𝒱₀ (V d (cV L) (jV L)) none) Set.univ (Q := fun _ => iprop(((in0).view.loc (V d (cV L) (jV L)) ↦{fullShare} slcX X d (a0 L k.val))
        ∗ ((ou0).view.loc (V d (cV L) (jV L)) ↦{fullShare} permLocal (slcX X d (a0 L k.val)) (m (pLoc d))))))
      isplitl [Hf0_dst Hg0_src]
      · iapply (inner0 (F := F) d L _ _ _ _ (m (pLoc d)) hv3 hv4 hv5 hv6 (hpre d) _ _ _ k _ _)
        isplitl [Hf0_dst]
        · iexact Hf0_dst
        · iexact Hg0_src
      iintro %u ⟨Hi0, Ho0⟩
      rw [← wp_bind]
      ihave Hc := (carve_o (F := F) d L (a0 L k.val) (bW L + 524288) (by omega) _).1 $$ Hrest
      icases Hc with ⟨Hsl0, Hrest⟩
      ihave Hsl0' := (Entails.of_eq (show _ = ((oSl (k0_off3 L k 0#32) (k0_off3_inb L k 0)).view.loc (V d (cV L) (jV L)) ↦[(oSl (k0_off3 L k 0#32) (k0_off3_inb L k 0)).view.set]{fullShare} m (oLoc d) : sProp 𝕄) from by
        rw [pts_osl, e30])) $$ Hsl0
      sl_exec
      rw [wp_bind, wp_bind]
      iapply (wp_wand_r frame (wpE (defs₀ (F := F)) 𝒱₀ (V d (cV L) (jV L)) none) Set.univ (Q := fun _ => iprop(((in1).view.loc (V d (cV L) (jV L)) ↦{fullShare} slcX X d (a1 L k.val))
        ∗ ((ou1).view.loc (V d (cV L) (jV L)) ↦{fullShare} permLocal (slcX X d (a1 L k.val)) (m (pLoc d))))))
      isplitl [Hf1_dst Hg1_src]
      · iapply (inner1 (F := F) d L _ _ _ _ (m (pLoc d)) hv3 hv4 hv5 hv6 (hpre d) _ _ _ k _ _)
        isplitl [Hf1_dst]
        · iexact Hf1_dst
        · iexact Hg1_src
      iintro %u2 ⟨Hi1, Ho1⟩
      rw [← wp_bind]
      ihave Hc := (carve_o (F := F) d L (a1 L k.val) (bW L + 524288) (by unfold a1; unfold a0 at hb16; omega) _).1 $$ Hrest
      icases Hc with ⟨Hsl1, Hrest⟩
      ihave Hsl1' := (Entails.of_eq (show _ = ((oSl (k0_off3 L k 1#32) (k0_off3_inb L k 1)).view.loc (V d (cV L) (jV L)) ↦[(oSl (k0_off3 L k 1#32) (k0_off3_inb L k 1)).view.set]{fullShare} m (oLoc d) : sProp 𝕄) from by
        rw [pts_osl, e31])) $$ Hsl1
      sl_exec
      rw [wp_ret]; imodintro
      ihave He0 := (Entails.of_eq (ou0_rest_emp (F := F) d L _)) $$ Ho0
      ihave He1 := (Entails.of_eq (ou1_rest_emp (F := F) d L _)) $$ Ho1
      icases He0 with -
      icases He1 with -
      isplitr; · iexact Hmw
      isplitl [Hi0 Hf0 Hr0 Hi1 Hf1 Hr1]
      · isplitl [Hi0]
        · iexists _; iexact Hi0
        isplitl [Hf0]
        · iexact Hf0
        isplitl [Hr0]
        · iexact Hr0
        isplitl [Hi1]
        · iexists _; iexact Hi1
        isplitl [Hf1]
        · iexact Hf1
        iexact Hr1
      isplitl [Hg0 Hg1]
      · isplitl [Hg0]
        · iapply (flOut0_of (F := F) m X d L (k0_off3 L k 0#32) _ _ (a0 L (k.val + 1 - 1)) (e30.trans (by rw [Nat.add_sub_cancel])) (by unfold a0; omega) rfl _); iexact Hg0
        · iapply (flOut1_of (F := F) m X d L (k0_off3 L k 1#32) _ _ (a1 L (k.val + 1 - 1)) (e31.trans (by rw [Nat.add_sub_cancel])) (by unfold a1; omega) rfl _); iexact Hg1
      isplitl [Hdone Hg0_dst Hg1_dst]
      · rw [Nat.add_sub_cancel]
        iapply (done_join (F := F) d L k.val hpos _)
        isplitl [Hdone]; · iexact Hdone
        isplitl [Hg0_dst]; · iexact Hg0_dst
        iexact Hg1_dst
      isplitl [Hrest]
      · rw [show a0 L (k.val + 1) = a1 L k.val + 16384 from by unfold a0 a1; omega]; iexact Hrest
      iexists _; isplitr
      swap
      · iexact HO
      · ipureintro; intro p hp
        simp only [Finset.mem_insert] at hp
        rcases hp with rfl | rfl | rfl | rfl | hp
        · exact .inr rfl
        · exact .inr rfl
        · exact .inr rfl
        · exact .inr rfl
        · exact hW' p hp
    have hpos : 0 < k.val := Nat.pos_of_ne_zero h0
    have hlt : k.val < 15 := by omega
    have k0_h1 := cond1_pos k hpos
    have k0_h3 := cond3_pos k hpos
    have k0_h2 := cond2_lt k hlt
    have k0_h4 := cond4_lt k hlt
    rw [inSt_lt X d L hk16, outSt_pos m X d L h0, inSt_lt X d L (k := k.val + 1) (by omega), outSt_pos m X d L (k := k.val + 1) (by omega)]
    iintro ⟨#Hmw, ⟨Hf0, Hr0, Hf1, Hr1⟩, ⟨Hg0, Hg1⟩, Hdone, Hrest, %W', %hW', HO⟩
    sl_exec
    rw [wp_bind, wp_bind]
    iapply (wp_wand_r frame (wpE (defs₀ (F := F)) 𝒱₀ (V d (cV L) (jV L)) none) Set.univ (Q := fun _ => iprop(((in0).view.loc (V d (cV L) (jV L)) ↦{fullShare} slcX X d (a0 L k.val))
      ∗ ((ou0).view.loc (V d (cV L) (jV L)) ↦{fullShare} permLocal (slcX X d (a0 L k.val)) (m (pLoc d))))))
    isplitl [Hf0_dst Hg0_src]
    · iapply (inner0 (F := F) d L _ _ _ _ (m (pLoc d)) hv3 hv4 hv5 hv6 (hpre d) _ _ _ k _ _)
      isplitl [Hf0_dst]
      · iexact Hf0_dst
      · iexact Hg0_src
    iintro %u ⟨Hi0, Ho0⟩
    rw [← wp_bind]
    ihave Hc := (carve_o (F := F) d L (a0 L k.val) (bW L + 524288) (by omega) _).1 $$ Hrest
    icases Hc with ⟨Hsl0, Hrest⟩
    ihave Hsl0' := (Entails.of_eq (show _ = ((oSl (k0_off3 L k 0#32) (k0_off3_inb L k 0)).view.loc (V d (cV L) (jV L)) ↦[(oSl (k0_off3 L k 0#32) (k0_off3_inb L k 0)).view.set]{fullShare} m (oLoc d) : sProp 𝕄) from by
      rw [pts_osl, e30])) $$ Hsl0
    sl_exec
    rw [wp_bind, wp_bind]
    iapply (wp_wand_r frame (wpE (defs₀ (F := F)) 𝒱₀ (V d (cV L) (jV L)) none) Set.univ (Q := fun _ => iprop(((in1).view.loc (V d (cV L) (jV L)) ↦{fullShare} slcX X d (a1 L k.val))
      ∗ ((ou1).view.loc (V d (cV L) (jV L)) ↦{fullShare} permLocal (slcX X d (a1 L k.val)) (m (pLoc d))))))
    isplitl [Hf1_dst Hg1_src]
    · iapply (inner1 (F := F) d L _ _ _ _ (m (pLoc d)) hv3 hv4 hv5 hv6 (hpre d) _ _ _ k _ _)
      isplitl [Hf1_dst]
      · iexact Hf1_dst
      · iexact Hg1_src
    iintro %u2 ⟨Hi1, Ho1⟩
    rw [← wp_bind]
    ihave Hc := (carve_o (F := F) d L (a1 L k.val) (bW L + 524288) (by unfold a1; unfold a0 at hb16; omega) _).1 $$ Hrest
    icases Hc with ⟨Hsl1, Hrest⟩
    ihave Hsl1' := (Entails.of_eq (show _ = ((oSl (k0_off3 L k 1#32) (k0_off3_inb L k 1)).view.loc (V d (cV L) (jV L)) ↦[(oSl (k0_off3 L k 1#32) (k0_off3_inb L k 1)).view.set]{fullShare} m (oLoc d) : sProp 𝕄) from by
      rw [pts_osl, e31])) $$ Hsl1
    sl_exec
    rw [wp_ret]; imodintro
    ihave He0 := (Entails.of_eq (ou0_rest_emp (F := F) d L _)) $$ Ho0
    ihave He1 := (Entails.of_eq (ou1_rest_emp (F := F) d L _)) $$ Ho1
    icases He0 with -
    icases He1 with -
    isplitr; · iexact Hmw
    isplitl [Hf0 Hr0 Hf1 Hr1]
    · isplitl [Hf0]
      · iapply (flIn0_of (F := F) X d L (k0_off21 L k) _ _ _ _ rfl (a0 L (k.val + 1)) ((off21_val L k).trans (by unfold a0; omega))); iexact Hf0
      isplitl [Hr0]
      · iapply (Entails.of_eq (restX_of (F := F) X d L 0 (k0_off21 L k) _ _ (a0 L (k.val + 1)) ((off21_val L k).trans (by unfold a0; omega)))); iexact Hr0
      isplitl [Hf1]
      · iapply (flIn1_of (F := F) X d L (k0_off39 L k) _ _ _ _ rfl (a1 L (k.val + 1)) ((off39_val L k).trans (by unfold a1; omega))); iexact Hf1
      · iapply (Entails.of_eq (restX_of (F := F) X d L 1 (k0_off39 L k) _ _ (a1 L (k.val + 1)) ((off39_val L k).trans (by unfold a1; omega)))); iexact Hr1
    isplitl [Hg0 Hg1]
    · isplitl [Hg0]
      · iapply (flOut0_of (F := F) m X d L (k0_off3 L k 0#32) _ _ (a0 L (k.val + 1 - 1)) (e30.trans (by rw [Nat.add_sub_cancel])) (by unfold a0; omega) rfl _); iexact Hg0
      · iapply (flOut1_of (F := F) m X d L (k0_off3 L k 1#32) _ _ (a1 L (k.val + 1 - 1)) (e31.trans (by rw [Nat.add_sub_cancel])) (by unfold a1; omega) rfl _); iexact Hg1
    isplitl [Hdone Hg0_dst Hg1_dst]
    · rw [Nat.add_sub_cancel]
      iapply (done_join (F := F) d L k.val hpos _)
      isplitl [Hdone]; · iexact Hdone
      isplitl [Hg0_dst]; · iexact Hg0_dst
      iexact Hg1_dst
    isplitl [Hrest]
    · rw [show a0 L (k.val + 1) = a1 L k.val + 16384 from by unfold a0 a1; omega]; iexact Hrest
    iexists _; isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp
  · unfold inv
    rw [inSt_lt X d L (k := 0) (by omega), outSt_zero m X d L (k := 0) rfl]
    isplitr; · iexact Hmw
    isplitl [HsI0 HxA HsI1 HxB]
    · isplitl [HsI0]
      · iapply (flIn0_of (F := F) X d L (k0_off1 L) _ _ _ _ rfl (a0 L 0) ((off1_val L).trans (by unfold a0; omega))); iexact HsI0
      isplitl [HxA]
      · iapply (Entails.of_eq (restX_of (F := F) X d L 0 (k0_off1 L) _ _ (a0 L 0) ((off1_val L).trans (by unfold a0; omega)))); iexact HxA
      isplitl [HsI1]
      · iapply (flIn1_of (F := F) X d L (k0_off2 L 16384#32) _ _ _ _ rfl (a1 L 0) ((off2_val_a L).trans (by unfold a1; omega))); iexact HsI1
      · iapply (Entails.of_eq (restX_of (F := F) X d L 1 (k0_off2 L 16384#32) _ _ (a1 L 0) ((off2_val_a L).trans (by unfold a1; omega)))); iexact HxB
    isplitl [Ho0' Ho1' HsO0 HsO1]
    · isplitl [Ho0']; · iexists _; iexact Ho0'
      isplitl [HsO0]; · iexact HsO0
      isplitl [Ho1']; · iexists _; iexact Ho1'
      iexact HsO1
    isplitr
    · rw [show ivl (bW L) (a0 L (0 - 1)) = ∅ from ivl_empty (by unfold a0 bW; omega), pointsTo_empty]; iempintro
    isplitl [Ho]
    · iapply (Entails.of_eq (show (oLoc d ↦[reg (wL L)]{fullShare} m (oLoc d) : sProp 𝕄)
          = ((oW).view.loc (V d (cV L) (jV L)) ↦[ivl (a0 L 0) (bW L + 524288)]{fullShare} m (oLoc d)) from by
        rw [reg_eq, show a0 L 0 = 524288 * (wL L).val from by unfold a0; omega, show bW L + 524288 = 524288 * ((wL L).val + 1) from by unfold bW; omega]))
      iexact Ho
    iexists _; isplitr
    swap
    · iexact HO
    · ipureintro; intro p hp
      simp only [Finset.mem_insert] at hp
      rcases hp with rfl | hp
      · exact .inr rfl
      · exact .inl hp
  iintro %_ HI
  unfold inv
  have ht : Scf.trips k0_t1_loop.lb k0_t1_loop.ub k0_t1_loop.st = 16 := by decide
  rw [inSt_ge X d L (k := k0_t1_loop.trips) (by decide), outSt_pos m X d L (k := k0_t1_loop.trips) (by decide)]
  simp only [trips1, ht]
  icases HI with ⟨-, ⟨⟨%fi0, Hi0⟩, HcI0, HxA, ⟨%fi1, Hi1⟩, HcI1, HxB⟩, ⟨Hg0, Hg1⟩, Hdone, Hrest, %W', %hW', HO⟩
  sl_exec
  rw [wp_ret]; imodintro
  ihave He := (Entails.of_eq (show ((oW).view.loc (V d (cV L) (jV L)) ↦[ivl (a0 L 16) (bW L + 524288)]{fullShare} m (oLoc d) : sProp 𝕄) = iprop(emp) from by
    rw [show ivl (a0 L 16) (bW L + 524288) = ∅ from ivl_empty (by unfold a0 bW; omega), pointsTo_empty])) $$ Hrest
  icases He with -
  isplitl [Hp' HxR HxA HxB Hdone Hg0_dst Hg1_dst]
  · isplitl [Hp']
    · iapply (Entails.of_eq (pts_p (F := F) d L _ _)); iexact Hp'
    isplitl [HxR HxA HxB]
    · iapply (Entails.of_eq (pts_x (F := F) d L _ _))
      iapply (toks2 (F := F) _).2
      isplitl [HxR]; · iexact HxR
      isplitl [HxA]; · iexact HxA
      iexact HxB
    · iapply (Entails.of_eq (show ((oW).view.loc (V d (cV L) (jV L)) ↦[ivl (bW L) (a0 L 16)]{fullShare} Gout m X d : sProp 𝕄)
          = (oLoc d ↦[reg (wL L)]{fullShare} Gout m X d) from by
        rw [reg_eq, show a0 L 16 = 524288 * ((wL L).val + 1) from by unfold a0; omega]))
      iapply (done_join (F := F) d L 16 (by omega) _)
      isplitl [Hdone]; · iexact Hdone
      isplitl [Hg0_dst]; · iexact Hg0_dst
      iexact Hg1_dst
  isplitl [Hi0 Hi1 Hg0_src Hg1_src Hps' Hbufs]
  · isplitl [Hi0]; · iexists _; iexact Hi0
    isplitl [Hi1]; · iexists _; iexact Hi1
    isplitl [Hg0_src]; · iexists _; iexact Hg0_src
    isplitl [Hg1_src]; · iexists _; iexact Hg1_src
    isplitl [Hps']; · iexists _; iexact Hps'
    iexact Hbufs
  isplitl [HcI0 HcI1 Hg0 Hg1 HsP Hsems]
  · isplitl [HcI0]; · iexact HcI0
    isplitl [HcI1]; · iexact HcI1
    isplitl [Hg0]; · iexact Hg0
    isplitl [Hg1]; · iexact Hg1
    isplitl [HsP]; · iexact HsP
    iexact Hsems
  iexists _; isplitr
  swap
  · iexact HO
  · ipureintro; intro p hp
    simp only [Finset.mem_insert] at hp
    rcases hp with rfl | rfl | hp
    · exact .inr rfl
    · exact .inr rfl
    · exact hW' p hp

end Tile

/-- The tile's task, as the launch's obligation states it, when every listed place is below 64. -/
theorem tileBodySpec (hpre : PreOK m) : TileBodySpec m X :=
  fun d L O W hO => tile_body m X d L facts hpre O W hO

end Cert.Proof.KB

end
-- ==== Proof.lean ====
/-
  The claim. On the flat arrays both programs compute one function: the input, read in row-major order as one row of
  16777216 numbers, is cut into aligned runs of 64, and inside every run the result's entry j is the input's entry
  p[j], for one list p of 64 places shared by all runs:  out[64·k + j] = x[64·k + p[j]].  Nothing is added or
  multiplied, so the equation holds entry by entry on the extended reals as on words.

  The kernel reshapes the input to the flat row, and its 32 tiles each own a stretch of 524288 entries of the flat
  arrays, which a tile moves slice by slice: a slice of 16384 entries arrives in a buffer, is permuted inside the
  buffer run by run through the tile's own copy of the list, and leaves for its place in the result; two slices are
  under way at a time. The stretches are pairwise disjoint and cover the row, so the tiles together leave the flat
  result whole at the permuted input, and the last reshape gives it the input's shape. The reference reads the input
  as [4, 2048, 32, 64], gathers along the last axis at the places, and reads the result back as [4, 2048, 2048]; with
  every place in 0 … 63, which is what the precondition says, that is the same function of the arguments.

  The five conjuncts: each program's frame is its run with the result dropped; the idealization rewrote no operation,
  so there is nothing for it to preserve; and the two idealized programs, from memories that agree on the arguments,
  end at one result because each ends at that one function of its arguments.
-/
import proofs.«213039_g63608465654469_cont_9to1_m_885_2_alg».proof.Defs
import proofs.«213039_g63608465654469_cont_9to1_m_885_2_alg».proof.Proof.Gen.Kernel
import proofs.«213039_g63608465654469_cont_9to1_m_885_2_alg».proof.Proof.Gen.Kernel.Skeleton
import proofs.«213039_g63608465654469_cont_9to1_m_885_2_alg».proof.Proof.Gen.KernelIdeal
import proofs.«213039_g63608465654469_cont_9to1_m_885_2_alg».proof.Proof.Gen.KernelIdeal.Skeleton
import proofs.«213039_g63608465654469_cont_9to1_m_885_2_alg».proof.Proof.Gen.ReferenceIdeal
import proofs.«213039_g63608465654469_cont_9to1_m_885_2_alg».proof.Proof.Gen.Pre_input_domain
import proofs.«213039_g63608465654469_cont_9to1_m_885_2_alg».proof.Proof.Gen.ReferenceIdeal.Run
import proofs.«213039_g63608465654469_cont_9to1_m_885_2_alg».proof.Proof.Gen.ReferenceIdeal.Read
import proofs.«213039_g63608465654469_cont_9to1_m_885_2_alg».proof.Proof.Assemble
import proofs.«213039_g63608465654469_cont_9to1_m_885_2_alg».proof.Proof.KI.Body
import proofs.«213039_g63608465654469_cont_9to1_m_885_2_alg».proof.Proof.KB.Body
import Idealize.ShloMosaic.Adequacy
import Idealize.ShloMosaic.Init

noncomputable section

namespace Cert.Proof

open Idealize.ShloMosaic Idealize.SL.Sem Cert.Kernel

/-- The certificate's claim, from one tile's task at the two float instances. -/
theorem claim : Cert.Claim :=
  Cert.Proof.Assemble.claim_of
    (fun m h => Cert.Proof.KI.tileBodySpec m (Cert.Proof.KI.Xof m) h)
    (fun m h => Cert.Proof.KB.tileBodySpec m (Cert.Proof.KB.Xof m) h)

end Cert.Proof

end
